-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v475) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S32 : Shape := ⟨1, ![32]⟩
abbrev S32x32 : Shape := ⟨2, ![32, 32]⟩
abbrev S3200000 : Shape := ⟨1, ![3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32 .f32) (main_arg5 : FVec F S32x32 .f32) (main_arg6 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : FVec F S128x32 .f32) (main_arg2 : FVec F S32 .f32) (main_arg3 : FVec F S32 .f32) (main_arg4 : FVec F S32 .f32) (main_arg5 : FVec F S32x32 .f32) (main_arg6 : FVec F S32 .f32) (main_arg7 : IVec S3200000 32) (main_arg8 : IVec S3200000 32) (main_arg9 : IVec S3200000 32) (main_arg10 : IVec S3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S100000x128 : Shape := ⟨2, ![100000, 128]⟩
abbrev S128x32 : Shape := ⟨2, ![128, 32]⟩
abbrev S32 : Shape := ⟨1, ![32]⟩
abbrev S32x32 : Shape := ⟨2, ![32, 32]⟩
abbrev S3200000 : Shape := ⟨1, ![3200000]⟩
abbrev S1x32 : Shape := ⟨2, ![1, 32]⟩
abbrev S100000x32 : Shape := ⟨2, ![100000, 32]⟩
abbrev S2000x128 : Shape := ⟨2, ![2000, 128]⟩
abbrev S2000x32 : Shape := ⟨2, ![2000, 32]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S2000x1 : Shape := ⟨2, ![2000, 1]⟩
abbrev S3200000x32 : Shape := ⟨2, ![3200000, 32]⟩

abbrev nBuf : Space → Nat
  | .hbm => 345
  | .vmem => 192
  | .smem => 0
  | _ => 0

abbrev hbmTy0_0 (i : Nat) : BufTy := match i % 128 with
  | 0 => ⟨S100000x128, .f32⟩
  | 1 => ⟨S128x32, .f32⟩
  | 2 => ⟨S32, .f32⟩
  | 3 => ⟨S32, .f32⟩
  | 4 => ⟨S32, .f32⟩
  | 5 => ⟨S32x32, .f32⟩
  | 6 => ⟨S32, .f32⟩
  | 7 => ⟨S3200000, .i32⟩
  | 8 => ⟨S3200000, .i32⟩
  | 9 => ⟨S3200000, .i32⟩
  | 10 => ⟨S3200000, .i32⟩
  | 11 => ⟨S1x32, .f32⟩
  | 12 => ⟨S100000x32, .f32⟩
  | 13 => ⟨S_, .f32⟩
  | 14 => ⟨S32, .f32⟩
  | 15 => ⟨S_, .f32⟩
  | 16 => ⟨S32, .f32⟩
  | 17 => ⟨S32, .f32⟩
  | 18 => ⟨S_, .i32⟩
  | 19 => ⟨S_, .f32⟩
  | 20 => ⟨S32, .f32⟩
  | 21 => ⟨S1x32, .f32⟩
  | 22 => ⟨S_, .f32⟩
  | 23 => ⟨S1x32, .f32⟩
  | 24 => ⟨S1x32, .f32⟩
  | 25 => ⟨S100000x32, .f32⟩
  | 26 => ⟨S100000x32, .f32⟩
  | 27 => ⟨S100000x32, .f32⟩
  | 28 => ⟨S_, .f32⟩
  | 29 => ⟨S_, .f32⟩
  | 30 => ⟨S_, .f32⟩
  | 31 => ⟨S_, .f32⟩
  | 32 => ⟨S32, .f32⟩
  | 33 => ⟨S32, .f32⟩
  | 34 => ⟨S32, .f32⟩
  | 35 => ⟨S_, .f32⟩
  | 36 => ⟨S_, .i1⟩
  | 37 => ⟨S_, .f32⟩
  | 38 => ⟨S_, .f32⟩
  | 39 => ⟨S32, .f32⟩
  | 40 => ⟨S32, .f32⟩
  | 41 => ⟨S1x32, .f32⟩
  | 42 => ⟨S1x32, .f32⟩
  | 43 => ⟨S1x32, .f32⟩
  | 44 => ⟨S1x32, .f32⟩
  | 45 => ⟨S1x32, .f32⟩
  | 46 => ⟨S100000x32, .f32⟩
  | 47 => ⟨S_, .f32⟩
  | 48 => ⟨S3200000, .f32⟩
  | 49 => ⟨S_, .f32⟩
  | 50 => ⟨S100000, .f32⟩
  | 51 => ⟨S3200000x1, .i32⟩
  | 52 => ⟨S100000, .f32⟩
  | 53 => ⟨S_, .f32⟩
  | 54 => ⟨S100000, .f32⟩
  | 55 => ⟨S3200000x1, .i32⟩
  | 56 => ⟨S100000, .f32⟩
  | 57 => ⟨S_, .f32⟩
  | 58 => ⟨S100000, .f32⟩
  | 59 => ⟨S3200000x1, .i32⟩
  | 60 => ⟨S100000, .f32⟩
  | 61 => ⟨S_, .f32⟩
  | 62 => ⟨S100000, .f32⟩
  | 63 => ⟨S3200000x1, .i32⟩
  | 64 => ⟨S100000, .f32⟩
  | 65 => ⟨S_, .f32⟩
  | 66 => ⟨S100000, .f32⟩
  | 67 => ⟨S100000, .f32⟩
  | 68 => ⟨S100000, .f32⟩
  | 69 => ⟨S_, .f32⟩
  | 70 => ⟨S100000, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000, .f32⟩
  | 81 => ⟨S100000x1, .f32⟩
  | 82 => ⟨S100000x1, .f32⟩
  | 83 => ⟨S100000x32, .f32⟩
  | 84 => ⟨S100000x32, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000x32, .f32⟩
  | 94 => ⟨S_, .f32⟩
  | 95 => ⟨S100000x32, .f32⟩
  | 96 => ⟨S3200000x1, .i32⟩
  | 97 => ⟨S100000x32, .f32⟩
  | 98 => ⟨S_, .i32⟩
  | 99 => ⟨S3200000, .i32⟩
  | 100 => ⟨S3200000, .i1⟩
  | 101 => ⟨S_, .i32⟩
  | 102 => ⟨S3200000, .i32⟩
  | 103 => ⟨S3200000, .i32⟩
  | 104 => ⟨S3200000, .i32⟩
  | 105 => ⟨S3200000x1, .i32⟩
  | 106 => ⟨S3200000x32, .f32⟩
  | 107 => ⟨S_, .f32⟩
  | 108 => ⟨S100000x32, .f32⟩
  | 109 => ⟨S3200000x1, .i32⟩
  | 110 => ⟨S100000x32, .f32⟩
  | 111 => ⟨S100000x1, .f32⟩
  | 112 => ⟨S100000x1, .f32⟩
  | 113 => ⟨S100000x32, .f32⟩
  | 114 => ⟨S100000x1, .f32⟩
  | 115 => ⟨S100000x1, .f32⟩
  | 116 => ⟨S100000x32, .f32⟩
  | 117 => ⟨S100000x32, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000x32, .f32⟩
  | 127 => ⟨S_, .f32⟩
  | _ => ⟨S100000x128, .f32⟩

abbrev hbmTy0_1 (i : Nat) : BufTy := match i % 128 with
  | 0 => ⟨S100000x32, .f32⟩
  | 1 => ⟨S3200000x1, .i32⟩
  | 2 => ⟨S100000x32, .f32⟩
  | 3 => ⟨S_, .i32⟩
  | 4 => ⟨S3200000, .i32⟩
  | 5 => ⟨S3200000, .i1⟩
  | 6 => ⟨S_, .i32⟩
  | 7 => ⟨S3200000, .i32⟩
  | 8 => ⟨S3200000, .i32⟩
  | 9 => ⟨S3200000, .i32⟩
  | 10 => ⟨S3200000x1, .i32⟩
  | 11 => ⟨S3200000x32, .f32⟩
  | 12 => ⟨S_, .f32⟩
  | 13 => ⟨S100000x32, .f32⟩
  | 14 => ⟨S3200000x1, .i32⟩
  | 15 => ⟨S100000x32, .f32⟩
  | 16 => ⟨S100000x1, .f32⟩
  | 17 => ⟨S100000x1, .f32⟩
  | 18 => ⟨S100000x32, .f32⟩
  | 19 => ⟨S100000x1, .f32⟩
  | 20 => ⟨S100000x1, .f32⟩
  | 21 => ⟨S100000x32, .f32⟩
  | 22 => ⟨S100000x32, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x32, .f32⟩
  | 32 => ⟨S_, .f32⟩
  | 33 => ⟨S100000x32, .f32⟩
  | 34 => ⟨S3200000x1, .i32⟩
  | 35 => ⟨S100000x32, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S100000x1, .f32⟩
  | 50 => ⟨S100000x1, .f32⟩
  | 51 => ⟨S100000x32, .f32⟩
  | 52 => ⟨S100000x1, .f32⟩
  | 53 => ⟨S100000x1, .f32⟩
  | 54 => ⟨S100000x32, .f32⟩
  | 55 => ⟨S100000x32, .f32⟩
  | 56 => ⟨S_, .i32⟩
  | 57 => ⟨S3200000, .i32⟩
  | 58 => ⟨S3200000, .i1⟩
  | 59 => ⟨S_, .i32⟩
  | 60 => ⟨S3200000, .i32⟩
  | 61 => ⟨S3200000, .i32⟩
  | 62 => ⟨S3200000, .i32⟩
  | 63 => ⟨S3200000x1, .i32⟩
  | 64 => ⟨S3200000x32, .f32⟩
  | 65 => ⟨S_, .f32⟩
  | 66 => ⟨S100000x32, .f32⟩
  | 67 => ⟨S3200000x1, .i32⟩
  | 68 => ⟨S100000x32, .f32⟩
  | 69 => ⟨S_, .i32⟩
  | 70 => ⟨S3200000, .i32⟩
  | 71 => ⟨S3200000, .i1⟩
  | 72 => ⟨S_, .i32⟩
  | 73 => ⟨S3200000, .i32⟩
  | 74 => ⟨S3200000, .i32⟩
  | 75 => ⟨S3200000, .i32⟩
  | 76 => ⟨S3200000x1, .i32⟩
  | 77 => ⟨S3200000x32, .f32⟩
  | 78 => ⟨S_, .f32⟩
  | 79 => ⟨S100000x32, .f32⟩
  | 80 => ⟨S3200000x1, .i32⟩
  | 81 => ⟨S100000x32, .f32⟩
  | 82 => ⟨S100000x1, .f32⟩
  | 83 => ⟨S100000x1, .f32⟩
  | 84 => ⟨S100000x32, .f32⟩
  | 85 => ⟨S100000x1, .f32⟩
  | 86 => ⟨S100000x1, .f32⟩
  | 87 => ⟨S100000x32, .f32⟩
  | 88 => ⟨S100000x32, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x32, .f32⟩
  | 98 => ⟨S_, .f32⟩
  | 99 => ⟨S100000x32, .f32⟩
  | 100 => ⟨S3200000x1, .i32⟩
  | 101 => ⟨S100000x32, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S100000x1, .f32⟩
  | 116 => ⟨S100000x1, .f32⟩
  | 117 => ⟨S100000x32, .f32⟩
  | 118 => ⟨S100000x1, .f32⟩
  | 119 => ⟨S100000x1, .f32⟩
  | 120 => ⟨S100000x32, .f32⟩
  | 121 => ⟨S100000x32, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x128, .f32⟩

abbrev hbmTy0_2 (i : Nat) : BufTy := match i % 128 with
  | 0 => ⟨S3200000, .i32⟩
  | 1 => ⟨S3200000x1, .i32⟩
  | 2 => ⟨S3200000x32, .f32⟩
  | 3 => ⟨S_, .f32⟩
  | 4 => ⟨S100000x32, .f32⟩
  | 5 => ⟨S3200000x1, .i32⟩
  | 6 => ⟨S100000x32, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000x32, .f32⟩
  | 16 => ⟨S_, .f32⟩
  | 17 => ⟨S100000x32, .f32⟩
  | 18 => ⟨S3200000x1, .i32⟩
  | 19 => ⟨S100000x32, .f32⟩
  | 20 => ⟨S100000x1, .f32⟩
  | 21 => ⟨S100000x1, .f32⟩
  | 22 => ⟨S100000x32, .f32⟩
  | 23 => ⟨S100000x1, .f32⟩
  | 24 => ⟨S100000x1, .f32⟩
  | 25 => ⟨S100000x32, .f32⟩
  | 26 => ⟨S100000x32, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x32, .f32⟩
  | 36 => ⟨S_, .f32⟩
  | 37 => ⟨S100000x32, .f32⟩
  | 38 => ⟨S3200000x1, .i32⟩
  | 39 => ⟨S100000x32, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x32, .f32⟩
  | 49 => ⟨S_, .f32⟩
  | 50 => ⟨S100000x32, .f32⟩
  | 51 => ⟨S3200000x1, .i32⟩
  | 52 => ⟨S100000x32, .f32⟩
  | 53 => ⟨S100000x1, .f32⟩
  | 54 => ⟨S100000x1, .f32⟩
  | 55 => ⟨S100000x32, .f32⟩
  | 56 => ⟨S100000x1, .f32⟩
  | 57 => ⟨S100000x1, .f32⟩
  | 58 => ⟨S100000x32, .f32⟩
  | 59 => ⟨S100000x32, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x32, .f32⟩
  | 69 => ⟨S_, .f32⟩
  | 70 => ⟨S100000x32, .f32⟩
  | 71 => ⟨S3200000x1, .i32⟩
  | 72 => ⟨S100000x32, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .f32⟩
  | 82 => ⟨S_, .f32⟩
  | 83 => ⟨S100000x32, .f32⟩
  | 84 => ⟨S3200000x1, .i32⟩
  | 85 => ⟨S100000x32, .f32⟩
  | 86 => ⟨S100000x1, .f32⟩
  | 87 => ⟨S100000x1, .f32⟩
  | 88 => ⟨S100000x32, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev vmemTy0_0 (i : Nat) : BufTy := match i % 128 with
  | 0 => ⟨S2000x128, .f32⟩
  | 1 => ⟨S2000x128, .f32⟩
  | 2 => ⟨S128x32, .f32⟩
  | 3 => ⟨S1x32, .f32⟩
  | 4 => ⟨S2000x32, .f32⟩
  | 5 => ⟨S2000x32, .f32⟩
  | 6 => ⟨S2000x32, .f32⟩
  | 7 => ⟨S2000x32, .f32⟩
  | 8 => ⟨S1x32, .f32⟩
  | 9 => ⟨S1x32, .f32⟩
  | 10 => ⟨S1x32, .f32⟩
  | 11 => ⟨S1x32, .f32⟩
  | 12 => ⟨S32x32, .f32⟩
  | 13 => ⟨S1x32, .f32⟩
  | 14 => ⟨S2000x32, .f32⟩
  | 15 => ⟨S2000x32, .f32⟩
  | 16 => ⟨S2000x32, .f32⟩
  | 17 => ⟨S2000x32, .f32⟩
  | 18 => ⟨S2000x1, .f32⟩
  | 19 => ⟨S2000x1, .f32⟩
  | 20 => ⟨S2000x1, .f32⟩
  | 21 => ⟨S2000x1, .f32⟩
  | 22 => ⟨S2000x32, .f32⟩
  | 23 => ⟨S2000x32, .f32⟩
  | 24 => ⟨S2000x32, .f32⟩
  | 25 => ⟨S2000x32, .f32⟩
  | 26 => ⟨S2000x32, .f32⟩
  | 27 => ⟨S2000x32, .f32⟩
  | 28 => ⟨S2000x32, .f32⟩
  | 29 => ⟨S2000x32, .f32⟩
  | 30 => ⟨S2000x1, .f32⟩
  | 31 => ⟨S2000x1, .f32⟩
  | 32 => ⟨S2000x1, .f32⟩
  | 33 => ⟨S2000x1, .f32⟩
  | 34 => ⟨S2000x32, .f32⟩
  | 35 => ⟨S2000x32, .f32⟩
  | 36 => ⟨S2000x32, .f32⟩
  | 37 => ⟨S2000x32, .f32⟩
  | 38 => ⟨S2000x32, .f32⟩
  | 39 => ⟨S2000x32, .f32⟩
  | 40 => ⟨S2000x1, .f32⟩
  | 41 => ⟨S2000x1, .f32⟩
  | 42 => ⟨S2000x1, .f32⟩
  | 43 => ⟨S2000x1, .f32⟩
  | 44 => ⟨S2000x32, .f32⟩
  | 45 => ⟨S2000x32, .f32⟩
  | 46 => ⟨S2000x32, .f32⟩
  | 47 => ⟨S2000x32, .f32⟩
  | 48 => ⟨S2000x32, .f32⟩
  | 49 => ⟨S2000x32, .f32⟩
  | 50 => ⟨S2000x32, .f32⟩
  | 51 => ⟨S2000x32, .f32⟩
  | 52 => ⟨S2000x1, .f32⟩
  | 53 => ⟨S2000x1, .f32⟩
  | 54 => ⟨S2000x1, .f32⟩
  | 55 => ⟨S2000x1, .f32⟩
  | 56 => ⟨S2000x32, .f32⟩
  | 57 => ⟨S2000x32, .f32⟩
  | 58 => ⟨S2000x32, .f32⟩
  | 59 => ⟨S2000x32, .f32⟩
  | 60 => ⟨S2000x32, .f32⟩
  | 61 => ⟨S2000x32, .f32⟩
  | 62 => ⟨S2000x1, .f32⟩
  | 63 => ⟨S2000x1, .f32⟩
  | 64 => ⟨S2000x1, .f32⟩
  | 65 => ⟨S2000x1, .f32⟩
  | 66 => ⟨S2000x32, .f32⟩
  | 67 => ⟨S2000x32, .f32⟩
  | 68 => ⟨S2000x32, .f32⟩
  | 69 => ⟨S2000x32, .f32⟩
  | 70 => ⟨S2000x32, .f32⟩
  | 71 => ⟨S2000x32, .f32⟩
  | 72 => ⟨S2000x32, .f32⟩
  | 73 => ⟨S2000x32, .f32⟩
  | 74 => ⟨S2000x1, .f32⟩
  | 75 => ⟨S2000x1, .f32⟩
  | 76 => ⟨S2000x1, .f32⟩
  | 77 => ⟨S2000x1, .f32⟩
  | 78 => ⟨S2000x32, .f32⟩
  | 79 => ⟨S2000x32, .f32⟩
  | 80 => ⟨S2000x32, .f32⟩
  | 81 => ⟨S2000x32, .f32⟩
  | 82 => ⟨S2000x32, .f32⟩
  | 83 => ⟨S2000x32, .f32⟩
  | 84 => ⟨S2000x1, .f32⟩
  | 85 => ⟨S2000x1, .f32⟩
  | 86 => ⟨S2000x1, .f32⟩
  | 87 => ⟨S2000x1, .f32⟩
  | 88 => ⟨S2000x32, .f32⟩
  | 89 => ⟨S2000x32, .f32⟩
  | 90 => ⟨S2000x32, .f32⟩
  | 91 => ⟨S2000x32, .f32⟩
  | 92 => ⟨S2000x32, .f32⟩
  | 93 => ⟨S2000x32, .f32⟩
  | 94 => ⟨S2000x32, .f32⟩
  | 95 => ⟨S2000x32, .f32⟩
  | 96 => ⟨S2000x1, .f32⟩
  | 97 => ⟨S2000x1, .f32⟩
  | 98 => ⟨S2000x1, .f32⟩
  | 99 => ⟨S2000x1, .f32⟩
  | 100 => ⟨S2000x32, .f32⟩
  | 101 => ⟨S2000x32, .f32⟩
  | 102 => ⟨S2000x32, .f32⟩
  | 103 => ⟨S2000x32, .f32⟩
  | 104 => ⟨S2000x32, .f32⟩
  | 105 => ⟨S2000x32, .f32⟩
  | 106 => ⟨S2000x1, .f32⟩
  | 107 => ⟨S2000x1, .f32⟩
  | 108 => ⟨S2000x1, .f32⟩
  | 109 => ⟨S2000x1, .f32⟩
  | 110 => ⟨S2000x32, .f32⟩
  | 111 => ⟨S2000x32, .f32⟩
  | 112 => ⟨S2000x32, .f32⟩
  | 113 => ⟨S2000x32, .f32⟩
  | 114 => ⟨S2000x32, .f32⟩
  | 115 => ⟨S2000x32, .f32⟩
  | 116 => ⟨S2000x32, .f32⟩
  | 117 => ⟨S2000x32, .f32⟩
  | 118 => ⟨S2000x1, .f32⟩
  | 119 => ⟨S2000x1, .f32⟩
  | 120 => ⟨S2000x1, .f32⟩
  | 121 => ⟨S2000x1, .f32⟩
  | 122 => ⟨S2000x32, .f32⟩
  | 123 => ⟨S2000x32, .f32⟩
  | 124 => ⟨S2000x32, .f32⟩
  | 125 => ⟨S2000x32, .f32⟩
  | 126 => ⟨S2000x32, .f32⟩
  | 127 => ⟨S2000x32, .f32⟩
  | _ => ⟨S100000x128, .f32⟩

abbrev vmemTy0_1 (i : Nat) : BufTy := match i % 128 with
  | 0 => ⟨S2000x1, .f32⟩
  | 1 => ⟨S2000x1, .f32⟩
  | 2 => ⟨S2000x1, .f32⟩
  | 3 => ⟨S2000x1, .f32⟩
  | 4 => ⟨S2000x32, .f32⟩
  | 5 => ⟨S2000x32, .f32⟩
  | 6 => ⟨S2000x32, .f32⟩
  | 7 => ⟨S2000x32, .f32⟩
  | 8 => ⟨S2000x32, .f32⟩
  | 9 => ⟨S2000x32, .f32⟩
  | 10 => ⟨S2000x32, .f32⟩
  | 11 => ⟨S2000x32, .f32⟩
  | 12 => ⟨S2000x1, .f32⟩
  | 13 => ⟨S2000x1, .f32⟩
  | 14 => ⟨S2000x1, .f32⟩
  | 15 => ⟨S2000x1, .f32⟩
  | 16 => ⟨S2000x32, .f32⟩
  | 17 => ⟨S2000x32, .f32⟩
  | 18 => ⟨S2000x32, .f32⟩
  | 19 => ⟨S2000x32, .f32⟩
  | 20 => ⟨S2000x32, .f32⟩
  | 21 => ⟨S2000x32, .f32⟩
  | 22 => ⟨S2000x1, .f32⟩
  | 23 => ⟨S2000x1, .f32⟩
  | 24 => ⟨S2000x1, .f32⟩
  | 25 => ⟨S2000x1, .f32⟩
  | 26 => ⟨S2000x32, .f32⟩
  | 27 => ⟨S2000x32, .f32⟩
  | 28 => ⟨S2000x32, .f32⟩
  | 29 => ⟨S2000x32, .f32⟩
  | 30 => ⟨S2000x32, .f32⟩
  | 31 => ⟨S2000x32, .f32⟩
  | 32 => ⟨S2000x32, .f32⟩
  | 33 => ⟨S2000x32, .f32⟩
  | 34 => ⟨S2000x1, .f32⟩
  | 35 => ⟨S2000x1, .f32⟩
  | 36 => ⟨S2000x1, .f32⟩
  | 37 => ⟨S2000x1, .f32⟩
  | 38 => ⟨S2000x32, .f32⟩
  | 39 => ⟨S2000x32, .f32⟩
  | 40 => ⟨S2000x32, .f32⟩
  | 41 => ⟨S2000x32, .f32⟩
  | 42 => ⟨S2000x32, .f32⟩
  | 43 => ⟨S2000x32, .f32⟩
  | 44 => ⟨S2000x1, .f32⟩
  | 45 => ⟨S2000x1, .f32⟩
  | 46 => ⟨S2000x1, .f32⟩
  | 47 => ⟨S2000x1, .f32⟩
  | 48 => ⟨S2000x32, .f32⟩
  | 49 => ⟨S2000x32, .f32⟩
  | 50 => ⟨S2000x32, .f32⟩
  | 51 => ⟨S2000x32, .f32⟩
  | 52 => ⟨S2000x32, .f32⟩
  | 53 => ⟨S2000x32, .f32⟩
  | 54 => ⟨S2000x32, .f32⟩
  | 55 => ⟨S2000x32, .f32⟩
  | 56 => ⟨S2000x1, .f32⟩
  | 57 => ⟨S2000x1, .f32⟩
  | 58 => ⟨S2000x1, .f32⟩
  | 59 => ⟨S2000x1, .f32⟩
  | 60 => ⟨S2000x32, .f32⟩
  | 61 => ⟨S2000x32, .f32⟩
  | 62 => ⟨S2000x32, .f32⟩
  | 63 => ⟨S2000x32, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 192 → Bool
  | ⟨i, _⟩ => dmaSemScopedAt i

abbrev sig : RefSig :=
  ofTc nBuf bufTy 0 192 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_1 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_4 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_5 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_6 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_7 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_8 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_9 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39_0 : Ref sig .tc := ⟨.hbm, 83, rfl⟩
abbrev main_v39_1 : Ref sig .tc := ⟨.hbm, 84, rfl⟩
abbrev main_c_10 : Ref sig .tc := ⟨.hbm, 85, rfl⟩
abbrev main_v40 : Ref sig .tc := ⟨.hbm, 86, rfl⟩
abbrev main_v41 : Ref sig .tc := ⟨.hbm, 87, rfl⟩
abbrev main_c_11 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_12 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_13 : Ref sig .tc := ⟨.hbm, 98, rfl⟩
abbrev main_v50 : Ref sig .tc := ⟨.hbm, 99, rfl⟩
abbrev main_v51 : Ref sig .tc := ⟨.hbm, 100, rfl⟩
abbrev main_c_14 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_15 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65_0 : Ref sig .tc := ⟨.hbm, 116, rfl⟩
abbrev main_v65_1 : Ref sig .tc := ⟨.hbm, 117, rfl⟩
abbrev main_c_16 : Ref sig .tc := ⟨.hbm, 118, rfl⟩
abbrev main_v66 : Ref sig .tc := ⟨.hbm, 119, rfl⟩
abbrev main_v67 : Ref sig .tc := ⟨.hbm, 120, rfl⟩
abbrev main_c_17 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_18 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_19 : Ref sig .tc := ⟨.hbm, 131, rfl⟩
abbrev main_v76 : Ref sig .tc := ⟨.hbm, 132, rfl⟩
abbrev main_v77 : Ref sig .tc := ⟨.hbm, 133, rfl⟩
abbrev main_c_20 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_cst_21 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91_0 : Ref sig .tc := ⟨.hbm, 149, rfl⟩
abbrev main_v91_1 : Ref sig .tc := ⟨.hbm, 150, rfl⟩
abbrev main_c_22 : Ref sig .tc := ⟨.hbm, 151, rfl⟩
abbrev main_v92 : Ref sig .tc := ⟨.hbm, 152, rfl⟩
abbrev main_v93 : Ref sig .tc := ⟨.hbm, 153, rfl⟩
abbrev main_c_23 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_24 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_c_25 : Ref sig .tc := ⟨.hbm, 164, rfl⟩
abbrev main_v102 : Ref sig .tc := ⟨.hbm, 165, rfl⟩
abbrev main_v103 : Ref sig .tc := ⟨.hbm, 166, rfl⟩
abbrev main_c_26 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_27 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117_0 : Ref sig .tc := ⟨.hbm, 182, rfl⟩
abbrev main_v117_1 : Ref sig .tc := ⟨.hbm, 183, rfl⟩
abbrev main_c_28 : Ref sig .tc := ⟨.hbm, 184, rfl⟩
abbrev main_v118 : Ref sig .tc := ⟨.hbm, 185, rfl⟩
abbrev main_v119 : Ref sig .tc := ⟨.hbm, 186, rfl⟩
abbrev main_c_29 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_30 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_c_31 : Ref sig .tc := ⟨.hbm, 197, rfl⟩
abbrev main_v128 : Ref sig .tc := ⟨.hbm, 198, rfl⟩
abbrev main_v129 : Ref sig .tc := ⟨.hbm, 199, rfl⟩
abbrev main_c_32 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_cst_33 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143_0 : Ref sig .tc := ⟨.hbm, 215, rfl⟩
abbrev main_v143_1 : Ref sig .tc := ⟨.hbm, 216, rfl⟩
abbrev main_c_34 : Ref sig .tc := ⟨.hbm, 217, rfl⟩
abbrev main_v144 : Ref sig .tc := ⟨.hbm, 218, rfl⟩
abbrev main_v145 : Ref sig .tc := ⟨.hbm, 219, rfl⟩
abbrev main_c_35 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_36 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_c_37 : Ref sig .tc := ⟨.hbm, 230, rfl⟩
abbrev main_v154 : Ref sig .tc := ⟨.hbm, 231, rfl⟩
abbrev main_v155 : Ref sig .tc := ⟨.hbm, 232, rfl⟩
abbrev main_c_38 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_39 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169_0 : Ref sig .tc := ⟨.hbm, 248, rfl⟩
abbrev main_v169_1 : Ref sig .tc := ⟨.hbm, 249, rfl⟩
abbrev main_c_40 : Ref sig .tc := ⟨.hbm, 250, rfl⟩
abbrev main_v170 : Ref sig .tc := ⟨.hbm, 251, rfl⟩
abbrev main_v171 : Ref sig .tc := ⟨.hbm, 252, rfl⟩
abbrev main_c_41 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_42 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_c_43 : Ref sig .tc := ⟨.hbm, 263, rfl⟩
abbrev main_v180 : Ref sig .tc := ⟨.hbm, 264, rfl⟩
abbrev main_v181 : Ref sig .tc := ⟨.hbm, 265, rfl⟩
abbrev main_c_44 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_45 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195_0 : Ref sig .tc := ⟨.hbm, 281, rfl⟩
abbrev main_v195_1 : Ref sig .tc := ⟨.hbm, 282, rfl⟩
abbrev main_c_46 : Ref sig .tc := ⟨.hbm, 283, rfl⟩
abbrev main_v196 : Ref sig .tc := ⟨.hbm, 284, rfl⟩
abbrev main_v197 : Ref sig .tc := ⟨.hbm, 285, rfl⟩
abbrev main_c_47 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_cst_48 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_c_49 : Ref sig .tc := ⟨.hbm, 296, rfl⟩
abbrev main_v206 : Ref sig .tc := ⟨.hbm, 297, rfl⟩
abbrev main_v207 : Ref sig .tc := ⟨.hbm, 298, rfl⟩
abbrev main_c_50 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_cst_51 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221_0 : Ref sig .tc := ⟨.hbm, 314, rfl⟩
abbrev main_v221_1 : Ref sig .tc := ⟨.hbm, 315, rfl⟩
abbrev main_c_52 : Ref sig .tc := ⟨.hbm, 316, rfl⟩
abbrev main_v222 : Ref sig .tc := ⟨.hbm, 317, rfl⟩
abbrev main_v223 : Ref sig .tc := ⟨.hbm, 318, rfl⟩
abbrev main_c_53 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_cst_54 : Ref sig .tc := ⟨.hbm, 325, rfl⟩
abbrev main_v229 : Ref sig .tc := ⟨.hbm, 326, rfl⟩
abbrev main_v230 : Ref sig .tc := ⟨.hbm, 327, rfl⟩
abbrev main_v231 : Ref sig .tc := ⟨.hbm, 328, rfl⟩
abbrev main_c_55 : Ref sig .tc := ⟨.hbm, 329, rfl⟩
abbrev main_v232 : Ref sig .tc := ⟨.hbm, 330, rfl⟩
abbrev main_v233 : Ref sig .tc := ⟨.hbm, 331, rfl⟩
abbrev main_c_56 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_cst_57 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_v243 : Ref sig .tc := ⟨.hbm, 343, rfl⟩
abbrev main_v244 : Ref sig .tc := ⟨.hbm, 344, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg4_1 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc4_stg4_0 : Ref sig .tc := ⟨.vmem, 46, rfl⟩
abbrev cc4_stg4_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg3_1 : Ref sig .tc := ⟨.vmem, 55, rfl⟩
abbrev cc5_stg4_0 : Ref sig .tc := ⟨.vmem, 56, rfl⟩
abbrev cc5_stg4_1 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg3_1 : Ref sig .tc := ⟨.vmem, 77, rfl⟩
abbrev cc7_stg4_0 : Ref sig .tc := ⟨.vmem, 78, rfl⟩
abbrev cc7_stg4_1 : Ref sig .tc := ⟨.vmem, 79, rfl⟩
abbrev cc7_stg5_0 : Ref sig .tc := ⟨.vmem, 80, rfl⟩
abbrev cc7_stg5_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc8_stg2_1 : Ref sig .tc := ⟨.vmem, 87, rfl⟩
abbrev cc8_stg3_0 : Ref sig .tc := ⟨.vmem, 88, rfl⟩
abbrev cc8_stg3_1 : Ref sig .tc := ⟨.vmem, 89, rfl⟩
abbrev cc8_stg4_0 : Ref sig .tc := ⟨.vmem, 90, rfl⟩
abbrev cc8_stg4_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg3_1 : Ref sig .tc := ⟨.vmem, 99, rfl⟩
abbrev cc9_stg4_0 : Ref sig .tc := ⟨.vmem, 100, rfl⟩
abbrev cc9_stg4_1 : Ref sig .tc := ⟨.vmem, 101, rfl⟩
abbrev cc9_stg5_0 : Ref sig .tc := ⟨.vmem, 102, rfl⟩
abbrev cc9_stg5_1 : Ref sig .tc := ⟨.vmem, 103, rfl⟩
abbrev cc10_stg0_0 : Ref sig .tc := ⟨.vmem, 104, rfl⟩
abbrev cc10_stg0_1 : Ref sig .tc := ⟨.vmem, 105, rfl⟩
abbrev cc10_stg1_0 : Ref sig .tc := ⟨.vmem, 106, rfl⟩
abbrev cc10_stg1_1 : Ref sig .tc := ⟨.vmem, 107, rfl⟩
abbrev cc10_stg2_0 : Ref sig .tc := ⟨.vmem, 108, rfl⟩
abbrev cc10_stg2_1 : Ref sig .tc := ⟨.vmem, 109, rfl⟩
abbrev cc10_stg3_0 : Ref sig .tc := ⟨.vmem, 110, rfl⟩
abbrev cc10_stg3_1 : Ref sig .tc := ⟨.vmem, 111, rfl⟩
abbrev cc10_stg4_0 : Ref sig .tc := ⟨.vmem, 112, rfl⟩
abbrev cc10_stg4_1 : Ref sig .tc := ⟨.vmem, 113, rfl⟩
abbrev cc11_stg0_0 : Ref sig .tc := ⟨.vmem, 114, rfl⟩
abbrev cc11_stg0_1 : Ref sig .tc := ⟨.vmem, 115, rfl⟩
abbrev cc11_stg1_0 : Ref sig .tc := ⟨.vmem, 116, rfl⟩
abbrev cc11_stg1_1 : Ref sig .tc := ⟨.vmem, 117, rfl⟩
abbrev cc11_stg2_0 : Ref sig .tc := ⟨.vmem, 118, rfl⟩
abbrev cc11_stg2_1 : Ref sig .tc := ⟨.vmem, 119, rfl⟩
abbrev cc11_stg3_0 : Ref sig .tc := ⟨.vmem, 120, rfl⟩
abbrev cc11_stg3_1 : Ref sig .tc := ⟨.vmem, 121, rfl⟩
abbrev cc11_stg4_0 : Ref sig .tc := ⟨.vmem, 122, rfl⟩
abbrev cc11_stg4_1 : Ref sig .tc := ⟨.vmem, 123, rfl⟩
abbrev cc11_stg5_0 : Ref sig .tc := ⟨.vmem, 124, rfl⟩
abbrev cc11_stg5_1 : Ref sig .tc := ⟨.vmem, 125, rfl⟩
abbrev cc12_stg0_0 : Ref sig .tc := ⟨.vmem, 126, rfl⟩
abbrev cc12_stg0_1 : Ref sig .tc := ⟨.vmem, 127, rfl⟩
abbrev cc12_stg1_0 : Ref sig .tc := ⟨.vmem, 128, rfl⟩
abbrev cc12_stg1_1 : Ref sig .tc := ⟨.vmem, 129, rfl⟩
abbrev cc12_stg2_0 : Ref sig .tc := ⟨.vmem, 130, rfl⟩
abbrev cc12_stg2_1 : Ref sig .tc := ⟨.vmem, 131, rfl⟩
abbrev cc12_stg3_0 : Ref sig .tc := ⟨.vmem, 132, rfl⟩
abbrev cc12_stg3_1 : Ref sig .tc := ⟨.vmem, 133, rfl⟩
abbrev cc12_stg4_0 : Ref sig .tc := ⟨.vmem, 134, rfl⟩
abbrev cc12_stg4_1 : Ref sig .tc := ⟨.vmem, 135, rfl⟩
abbrev cc13_stg0_0 : Ref sig .tc := ⟨.vmem, 136, rfl⟩
abbrev cc13_stg0_1 : Ref sig .tc := ⟨.vmem, 137, rfl⟩
abbrev cc13_stg1_0 : Ref sig .tc := ⟨.vmem, 138, rfl⟩
abbrev cc13_stg1_1 : Ref sig .tc := ⟨.vmem, 139, rfl⟩
abbrev cc13_stg2_0 : Ref sig .tc := ⟨.vmem, 140, rfl⟩
abbrev cc13_stg2_1 : Ref sig .tc := ⟨.vmem, 141, rfl⟩
abbrev cc13_stg3_0 : Ref sig .tc := ⟨.vmem, 142, rfl⟩
abbrev cc13_stg3_1 : Ref sig .tc := ⟨.vmem, 143, rfl⟩
abbrev cc13_stg4_0 : Ref sig .tc := ⟨.vmem, 144, rfl⟩
abbrev cc13_stg4_1 : Ref sig .tc := ⟨.vmem, 145, rfl⟩
abbrev cc13_stg5_0 : Ref sig .tc := ⟨.vmem, 146, rfl⟩
abbrev cc13_stg5_1 : Ref sig .tc := ⟨.vmem, 147, rfl⟩
abbrev cc14_stg0_0 : Ref sig .tc := ⟨.vmem, 148, rfl⟩
abbrev cc14_stg0_1 : Ref sig .tc := ⟨.vmem, 149, rfl⟩
abbrev cc14_stg1_0 : Ref sig .tc := ⟨.vmem, 150, rfl⟩
abbrev cc14_stg1_1 : Ref sig .tc := ⟨.vmem, 151, rfl⟩
abbrev cc14_stg2_0 : Ref sig .tc := ⟨.vmem, 152, rfl⟩
abbrev cc14_stg2_1 : Ref sig .tc := ⟨.vmem, 153, rfl⟩
abbrev cc14_stg3_0 : Ref sig .tc := ⟨.vmem, 154, rfl⟩
abbrev cc14_stg3_1 : Ref sig .tc := ⟨.vmem, 155, rfl⟩
abbrev cc14_stg4_0 : Ref sig .tc := ⟨.vmem, 156, rfl⟩
abbrev cc14_stg4_1 : Ref sig .tc := ⟨.vmem, 157, rfl⟩
abbrev cc15_stg0_0 : Ref sig .tc := ⟨.vmem, 158, rfl⟩
abbrev cc15_stg0_1 : Ref sig .tc := ⟨.vmem, 159, rfl⟩
abbrev cc15_stg1_0 : Ref sig .tc := ⟨.vmem, 160, rfl⟩
abbrev cc15_stg1_1 : Ref sig .tc := ⟨.vmem, 161, rfl⟩
abbrev cc15_stg2_0 : Ref sig .tc := ⟨.vmem, 162, rfl⟩
abbrev cc15_stg2_1 : Ref sig .tc := ⟨.vmem, 163, rfl⟩
abbrev cc15_stg3_0 : Ref sig .tc := ⟨.vmem, 164, rfl⟩
abbrev cc15_stg3_1 : Ref sig .tc := ⟨.vmem, 165, rfl⟩
abbrev cc15_stg4_0 : Ref sig .tc := ⟨.vmem, 166, rfl⟩
abbrev cc15_stg4_1 : Ref sig .tc := ⟨.vmem, 167, rfl⟩
abbrev cc15_stg5_0 : Ref sig .tc := ⟨.vmem, 168, rfl⟩
abbrev cc15_stg5_1 : Ref sig .tc := ⟨.vmem, 169, rfl⟩
abbrev cc16_stg0_0 : Ref sig .tc := ⟨.vmem, 170, rfl⟩
abbrev cc16_stg0_1 : Ref sig .tc := ⟨.vmem, 171, rfl⟩
abbrev cc16_stg1_0 : Ref sig .tc := ⟨.vmem, 172, rfl⟩
abbrev cc16_stg1_1 : Ref sig .tc := ⟨.vmem, 173, rfl⟩
abbrev cc16_stg2_0 : Ref sig .tc := ⟨.vmem, 174, rfl⟩
abbrev cc16_stg2_1 : Ref sig .tc := ⟨.vmem, 175, rfl⟩
abbrev cc16_stg3_0 : Ref sig .tc := ⟨.vmem, 176, rfl⟩
abbrev cc16_stg3_1 : Ref sig .tc := ⟨.vmem, 177, rfl⟩
abbrev cc16_stg4_0 : Ref sig .tc := ⟨.vmem, 178, rfl⟩
abbrev cc16_stg4_1 : Ref sig .tc := ⟨.vmem, 179, rfl⟩
abbrev cc17_stg0_0 : Ref sig .tc := ⟨.vmem, 180, rfl⟩
abbrev cc17_stg0_1 : Ref sig .tc := ⟨.vmem, 181, rfl⟩
abbrev cc17_stg1_0 : Ref sig .tc := ⟨.vmem, 182, rfl⟩
abbrev cc17_stg1_1 : Ref sig .tc := ⟨.vmem, 183, rfl⟩
abbrev cc17_stg2_0 : Ref sig .tc := ⟨.vmem, 184, rfl⟩
abbrev cc17_stg2_1 : Ref sig .tc := ⟨.vmem, 185, rfl⟩
abbrev cc17_stg3_0 : Ref sig .tc := ⟨.vmem, 186, rfl⟩
abbrev cc17_stg3_1 : Ref sig .tc := ⟨.vmem, 187, rfl⟩
abbrev cc17_stg4_0 : Ref sig .tc := ⟨.vmem, 188, rfl⟩
abbrev cc17_stg4_1 : Ref sig .tc := ⟨.vmem, 189, rfl⟩
abbrev cc17_stg5_0 : Ref sig .tc := ⟨.vmem, 190, rfl⟩
abbrev cc17_stg5_1 : Ref sig .tc := ⟨.vmem, 191, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem3_1 : DmaSem sig := 55
abbrev cc5_sem4_0 : DmaSem sig := 56
abbrev cc5_sem4_1 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem3_1 : DmaSem sig := 77
abbrev cc7_sem4_0 : DmaSem sig := 78
abbrev cc7_sem4_1 : DmaSem sig := 79
abbrev cc7_sem5_0 : DmaSem sig := 80
abbrev cc7_sem5_1 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86
abbrev cc8_sem2_1 : DmaSem sig := 87
abbrev cc8_sem3_0 : DmaSem sig := 88
abbrev cc8_sem3_1 : DmaSem sig := 89
abbrev cc8_sem4_0 : DmaSem sig := 90
abbrev cc8_sem4_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem3_1 : DmaSem sig := 99
abbrev cc9_sem4_0 : DmaSem sig := 100
abbrev cc9_sem4_1 : DmaSem sig := 101
abbrev cc9_sem5_0 : DmaSem sig := 102
abbrev cc9_sem5_1 : DmaSem sig := 103
abbrev cc10_sem0_0 : DmaSem sig := 104
abbrev cc10_sem0_1 : DmaSem sig := 105
abbrev cc10_sem1_0 : DmaSem sig := 106
abbrev cc10_sem1_1 : DmaSem sig := 107
abbrev cc10_sem2_0 : DmaSem sig := 108
abbrev cc10_sem2_1 : DmaSem sig := 109
abbrev cc10_sem3_0 : DmaSem sig := 110
abbrev cc10_sem3_1 : DmaSem sig := 111
abbrev cc10_sem4_0 : DmaSem sig := 112
abbrev cc10_sem4_1 : DmaSem sig := 113
abbrev cc11_sem0_0 : DmaSem sig := 114
abbrev cc11_sem0_1 : DmaSem sig := 115
abbrev cc11_sem1_0 : DmaSem sig := 116
abbrev cc11_sem1_1 : DmaSem sig := 117
abbrev cc11_sem2_0 : DmaSem sig := 118
abbrev cc11_sem2_1 : DmaSem sig := 119
abbrev cc11_sem3_0 : DmaSem sig := 120
abbrev cc11_sem3_1 : DmaSem sig := 121
abbrev cc11_sem4_0 : DmaSem sig := 122
abbrev cc11_sem4_1 : DmaSem sig := 123
abbrev cc11_sem5_0 : DmaSem sig := 124
abbrev cc11_sem5_1 : DmaSem sig := 125
abbrev cc12_sem0_0 : DmaSem sig := 126
abbrev cc12_sem0_1 : DmaSem sig := 127
abbrev cc12_sem1_0 : DmaSem sig := 128
abbrev cc12_sem1_1 : DmaSem sig := 129
abbrev cc12_sem2_0 : DmaSem sig := 130
abbrev cc12_sem2_1 : DmaSem sig := 131
abbrev cc12_sem3_0 : DmaSem sig := 132
abbrev cc12_sem3_1 : DmaSem sig := 133
abbrev cc12_sem4_0 : DmaSem sig := 134
abbrev cc12_sem4_1 : DmaSem sig := 135
abbrev cc13_sem0_0 : DmaSem sig := 136
abbrev cc13_sem0_1 : DmaSem sig := 137
abbrev cc13_sem1_0 : DmaSem sig := 138
abbrev cc13_sem1_1 : DmaSem sig := 139
abbrev cc13_sem2_0 : DmaSem sig := 140
abbrev cc13_sem2_1 : DmaSem sig := 141
abbrev cc13_sem3_0 : DmaSem sig := 142
abbrev cc13_sem3_1 : DmaSem sig := 143
abbrev cc13_sem4_0 : DmaSem sig := 144
abbrev cc13_sem4_1 : DmaSem sig := 145
abbrev cc13_sem5_0 : DmaSem sig := 146
abbrev cc13_sem5_1 : DmaSem sig := 147
abbrev cc14_sem0_0 : DmaSem sig := 148
abbrev cc14_sem0_1 : DmaSem sig := 149
abbrev cc14_sem1_0 : DmaSem sig := 150
abbrev cc14_sem1_1 : DmaSem sig := 151
abbrev cc14_sem2_0 : DmaSem sig := 152
abbrev cc14_sem2_1 : DmaSem sig := 153
abbrev cc14_sem3_0 : DmaSem sig := 154
abbrev cc14_sem3_1 : DmaSem sig := 155
abbrev cc14_sem4_0 : DmaSem sig := 156
abbrev cc14_sem4_1 : DmaSem sig := 157
abbrev cc15_sem0_0 : DmaSem sig := 158
abbrev cc15_sem0_1 : DmaSem sig := 159
abbrev cc15_sem1_0 : DmaSem sig := 160
abbrev cc15_sem1_1 : DmaSem sig := 161
abbrev cc15_sem2_0 : DmaSem sig := 162
abbrev cc15_sem2_1 : DmaSem sig := 163
abbrev cc15_sem3_0 : DmaSem sig := 164
abbrev cc15_sem3_1 : DmaSem sig := 165
abbrev cc15_sem4_0 : DmaSem sig := 166
abbrev cc15_sem4_1 : DmaSem sig := 167
abbrev cc15_sem5_0 : DmaSem sig := 168
abbrev cc15_sem5_1 : DmaSem sig := 169
abbrev cc16_sem0_0 : DmaSem sig := 170
abbrev cc16_sem0_1 : DmaSem sig := 171
abbrev cc16_sem1_0 : DmaSem sig := 172
abbrev cc16_sem1_1 : DmaSem sig := 173
abbrev cc16_sem2_0 : DmaSem sig := 174
abbrev cc16_sem2_1 : DmaSem sig := 175
abbrev cc16_sem3_0 : DmaSem sig := 176
abbrev cc16_sem3_1 : DmaSem sig := 177
abbrev cc16_sem4_0 : DmaSem sig := 178
abbrev cc16_sem4_1 : DmaSem sig := 179
abbrev cc17_sem0_0 : DmaSem sig := 180
abbrev cc17_sem0_1 : DmaSem sig := 181
abbrev cc17_sem1_0 : DmaSem sig := 182
abbrev cc17_sem1_1 : DmaSem sig := 183
abbrev cc17_sem2_0 : DmaSem sig := 184
abbrev cc17_sem2_1 : DmaSem sig := 185
abbrev cc17_sem3_0 : DmaSem sig := 186
abbrev cc17_sem3_1 : DmaSem sig := 187
abbrev cc17_sem4_0 : DmaSem sig := 188
abbrev cc17_sem4_1 : DmaSem sig := 189
abbrev cc17_sem5_0 : DmaSem sig := 190
abbrev cc17_sem5_1 : DmaSem sig := 191

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x32 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x32 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x1 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S2000x32 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x32 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S2000x32 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x32 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S2000x1 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S2000x32 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S2000x32 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S2000x32 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S2000x32 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x32 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S2000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S2000x1 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 2 → Memref sig .tc .vmem S2000x32 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2000x32 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x1 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S2000x32 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S2000x32 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S2000x32 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S2000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S2000x1 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S2000x32 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S2000x32 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x1 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S2000x32 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S2000x32 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S2000x32 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S2000x1 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S2000x1 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S2000x32 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev stage17_5 : Fin 2 → Memref sig .tc .vmem S2000x32 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

class Facts₀ : Prop where
  shapeCasts_S32_S1x32 : S32.ShapeCasts S1x32
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  reducesTo_S100000x32_S32_d0 : S100000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x32 : S2000x1.Broadcasts S2000x32
  bcast_S_S100000x32 : S_.BroadcastsInDim S100000x32 (![] : Fin 0 → Fin S100000x32.rank)
  dot_S2000x128_S128x32_S2000x32_1_0_0_1_n_n_wf : DotDims.WF S2000x128 S128x32 S2000x32 [1] [0] [0] [1] [] []
  dot_S2000x32_S32x32_S2000x32_1_0_0_1_n_n_wf : DotDims.WF S2000x32 S32x32 S2000x32 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x32.size a ≤ S32x32.size a
  hwx1_5 : ∀ i : grid1.Coords, EltTy.bits .f32 = 32 ∨ (Rect.block (s := S32x32) S32x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x32.size a ≤ S100000x32.size a
  hwx1_7 : ∀ i : grid1.Coords, EltTy.bits .f32 = 32 ∨ (Rect.block (s := S100000x32) S2000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S100000x32.size a
  hwx2_4 : ∀ i : grid2.Coords, EltTy.bits .f32 = 32 ∨ (Rect.block (s := S100000x32) S2000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x32.size a ≤ S100000x32.size a
  hwx3_1 : ∀ i : grid3.Coords, EltTy.bits .f32 = 32 ∨ (Rect.block (s := S100000x32) S2000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x32.size a ≤ S100000x32.size a
  hwx3_5 : ∀ i : grid3.Coords, EltTy.bits .f32 = 32 ∨ (Rect.block (s := S100000x32) S2000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S100000x32.size a
  hwx4_3 : ∀ i : grid4.Coords, EltTy.bits .f32 = 32 ∨ (Rect.block (s := S100000x32) S2000x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x32.size a ≤ S100000x32.size a
  hwx4_4 : ∀ i : grid4.Coords, EltTy.bits .f32 = 32 ∨ (Rect.block (s := S100000x32) S2000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x32.size a ≤ S100000x32.size a
  hwx5_1 : ∀ i : grid5.Coords, EltTy.bits .f32 = 32 ∨ (Rect.block (s := S100000x32) S2000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S100000x1.size a
  hwx5_2 : ∀ i : grid5.Coords, EltTy.bits .f32 = 32 ∨ (Rect.block (s := S100000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S100000x1.size a
  hwx5_3 : ∀ i : grid5.Coords, EltTy.bits .f32 = 32 ∨ (Rect.block (s := S100000x1) S2000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S100000x32.size a
  hwx5_4 : ∀ i : grid5.Coords, EltTy.bits .f32 = 32 ∨ (Rect.block (s := S100000x32) S2000x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x32.size a ≤ S100000x32.size a
  hwx5_5 : ∀ i : grid5.Coords, EltTy.bits .f32 = 32 ∨ (Rect.block (s := S100000x32) S2000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S100000x1.size a
  hwx6_2 : ∀ i : grid6.Coords, EltTy.bits .f32 = 32 ∨ (Rect.block (s := S100000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x32.size a ≤ S100000x32.size a
  hwx6_3 : ∀ i : grid6.Coords, EltTy.bits .f32 = 32 ∨ (Rect.block (s := S100000x32) S2000x32.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x32.size a ≤ S100000x32.size a
  hwx6_4 : ∀ i : grid6.Coords, EltTy.bits .f32 = 32 ∨ (Rect.block (s := S100000x32) S2000x32.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x32.size a ≤ S100000x32.size a
  hwx7_1 : ∀ i : grid7.Coords, EltTy.bits .f32 = 32 ∨ (Rect.block (s := S100000x32) S2000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S100000x1.size a
  hwx7_2 : ∀ i : grid7.Coords, EltTy.bits .f32 = 32 ∨ (Rect.block (s := S100000x1) S2000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S100000x1.size a
  hwx7_3 : ∀ i : grid7.Coords, EltTy.bits .f32 = 32 ∨ (Rect.block (s := S100000x1) S2000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x32.size a ≤ S100000x32.size a
  hwx7_4 : ∀ i : grid7.Coords, EltTy.bits .f32 = 32 ∨ (Rect.block (s := S100000x32) S2000x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x32.size a ≤ S100000x32.size a
  hwx7_5 : ∀ i : grid7.Coords, EltTy.bits .f32 = 32 ∨ (Rect.block (s := S100000x32) S2000x32.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S100000x32.size a
  hwx8_0 : ∀ i : grid8.Coords, EltTy.bits .f32 = 32 ∨ (Rect.block (s := S100000x32) S2000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .f32 = 32 ∨ (Rect.block (s := S100000x1) S2000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S100000x1.size a
  hwx8_2 : ∀ i : grid8.Coords, EltTy.bits .f32 = 32 ∨ (Rect.block (s := S100000x1) S2000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x32.size a ≤ S100000x32.size a
  hwx8_3 : ∀ i : grid8.Coords, EltTy.bits .f32 = 32 ∨ (Rect.block (s := S100000x32) S2000x32.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S2000x32.size a ≤ S100000x32.size a
  hwx8_4 : ∀ i : grid8.Coords, EltTy.bits .f32 = 32 ∨ (Rect.block (s := S100000x32) S2000x32.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x32.size a ≤ S100000x32.size a
  hwx9_1 : ∀ i : grid9.Coords, EltTy.bits .f32 = 32 ∨ (Rect.block (s := S100000x32) S2000x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x1.size a ≤ S100000x1.size a
  hwx9_2 : ∀ i : grid9.Coords, EltTy.bits .f32 = 32 ∨ (Rect.block (s := S100000x1) S2000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x1.size a ≤ S100000x1.size a
  hwx9_3 : ∀ i : grid9.Coords, EltTy.bits .f32 = 32 ∨ (Rect.block (s := S100000x1) S2000x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x32.size a ≤ S100000x32.size a
  hwx9_4 : ∀ i : grid9.Coords, EltTy.bits .f32 = 32 ∨ (Rect.block (s := S100000x32) S2000x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x32.size a ≤ S100000x32.size a
  hwx9_5 : ∀ i : grid9.Coords, EltTy.bits .f32 = 32 ∨ (Rect.block (s := S100000x32) S2000x32.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S100000x32.size a
  hwx10_0 : ∀ i : grid10.Coords, EltTy.bits .f32 = 32 ∨ (Rect.block (s := S100000x32) S2000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S100000x1.size a
  hwx10_1 : ∀ i : grid10.Coords, EltTy.bits .f32 = 32 ∨ (Rect.block (s := S100000x1) S2000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x1.size a ≤ S100000x1.size a
  hwx10_2 : ∀ i : grid10.Coords, EltTy.bits .f32 = 32 ∨ (Rect.block (s := S100000x1) S2000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x32.size a ≤ S100000x32.size a
  hwx10_3 : ∀ i : grid10.Coords, EltTy.bits .f32 = 32 ∨ (Rect.block (s := S100000x32) S2000x32.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x32.size a ≤ S100000x32.size a
  hwx10_4 : ∀ i : grid10.Coords, EltTy.bits .f32 = 32 ∨ (Rect.block (s := S100000x32) S2000x32.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S100000x32.size a
  hwx11_0 : ∀ i : grid11.Coords, EltTy.bits .f32 = 32 ∨ (Rect.block (s := S100000x32) S2000x32.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x32.size a ≤ S100000x32.size a
  hwx11_1 : ∀ i : grid11.Coords, EltTy.bits .f32 = 32 ∨ (Rect.block (s := S100000x32) S2000x32.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x1.size a ≤ S100000x1.size a
  hwx11_2 : ∀ i : grid11.Coords, EltTy.bits .f32 = 32 ∨ (Rect.block (s := S100000x1) S2000x1.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x1.size a ≤ S100000x1.size a
  hwx11_3 : ∀ i : grid11.Coords, EltTy.bits .f32 = 32 ∨ (Rect.block (s := S100000x1) S2000x1.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x32.size a ≤ S100000x32.size a
  hwx11_4 : ∀ i : grid11.Coords, EltTy.bits .f32 = 32 ∨ (Rect.block (s := S100000x32) S2000x32.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x32.size a ≤ S100000x32.size a
  hwx11_5 : ∀ i : grid11.Coords, EltTy.bits .f32 = 32 ∨ (Rect.block (s := S100000x32) S2000x32.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x32.size a ≤ S100000x32.size a
  hwx12_0 : ∀ i : grid12.Coords, EltTy.bits .f32 = 32 ∨ (Rect.block (s := S100000x32) S2000x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S100000x1.size a
  hwx12_1 : ∀ i : grid12.Coords, EltTy.bits .f32 = 32 ∨ (Rect.block (s := S100000x1) S2000x1.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x1.size a ≤ S100000x1.size a
  hwx12_2 : ∀ i : grid12.Coords, EltTy.bits .f32 = 32 ∨ (Rect.block (s := S100000x1) S2000x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x32.size a ≤ S100000x32.size a
  hwx12_3 : ∀ i : grid12.Coords, EltTy.bits .f32 = 32 ∨ (Rect.block (s := S100000x32) S2000x32.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x32.size a ≤ S100000x32.size a
  hwx12_4 : ∀ i : grid12.Coords, EltTy.bits .f32 = 32 ∨ (Rect.block (s := S100000x32) S2000x32.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x32.size a ≤ S100000x32.size a
  hwx13_0 : ∀ i : grid13.Coords, EltTy.bits .f32 = 32 ∨ (Rect.block (s := S100000x32) S2000x32.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x32.size a ≤ S100000x32.size a
  hwx13_1 : ∀ i : grid13.Coords, EltTy.bits .f32 = 32 ∨ (Rect.block (s := S100000x32) S2000x32.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S2000x1.size a ≤ S100000x1.size a
  hwx13_2 : ∀ i : grid13.Coords, EltTy.bits .f32 = 32 ∨ (Rect.block (s := S100000x1) S2000x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x1.size a ≤ S100000x1.size a
  hwx13_3 : ∀ i : grid13.Coords, EltTy.bits .f32 = 32 ∨ (Rect.block (s := S100000x1) S2000x1.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x32.size a ≤ S100000x32.size a
  hwx13_4 : ∀ i : grid13.Coords, EltTy.bits .f32 = 32 ∨ (Rect.block (s := S100000x32) S2000x32.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x32.size a ≤ S100000x32.size a
  hwx13_5 : ∀ i : grid13.Coords, EltTy.bits .f32 = 32 ∨ (Rect.block (s := S100000x32) S2000x32.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x32.size a ≤ S100000x32.size a
  hwx14_0 : ∀ i : grid14.Coords, EltTy.bits .f32 = 32 ∨ (Rect.block (s := S100000x32) S2000x32.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x1.size a ≤ S100000x1.size a
  hwx14_1 : ∀ i : grid14.Coords, EltTy.bits .f32 = 32 ∨ (Rect.block (s := S100000x1) S2000x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x1.size a ≤ S100000x1.size a
  hwx14_2 : ∀ i : grid14.Coords, EltTy.bits .f32 = 32 ∨ (Rect.block (s := S100000x1) S2000x1.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x32.size a ≤ S100000x32.size a
  hwx14_3 : ∀ i : grid14.Coords, EltTy.bits .f32 = 32 ∨ (Rect.block (s := S100000x32) S2000x32.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S2000x32.size a ≤ S100000x32.size a
  hwx14_4 : ∀ i : grid14.Coords, EltTy.bits .f32 = 32 ∨ (Rect.block (s := S100000x32) S2000x32.size (cc14_transform_4 i) (hinb14_4 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x32.size a ≤ S100000x32.size a
  hwx15_0 : ∀ i : grid15.Coords, EltTy.bits .f32 = 32 ∨ (Rect.block (s := S100000x32) S2000x32.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S2000x32.size a ≤ S100000x32.size a
  hwx15_1 : ∀ i : grid15.Coords, EltTy.bits .f32 = 32 ∨ (Rect.block (s := S100000x32) S2000x32.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x1.size a ≤ S100000x1.size a
  hwx15_2 : ∀ i : grid15.Coords, EltTy.bits .f32 = 32 ∨ (Rect.block (s := S100000x1) S2000x1.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x1.size a ≤ S100000x1.size a
  hwx15_3 : ∀ i : grid15.Coords, EltTy.bits .f32 = 32 ∨ (Rect.block (s := S100000x1) S2000x1.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S2000x32.size a ≤ S100000x32.size a
  hwx15_4 : ∀ i : grid15.Coords, EltTy.bits .f32 = 32 ∨ (Rect.block (s := S100000x32) S2000x32.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x32.size a ≤ S100000x32.size a
  hwx15_5 : ∀ i : grid15.Coords, EltTy.bits .f32 = 32 ∨ (Rect.block (s := S100000x32) S2000x32.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x32.size a ≤ S100000x32.size a
  hwx16_0 : ∀ i : grid16.Coords, EltTy.bits .f32 = 32 ∨ (Rect.block (s := S100000x32) S2000x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x1.size a ≤ S100000x1.size a
  hwx16_1 : ∀ i : grid16.Coords, EltTy.bits .f32 = 32 ∨ (Rect.block (s := S100000x1) S2000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x1.size a ≤ S100000x1.size a
  hwx16_2 : ∀ i : grid16.Coords, EltTy.bits .f32 = 32 ∨ (Rect.block (s := S100000x1) S2000x1.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x32.size a ≤ S100000x32.size a
  hwx16_3 : ∀ i : grid16.Coords, EltTy.bits .f32 = 32 ∨ (Rect.block (s := S100000x32) S2000x32.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S2000x32.size a ≤ S100000x32.size a
  hwx16_4 : ∀ i : grid16.Coords, EltTy.bits .f32 = 32 ∨ (Rect.block (s := S100000x32) S2000x32.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x32.size a ≤ S100000x32.size a
  hwx17_0 : ∀ i : grid17.Coords, EltTy.bits .f32 = 32 ∨ (Rect.block (s := S100000x32) S2000x32.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S2000x32.size a ≤ S100000x32.size a
  hwx17_1 : ∀ i : grid17.Coords, EltTy.bits .f32 = 32 ∨ (Rect.block (s := S100000x32) S2000x32.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x1.size a ≤ S100000x1.size a
  hwx17_2 : ∀ i : grid17.Coords, EltTy.bits .f32 = 32 ∨ (Rect.block (s := S100000x1) S2000x1.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S2000x1.size a ≤ S100000x1.size a
  hwx17_3 : ∀ i : grid17.Coords, EltTy.bits .f32 = 32 ∨ (Rect.block (s := S100000x1) S2000x1.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S2000x32.size a ≤ S100000x32.size a
  hwx17_4 : ∀ i : grid17.Coords, EltTy.bits .f32 = 32 ∨ (Rect.block (s := S100000x32) S2000x32.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S2000x32.size a ≤ S100000x32.size a
  hwx17_5 : ∀ i : grid17.Coords, EltTy.bits .f32 = 32 ∨ (Rect.block (s := S100000x32) S2000x32.size (cc17_transform_5 i) (hinb17_5 i)).WholeWords (EltTy.packing .f32)

variable [Facts₀]

def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S2000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39_0) S2000x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39_1) S2000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S2000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v11) S2000x32.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v62) S2000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65_0) S2000x32.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v65_1) S2000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v75) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S2000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v86) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v11) S2000x32.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v88) S2000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v88) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v91_0) S2000x32.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v91_1) S2000x32.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v101) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S2000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v112) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v113) S2000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v11) S2000x32.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v114) S2000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v114) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v115) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v116) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v117_0) S2000x32.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v117_1) S2000x32.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v127) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v137) S2000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v138) S2000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v139) S2000x1.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v11) S2000x32.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v140) S2000x32.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v140) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v141) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v142) S2000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v143_0) S2000x32.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v143_1) S2000x32.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v153) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v163) S2000x32.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v164) S2000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v165) S2000x1.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v11) S2000x32.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v166) S2000x32.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v166) S2000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v167) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v168) S2000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v169_0) S2000x32.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v169_1) S2000x32.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v179) S2000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v189) S2000x32.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v190) S2000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v191) S2000x1.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v11) S2000x32.size cc13_transform_4 reads13_4 false false 2 stage13_4 sem13_4
    hrank13 hreads13_4 hinb13_4 nbuf13_4 (Memref.isWhole_whole _) hwx13_4 hstage13_4

abbrev win13_5 : Pipeline.Window sig grid13 :=
  Pipeline.Window.ofSpec (Memref.whole main_v192) S2000x32.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v192) S2000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v193) S2000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v194) S2000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v195_0) S2000x32.size cc14_transform_3 reads14_3 true false 2 stage14_3 sem14_3
    hrank14 hreads14_3 hinb14_3 nbuf14_3 (Memref.isWhole_whole _) hwx14_3 hstage14_3

abbrev win14_4 : Pipeline.Window sig grid14 :=
  Pipeline.Window.ofSpec (Memref.whole main_v195_1) S2000x32.size cc14_transform_4 reads14_4 true false 2 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v205) S2000x32.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v215) S2000x32.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v216) S2000x1.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_v217) S2000x1.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v11) S2000x32.size cc15_transform_4 reads15_4 false false 2 stage15_4 sem15_4
    hrank15 hreads15_4 hinb15_4 nbuf15_4 (Memref.isWhole_whole _) hwx15_4 hstage15_4

abbrev win15_5 : Pipeline.Window sig grid15 :=
  Pipeline.Window.ofSpec (Memref.whole main_v218) S2000x32.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v218) S2000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v219) S2000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v220) S2000x1.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v221_0) S2000x32.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v221_1) S2000x32.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v231) S2000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v241) S2000x32.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v242) S2000x1.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_v243) S2000x1.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v11) S2000x32.size cc17_transform_4 reads17_4 false false 2 stage17_4 sem17_4
    hrank17 hreads17_4 hinb17_4 nbuf17_4 (Memref.isWhole_whole _) hwx17_4 hstage17_4

abbrev win17_5 : Pipeline.Window sig grid17 :=
  Pipeline.Window.ofSpec (Memref.whole main_v244) S2000x32.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S32 : Shape := ⟨1, ![32]⟩
abbrev S32x32 : Shape := ⟨2, ![32, 32]⟩
abbrev S3200000 : Shape := ⟨1, ![3200000]⟩
abbrev S100000x32 : Shape := ⟨2, ![100000, 32]⟩
abbrev S1x32 : Shape := ⟨2, ![1, 32]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩

abbrev nBuf : Space → Nat
  | .hbm => 706
  | .vmem => 0
  | .smem => 0
  | _ => 0

abbrev hbmTy0_0 (i : Nat) : BufTy := match i % 128 with
  | 0 => ⟨S100000x128, .f32⟩
  | 1 => ⟨S128x32, .f32⟩
  | 2 => ⟨S32, .f32⟩
  | 3 => ⟨S32, .f32⟩
  | 4 => ⟨S32, .f32⟩
  | 5 => ⟨S32x32, .f32⟩
  | 6 => ⟨S32, .f32⟩
  | 7 => ⟨S3200000, .i32⟩
  | 8 => ⟨S3200000, .i32⟩
  | 9 => ⟨S3200000, .i32⟩
  | 10 => ⟨S3200000, .i32⟩
  | 11 => ⟨S100000x32, .f32⟩
  | 12 => ⟨S1x32, .f32⟩
  | 13 => ⟨S100000x32, .f32⟩
  | 14 => ⟨S100000x32, .f32⟩
  | 15 => ⟨S_, .f32⟩
  | 16 => ⟨S32, .f32⟩
  | 17 => ⟨S_, .f32⟩
  | 18 => ⟨S32, .f32⟩
  | 19 => ⟨S32, .f32⟩
  | 20 => ⟨S_, .i32⟩
  | 21 => ⟨S_, .f32⟩
  | 22 => ⟨S32, .f32⟩
  | 23 => ⟨S1x32, .f32⟩
  | 24 => ⟨S_, .f32⟩
  | 25 => ⟨S1x32, .f32⟩
  | 26 => ⟨S1x32, .f32⟩
  | 27 => ⟨S100000x32, .f32⟩
  | 28 => ⟨S100000x32, .f32⟩
  | 29 => ⟨S100000x32, .f32⟩
  | 30 => ⟨S_, .f32⟩
  | 31 => ⟨S_, .f32⟩
  | 32 => ⟨S_, .f32⟩
  | 33 => ⟨S_, .f32⟩
  | 34 => ⟨S32, .f32⟩
  | 35 => ⟨S32, .f32⟩
  | 36 => ⟨S32, .f32⟩
  | 37 => ⟨S_, .f32⟩
  | 38 => ⟨S_, .i1⟩
  | 39 => ⟨S_, .f32⟩
  | 40 => ⟨S_, .f32⟩
  | 41 => ⟨S32, .f32⟩
  | 42 => ⟨S32, .f32⟩
  | 43 => ⟨S1x32, .f32⟩
  | 44 => ⟨S100000x32, .f32⟩
  | 45 => ⟨S100000x32, .f32⟩
  | 46 => ⟨S_, .f32⟩
  | 47 => ⟨S32, .f32⟩
  | 48 => ⟨S32, .f32⟩
  | 49 => ⟨S32, .f32⟩
  | 50 => ⟨S1x32, .f32⟩
  | 51 => ⟨S100000x32, .f32⟩
  | 52 => ⟨S100000x32, .f32⟩
  | 53 => ⟨S1x32, .f32⟩
  | 54 => ⟨S100000x32, .f32⟩
  | 55 => ⟨S100000x32, .f32⟩
  | 56 => ⟨S1x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S3200000, .f32⟩
  | 68 => ⟨S_, .f32⟩
  | 69 => ⟨S100000, .f32⟩
  | 70 => ⟨S3200000x1, .i32⟩
  | 71 => ⟨S100000, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S_, .f32⟩
  | 78 => ⟨S100000, .f32⟩
  | 79 => ⟨S100000, .f32⟩
  | 80 => ⟨S100000, .f32⟩
  | 81 => ⟨S100000x1, .f32⟩
  | 82 => ⟨S100000x32, .f32⟩
  | 83 => ⟨S100000x32, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x32, .f32⟩
  | 93 => ⟨S_, .f32⟩
  | 94 => ⟨S100000x32, .f32⟩
  | 95 => ⟨S3200000x1, .i32⟩
  | 96 => ⟨S100000x32, .f32⟩
  | 97 => ⟨S_, .f32⟩
  | 98 => ⟨S_, .f32⟩
  | 99 => ⟨S100000, .f32⟩
  | 100 => ⟨S100000, .f32⟩
  | 101 => ⟨S100000, .f32⟩
  | 102 => ⟨S100000x1, .f32⟩
  | 103 => ⟨S100000x32, .f32⟩
  | 104 => ⟨S100000x32, .f32⟩
  | 105 => ⟨S_, .f32⟩
  | 106 => ⟨S3200000, .f32⟩
  | 107 => ⟨S_, .f32⟩
  | 108 => ⟨S100000, .f32⟩
  | 109 => ⟨S3200000x1, .i32⟩
  | 110 => ⟨S100000, .f32⟩
  | 111 => ⟨S_, .f32⟩
  | 112 => ⟨S100000, .f32⟩
  | 113 => ⟨S3200000x1, .i32⟩
  | 114 => ⟨S100000, .f32⟩
  | 115 => ⟨S_, .f32⟩
  | 116 => ⟨S_, .f32⟩
  | 117 => ⟨S100000, .f32⟩
  | 118 => ⟨S100000, .f32⟩
  | 119 => ⟨S100000, .f32⟩
  | 120 => ⟨S100000x1, .f32⟩
  | 121 => ⟨S100000x32, .f32⟩
  | 122 => ⟨S100000x32, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x128, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x32, .f32⟩
  | 4 => ⟨S_, .f32⟩
  | 5 => ⟨S100000x32, .f32⟩
  | 6 => ⟨S3200000x1, .i32⟩
  | 7 => ⟨S100000x32, .f32⟩
  | 8 => ⟨S_, .f32⟩
  | 9 => ⟨S_, .f32⟩
  | 10 => ⟨S100000, .f32⟩
  | 11 => ⟨S100000, .f32⟩
  | 12 => ⟨S100000, .f32⟩
  | 13 => ⟨S100000x1, .f32⟩
  | 14 => ⟨S100000x32, .f32⟩
  | 15 => ⟨S100000x32, .f32⟩
  | 16 => ⟨S100000x32, .f32⟩
  | 17 => ⟨S100000x32, .f32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S3200000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x32, .f32⟩
  | 35 => ⟨S100000x32, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000x32, .f32⟩
  | 45 => ⟨S_, .f32⟩
  | 46 => ⟨S100000x32, .f32⟩
  | 47 => ⟨S3200000x1, .i32⟩
  | 48 => ⟨S100000x32, .f32⟩
  | 49 => ⟨S_, .f32⟩
  | 50 => ⟨S_, .f32⟩
  | 51 => ⟨S100000, .f32⟩
  | 52 => ⟨S100000, .f32⟩
  | 53 => ⟨S100000, .f32⟩
  | 54 => ⟨S100000x1, .f32⟩
  | 55 => ⟨S100000x32, .f32⟩
  | 56 => ⟨S100000x32, .f32⟩
  | 57 => ⟨S_, .f32⟩
  | 58 => ⟨S3200000, .f32⟩
  | 59 => ⟨S_, .f32⟩
  | 60 => ⟨S100000, .f32⟩
  | 61 => ⟨S3200000x1, .i32⟩
  | 62 => ⟨S100000, .f32⟩
  | 63 => ⟨S_, .f32⟩
  | 64 => ⟨S100000, .f32⟩
  | 65 => ⟨S3200000x1, .i32⟩
  | 66 => ⟨S100000, .f32⟩
  | 67 => ⟨S_, .f32⟩
  | 68 => ⟨S_, .f32⟩
  | 69 => ⟨S100000, .f32⟩
  | 70 => ⟨S100000, .f32⟩
  | 71 => ⟨S100000, .f32⟩
  | 72 => ⟨S100000x1, .f32⟩
  | 73 => ⟨S100000x32, .f32⟩
  | 74 => ⟨S100000x32, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x32, .f32⟩
  | 84 => ⟨S_, .f32⟩
  | 85 => ⟨S100000x32, .f32⟩
  | 86 => ⟨S3200000x1, .i32⟩
  | 87 => ⟨S100000x32, .f32⟩
  | 88 => ⟨S_, .f32⟩
  | 89 => ⟨S_, .f32⟩
  | 90 => ⟨S100000, .f32⟩
  | 91 => ⟨S100000, .f32⟩
  | 92 => ⟨S100000, .f32⟩
  | 93 => ⟨S100000x1, .f32⟩
  | 94 => ⟨S100000x32, .f32⟩
  | 95 => ⟨S100000x32, .f32⟩
  | 96 => ⟨S100000x32, .f32⟩
  | 97 => ⟨S100000x32, .f32⟩
  | 98 => ⟨S_, .f32⟩
  | 99 => ⟨S3200000, .f32⟩
  | 100 => ⟨S_, .f32⟩
  | 101 => ⟨S100000, .f32⟩
  | 102 => ⟨S3200000x1, .i32⟩
  | 103 => ⟨S100000, .f32⟩
  | 104 => ⟨S_, .f32⟩
  | 105 => ⟨S100000, .f32⟩
  | 106 => ⟨S3200000x1, .i32⟩
  | 107 => ⟨S100000, .f32⟩
  | 108 => ⟨S_, .f32⟩
  | 109 => ⟨S_, .f32⟩
  | 110 => ⟨S100000, .f32⟩
  | 111 => ⟨S100000, .f32⟩
  | 112 => ⟨S100000, .f32⟩
  | 113 => ⟨S100000x1, .f32⟩
  | 114 => ⟨S100000x32, .f32⟩
  | 115 => ⟨S100000x32, .f32⟩
  | 116 => ⟨S_, .i32⟩
  | 117 => ⟨S3200000, .i32⟩
  | 118 => ⟨S3200000, .i1⟩
  | 119 => ⟨S_, .i32⟩
  | 120 => ⟨S3200000, .i32⟩
  | 121 => ⟨S3200000, .i32⟩
  | 122 => ⟨S3200000, .i32⟩
  | 123 => ⟨S3200000x1, .i32⟩
  | 124 => ⟨S3200000x32, .f32⟩
  | 125 => ⟨S_, .f32⟩
  | 126 => ⟨S100000x32, .f32⟩
  | 127 => ⟨S3200000x1, .i32⟩
  | _ => ⟨S100000x128, .f32⟩

abbrev hbmTy0_2 (i : Nat) : BufTy := match i % 128 with
  | 0 => ⟨S100000x32, .f32⟩
  | 1 => ⟨S_, .f32⟩
  | 2 => ⟨S_, .f32⟩
  | 3 => ⟨S100000, .f32⟩
  | 4 => ⟨S100000, .f32⟩
  | 5 => ⟨S100000, .f32⟩
  | 6 => ⟨S100000x1, .f32⟩
  | 7 => ⟨S100000x32, .f32⟩
  | 8 => ⟨S100000x32, .f32⟩
  | 9 => ⟨S_, .f32⟩
  | 10 => ⟨S3200000, .f32⟩
  | 11 => ⟨S_, .f32⟩
  | 12 => ⟨S100000, .f32⟩
  | 13 => ⟨S3200000x1, .i32⟩
  | 14 => ⟨S100000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S100000x32, .f32⟩
  | 26 => ⟨S100000x32, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x32, .f32⟩
  | 36 => ⟨S_, .f32⟩
  | 37 => ⟨S100000x32, .f32⟩
  | 38 => ⟨S3200000x1, .i32⟩
  | 39 => ⟨S100000x32, .f32⟩
  | 40 => ⟨S_, .f32⟩
  | 41 => ⟨S_, .f32⟩
  | 42 => ⟨S100000, .f32⟩
  | 43 => ⟨S100000, .f32⟩
  | 44 => ⟨S100000, .f32⟩
  | 45 => ⟨S100000x1, .f32⟩
  | 46 => ⟨S100000x32, .f32⟩
  | 47 => ⟨S100000x32, .f32⟩
  | 48 => ⟨S100000x32, .f32⟩
  | 49 => ⟨S100000x32, .f32⟩
  | 50 => ⟨S_, .f32⟩
  | 51 => ⟨S3200000, .f32⟩
  | 52 => ⟨S_, .f32⟩
  | 53 => ⟨S100000, .f32⟩
  | 54 => ⟨S3200000x1, .i32⟩
  | 55 => ⟨S100000, .f32⟩
  | 56 => ⟨S_, .f32⟩
  | 57 => ⟨S100000, .f32⟩
  | 58 => ⟨S3200000x1, .i32⟩
  | 59 => ⟨S100000, .f32⟩
  | 60 => ⟨S_, .f32⟩
  | 61 => ⟨S_, .f32⟩
  | 62 => ⟨S100000, .f32⟩
  | 63 => ⟨S100000, .f32⟩
  | 64 => ⟨S100000, .f32⟩
  | 65 => ⟨S100000x1, .f32⟩
  | 66 => ⟨S100000x32, .f32⟩
  | 67 => ⟨S100000x32, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S_, .f32⟩
  | 82 => ⟨S_, .f32⟩
  | 83 => ⟨S100000, .f32⟩
  | 84 => ⟨S100000, .f32⟩
  | 85 => ⟨S100000, .f32⟩
  | 86 => ⟨S100000x1, .f32⟩
  | 87 => ⟨S100000x32, .f32⟩
  | 88 => ⟨S100000x32, .f32⟩
  | 89 => ⟨S_, .f32⟩
  | 90 => ⟨S3200000, .f32⟩
  | 91 => ⟨S_, .f32⟩
  | 92 => ⟨S100000, .f32⟩
  | 93 => ⟨S3200000x1, .i32⟩
  | 94 => ⟨S100000, .f32⟩
  | 95 => ⟨S_, .f32⟩
  | 96 => ⟨S100000, .f32⟩
  | 97 => ⟨S3200000x1, .i32⟩
  | 98 => ⟨S100000, .f32⟩
  | 99 => ⟨S_, .f32⟩
  | 100 => ⟨S_, .f32⟩
  | 101 => ⟨S100000, .f32⟩
  | 102 => ⟨S100000, .f32⟩
  | 103 => ⟨S100000, .f32⟩
  | 104 => ⟨S100000x1, .f32⟩
  | 105 => ⟨S100000x32, .f32⟩
  | 106 => ⟨S100000x32, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x32, .f32⟩
  | 116 => ⟨S_, .f32⟩
  | 117 => ⟨S100000x32, .f32⟩
  | 118 => ⟨S3200000x1, .i32⟩
  | 119 => ⟨S100000x32, .f32⟩
  | 120 => ⟨S_, .f32⟩
  | 121 => ⟨S_, .f32⟩
  | 122 => ⟨S100000, .f32⟩
  | 123 => ⟨S100000, .f32⟩
  | 124 => ⟨S100000, .f32⟩
  | 125 => ⟨S100000x1, .f32⟩
  | 126 => ⟨S100000x32, .f32⟩
  | 127 => ⟨S100000x32, .f32⟩
  | _ => ⟨S100000x128, .f32⟩

abbrev hbmTy0_3 (i : Nat) : BufTy := match i % 128 with
  | 0 => ⟨S100000x32, .f32⟩
  | 1 => ⟨S100000x32, .f32⟩
  | 2 => ⟨S_, .f32⟩
  | 3 => ⟨S3200000, .f32⟩
  | 4 => ⟨S_, .f32⟩
  | 5 => ⟨S100000, .f32⟩
  | 6 => ⟨S3200000x1, .i32⟩
  | 7 => ⟨S100000, .f32⟩
  | 8 => ⟨S_, .f32⟩
  | 9 => ⟨S100000, .f32⟩
  | 10 => ⟨S3200000x1, .i32⟩
  | 11 => ⟨S100000, .f32⟩
  | 12 => ⟨S_, .f32⟩
  | 13 => ⟨S_, .f32⟩
  | 14 => ⟨S100000, .f32⟩
  | 15 => ⟨S100000, .f32⟩
  | 16 => ⟨S100000, .f32⟩
  | 17 => ⟨S100000x1, .f32⟩
  | 18 => ⟨S100000x32, .f32⟩
  | 19 => ⟨S100000x32, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000x32, .f32⟩
  | 29 => ⟨S_, .f32⟩
  | 30 => ⟨S100000x32, .f32⟩
  | 31 => ⟨S3200000x1, .i32⟩
  | 32 => ⟨S100000x32, .f32⟩
  | 33 => ⟨S_, .f32⟩
  | 34 => ⟨S_, .f32⟩
  | 35 => ⟨S100000, .f32⟩
  | 36 => ⟨S100000, .f32⟩
  | 37 => ⟨S100000, .f32⟩
  | 38 => ⟨S100000x1, .f32⟩
  | 39 => ⟨S100000x32, .f32⟩
  | 40 => ⟨S100000x32, .f32⟩
  | 41 => ⟨S_, .f32⟩
  | 42 => ⟨S3200000, .f32⟩
  | 43 => ⟨S_, .f32⟩
  | 44 => ⟨S100000, .f32⟩
  | 45 => ⟨S3200000x1, .i32⟩
  | 46 => ⟨S100000, .f32⟩
  | 47 => ⟨S_, .f32⟩
  | 48 => ⟨S100000, .f32⟩
  | 49 => ⟨S3200000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S100000, .f32⟩
  | 56 => ⟨S100000x1, .f32⟩
  | 57 => ⟨S100000x32, .f32⟩
  | 58 => ⟨S100000x32, .f32⟩
  | 59 => ⟨S_, .i32⟩
  | 60 => ⟨S3200000, .i32⟩
  | 61 => ⟨S3200000, .i1⟩
  | 62 => ⟨S_, .i32⟩
  | 63 => ⟨S3200000, .i32⟩
  | 64 => ⟨S3200000, .i32⟩
  | 65 => ⟨S3200000, .i32⟩
  | 66 => ⟨S3200000x1, .i32⟩
  | 67 => ⟨S3200000x32, .f32⟩
  | 68 => ⟨S_, .f32⟩
  | 69 => ⟨S100000x32, .f32⟩
  | 70 => ⟨S3200000x1, .i32⟩
  | 71 => ⟨S100000x32, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x32, .f32⟩
  | 79 => ⟨S100000x32, .f32⟩
  | 80 => ⟨S100000x32, .f32⟩
  | 81 => ⟨S100000x32, .f32⟩
  | 82 => ⟨S_, .f32⟩
  | 83 => ⟨S3200000, .f32⟩
  | 84 => ⟨S_, .f32⟩
  | 85 => ⟨S100000, .f32⟩
  | 86 => ⟨S3200000x1, .i32⟩
  | 87 => ⟨S100000, .f32⟩
  | 88 => ⟨S_, .f32⟩
  | 89 => ⟨S100000, .f32⟩
  | 90 => ⟨S3200000x1, .i32⟩
  | 91 => ⟨S100000, .f32⟩
  | 92 => ⟨S_, .f32⟩
  | 93 => ⟨S_, .f32⟩
  | 94 => ⟨S100000, .f32⟩
  | 95 => ⟨S100000, .f32⟩
  | 96 => ⟨S100000, .f32⟩
  | 97 => ⟨S100000x1, .f32⟩
  | 98 => ⟨S100000x32, .f32⟩
  | 99 => ⟨S100000x32, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x32, .f32⟩
  | 109 => ⟨S_, .f32⟩
  | 110 => ⟨S100000x32, .f32⟩
  | 111 => ⟨S3200000x1, .i32⟩
  | 112 => ⟨S100000x32, .f32⟩
  | 113 => ⟨S_, .f32⟩
  | 114 => ⟨S_, .f32⟩
  | 115 => ⟨S100000, .f32⟩
  | 116 => ⟨S100000, .f32⟩
  | 117 => ⟨S100000, .f32⟩
  | 118 => ⟨S100000x1, .f32⟩
  | 119 => ⟨S100000x32, .f32⟩
  | 120 => ⟨S100000x32, .f32⟩
  | 121 => ⟨S_, .f32⟩
  | 122 => ⟨S3200000, .f32⟩
  | 123 => ⟨S_, .f32⟩
  | 124 => ⟨S100000, .f32⟩
  | 125 => ⟨S3200000x1, .i32⟩
  | 126 => ⟨S100000, .f32⟩
  | 127 => ⟨S_, .f32⟩
  | _ => ⟨S100000x128, .f32⟩

abbrev hbmTy0_4 (i : Nat) : BufTy := match i % 128 with
  | 0 => ⟨S100000, .f32⟩
  | 1 => ⟨S3200000x1, .i32⟩
  | 2 => ⟨S100000, .f32⟩
  | 3 => ⟨S_, .f32⟩
  | 4 => ⟨S_, .f32⟩
  | 5 => ⟨S100000, .f32⟩
  | 6 => ⟨S100000, .f32⟩
  | 7 => ⟨S100000, .f32⟩
  | 8 => ⟨S100000x1, .f32⟩
  | 9 => ⟨S100000x32, .f32⟩
  | 10 => ⟨S100000x32, .f32⟩
  | 11 => ⟨S_, .i32⟩
  | 12 => ⟨S3200000, .i32⟩
  | 13 => ⟨S3200000, .i1⟩
  | 14 => ⟨S_, .i32⟩
  | 15 => ⟨S3200000, .i32⟩
  | 16 => ⟨S3200000, .i32⟩
  | 17 => ⟨S3200000, .i32⟩
  | 18 => ⟨S3200000x1, .i32⟩
  | 19 => ⟨S3200000x32, .f32⟩
  | 20 => ⟨S_, .f32⟩
  | 21 => ⟨S100000x32, .f32⟩
  | 22 => ⟨S3200000x1, .i32⟩
  | 23 => ⟨S100000x32, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x32, .f32⟩
  | 31 => ⟨S100000x32, .f32⟩
  | 32 => ⟨S100000x32, .f32⟩
  | 33 => ⟨S100000x32, .f32⟩
  | 34 => ⟨S_, .f32⟩
  | 35 => ⟨S3200000, .f32⟩
  | 36 => ⟨S_, .f32⟩
  | 37 => ⟨S100000, .f32⟩
  | 38 => ⟨S3200000x1, .i32⟩
  | 39 => ⟨S100000, .f32⟩
  | 40 => ⟨S_, .f32⟩
  | 41 => ⟨S100000, .f32⟩
  | 42 => ⟨S3200000x1, .i32⟩
  | 43 => ⟨S100000, .f32⟩
  | 44 => ⟨S_, .f32⟩
  | 45 => ⟨S_, .f32⟩
  | 46 => ⟨S100000, .f32⟩
  | 47 => ⟨S100000, .f32⟩
  | 48 => ⟨S100000, .f32⟩
  | 49 => ⟨S100000x1, .f32⟩
  | 50 => ⟨S100000x32, .f32⟩
  | 51 => ⟨S100000x32, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x32, .f32⟩
  | 61 => ⟨S_, .f32⟩
  | 62 => ⟨S100000x32, .f32⟩
  | 63 => ⟨S3200000x1, .i32⟩
  | 64 => ⟨S100000x32, .f32⟩
  | 65 => ⟨S_, .f32⟩
  | 66 => ⟨S_, .f32⟩
  | 67 => ⟨S100000, .f32⟩
  | 68 => ⟨S100000, .f32⟩
  | 69 => ⟨S100000, .f32⟩
  | 70 => ⟨S100000x1, .f32⟩
  | 71 => ⟨S100000x32, .f32⟩
  | 72 => ⟨S100000x32, .f32⟩
  | 73 => ⟨S_, .f32⟩
  | 74 => ⟨S3200000, .f32⟩
  | 75 => ⟨S_, .f32⟩
  | 76 => ⟨S100000, .f32⟩
  | 77 => ⟨S3200000x1, .i32⟩
  | 78 => ⟨S100000, .f32⟩
  | 79 => ⟨S_, .f32⟩
  | 80 => ⟨S100000, .f32⟩
  | 81 => ⟨S3200000x1, .i32⟩
  | 82 => ⟨S100000, .f32⟩
  | 83 => ⟨S_, .f32⟩
  | 84 => ⟨S_, .f32⟩
  | 85 => ⟨S100000, .f32⟩
  | 86 => ⟨S100000, .f32⟩
  | 87 => ⟨S100000, .f32⟩
  | 88 => ⟨S100000x1, .f32⟩
  | 89 => ⟨S100000x32, .f32⟩
  | 90 => ⟨S100000x32, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000x32, .f32⟩
  | 100 => ⟨S_, .f32⟩
  | 101 => ⟨S100000x32, .f32⟩
  | 102 => ⟨S3200000x1, .i32⟩
  | 103 => ⟨S100000x32, .f32⟩
  | 104 => ⟨S_, .f32⟩
  | 105 => ⟨S_, .f32⟩
  | 106 => ⟨S100000, .f32⟩
  | 107 => ⟨S100000, .f32⟩
  | 108 => ⟨S100000, .f32⟩
  | 109 => ⟨S100000x1, .f32⟩
  | 110 => ⟨S100000x32, .f32⟩
  | 111 => ⟨S100000x32, .f32⟩
  | 112 => ⟨S100000x32, .f32⟩
  | 113 => ⟨S100000x32, .f32⟩
  | 114 => ⟨S_, .f32⟩
  | 115 => ⟨S3200000, .f32⟩
  | 116 => ⟨S_, .f32⟩
  | 117 => ⟨S100000, .f32⟩
  | 118 => ⟨S3200000x1, .i32⟩
  | 119 => ⟨S100000, .f32⟩
  | 120 => ⟨S_, .f32⟩
  | 121 => ⟨S100000, .f32⟩
  | 122 => ⟨S3200000x1, .i32⟩
  | 123 => ⟨S100000, .f32⟩
  | 124 => ⟨S_, .f32⟩
  | 125 => ⟨S_, .f32⟩
  | 126 => ⟨S100000, .f32⟩
  | 127 => ⟨S100000, .f32⟩
  | _ => ⟨S100000x128, .f32⟩

abbrev hbmTy0_5 (i : Nat) : BufTy := match i % 128 with
  | 0 => ⟨S100000, .f32⟩
  | 1 => ⟨S100000x1, .f32⟩
  | 2 => ⟨S100000x32, .f32⟩
  | 3 => ⟨S100000x32, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x32, .f32⟩
  | 13 => ⟨S_, .f32⟩
  | 14 => ⟨S100000x32, .f32⟩
  | 15 => ⟨S3200000x1, .i32⟩
  | 16 => ⟨S100000x32, .f32⟩
  | 17 => ⟨S_, .f32⟩
  | 18 => ⟨S_, .f32⟩
  | 19 => ⟨S100000, .f32⟩
  | 20 => ⟨S100000, .f32⟩
  | 21 => ⟨S100000, .f32⟩
  | 22 => ⟨S100000x1, .f32⟩
  | 23 => ⟨S100000x32, .f32⟩
  | 24 => ⟨S100000x32, .f32⟩
  | 25 => ⟨S_, .f32⟩
  | 26 => ⟨S3200000, .f32⟩
  | 27 => ⟨S_, .f32⟩
  | 28 => ⟨S100000, .f32⟩
  | 29 => ⟨S3200000x1, .i32⟩
  | 30 => ⟨S100000, .f32⟩
  | 31 => ⟨S_, .f32⟩
  | 32 => ⟨S100000, .f32⟩
  | 33 => ⟨S3200000x1, .i32⟩
  | 34 => ⟨S100000, .f32⟩
  | 35 => ⟨S_, .f32⟩
  | 36 => ⟨S_, .f32⟩
  | 37 => ⟨S100000, .f32⟩
  | 38 => ⟨S100000, .f32⟩
  | 39 => ⟨S100000, .f32⟩
  | 40 => ⟨S100000x1, .f32⟩
  | 41 => ⟨S100000x32, .f32⟩
  | 42 => ⟨S100000x32, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x32, .f32⟩
  | 52 => ⟨S_, .f32⟩
  | 53 => ⟨S100000x32, .f32⟩
  | 54 => ⟨S3200000x1, .i32⟩
  | 55 => ⟨S100000x32, .f32⟩
  | 56 => ⟨S_, .f32⟩
  | 57 => ⟨S_, .f32⟩
  | 58 => ⟨S100000, .f32⟩
  | 59 => ⟨S100000, .f32⟩
  | 60 => ⟨S100000, .f32⟩
  | 61 => ⟨S100000x1, .f32⟩
  | 62 => ⟨S100000x32, .f32⟩
  | 63 => ⟨S100000x32, .f32⟩
  | 64 => ⟨S100000x32, .f32⟩
  | 65 => ⟨S100000x32, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_2 : Ref sig .tc := ⟨.hbm, 66, rfl⟩
abbrev main_v28 : Ref sig .tc := ⟨.hbm, 67, rfl⟩
abbrev main_cst_3 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_4 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_5 : Ref sig .tc := ⟨.hbm, 76, rfl⟩
abbrev main_call2_v0 : Ref sig .tc := ⟨.hbm, 77, rfl⟩
abbrev main_call2_v1 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_6 : Ref sig .tc := ⟨.hbm, 84, rfl⟩
abbrev main_v40 : Ref sig .tc := ⟨.hbm, 85, rfl⟩
abbrev main_v41 : Ref sig .tc := ⟨.hbm, 86, rfl⟩
abbrev main_c_7 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_8 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_9 : Ref sig .tc := ⟨.hbm, 97, rfl⟩
abbrev main_call3_v0 : Ref sig .tc := ⟨.hbm, 98, rfl⟩
abbrev main_call3_v1 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_10 : Ref sig .tc := ⟨.hbm, 105, rfl⟩
abbrev main_v55 : Ref sig .tc := ⟨.hbm, 106, rfl⟩
abbrev main_cst_11 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_cst_12 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_13 : Ref sig .tc := ⟨.hbm, 115, rfl⟩
abbrev main_call4_v0 : Ref sig .tc := ⟨.hbm, 116, rfl⟩
abbrev main_call4_v1 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_c_14 : Ref sig .tc := ⟨.hbm, 123, rfl⟩
abbrev main_v67 : Ref sig .tc := ⟨.hbm, 124, rfl⟩
abbrev main_v68 : Ref sig .tc := ⟨.hbm, 125, rfl⟩
abbrev main_c_15 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_16 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_cst_17 : Ref sig .tc := ⟨.hbm, 136, rfl⟩
abbrev main_call5_v0 : Ref sig .tc := ⟨.hbm, 137, rfl⟩
abbrev main_call5_v1 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_18 : Ref sig .tc := ⟨.hbm, 146, rfl⟩
abbrev main_v84 : Ref sig .tc := ⟨.hbm, 147, rfl⟩
abbrev main_cst_19 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_cst_20 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_cst_21 : Ref sig .tc := ⟨.hbm, 156, rfl⟩
abbrev main_call6_v0 : Ref sig .tc := ⟨.hbm, 157, rfl⟩
abbrev main_call6_v1 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_c_22 : Ref sig .tc := ⟨.hbm, 164, rfl⟩
abbrev main_v96 : Ref sig .tc := ⟨.hbm, 165, rfl⟩
abbrev main_v97 : Ref sig .tc := ⟨.hbm, 166, rfl⟩
abbrev main_c_23 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_24 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_25 : Ref sig .tc := ⟨.hbm, 177, rfl⟩
abbrev main_call7_v0 : Ref sig .tc := ⟨.hbm, 178, rfl⟩
abbrev main_call7_v1 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_26 : Ref sig .tc := ⟨.hbm, 185, rfl⟩
abbrev main_v111 : Ref sig .tc := ⟨.hbm, 186, rfl⟩
abbrev main_cst_27 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_28 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_29 : Ref sig .tc := ⟨.hbm, 195, rfl⟩
abbrev main_call8_v0 : Ref sig .tc := ⟨.hbm, 196, rfl⟩
abbrev main_call8_v1 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_c_30 : Ref sig .tc := ⟨.hbm, 203, rfl⟩
abbrev main_v123 : Ref sig .tc := ⟨.hbm, 204, rfl⟩
abbrev main_v124 : Ref sig .tc := ⟨.hbm, 205, rfl⟩
abbrev main_c_31 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_32 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_33 : Ref sig .tc := ⟨.hbm, 216, rfl⟩
abbrev main_call9_v0 : Ref sig .tc := ⟨.hbm, 217, rfl⟩
abbrev main_call9_v1 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_cst_34 : Ref sig .tc := ⟨.hbm, 226, rfl⟩
abbrev main_v140 : Ref sig .tc := ⟨.hbm, 227, rfl⟩
abbrev main_cst_35 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_cst_36 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_cst_37 : Ref sig .tc := ⟨.hbm, 236, rfl⟩
abbrev main_call10_v0 : Ref sig .tc := ⟨.hbm, 237, rfl⟩
abbrev main_call10_v1 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_c_38 : Ref sig .tc := ⟨.hbm, 244, rfl⟩
abbrev main_v152 : Ref sig .tc := ⟨.hbm, 245, rfl⟩
abbrev main_v153 : Ref sig .tc := ⟨.hbm, 246, rfl⟩
abbrev main_c_39 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_cst_40 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_cst_41 : Ref sig .tc := ⟨.hbm, 257, rfl⟩
abbrev main_call11_v0 : Ref sig .tc := ⟨.hbm, 258, rfl⟩
abbrev main_call11_v1 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_cst_42 : Ref sig .tc := ⟨.hbm, 265, rfl⟩
abbrev main_v167 : Ref sig .tc := ⟨.hbm, 266, rfl⟩
abbrev main_cst_43 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_cst_44 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_cst_45 : Ref sig .tc := ⟨.hbm, 275, rfl⟩
abbrev main_call12_v0 : Ref sig .tc := ⟨.hbm, 276, rfl⟩
abbrev main_call12_v1 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_c_46 : Ref sig .tc := ⟨.hbm, 283, rfl⟩
abbrev main_v179 : Ref sig .tc := ⟨.hbm, 284, rfl⟩
abbrev main_v180 : Ref sig .tc := ⟨.hbm, 285, rfl⟩
abbrev main_c_47 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_cst_48 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_cst_49 : Ref sig .tc := ⟨.hbm, 296, rfl⟩
abbrev main_call13_v0 : Ref sig .tc := ⟨.hbm, 297, rfl⟩
abbrev main_call13_v1 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_cst_50 : Ref sig .tc := ⟨.hbm, 306, rfl⟩
abbrev main_v196 : Ref sig .tc := ⟨.hbm, 307, rfl⟩
abbrev main_cst_51 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_cst_52 : Ref sig .tc := ⟨.hbm, 312, rfl⟩
abbrev main_v200 : Ref sig .tc := ⟨.hbm, 313, rfl⟩
abbrev main_v201 : Ref sig .tc := ⟨.hbm, 314, rfl⟩
abbrev main_v202 : Ref sig .tc := ⟨.hbm, 315, rfl⟩
abbrev main_cst_53 : Ref sig .tc := ⟨.hbm, 316, rfl⟩
abbrev main_call14_v0 : Ref sig .tc := ⟨.hbm, 317, rfl⟩
abbrev main_call14_v1 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_c_54 : Ref sig .tc := ⟨.hbm, 324, rfl⟩
abbrev main_v208 : Ref sig .tc := ⟨.hbm, 325, rfl⟩
abbrev main_v209 : Ref sig .tc := ⟨.hbm, 326, rfl⟩
abbrev main_c_55 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_v214 : Ref sig .tc := ⟨.hbm, 332, rfl⟩
abbrev main_cst_56 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_cst_57 : Ref sig .tc := ⟨.hbm, 337, rfl⟩
abbrev main_call15_v0 : Ref sig .tc := ⟨.hbm, 338, rfl⟩
abbrev main_call15_v1 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_cst_58 : Ref sig .tc := ⟨.hbm, 345, rfl⟩
abbrev main_v223 : Ref sig .tc := ⟨.hbm, 346, rfl⟩
abbrev main_cst_59 : Ref sig .tc := ⟨.hbm, 347, rfl⟩
abbrev main_v224 : Ref sig .tc := ⟨.hbm, 348, rfl⟩
abbrev main_v225 : Ref sig .tc := ⟨.hbm, 349, rfl⟩
abbrev main_v226 : Ref sig .tc := ⟨.hbm, 350, rfl⟩
abbrev main_cst_60 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_cst_61 : Ref sig .tc := ⟨.hbm, 355, rfl⟩
abbrev main_call16_v0 : Ref sig .tc := ⟨.hbm, 356, rfl⟩
abbrev main_call16_v1 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_c_62 : Ref sig .tc := ⟨.hbm, 363, rfl⟩
abbrev main_v235 : Ref sig .tc := ⟨.hbm, 364, rfl⟩
abbrev main_v236 : Ref sig .tc := ⟨.hbm, 365, rfl⟩
abbrev main_c_63 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_cst_64 : Ref sig .tc := ⟨.hbm, 372, rfl⟩
abbrev main_v242 : Ref sig .tc := ⟨.hbm, 373, rfl⟩
abbrev main_v243 : Ref sig .tc := ⟨.hbm, 374, rfl⟩
abbrev main_v244 : Ref sig .tc := ⟨.hbm, 375, rfl⟩
abbrev main_cst_65 : Ref sig .tc := ⟨.hbm, 376, rfl⟩
abbrev main_call17_v0 : Ref sig .tc := ⟨.hbm, 377, rfl⟩
abbrev main_call17_v1 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_v249 : Ref sig .tc := ⟨.hbm, 383, rfl⟩
abbrev main_v250 : Ref sig .tc := ⟨.hbm, 384, rfl⟩
abbrev main_v251 : Ref sig .tc := ⟨.hbm, 385, rfl⟩
abbrev main_cst_66 : Ref sig .tc := ⟨.hbm, 386, rfl⟩
abbrev main_v252 : Ref sig .tc := ⟨.hbm, 387, rfl⟩
abbrev main_cst_67 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_cst_68 : Ref sig .tc := ⟨.hbm, 392, rfl⟩
abbrev main_v256 : Ref sig .tc := ⟨.hbm, 393, rfl⟩
abbrev main_v257 : Ref sig .tc := ⟨.hbm, 394, rfl⟩
abbrev main_v258 : Ref sig .tc := ⟨.hbm, 395, rfl⟩
abbrev main_cst_69 : Ref sig .tc := ⟨.hbm, 396, rfl⟩
abbrev main_call18_v0 : Ref sig .tc := ⟨.hbm, 397, rfl⟩
abbrev main_call18_v1 : Ref sig .tc := ⟨.hbm, 398, rfl⟩
abbrev main_v259 : Ref sig .tc := ⟨.hbm, 399, rfl⟩
abbrev main_v260 : Ref sig .tc := ⟨.hbm, 400, rfl⟩
abbrev main_v261 : Ref sig .tc := ⟨.hbm, 401, rfl⟩
abbrev main_v262 : Ref sig .tc := ⟨.hbm, 402, rfl⟩
abbrev main_v263 : Ref sig .tc := ⟨.hbm, 403, rfl⟩
abbrev main_c_70 : Ref sig .tc := ⟨.hbm, 404, rfl⟩
abbrev main_v264 : Ref sig .tc := ⟨.hbm, 405, rfl⟩
abbrev main_v265 : Ref sig .tc := ⟨.hbm, 406, rfl⟩
abbrev main_c_71 : Ref sig .tc := ⟨.hbm, 407, rfl⟩
abbrev main_v266 : Ref sig .tc := ⟨.hbm, 408, rfl⟩
abbrev main_v267 : Ref sig .tc := ⟨.hbm, 409, rfl⟩
abbrev main_v268 : Ref sig .tc := ⟨.hbm, 410, rfl⟩
abbrev main_v269 : Ref sig .tc := ⟨.hbm, 411, rfl⟩
abbrev main_v270 : Ref sig .tc := ⟨.hbm, 412, rfl⟩
abbrev main_cst_72 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_cst_73 : Ref sig .tc := ⟨.hbm, 417, rfl⟩
abbrev main_call19_v0 : Ref sig .tc := ⟨.hbm, 418, rfl⟩
abbrev main_call19_v1 : Ref sig .tc := ⟨.hbm, 419, rfl⟩
abbrev main_v274 : Ref sig .tc := ⟨.hbm, 420, rfl⟩
abbrev main_v275 : Ref sig .tc := ⟨.hbm, 421, rfl⟩
abbrev main_v276 : Ref sig .tc := ⟨.hbm, 422, rfl⟩
abbrev main_v277 : Ref sig .tc := ⟨.hbm, 423, rfl⟩
abbrev main_v278 : Ref sig .tc := ⟨.hbm, 424, rfl⟩
abbrev main_cst_74 : Ref sig .tc := ⟨.hbm, 425, rfl⟩
abbrev main_v279 : Ref sig .tc := ⟨.hbm, 426, rfl⟩
abbrev main_cst_75 : Ref sig .tc := ⟨.hbm, 427, rfl⟩
abbrev main_v280 : Ref sig .tc := ⟨.hbm, 428, rfl⟩
abbrev main_v281 : Ref sig .tc := ⟨.hbm, 429, rfl⟩
abbrev main_v282 : Ref sig .tc := ⟨.hbm, 430, rfl⟩
abbrev main_cst_76 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_cst_77 : Ref sig .tc := ⟨.hbm, 435, rfl⟩
abbrev main_call20_v0 : Ref sig .tc := ⟨.hbm, 436, rfl⟩
abbrev main_call20_v1 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_c_78 : Ref sig .tc := ⟨.hbm, 443, rfl⟩
abbrev main_v291 : Ref sig .tc := ⟨.hbm, 444, rfl⟩
abbrev main_v292 : Ref sig .tc := ⟨.hbm, 445, rfl⟩
abbrev main_c_79 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_cst_80 : Ref sig .tc := ⟨.hbm, 452, rfl⟩
abbrev main_v298 : Ref sig .tc := ⟨.hbm, 453, rfl⟩
abbrev main_v299 : Ref sig .tc := ⟨.hbm, 454, rfl⟩
abbrev main_v300 : Ref sig .tc := ⟨.hbm, 455, rfl⟩
abbrev main_cst_81 : Ref sig .tc := ⟨.hbm, 456, rfl⟩
abbrev main_call21_v0 : Ref sig .tc := ⟨.hbm, 457, rfl⟩
abbrev main_call21_v1 : Ref sig .tc := ⟨.hbm, 458, rfl⟩
abbrev main_v301 : Ref sig .tc := ⟨.hbm, 459, rfl⟩
abbrev main_v302 : Ref sig .tc := ⟨.hbm, 460, rfl⟩
abbrev main_v303 : Ref sig .tc := ⟨.hbm, 461, rfl⟩
abbrev main_v304 : Ref sig .tc := ⟨.hbm, 462, rfl⟩
abbrev main_v305 : Ref sig .tc := ⟨.hbm, 463, rfl⟩
abbrev main_v306 : Ref sig .tc := ⟨.hbm, 464, rfl⟩
abbrev main_v307 : Ref sig .tc := ⟨.hbm, 465, rfl⟩
abbrev main_cst_82 : Ref sig .tc := ⟨.hbm, 466, rfl⟩
abbrev main_v308 : Ref sig .tc := ⟨.hbm, 467, rfl⟩
abbrev main_cst_83 : Ref sig .tc := ⟨.hbm, 468, rfl⟩
abbrev main_v309 : Ref sig .tc := ⟨.hbm, 469, rfl⟩
abbrev main_v310 : Ref sig .tc := ⟨.hbm, 470, rfl⟩
abbrev main_v311 : Ref sig .tc := ⟨.hbm, 471, rfl⟩
abbrev main_cst_84 : Ref sig .tc := ⟨.hbm, 472, rfl⟩
abbrev main_v312 : Ref sig .tc := ⟨.hbm, 473, rfl⟩
abbrev main_v313 : Ref sig .tc := ⟨.hbm, 474, rfl⟩
abbrev main_v314 : Ref sig .tc := ⟨.hbm, 475, rfl⟩
abbrev main_cst_85 : Ref sig .tc := ⟨.hbm, 476, rfl⟩
abbrev main_call22_v0 : Ref sig .tc := ⟨.hbm, 477, rfl⟩
abbrev main_call22_v1 : Ref sig .tc := ⟨.hbm, 478, rfl⟩
abbrev main_v315 : Ref sig .tc := ⟨.hbm, 479, rfl⟩
abbrev main_v316 : Ref sig .tc := ⟨.hbm, 480, rfl⟩
abbrev main_v317 : Ref sig .tc := ⟨.hbm, 481, rfl⟩
abbrev main_v318 : Ref sig .tc := ⟨.hbm, 482, rfl⟩
abbrev main_v319 : Ref sig .tc := ⟨.hbm, 483, rfl⟩
abbrev main_c_86 : Ref sig .tc := ⟨.hbm, 484, rfl⟩
abbrev main_v320 : Ref sig .tc := ⟨.hbm, 485, rfl⟩
abbrev main_v321 : Ref sig .tc := ⟨.hbm, 486, rfl⟩
abbrev main_c_87 : Ref sig .tc := ⟨.hbm, 487, rfl⟩
abbrev main_v322 : Ref sig .tc := ⟨.hbm, 488, rfl⟩
abbrev main_v323 : Ref sig .tc := ⟨.hbm, 489, rfl⟩
abbrev main_v324 : Ref sig .tc := ⟨.hbm, 490, rfl⟩
abbrev main_v325 : Ref sig .tc := ⟨.hbm, 491, rfl⟩
abbrev main_v326 : Ref sig .tc := ⟨.hbm, 492, rfl⟩
abbrev main_cst_88 : Ref sig .tc := ⟨.hbm, 493, rfl⟩
abbrev main_v327 : Ref sig .tc := ⟨.hbm, 494, rfl⟩
abbrev main_v328 : Ref sig .tc := ⟨.hbm, 495, rfl⟩
abbrev main_v329 : Ref sig .tc := ⟨.hbm, 496, rfl⟩
abbrev main_cst_89 : Ref sig .tc := ⟨.hbm, 497, rfl⟩
abbrev main_call23_v0 : Ref sig .tc := ⟨.hbm, 498, rfl⟩
abbrev main_call23_v1 : Ref sig .tc := ⟨.hbm, 499, rfl⟩
abbrev main_v330 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_v334 : Ref sig .tc := ⟨.hbm, 504, rfl⟩
abbrev main_cst_90 : Ref sig .tc := ⟨.hbm, 505, rfl⟩
abbrev main_v335 : Ref sig .tc := ⟨.hbm, 506, rfl⟩
abbrev main_cst_91 : Ref sig .tc := ⟨.hbm, 507, rfl⟩
abbrev main_v336 : Ref sig .tc := ⟨.hbm, 508, rfl⟩
abbrev main_v337 : Ref sig .tc := ⟨.hbm, 509, rfl⟩
abbrev main_v338 : Ref sig .tc := ⟨.hbm, 510, rfl⟩
abbrev main_cst_92 : Ref sig .tc := ⟨.hbm, 511, rfl⟩
abbrev main_v339 : Ref sig .tc := ⟨.hbm, 512, rfl⟩
abbrev main_v340 : Ref sig .tc := ⟨.hbm, 513, rfl⟩
abbrev main_v341 : Ref sig .tc := ⟨.hbm, 514, rfl⟩
abbrev main_cst_93 : Ref sig .tc := ⟨.hbm, 515, rfl⟩
abbrev main_call24_v0 : Ref sig .tc := ⟨.hbm, 516, rfl⟩
abbrev main_call24_v1 : Ref sig .tc := ⟨.hbm, 517, rfl⟩
abbrev main_v342 : Ref sig .tc := ⟨.hbm, 518, rfl⟩
abbrev main_v343 : Ref sig .tc := ⟨.hbm, 519, rfl⟩
abbrev main_v344 : Ref sig .tc := ⟨.hbm, 520, rfl⟩
abbrev main_v345 : Ref sig .tc := ⟨.hbm, 521, rfl⟩
abbrev main_v346 : Ref sig .tc := ⟨.hbm, 522, rfl⟩
abbrev main_c_94 : Ref sig .tc := ⟨.hbm, 523, rfl⟩
abbrev main_v347 : Ref sig .tc := ⟨.hbm, 524, rfl⟩
abbrev main_v348 : Ref sig .tc := ⟨.hbm, 525, rfl⟩
abbrev main_c_95 : Ref sig .tc := ⟨.hbm, 526, rfl⟩
abbrev main_v349 : Ref sig .tc := ⟨.hbm, 527, rfl⟩
abbrev main_v350 : Ref sig .tc := ⟨.hbm, 528, rfl⟩
abbrev main_v351 : Ref sig .tc := ⟨.hbm, 529, rfl⟩
abbrev main_v352 : Ref sig .tc := ⟨.hbm, 530, rfl⟩
abbrev main_v353 : Ref sig .tc := ⟨.hbm, 531, rfl⟩
abbrev main_cst_96 : Ref sig .tc := ⟨.hbm, 532, rfl⟩
abbrev main_v354 : Ref sig .tc := ⟨.hbm, 533, rfl⟩
abbrev main_v355 : Ref sig .tc := ⟨.hbm, 534, rfl⟩
abbrev main_v356 : Ref sig .tc := ⟨.hbm, 535, rfl⟩
abbrev main_cst_97 : Ref sig .tc := ⟨.hbm, 536, rfl⟩
abbrev main_call25_v0 : Ref sig .tc := ⟨.hbm, 537, rfl⟩
abbrev main_call25_v1 : Ref sig .tc := ⟨.hbm, 538, rfl⟩
abbrev main_v357 : Ref sig .tc := ⟨.hbm, 539, rfl⟩
abbrev main_v358 : Ref sig .tc := ⟨.hbm, 540, rfl⟩
abbrev main_v359 : Ref sig .tc := ⟨.hbm, 541, rfl⟩
abbrev main_v360 : Ref sig .tc := ⟨.hbm, 542, rfl⟩
abbrev main_v361 : Ref sig .tc := ⟨.hbm, 543, rfl⟩
abbrev main_v362 : Ref sig .tc := ⟨.hbm, 544, rfl⟩
abbrev main_v363 : Ref sig .tc := ⟨.hbm, 545, rfl⟩
abbrev main_cst_98 : Ref sig .tc := ⟨.hbm, 546, rfl⟩
abbrev main_v364 : Ref sig .tc := ⟨.hbm, 547, rfl⟩
abbrev main_cst_99 : Ref sig .tc := ⟨.hbm, 548, rfl⟩
abbrev main_v365 : Ref sig .tc := ⟨.hbm, 549, rfl⟩
abbrev main_v366 : Ref sig .tc := ⟨.hbm, 550, rfl⟩
abbrev main_v367 : Ref sig .tc := ⟨.hbm, 551, rfl⟩
abbrev main_cst_100 : Ref sig .tc := ⟨.hbm, 552, rfl⟩
abbrev main_v368 : Ref sig .tc := ⟨.hbm, 553, rfl⟩
abbrev main_v369 : Ref sig .tc := ⟨.hbm, 554, rfl⟩
abbrev main_v370 : Ref sig .tc := ⟨.hbm, 555, rfl⟩
abbrev main_cst_101 : Ref sig .tc := ⟨.hbm, 556, rfl⟩
abbrev main_call26_v0 : Ref sig .tc := ⟨.hbm, 557, rfl⟩
abbrev main_call26_v1 : Ref sig .tc := ⟨.hbm, 558, rfl⟩
abbrev main_v371 : Ref sig .tc := ⟨.hbm, 559, rfl⟩
abbrev main_v372 : Ref sig .tc := ⟨.hbm, 560, rfl⟩
abbrev main_v373 : Ref sig .tc := ⟨.hbm, 561, rfl⟩
abbrev main_v374 : Ref sig .tc := ⟨.hbm, 562, rfl⟩
abbrev main_v375 : Ref sig .tc := ⟨.hbm, 563, rfl⟩
abbrev main_c_102 : Ref sig .tc := ⟨.hbm, 564, rfl⟩
abbrev main_v376 : Ref sig .tc := ⟨.hbm, 565, rfl⟩
abbrev main_v377 : Ref sig .tc := ⟨.hbm, 566, rfl⟩
abbrev main_c_103 : Ref sig .tc := ⟨.hbm, 567, rfl⟩
abbrev main_v378 : Ref sig .tc := ⟨.hbm, 568, rfl⟩
abbrev main_v379 : Ref sig .tc := ⟨.hbm, 569, rfl⟩
abbrev main_v380 : Ref sig .tc := ⟨.hbm, 570, rfl⟩
abbrev main_v381 : Ref sig .tc := ⟨.hbm, 571, rfl⟩
abbrev main_v382 : Ref sig .tc := ⟨.hbm, 572, rfl⟩
abbrev main_cst_104 : Ref sig .tc := ⟨.hbm, 573, rfl⟩
abbrev main_v383 : Ref sig .tc := ⟨.hbm, 574, rfl⟩
abbrev main_v384 : Ref sig .tc := ⟨.hbm, 575, rfl⟩
abbrev main_v385 : Ref sig .tc := ⟨.hbm, 576, rfl⟩
abbrev main_cst_105 : Ref sig .tc := ⟨.hbm, 577, rfl⟩
abbrev main_call27_v0 : Ref sig .tc := ⟨.hbm, 578, rfl⟩
abbrev main_call27_v1 : Ref sig .tc := ⟨.hbm, 579, rfl⟩
abbrev main_v386 : Ref sig .tc := ⟨.hbm, 580, rfl⟩
abbrev main_v387 : Ref sig .tc := ⟨.hbm, 581, rfl⟩
abbrev main_v388 : Ref sig .tc := ⟨.hbm, 582, rfl⟩
abbrev main_v389 : Ref sig .tc := ⟨.hbm, 583, rfl⟩
abbrev main_v390 : Ref sig .tc := ⟨.hbm, 584, rfl⟩
abbrev main_cst_106 : Ref sig .tc := ⟨.hbm, 585, rfl⟩
abbrev main_v391 : Ref sig .tc := ⟨.hbm, 586, rfl⟩
abbrev main_cst_107 : Ref sig .tc := ⟨.hbm, 587, rfl⟩
abbrev main_v392 : Ref sig .tc := ⟨.hbm, 588, rfl⟩
abbrev main_v393 : Ref sig .tc := ⟨.hbm, 589, rfl⟩
abbrev main_v394 : Ref sig .tc := ⟨.hbm, 590, rfl⟩
abbrev main_cst_108 : Ref sig .tc := ⟨.hbm, 591, rfl⟩
abbrev main_v395 : Ref sig .tc := ⟨.hbm, 592, rfl⟩
abbrev main_v396 : Ref sig .tc := ⟨.hbm, 593, rfl⟩
abbrev main_v397 : Ref sig .tc := ⟨.hbm, 594, rfl⟩
abbrev main_cst_109 : Ref sig .tc := ⟨.hbm, 595, rfl⟩
abbrev main_call28_v0 : Ref sig .tc := ⟨.hbm, 596, rfl⟩
abbrev main_call28_v1 : Ref sig .tc := ⟨.hbm, 597, rfl⟩
abbrev main_v398 : Ref sig .tc := ⟨.hbm, 598, rfl⟩
abbrev main_v399 : Ref sig .tc := ⟨.hbm, 599, rfl⟩
abbrev main_v400 : Ref sig .tc := ⟨.hbm, 600, rfl⟩
abbrev main_v401 : Ref sig .tc := ⟨.hbm, 601, rfl⟩
abbrev main_v402 : Ref sig .tc := ⟨.hbm, 602, rfl⟩
abbrev main_c_110 : Ref sig .tc := ⟨.hbm, 603, rfl⟩
abbrev main_v403 : Ref sig .tc := ⟨.hbm, 604, rfl⟩
abbrev main_v404 : Ref sig .tc := ⟨.hbm, 605, rfl⟩
abbrev main_c_111 : Ref sig .tc := ⟨.hbm, 606, rfl⟩
abbrev main_v405 : Ref sig .tc := ⟨.hbm, 607, rfl⟩
abbrev main_v406 : Ref sig .tc := ⟨.hbm, 608, rfl⟩
abbrev main_v407 : Ref sig .tc := ⟨.hbm, 609, rfl⟩
abbrev main_v408 : Ref sig .tc := ⟨.hbm, 610, rfl⟩
abbrev main_v409 : Ref sig .tc := ⟨.hbm, 611, rfl⟩
abbrev main_cst_112 : Ref sig .tc := ⟨.hbm, 612, rfl⟩
abbrev main_v410 : Ref sig .tc := ⟨.hbm, 613, rfl⟩
abbrev main_v411 : Ref sig .tc := ⟨.hbm, 614, rfl⟩
abbrev main_v412 : Ref sig .tc := ⟨.hbm, 615, rfl⟩
abbrev main_cst_113 : Ref sig .tc := ⟨.hbm, 616, rfl⟩
abbrev main_call29_v0 : Ref sig .tc := ⟨.hbm, 617, rfl⟩
abbrev main_call29_v1 : Ref sig .tc := ⟨.hbm, 618, rfl⟩
abbrev main_v413 : Ref sig .tc := ⟨.hbm, 619, rfl⟩
abbrev main_v414 : Ref sig .tc := ⟨.hbm, 620, rfl⟩
abbrev main_v415 : Ref sig .tc := ⟨.hbm, 621, rfl⟩
abbrev main_v416 : Ref sig .tc := ⟨.hbm, 622, rfl⟩
abbrev main_v417 : Ref sig .tc := ⟨.hbm, 623, rfl⟩
abbrev main_v418 : Ref sig .tc := ⟨.hbm, 624, rfl⟩
abbrev main_v419 : Ref sig .tc := ⟨.hbm, 625, rfl⟩
abbrev main_cst_114 : Ref sig .tc := ⟨.hbm, 626, rfl⟩
abbrev main_v420 : Ref sig .tc := ⟨.hbm, 627, rfl⟩
abbrev main_cst_115 : Ref sig .tc := ⟨.hbm, 628, rfl⟩
abbrev main_v421 : Ref sig .tc := ⟨.hbm, 629, rfl⟩
abbrev main_v422 : Ref sig .tc := ⟨.hbm, 630, rfl⟩
abbrev main_v423 : Ref sig .tc := ⟨.hbm, 631, rfl⟩
abbrev main_cst_116 : Ref sig .tc := ⟨.hbm, 632, rfl⟩
abbrev main_v424 : Ref sig .tc := ⟨.hbm, 633, rfl⟩
abbrev main_v425 : Ref sig .tc := ⟨.hbm, 634, rfl⟩
abbrev main_v426 : Ref sig .tc := ⟨.hbm, 635, rfl⟩
abbrev main_cst_117 : Ref sig .tc := ⟨.hbm, 636, rfl⟩
abbrev main_call30_v0 : Ref sig .tc := ⟨.hbm, 637, rfl⟩
abbrev main_call30_v1 : Ref sig .tc := ⟨.hbm, 638, rfl⟩
abbrev main_v427 : Ref sig .tc := ⟨.hbm, 639, rfl⟩
abbrev main_v428 : Ref sig .tc := ⟨.hbm, 640, rfl⟩
abbrev main_v429 : Ref sig .tc := ⟨.hbm, 641, rfl⟩
abbrev main_v430 : Ref sig .tc := ⟨.hbm, 642, rfl⟩
abbrev main_v431 : Ref sig .tc := ⟨.hbm, 643, rfl⟩
abbrev main_c_118 : Ref sig .tc := ⟨.hbm, 644, rfl⟩
abbrev main_v432 : Ref sig .tc := ⟨.hbm, 645, rfl⟩
abbrev main_v433 : Ref sig .tc := ⟨.hbm, 646, rfl⟩
abbrev main_c_119 : Ref sig .tc := ⟨.hbm, 647, rfl⟩
abbrev main_v434 : Ref sig .tc := ⟨.hbm, 648, rfl⟩
abbrev main_v435 : Ref sig .tc := ⟨.hbm, 649, rfl⟩
abbrev main_v436 : Ref sig .tc := ⟨.hbm, 650, rfl⟩
abbrev main_v437 : Ref sig .tc := ⟨.hbm, 651, rfl⟩
abbrev main_v438 : Ref sig .tc := ⟨.hbm, 652, rfl⟩
abbrev main_cst_120 : Ref sig .tc := ⟨.hbm, 653, rfl⟩
abbrev main_v439 : Ref sig .tc := ⟨.hbm, 654, rfl⟩
abbrev main_v440 : Ref sig .tc := ⟨.hbm, 655, rfl⟩
abbrev main_v441 : Ref sig .tc := ⟨.hbm, 656, rfl⟩
abbrev main_cst_121 : Ref sig .tc := ⟨.hbm, 657, rfl⟩
abbrev main_call31_v0 : Ref sig .tc := ⟨.hbm, 658, rfl⟩
abbrev main_call31_v1 : Ref sig .tc := ⟨.hbm, 659, rfl⟩
abbrev main_v442 : Ref sig .tc := ⟨.hbm, 660, rfl⟩
abbrev main_v443 : Ref sig .tc := ⟨.hbm, 661, rfl⟩
abbrev main_v444 : Ref sig .tc := ⟨.hbm, 662, rfl⟩
abbrev main_v445 : Ref sig .tc := ⟨.hbm, 663, rfl⟩
abbrev main_v446 : Ref sig .tc := ⟨.hbm, 664, rfl⟩
abbrev main_cst_122 : Ref sig .tc := ⟨.hbm, 665, rfl⟩
abbrev main_v447 : Ref sig .tc := ⟨.hbm, 666, rfl⟩
abbrev main_cst_123 : Ref sig .tc := ⟨.hbm, 667, rfl⟩
abbrev main_v448 : Ref sig .tc := ⟨.hbm, 668, rfl⟩
abbrev main_v449 : Ref sig .tc := ⟨.hbm, 669, rfl⟩
abbrev main_v450 : Ref sig .tc := ⟨.hbm, 670, rfl⟩
abbrev main_cst_124 : Ref sig .tc := ⟨.hbm, 671, rfl⟩
abbrev main_v451 : Ref sig .tc := ⟨.hbm, 672, rfl⟩
abbrev main_v452 : Ref sig .tc := ⟨.hbm, 673, rfl⟩
abbrev main_v453 : Ref sig .tc := ⟨.hbm, 674, rfl⟩
abbrev main_cst_125 : Ref sig .tc := ⟨.hbm, 675, rfl⟩
abbrev main_call32_v0 : Ref sig .tc := ⟨.hbm, 676, rfl⟩
abbrev main_call32_v1 : Ref sig .tc := ⟨.hbm, 677, rfl⟩
abbrev main_v454 : Ref sig .tc := ⟨.hbm, 678, rfl⟩
abbrev main_v455 : Ref sig .tc := ⟨.hbm, 679, rfl⟩
abbrev main_v456 : Ref sig .tc := ⟨.hbm, 680, rfl⟩
abbrev main_v457 : Ref sig .tc := ⟨.hbm, 681, rfl⟩
abbrev main_v458 : Ref sig .tc := ⟨.hbm, 682, rfl⟩
abbrev main_c_126 : Ref sig .tc := ⟨.hbm, 683, rfl⟩
abbrev main_v459 : Ref sig .tc := ⟨.hbm, 684, rfl⟩
abbrev main_v460 : Ref sig .tc := ⟨.hbm, 685, rfl⟩
abbrev main_c_127 : Ref sig .tc := ⟨.hbm, 686, rfl⟩
abbrev main_v461 : Ref sig .tc := ⟨.hbm, 687, rfl⟩
abbrev main_v462 : Ref sig .tc := ⟨.hbm, 688, rfl⟩
abbrev main_v463 : Ref sig .tc := ⟨.hbm, 689, rfl⟩
abbrev main_v464 : Ref sig .tc := ⟨.hbm, 690, rfl⟩
abbrev main_v465 : Ref sig .tc := ⟨.hbm, 691, rfl⟩
abbrev main_cst_128 : Ref sig .tc := ⟨.hbm, 692, rfl⟩
abbrev main_v466 : Ref sig .tc := ⟨.hbm, 693, rfl⟩
abbrev main_v467 : Ref sig .tc := ⟨.hbm, 694, rfl⟩
abbrev main_v468 : Ref sig .tc := ⟨.hbm, 695, rfl⟩
abbrev main_cst_129 : Ref sig .tc := ⟨.hbm, 696, rfl⟩
abbrev main_call33_v0 : Ref sig .tc := ⟨.hbm, 697, rfl⟩
abbrev main_call33_v1 : Ref sig .tc := ⟨.hbm, 698, rfl⟩
abbrev main_v469 : Ref sig .tc := ⟨.hbm, 699, rfl⟩
abbrev main_v470 : Ref sig .tc := ⟨.hbm, 700, rfl⟩
abbrev main_v471 : Ref sig .tc := ⟨.hbm, 701, rfl⟩
abbrev main_v472 : Ref sig .tc := ⟨.hbm, 702, rfl⟩
abbrev main_v473 : Ref sig .tc := ⟨.hbm, 703, rfl⟩
abbrev main_v474 : Ref sig .tc := ⟨.hbm, 704, rfl⟩
abbrev main_v475 : Ref sig .tc := ⟨.hbm, 705, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S100000x32 : S_.BroadcastsInDim S100000x32 (![] : Fin 0 → Fin S100000x32.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.KernelRun.lean ====
/-
  The idealized kernel's run with its result named: every weakly fair execution of the program terminates, nothing
  faults, the result array ends at what the last boundary of the program's fold through its host operations and its
  eighteen regions holds there, and the eleven argument arrays end as launched. (The frame claim keeps only the
  arguments; the equality of values needs the result array too, which the same launch argument gives: the final
  thread state holds every unscoped buffer at the last boundary's contents.)
-/
import proofs.«143456_j27066883899969_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v244) = W38 m ρ c (Proc.devRef .tc main_v244)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h c =>
      ⟨h c _ (mem_uc main_v244 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c),
       (h c _ (mem_uc main_arg4 (by decide))).trans (W38_main_arg4 m ρ c),
       (h c _ (mem_uc main_arg5 (by decide))).trans (W38_main_arg5 m ρ c),
       (h c _ (mem_uc main_arg6 (by decide))).trans (W38_main_arg6 m ρ c),
       (h c _ (mem_uc main_arg7 (by decide))).trans (W38_main_arg7 m ρ c),
       (h c _ (mem_uc main_arg8 (by decide))).trans (W38_main_arg8 m ρ c),
       (h c _ (mem_uc main_arg9 (by decide))).trans (W38_main_arg9 m ρ c),
       (h c _ (mem_uc main_arg10 (by decide))).trans (W38_main_arg10 m ρ c)⟩)

end Cert.KernelIdeal.Run

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.LayerOps.lean ====
/-
  The two dense layers as whole-array functions over the 100000 nodes, index by index: `x · w + b` with `b` a single
  row, and the second layer `relu(((x − μ) · rsqrt(σ² + ε)) · γ + β) · w + b` with the statistics single rows.
-/
import proofs.«143456_j27066883899969_1_alg».proof.Proof.Gen.KernelIdeal
import Idealize.ShloMosaic.Lib.ValueIdx
import Idealize.ShloMosaic.PureOps.Ideal

noncomputable section

namespace Cert.KernelIdeal.LayerOps

open Cert.KernelIdeal Idealize.ShloMosaic Idealize.ShloMosaic.ValueIdx

/-- `x · w + b` at every index, `b` a single row. -/
def affine (x : S100000x128.Idx → EReal) (w : S128x32.Idx → EReal) (b : S1x32.Idx → EReal) : S100000x32.Idx → EReal :=
  fun i => (∑ c : Fin 128, x (ix2 (⟨(i 0).val, idx2_lt0 i⟩ : Fin 100000) c) * w (ix2 c (⟨(i 1).val, idx2_lt1 i⟩ : Fin 32)))
    + b (ix2 (0 : Fin 1) (⟨(i 1).val, idx2_lt1 i⟩ : Fin 32))

/-- One entry, normalised with the statistics, scaled, shifted, and its positive part taken. -/
def act (x mu v g b : EReal) : EReal :=
  max ((x - mu) * Ideal.rsqrt (v + Ideal.ofBits .f32 0x3727C5AC#32) * g + b) (Ideal.ofBits .f32 0x00000000#32)

/-- The second layer at every index. -/
def layer (x : S100000x32.Idx → EReal) (mu v g be : S1x32.Idx → EReal) (w : S32x32.Idx → EReal) (b : S1x32.Idx → EReal) :
    S100000x32.Idx → EReal :=
  fun i => (∑ c : Fin 32, act (x (ix2 (⟨(i 0).val, idx2_lt0 i⟩ : Fin 100000) c)) (mu (ix2 (0 : Fin 1) c)) (v (ix2 (0 : Fin 1) c))
        (g (ix2 (0 : Fin 1) c)) (be (ix2 (0 : Fin 1) c)) * w (ix2 c (⟨(i 1).val, idx2_lt1 i⟩ : Fin 32)))
    + b (ix2 (0 : Fin 1) (⟨(i 1).val, idx2_lt1 i⟩ : Fin 32))

end Cert.KernelIdeal.LayerOps

end
-- ==== Proof.Lin1.lean ====
/-
  The first linear layer's region: its output array as a whole-array function of its three input arrays.

  The region walks the 100000 rows in 50 blocks of 2000. At a block it reads 2000 rows of `x` (128 wide), the whole
  128×32 matrix `w` and the one row `b`, and writes `x · w + b` for those rows: the matrix unit's product into a zero
  accumulator (the change of float format on the way in is the identity on the extended reals), the row `b` repeated.
  So the output array is, at every index `(r, q)`, `∑ c, x (r, c) · w (c, q) + b (0, q)`.
-/
import proofs.«143456_j27066883899969_1_alg».proof.Proof.Gen.KernelIdeal.Frame
import proofs.«143456_j27066883899969_1_alg».proof.Proof.LibMatSum
import proofs.«143456_j27066883899969_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Lin1

open Cert.KernelIdeal Cert.KernelIdeal.Gen Idealize.ShloMosaic Idealize.ShloMosaic.TcCoe Idealize.SL.Sem
open Idealize.ShloMosaic.ValueIdx Cert.KernelIdeal.LayerOps
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- What the body stores, at an entry of the block. -/
theorem pay_apply (x0 : Vec Ideal S2000x128 .f32) (x1 : Vec Ideal S128x32 .f32) (x2 : Vec Ideal S1x32 .f32) (p : Fin 2000) (q : Fin 32) :
    k0_pay1 x0 x1 x2 (ix2 p q) = (∑ c : Fin 128, x0 (ix2 p c) * x1 (ix2 c q)) + x2 (ix2 (0 : Fin 1) q) := by
  show matmul (F := Ideal) dot_S2000x128_S128x32_S2000x32_1_0_0_1_n_n none (truncf .bf16 x0 bitsLt_bf16_f32) (truncf .bf16 x1 bitsLt_bf16_f32)
        (constant (F := Ideal) S2000x32 .f32 0x00000000#32) (ix2 p q)
      + broadcastTo S2000x32 (shapeCast S1x32 x2 shapeCasts_S1x32_S1x32) broadcasts_S1x32_S2000x32 (ix2 p q) = _
  rw [shapeCast_self, broadcastTo_1b_ab_apply]
  refine congrArg (· + x2 (ix2 (0 : Fin 1) q)) ?_
  exact MatSum.matmul_zero_entry dot_S2000x128_S128x32_S2000x32_1_0_0_1_n_n_wf none
    (truncf .bf16 x0 bitsLt_bf16_f32) (truncf .bf16 x1 bitsLt_bf16_f32) p q

/-- The index maps over the 50 points: the rows' and the output's block row is the point's number; the matrix and
    the bias row are read whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row below 50 is some point's. -/
theorem idx_onto : ∀ q0 : Fin 50, ∃ t : Fin cfg0.N, t.val = q0.val :=
  (by decide +kernel : ∀ q0 : Fin 50, ∃ t : Fin grid0.N, t.val = q0.val)

/-- What point `t` writes back is block `t` of `affine` of the input arrays. -/
theorem flushed_eq (c : Dev nD) (t : Fin cfg0.N) :
    (dat0 V c).flushed 3 t = ((cfg0.win 3).blk t).view.read (Elt Ideal)
      (affine (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin]
  simp only [View.ld_unit_zero (S := S2000x128) origin, View.ld_unit_zero (S := S128x32) origin, View.ld_unit_zero (S := S1x32) origin]
  obtain ⟨e00, e01, e10, e11, e20, e21, e30, e31⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk0 V c 0 t) (iblk0 V c 1 t) (iblk0 V c 2 t) p q).trans ?_
  show _ = affine _ _ _ (((cfg0.win 3).blk t).view.emb (ix2 p q))
  unfold affine
  have hb : ((cfg0.win 2).blk t).view.emb (ix2 (0 : Fin 1) q)
      = ix2 (0 : Fin 1) (⟨((((cfg0.win 3).blk t).view.emb (ix2 p q)) 1).val, idx2_lt1 _⟩ : Fin 32) := by
    funext a; apply Fin.ext
    match a with
    | ⟨0, _⟩ => show win0_2.index t (0 : Fin 2) * 1 + 1 * 0 = 0; omega
    | ⟨1, _⟩ => show win0_2.index t (1 : Fin 2) * 32 + 1 * q.val = win0_3.index t (1 : Fin 2) * 32 + 1 * q.val; omega
  refine congr (congrArg HAdd.hAdd (Finset.sum_congr rfl fun k _ => ?_)) ?_
  · have hx : ((cfg0.win 0).blk t).view.emb (ix2 p k)
        = ix2 (⟨((((cfg0.win 3).blk t).view.emb (ix2 p q)) 0).val, idx2_lt0 _⟩ : Fin 100000) k := by
      funext a; apply Fin.ext
      match a with
      | ⟨0, _⟩ => show win0_0.index t (0 : Fin 2) * 2000 + 1 * p.val = win0_3.index t (0 : Fin 2) * 2000 + 1 * p.val; omega
      | ⟨1, _⟩ => show win0_0.index t (1 : Fin 2) * 128 + 1 * k.val = k.val; omega
    have hw : ((cfg0.win 1).blk t).view.emb (ix2 k q)
        = ix2 k (⟨((((cfg0.win 3).blk t).view.emb (ix2 p q)) 1).val, idx2_lt1 _⟩ : Fin 32) := by
      funext a; apply Fin.ext
      match a with
      | ⟨0, _⟩ => show win0_1.index t (0 : Fin 2) * 128 + 1 * k.val = k.val; omega
      | ⟨1, _⟩ => show win0_1.index t (1 : Fin 2) * 32 + 1 * q.val = win0_3.index t (1 : Fin 2) * 32 + 1 * q.val; omega
    exact congr (congrArg (HMul.hMul : EReal → EReal → EReal) (congrArg (V c (Pipeline.arrRef spec0 0)) hx)) (congrArg (V c (Pipeline.arrRef spec0 1)) hw)
  · exact congrArg (V c (Pipeline.arrRef spec0 2)) hb

/-- An index is in point `t`'s block of the output iff each coordinate is in the block's range. -/
theorem mem_blk (t : Fin cfg0.N) (i : S100000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole (Pipeline.arrRef spec0 3)).slice (win0_3.rect t)).set ↔ _
  rw [View.set_slice_whole, Rect.mem_set_unit]
  exact Iff.rfl

/-- Row `r` lies in the block of point `r / 2000`: the 50 blocks cover the output. -/
theorem cover (i : S100000x32.Idx) : ∃ t : Fin cfg0.N, (cfg0.win 3).flush t = true ∧ i ∈ ((cfg0.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 32 ≤ (i 1).val ∧ (i 1).val < win0_3.index t (1 : Fin 2) * 32 + 32; omega

/-- The output array after the region: `affine` of the input arrays as the region finds them. -/
theorem final (c : Dev nD) : (dat0 V c).arrAt 3 cfg0.N
    = affine (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Lin1

end
-- ==== Proof.Layer2.lean ====
/-
  The second region — batch normalisation with given statistics, the positive part, the second linear layer —: its
  output array as a whole-array function of its seven input arrays.

  The region walks the 100000 rows in 50 blocks of 2000. At a block it reads 2000 rows of `x` (32 wide), the four
  single rows `μ`, `σ²`, `γ`, `β`, the whole 32×32 matrix `w` and the single row `b`, and writes
  `relu(((x − μ) · rsqrt(σ² + ε)) · γ + β) · w + b` for those rows, the single rows repeated down the block, the product
  the matrix unit's into a zero accumulator. So the output array is, at every index `(r, q)`,
  `∑ c, act (x (r, c)) (μ c) (σ² c) (γ c) (β c) · w (c, q) + b (0, q)` with `act` the normalised, clipped entry.
-/
import proofs.«143456_j27066883899969_1_alg».proof.Proof.Gen.KernelIdeal.Frame
import proofs.«143456_j27066883899969_1_alg».proof.Proof.LibMatSum
import proofs.«143456_j27066883899969_1_alg».proof.Proof.LayerOps
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx Cert.KernelIdeal.LayerOps
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block of activations the body feeds the matrix unit. -/
def pre (x0 : Vec Ideal S2000x32 .f32) (x1 x2 x3 x4 : Vec Ideal S1x32 .f32) : FVec Ideal S2000x32 .f32 :=
  maximumf
    (addf
      (mulf
        (mulf
          (subf (shapeCast S2000x32 x0 shapeCasts_S2000x32_S2000x32)
            (broadcastTo S2000x32 (shapeCast S1x32 x1 shapeCasts_S1x32_S1x32) broadcasts_S1x32_S2000x32))
          (broadcastTo S2000x32
            (rsqrt (addf (shapeCast S1x32 x2 shapeCasts_S1x32_S1x32) (broadcast S1x32 (Scalar.ofBits .f32 0x3727C5AC#32))))
            broadcasts_S1x32_S2000x32))
        (broadcastTo S2000x32 (shapeCast S1x32 x3 shapeCasts_S1x32_S1x32) broadcasts_S1x32_S2000x32))
      (broadcastTo S2000x32 (shapeCast S1x32 x4 shapeCasts_S1x32_S1x32) broadcasts_S1x32_S2000x32))
    (broadcast S2000x32 (Scalar.ofBits .f32 0x00000000#32))

/-- An activation of the block is `act` of the entries it depends on. -/
theorem pre_apply (x0 : Vec Ideal S2000x32 .f32) (x1 x2 x3 x4 : Vec Ideal S1x32 .f32) (p : Fin 2000) (c : Fin 32) :
    pre x0 x1 x2 x3 x4 (ix2 p c)
      = act (x0 (ix2 p c)) (x1 (ix2 (0 : Fin 1) c)) (x2 (ix2 (0 : Fin 1) c)) (x3 (ix2 (0 : Fin 1) c)) (x4 (ix2 (0 : Fin 1) c)) := by
  simp only [pre, maximumf_apply, addf_apply, mulf_apply, subf_apply, shapeCast_self, broadcastTo_1b_ab_apply, broadcast_apply]
  rfl

/-- What the body stores, at an entry of the block. -/
theorem pay_apply (x0 : Vec Ideal S2000x32 .f32) (x1 x2 x3 x4 : Vec Ideal S1x32 .f32) (x5 : Vec Ideal S32x32 .f32)
    (x6 : Vec Ideal S1x32 .f32) (p : Fin 2000) (q : Fin 32) :
    k1_pay1 x0 x1 x2 x3 x4 x5 x6 (ix2 p q)
      = (∑ c : Fin 32, act (x0 (ix2 p c)) (x1 (ix2 (0 : Fin 1) c)) (x2 (ix2 (0 : Fin 1) c)) (x3 (ix2 (0 : Fin 1) c))
          (x4 (ix2 (0 : Fin 1) c)) * x5 (ix2 c q)) + x6 (ix2 (0 : Fin 1) q) := by
  show matmul (F := Ideal) dot_S2000x32_S32x32_S2000x32_1_0_0_1_n_n none (truncf .bf16 (pre x0 x1 x2 x3 x4) bitsLt_bf16_f32)
        (truncf .bf16 x5 bitsLt_bf16_f32) (constant (F := Ideal) S2000x32 .f32 0x00000000#32) (ix2 p q)
      + broadcastTo S2000x32 (shapeCast S1x32 x6 shapeCasts_S1x32_S1x32) broadcasts_S1x32_S2000x32 (ix2 p q) = _
  rw [shapeCast_self, broadcastTo_1b_ab_apply]
  refine congrArg (· + x6 (ix2 (0 : Fin 1) q)) ?_
  refine (MatSum.matmul_zero_entry dot_S2000x32_S32x32_S2000x32_1_0_0_1_n_n_wf none
    (truncf .bf16 (pre x0 x1 x2 x3 x4) bitsLt_bf16_f32) (truncf .bf16 x5 bitsLt_bf16_f32) p q).trans ?_
  refine Finset.sum_congr rfl fun c _ => ?_
  show pre x0 x1 x2 x3 x4 (ix2 p c) * x5 (ix2 c q) = _
  rw [pre_apply]

/-- The index maps over the 50 points: the rows' and the output's block row is the point's number; the statistics, the
    matrix and the bias row are read whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Every block row below 50 is some point's. -/
theorem idx_onto : ∀ q0 : Fin 50, ∃ t : Fin cfg1.N, t.val = q0.val :=
  (by decide +kernel : ∀ q0 : Fin 50, ∃ t : Fin grid1.N, t.val = q0.val)

set_option maxHeartbeats 1600000 in
/-- What point `t` writes back is block `t` of `layer` of the input arrays. -/
theorem flushed_eq (c : Dev nD) (t : Fin cfg1.N) :
    (dat1 V c).flushed 7 t = ((cfg1.win 7).blk t).view.read (Elt Ideal)
      (layer (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero origin]
  simp only [View.ld_unit_zero (S := S2000x32) origin, View.ld_unit_zero (S := S32x32) origin, View.ld_unit_zero (S := S1x32) origin]
  obtain ⟨e00, e01, e10, e11, e20, e21, e30, e31, e40, e41, e50, e51, e60, e61, e70, e71⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk1 V c 0 t) (iblk1 V c 1 t) (iblk1 V c 2 t) (iblk1 V c 3 t) (iblk1 V c 4 t) (iblk1 V c 5 t) (iblk1 V c 6 t) p q).trans ?_
  show _ = layer _ _ _ _ _ _ _ (((cfg1.win 7).blk t).view.emb (ix2 p q))
  unfold layer
  have hb : ((cfg1.win 6).blk t).view.emb (ix2 (0 : Fin 1) q)
      = ix2 (0 : Fin 1) (⟨((((cfg1.win 7).blk t).view.emb (ix2 p q)) 1).val, idx2_lt1 _⟩ : Fin 32) := by
    funext a; apply Fin.ext
    match a with
    | ⟨0, _⟩ => show win1_6.index t (0 : Fin 2) * 1 + 1 * 0 = 0; omega
    | ⟨1, _⟩ => show win1_6.index t (1 : Fin 2) * 32 + 1 * q.val = win1_7.index t (1 : Fin 2) * 32 + 1 * q.val; omega
  refine congr (congrArg HAdd.hAdd (Finset.sum_congr rfl fun k _ => ?_)) ?_
  · have hx : ((cfg1.win 0).blk t).view.emb (ix2 p k)
        = ix2 (⟨((((cfg1.win 7).blk t).view.emb (ix2 p q)) 0).val, idx2_lt0 _⟩ : Fin 100000) k := by
      funext a; apply Fin.ext
      match a with
      | ⟨0, _⟩ => show win1_0.index t (0 : Fin 2) * 2000 + 1 * p.val = win1_7.index t (0 : Fin 2) * 2000 + 1 * p.val; omega
      | ⟨1, _⟩ => show win1_0.index t (1 : Fin 2) * 32 + 1 * k.val = k.val; omega
    have hw : ((cfg1.win 5).blk t).view.emb (ix2 k q)
        = ix2 k (⟨((((cfg1.win 7).blk t).view.emb (ix2 p q)) 1).val, idx2_lt1 _⟩ : Fin 32) := by
      funext a; apply Fin.ext
      match a with
      | ⟨0, _⟩ => show win1_5.index t (0 : Fin 2) * 32 + 1 * k.val = k.val; omega
      | ⟨1, _⟩ => show win1_5.index t (1 : Fin 2) * 32 + 1 * q.val = win1_7.index t (1 : Fin 2) * 32 + 1 * q.val; omega
    have h1 : ((cfg1.win 1).blk t).view.emb (ix2 (0 : Fin 1) k) = ix2 (0 : Fin 1) k := by
      funext a; apply Fin.ext
      match a with
      | ⟨0, _⟩ => show win1_1.index t (0 : Fin 2) * 1 + 1 * 0 = 0; omega
      | ⟨1, _⟩ => show win1_1.index t (1 : Fin 2) * 32 + 1 * k.val = k.val; omega
    have h2 : ((cfg1.win 2).blk t).view.emb (ix2 (0 : Fin 1) k) = ix2 (0 : Fin 1) k := by
      funext a; apply Fin.ext
      match a with
      | ⟨0, _⟩ => show win1_2.index t (0 : Fin 2) * 1 + 1 * 0 = 0; omega
      | ⟨1, _⟩ => show win1_2.index t (1 : Fin 2) * 32 + 1 * k.val = k.val; omega
    have h3 : ((cfg1.win 3).blk t).view.emb (ix2 (0 : Fin 1) k) = ix2 (0 : Fin 1) k := by
      funext a; apply Fin.ext
      match a with
      | ⟨0, _⟩ => show win1_3.index t (0 : Fin 2) * 1 + 1 * 0 = 0; omega
      | ⟨1, _⟩ => show win1_3.index t (1 : Fin 2) * 32 + 1 * k.val = k.val; omega
    have h4 : ((cfg1.win 4).blk t).view.emb (ix2 (0 : Fin 1) k) = ix2 (0 : Fin 1) k := by
      funext a; apply Fin.ext
      match a with
      | ⟨0, _⟩ => show win1_4.index t (0 : Fin 2) * 1 + 1 * 0 = 0; omega
      | ⟨1, _⟩ => show win1_4.index t (1 : Fin 2) * 32 + 1 * k.val = k.val; omega
    exact congr (congrArg (HMul.hMul : EReal → EReal → EReal)
      (congr (congr (congr (congr (congrArg act (congrArg (V c (Pipeline.arrRef spec1 0)) hx)) (congrArg (V c (Pipeline.arrRef spec1 1)) h1)) (congrArg (V c (Pipeline.arrRef spec1 2)) h2)) (congrArg (V c (Pipeline.arrRef spec1 3)) h3)) (congrArg (V c (Pipeline.arrRef spec1 4)) h4)))
      (congrArg (V c (Pipeline.arrRef spec1 5)) hw)
  · exact congrArg (V c (Pipeline.arrRef spec1 6)) hb

/-- An index is in point `t`'s block of the output iff each coordinate is in the block's range. -/
theorem mem_blk (t : Fin cfg1.N) (i : S100000x32.Idx) :
    i ∈ ((cfg1.win 7).blk t).view.set ↔ ∀ a : Fin 2, win1_7.index t a * S2000x32.size a ≤ (i a).val ∧ (i a).val < win1_7.index t a * S2000x32.size a + S2000x32.size a := by
  show i ∈ ((View.whole (Pipeline.arrRef spec1 7)).slice (win1_7.rect t)).set ↔ _
  rw [View.set_slice_whole, Rect.mem_set_unit]
  exact Iff.rfl

/-- Row `r` lies in the block of point `r / 2000`: the 50 blocks cover the output. -/
theorem cover (i : S100000x32.Idx) : ∃ t : Fin cfg1.N, (cfg1.win 7).flush t = true ∧ i ∈ ((cfg1.win 7).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51, e60, e61, e70, e71⟩ := idx_facts t
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 32 ≤ (i 1).val ∧ (i 1).val < win1_7.index t (1 : Fin 2) * 32 + 32; omega

/-- The output array after the region: `layer` of the input arrays as the region finds them. -/
theorem final (c : Dev nD) : (dat1 V c).arrAt 7 cfg1.N
    = layer (V c (Pipeline.arrRef spec1 0)) (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6)) :=
  (dat1 V c).arrAt_eq_of_cover 7 _ (fun t _ => flushed_eq V c t) cover

end Cert.KernelIdeal.Layer2

end
-- ==== Proof.Spec.lean ====
/-
  The specification of the computation both programs perform, as one function of the argument arrays,
  written with the host operations of the reference in the reference's own order.

  A two-layer perceptron with batch normalisation over the 100000 nodes,
      x   = in_feat · W1 + b1,            μ = mean over nodes of x,   σ² = variance over nodes of x,
      ori = relu(((x − μ) · rsqrt(σ² + ε)) · γ + β) · W2 + b2,
  followed by eight propagation steps over two edge lists (positive and negative),
      h ← gconv h src dst − gconv h nsrc ndst + ori,
  where, for an edge list (s, d), with out-degree and in-degree counted by a scatter-add of ones,
      gconv h s d = (scatter-add over d of the rows (h · rsqrt(max 1 outdeg))[s]) · rsqrt(max 1 indeg).
  Every operation is the one the reference's program text applies; nothing is simplified.
-/
import proofs.«143456_j27066883899969_1_alg».proof.ReferenceIdeal

noncomputable section

namespace Cert.Spec

open Idealize.ShloMosaic Cert.ReferenceIdeal Cert.ReferenceIdeal.Facts₀

variable {F : FTy → Type} [FloatOps F] [Cert.ReferenceIdeal.Facts]

/-- A float array of shape `S`. -/
abbrev A (S : Shape) : Type := (⟨S, .f32⟩ : BufTy).Contents (Elt F)
/-- A 32-bit integer array of shape `S`. -/
abbrev I (S : Shape) : Type := (⟨S, .i32⟩ : BufTy).Contents (Elt F)

/-- A length-32 vector repeated along the node axis. -/
def row (v : A (F := F) S32) : A (F := F) S100000x32 :=
  broadcastInDim S100000x32 ![0, 1] bcast_S1x32_S100000x32_0_1 (broadcastInDim S1x32 ![1] bcast_S32_S1x32_1 v)

/-- A per-node scalar repeated along the feature axis. -/
def col (v : A (F := F) S100000) : A (F := F) S100000x32 :=
  broadcastInDim S100000x32 ![0, 1] bcast_S100000x1_S100000x32_0_1 (broadcastInDim S100000x1 ![0] bcast_S100000_S100000x1_0 v)

/-- The first linear layer: `x · w + b`. -/
def lin1 (x : A (F := F) S100000x128) (w : A (F := F) S128x32) (b : A (F := F) S32) : A (F := F) S100000x32 :=
  addf (Host.dotGeneral dot_S100000x128_S128x32_S100000x32_1_0_0_1_n_n none x w) (row b)

/-- The second linear layer: `x · w + b`. -/
def lin2 (x : A (F := F) S100000x32) (w : A (F := F) S32x32) (b : A (F := F) S32) : A (F := F) S100000x32 :=
  addf (Host.dotGeneral dot_S100000x32_S32x32_S100000x32_1_0_0_1_n_n none x w) (row b)

/-- The mean over the nodes, per feature: the sum divided by 100000. -/
def mean (x : A (F := F) S100000x32) : A (F := F) S32 :=
  Host.divf (Host.reduceAdd x (constant (F := F) S_ .f32 0x00000000#32) reducesTo_S100000x32_S32_d0 h_S_)
    (broadcastInDim S32 ![] bcast_S_S32 (constant (F := F) S_ .f32 0x47C35000#32))

/-- The variance over the nodes, per feature, with `ddof` delta degrees of freedom: the mean of the squared
    deviations from the mean, the divisor `100000 − ddof`, and not-a-number where that divisor is not positive. -/
def var (x : A (F := F) S100000x32) (ddof : I (F := F) S_) : A (F := F) S32 :=
  select
    (broadcastInDim S32 ![] bcast_S_S32
      (cmpf .ogt (subf (constant (F := F) S_ .f32 0x47C35000#32) (sitofp .f32 ddof)) (constant (F := F) S_ .f32 0x00000000#32)))
    (Host.divf
      (Host.reduceAdd
        (mulf
          (subf x (broadcastInDim S100000x32 ![0, 1] bcast_S1x32_S100000x32_0_1
            (Host.divf (broadcastInDim S1x32 ![1] bcast_S32_S1x32_1
                (Host.reduceAdd x (constant (F := F) S_ .f32 0x00000000#32) reducesTo_S100000x32_S32_d0 h_S_))
              (broadcastInDim S1x32 ![] bcast_S_S1x32 (constant (F := F) S_ .f32 0x47C35000#32)))))
          (subf x (broadcastInDim S100000x32 ![0, 1] bcast_S1x32_S100000x32_0_1
            (Host.divf (broadcastInDim S1x32 ![1] bcast_S32_S1x32_1
                (Host.reduceAdd x (constant (F := F) S_ .f32 0x00000000#32) reducesTo_S100000x32_S32_d0 h_S_))
              (broadcastInDim S1x32 ![] bcast_S_S1x32 (constant (F := F) S_ .f32 0x47C35000#32))))))
        (constant (F := F) S_ .f32 0x00000000#32) reducesTo_S100000x32_S32_d0 h_S_)
      (broadcastInDim S32 ![] bcast_S_S32 (subf (constant (F := F) S_ .f32 0x47C35000#32) (sitofp .f32 ddof))))
    (broadcastInDim S32 ![] bcast_S_S32 (constant (F := F) S_ .f32 0x7FC00000#32))

/-- Batch normalisation with given statistics: `((x − μ) · rsqrt(σ² + ε)) · γ + β`. -/
def bn (x : A (F := F) S100000x32) (mu sig2 gamma beta : A (F := F) S32) : A (F := F) S100000x32 :=
  addf (mulf (mulf (subf x (row mu))
      (row (Host.rsqrt (addf sig2 (broadcastInDim S32 ![] bcast_S_S32 (constant (F := F) S_ .f32 0x3727C5AC#32))))))
    (row gamma)) (row beta)

/-- The positive part. -/
def relu (x : A (F := F) S100000x32) : A (F := F) S100000x32 :=
  maximumf x (broadcastInDim S100000x32 ![] bcast_S_S100000x32 (constant (F := F) S_ .f32 0x00000000#32))

/-- The perceptron's output, the residual every propagation step adds. -/
def ori (x : A (F := F) S100000x128) (w1 : A (F := F) S128x32) (b1 gamma beta : A (F := F) S32)
    (w2 : A (F := F) S32x32) (b2 : A (F := F) S32) : A (F := F) S100000x32 :=
  lin2 (relu (bn (lin1 x w1 b1) (mean (lin1 x w1 b1)) (var (lin1 x w1 b1) (constantI S_ 32 0#32)) gamma beta)) w2 b2

/-- An edge list's endpoints as a column of indices. -/
def idxCol (e : I (F := F) S3200000) : (⟨S3200000x1, .i32⟩ : BufTy).Contents (Elt F) :=
  broadcastInDim S3200000x1 ![0] bcast_S3200000_S3200000x1_0 e

/-- The degree normaliser of one endpoint list: `rsqrt(max 1 deg)`, the degree a scatter-add of ones. -/
def norm (e : I (F := F) S3200000) : A (F := F) S100000 :=
  Host.rsqrt (maximumf (broadcastInDim S100000 ![] bcast_S_S100000 (constant (F := F) S_ .f32 0x3F800000#32))
    (Host.scatterAdd scatter_S100000_S3200000x1_S3200000_n_0_0_1
      (broadcastInDim S100000 ![] bcast_S_S100000 (constant (F := F) S_ .f32 0x00000000#32)) (idxCol e)
      (broadcastInDim S3200000 ![] bcast_S_S3200000 (constant (F := F) S_ .f32 0x3F800000#32))))

/-- A negative index counted from the end, as array indexing does. -/
def wrapIdx (e : I (F := F) S3200000) : I (F := F) S3200000 :=
  select (cmpi .slt e (broadcastInDim S3200000 ![] bcast_S_S3200000 (constantI S_ 32 0#32)))
    (addi e (broadcastInDim S3200000 ![] bcast_S_S3200000 (constantI S_ 32 100000#32))) e

/-- Gather the rows at the sources, add them up at the destinations. -/
def spmm (hs : A (F := F) S100000x32) (s d : I (F := F) S3200000) : A (F := F) S100000x32 :=
  Host.scatterAdd scatter_S100000x32_S3200000x1_S3200000x32_1_0_0_1
    (broadcastInDim S100000x32 ![] bcast_S_S100000x32 (constant (F := F) S_ .f32 0x00000000#32)) (idxCol d)
    (Host.gather gather_S100000x32_S3200000x1_S3200000x32_1_0_n_n_0_1_132 hs (idxCol (wrapIdx s)))

/-- One normalised graph convolution over the edge list `(s, d)`. -/
def gconv (h : A (F := F) S100000x32) (s d : I (F := F) S3200000) : A (F := F) S100000x32 :=
  mulf (spmm (mulf h (col (norm s))) s d) (col (norm d))

/-- One propagation step. -/
def step (o : A (F := F) S100000x32) (s d ns nd : I (F := F) S3200000) (h : A (F := F) S100000x32) : A (F := F) S100000x32 :=
  addf (subf (gconv h s d) (gconv h ns nd)) o

/-- The whole computation: the perceptron, then eight propagation steps from its output. -/
def ref (x : A (F := F) S100000x128) (w1 : A (F := F) S128x32) (b1 gamma beta : A (F := F) S32)
    (w2 : A (F := F) S32x32) (b2 : A (F := F) S32) (s d ns nd : I (F := F) S3200000) : A (F := F) S100000x32 :=
  step (ori x w1 b1 gamma beta w2 b2) s d ns nd (step (ori x w1 b1 gamma beta w2 b2) s d ns nd
  (step (ori x w1 b1 gamma beta w2 b2) s d ns nd (step (ori x w1 b1 gamma beta w2 b2) s d ns nd
  (step (ori x w1 b1 gamma beta w2 b2) s d ns nd (step (ori x w1 b1 gamma beta w2 b2) s d ns nd
  (step (ori x w1 b1 gamma beta w2 b2) s d ns nd (step (ori x w1 b1 gamma beta w2 b2) s d ns nd
    (ori x w1 b1 gamma beta w2 b2))))))))

end Cert.Spec

end
-- ==== Proof.RowOps.lean ====
/-
  Two whole-array functions over the 100000 nodes, and how they read at an index: every row of a 32-wide array times
  that row's entry of a one-column array, and the combination `ap · dp − an · dn + o` of two aggregates, two
  one-column arrays and a residual. Both regions of a propagation step compute blocks of these.
-/
import proofs.«143456_j27066883899969_1_alg».proof.Proof.Gen.KernelIdeal
import Idealize.ShloMosaic.Lib.Pipeline.Value
import Idealize.ShloMosaic.Lib.ValueIdx
import Idealize.ShloMosaic.Lib.ValueLayout

noncomputable section

namespace Cert.KernelIdeal.RowOps

open Cert.KernelIdeal Cert.KernelIdeal.Gen Idealize.ShloMosaic Idealize.ShloMosaic.ValueIdx

theorem origin : (![0, 0] : Fin 2 → Nat) = fun _ => 0 := funext fun a => by fin_cases a <;> rfl

/-- The row of a one-column array that an index of the wide array names. -/
def rowOf (i : S100000x32.Idx) : S100000x1.Idx := ix2 (⟨(i 0).val, idx2_lt0 i⟩ : Fin 100000) (0 : Fin 1)

/-- Any index of a one-column array that names the same row is `rowOf`. -/
theorem rowOf_eq (i : S100000x32.Idx) (k : S100000x1.Idx) (hk : (k 0).val = (i 0).val) : rowOf i = k := by
  funext a; apply Fin.ext
  match a with
  | ⟨0, _⟩ => exact hk.symm
  | ⟨1, _⟩ => show 0 = (k 1).val; have := idx2_lt1 k; omega

/-- Every row of `h` times that row's entry of the one-column array `n`. -/
def scaleRows (h : S100000x32.Idx → EReal) (n : S100000x1.Idx → EReal) : S100000x32.Idx → EReal :=
  fun i => h i * n (rowOf i)

/-- `ap · dp − an · dn + o`, the columns `dp`, `dn` repeated along the features. -/
def combine (ap an : S100000x32.Idx → EReal) (dp dn : S100000x1.Idx → EReal) (o : S100000x32.Idx → EReal) : S100000x32.Idx → EReal :=
  fun i => ap i * dp (rowOf i) - an i * dn (rowOf i) + o i

/-- A 2000-row column block repeated along the features reads, at `(p, q)`, the block's row `p`. -/
theorem colBlock_apply (x : Vec Ideal S2000x1 .f32) (p : Fin 2000) (q : Fin 32) :
    broadcastTo S2000x32 x broadcasts_S2000x1_S2000x32 (ix2 p q) = x (ix2 p (0 : Fin 1)) := by
  refine broadcastTo_apply x broadcasts_S2000x1_S2000x32 (ix2 p q) (ix2 p (0 : Fin 1)) fun ax => ?_
  match ax with
  | ⟨0, _⟩ => rfl
  | ⟨1, _⟩ => rfl

end Cert.KernelIdeal.RowOps

end
-- ==== Proof.Bridge.lean ====
/-
  The kernel's four blockwise functions are the specification's whole-array functions.

  Read at an index `(r, q)`: a row repeated over the nodes is its entry `q`, a per-node scalar repeated over the features is
  its entry `r`, a matrix product is the sum over the contracted coordinate. With those readings
  * `x · w + b` with `b` recast as a single row is the first linear layer;
  * the second region's function of the recast statistics is `lin2 (relu (bn …))`;
  * every row times the recast per-node scalar is the product with that scalar repeated over the features;
  * the combination of two aggregates, two recast per-node scalars and the residual is `ap · dp − an · dn + o`.
  A maximum does not depend on the order of its arguments, which is the one law used: the kernel's program takes
  `max deg 1` where the reference takes `max 1 deg`.
-/
import proofs.«143456_j27066883899969_1_alg».proof.Proof.Spec
import proofs.«143456_j27066883899969_1_alg».proof.Proof.RowOps
import proofs.«143456_j27066883899969_1_alg».proof.Proof.LayerOps
import proofs.«143456_j27066883899969_1_alg».proof.Proof.LibMatSum
import proofs.«143456_j27066883899969_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx Cert.ReferenceIdeal Cert.ReferenceIdeal.Gen
open Cert.KernelIdeal.RowOps Cert.KernelIdeal.LayerOps

/-- A float array at the ideal values. -/
abbrev A (S : Shape) : Type := Cert.Spec.A (F := Ideal) S

/-! ## The specification's broadcasts and products at an index -/

/-- A scalar constant repeated over any shape reads its value everywhere. -/
theorem splat_apply {S : Shape} (h : S_.BroadcastsInDim S (![] : Fin 0 → Fin S.rank)) (w : BitVec 32) (i : S.Idx) :
    broadcastInDim S ![] h (constant (F := Ideal) S_ .f32 w) i = Ideal.ofBits .f32 w :=
  broadcastInDim_apply ![] h (constant (F := Ideal) S_ .f32 w) i ix0 (fun a => a.elim0)

/-- A length-32 vector repeated along the nodes reads, at `(r, q)`, its entry `q`. -/
theorem row_apply (v : A S32) (r : Fin 100000) (q : Fin 32) : Cert.Spec.row v (ix2 r q) = v (ix1 q) := by
  unfold Cert.Spec.row
  refine (broadcastInDim_apply ![0, 1] bcast_S1x32_S100000x32_0_1 _ (ix2 r q) (ix2 (0 : Fin 1) q) fun a => ?_).trans ?_
  · match a with
    | ⟨0, _⟩ => rfl
    | ⟨1, _⟩ => rfl
  · refine broadcastInDim_apply ![1] bcast_S32_S1x32_1 v (ix2 (0 : Fin 1) q) (ix1 q) fun a => ?_
    match a with
    | ⟨0, _⟩ => rfl

/-- A per-node scalar repeated along the features reads, at `(r, q)`, its entry `r`. -/
theorem col_apply (v : A S100000) (r : Fin 100000) (q : Fin 32) : Cert.Spec.col v (ix2 r q) = v (ix1 r) := by
  unfold Cert.Spec.col
  refine (broadcastInDim_apply ![0, 1] bcast_S100000x1_S100000x32_0_1 _ (ix2 r q) (ix2 r (0 : Fin 1)) fun a => ?_).trans ?_
  · match a with
    | ⟨0, _⟩ => rfl
    | ⟨1, _⟩ => rfl
  · refine broadcastInDim_apply ![0] bcast_S100000_S100000x1_0 v (ix2 r (0 : Fin 1)) (ix1 r) fun a => ?_
    match a with
    | ⟨0, _⟩ => rfl

/-- The first linear layer at an index. -/
theorem lin1_apply (x : A S100000x128) (w : A S128x32) (b : A S32) (r : Fin 100000) (q : Fin 32) :
    Cert.Spec.lin1 x w b (ix2 r q) = (∑ c : Fin 128, x (ix2 r c) * w (ix2 c q)) + b (ix1 q) := by
  show Host.dotGeneral (F := Ideal) dot_S100000x128_S128x32_S100000x32_1_0_0_1_n_n none x w (ix2 r q) + Cert.Spec.row b (ix2 r q) = _
  exact congr (congrArg HAdd.hAdd (MatSum.dotGeneral_entry dot_S100000x128_S128x32_S100000x32_1_0_0_1_n_n_wf none x w r q)) (row_apply b r q)

/-- The second linear layer at an index. -/
theorem lin2_apply (x : A S100000x32) (w : A S32x32) (b : A S32) (r : Fin 100000) (q : Fin 32) :
    Cert.Spec.lin2 x w b (ix2 r q) = (∑ c : Fin 32, x (ix2 r c) * w (ix2 c q)) + b (ix1 q) := by
  show Host.dotGeneral (F := Ideal) dot_S100000x32_S32x32_S100000x32_1_0_0_1_n_n none x w (ix2 r q) + Cert.Spec.row b (ix2 r q) = _
  exact congr (congrArg HAdd.hAdd (MatSum.dotGeneral_entry dot_S100000x32_S32x32_S100000x32_1_0_0_1_n_n_wf none x w r q)) (row_apply b r q)

/-- The normalised, clipped activation at an index. -/
theorem relu_bn_apply (x : A S100000x32) (mu v g be : A S32) (r : Fin 100000) (c : Fin 32) :
    Cert.Spec.relu (Cert.Spec.bn x mu v g be) (ix2 r c) = act (x (ix2 r c)) (mu (ix1 c)) (v (ix1 c)) (g (ix1 c)) (be (ix1 c)) := by
  show max ((x (ix2 r c) - Cert.Spec.row mu (ix2 r c))
        * Cert.Spec.row (Host.rsqrt (addf v (broadcastInDim S32 ![] bcast_S_S32 (constant (F := Ideal) S_ .f32 0x3727C5AC#32)))) (ix2 r c)
        * Cert.Spec.row g (ix2 r c) + Cert.Spec.row be (ix2 r c))
      (broadcastInDim S100000x32 ![] bcast_S_S100000x32 (constant (F := Ideal) S_ .f32 0x00000000#32) (ix2 r c)) = _
  rw [row_apply, row_apply, row_apply, row_apply, splat_apply]
  show max ((x (ix2 r c) - mu (ix1 c))
        * Ideal.rsqrt (v (ix1 c) + broadcastInDim S32 ![] bcast_S_S32 (constant (F := Ideal) S_ .f32 0x3727C5AC#32) (ix1 c))
        * g (ix1 c) + be (ix1 c)) _ = _
  rw [splat_apply]
  rfl

/-! ## Recasts at an index -/

/-- A length-`n` vector recast as one column reads, at `(r, 0)`, its entry `r`. -/
theorem column_apply {n : ℕ} (x : (⟨1, ![n]⟩ : Shape).Idx → EReal) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-! ## The four blockwise functions -/

/-- `x · w + b`, `b` recast as a single row, is the first linear layer. -/
theorem affine_eq (x : A S100000x128) (w : A S128x32) (b : A S32) (h : S32.ShapeCasts S1x32) :
    affine x w (shapeCast S1x32 b h) = Cert.Spec.lin1 x w b := by
  funext i
  obtain ⟨r, q, rfl⟩ : ∃ (r : Fin 100000) (q : Fin 32), i = ix2 r q := ⟨i 0, i 1, eq_ix2 i⟩
  rw [lin1_apply]
  show (∑ c : Fin 128, x (ix2 r c) * w (ix2 c q)) + shapeCast S1x32 b h (ix2 (0 : Fin 1) q) = _
  rw [shapeCast_a_1a_apply]

/-- The second region's function of the recast statistics is the normalisation, the positive part and the second
    linear layer. -/
theorem layer_eq (x : A S100000x32) (mu v g be : A S32) (w : A S32x32) (b : A S32) (h : S32.ShapeCasts S1x32) :
    layer x (shapeCast S1x32 mu h) (shapeCast S1x32 v h) (shapeCast S1x32 g h) (shapeCast S1x32 be h) w (shapeCast S1x32 b h)
      = Cert.Spec.lin2 (Cert.Spec.relu (Cert.Spec.bn x mu v g be)) w b := by
  funext i
  obtain ⟨r, q, rfl⟩ : ∃ (r : Fin 100000) (q : Fin 32), i = ix2 r q := ⟨i 0, i 1, eq_ix2 i⟩
  rw [lin2_apply]
  show (∑ c : Fin 32, act (x (ix2 r c)) (shapeCast S1x32 mu h (ix2 (0 : Fin 1) c)) (shapeCast S1x32 v h (ix2 (0 : Fin 1) c))
        (shapeCast S1x32 g h (ix2 (0 : Fin 1) c)) (shapeCast S1x32 be h (ix2 (0 : Fin 1) c)) * w (ix2 c q))
      + shapeCast S1x32 b h (ix2 (0 : Fin 1) q) = _
  rw [shapeCast_a_1a_apply]
  refine congrArg (· + b (ix1 q)) (Finset.sum_congr rfl fun c _ => ?_)
  rw [shapeCast_a_1a_apply, shapeCast_a_1a_apply, shapeCast_a_1a_apply, shapeCast_a_1a_apply, relu_bn_apply]

/-- Every row times the recast per-node scalar is the product with the scalar repeated over the features. -/
theorem scaleRows_eq (hh : A S100000x32) (n : A S100000) (h : S100000.ShapeCasts S100000x1) :
    scaleRows hh (shapeCast S100000x1 n h) = mulf hh (Cert.Spec.col n) := by
  funext i
  obtain ⟨r, q, rfl⟩ : ∃ (r : Fin 100000) (q : Fin 32), i = ix2 r q := ⟨i 0, i 1, eq_ix2 i⟩
  show hh (ix2 r q) * shapeCast S100000x1 n h (ix2 r (0 : Fin 1)) = hh (ix2 r q) * Cert.Spec.col n (ix2 r q)
  rw [column_apply, col_apply]

/-- The combination of two aggregates, two recast per-node scalars and the residual. -/
theorem combine_eq (ap an : A S100000x32) (dp dn : A S100000) (o : A S100000x32) (h : S100000.ShapeCasts S100000x1) :
    combine ap an (shapeCast S100000x1 dp h) (shapeCast S100000x1 dn h) o
      = addf (subf (mulf ap (Cert.Spec.col dp)) (mulf an (Cert.Spec.col dn))) o := by
  funext i
  obtain ⟨r, q, rfl⟩ : ∃ (r : Fin 100000) (q : Fin 32), i = ix2 r q := ⟨i 0, i 1, eq_ix2 i⟩
  show ap (ix2 r q) * shapeCast S100000x1 dp h (ix2 r (0 : Fin 1)) - an (ix2 r q) * shapeCast S100000x1 dn h (ix2 r (0 : Fin 1)) + o (ix2 r q)
    = ap (ix2 r q) * Cert.Spec.col dp (ix2 r q) - an (ix2 r q) * Cert.Spec.col dn (ix2 r q) + o (ix2 r q)
  rw [column_apply, column_apply, col_apply, col_apply]

/-- One propagation step: the combination of the two aggregates of the scaled features is the specification's step. -/
theorem step_eq (H O : A S100000x32) (s d ns nd : Cert.Spec.I (F := Ideal) S3200000) (h : S100000.ShapeCasts S100000x1) :
    combine (Cert.Spec.spmm (scaleRows H (shapeCast S100000x1 (Cert.Spec.norm s) h)) s d)
        (Cert.Spec.spmm (scaleRows H (shapeCast S100000x1 (Cert.Spec.norm ns) h)) ns nd)
        (shapeCast S100000x1 (Cert.Spec.norm d) h) (shapeCast S100000x1 (Cert.Spec.norm nd) h) O
      = Cert.Spec.step O s d ns nd H := by
  rw [scaleRows_eq, scaleRows_eq, combine_eq]
  rfl

/-- The kernel's program clips the degree from below as `max deg 1`, the reference as `max 1 deg`: one function. -/
theorem maximumf_comm {S : Shape} (a b : FVec Ideal S .f32) : maximumf a b = maximumf b a := by
  funext i
  show max (a i) (b i) = max (b i) (a i)
  exact max_comm _ _

end Cert.Bridge

end
-- ==== Proof.HostA.lean ====
/-
  The host operations around the two dense layers, read over any contents of the buffers they take:
  before the first region the bias is recast as a single row; between the two regions the mean and the variance of the
  first layer's output over the nodes are taken (the same operations as the reference's), and they, the scale, the
  shift and the second bias are recast as single rows; before the first propagation step the four degree
  normalisers `rsqrt (max deg 1)` are taken, the degree a scatter-add of ones over an endpoint list — the
  specification's `norm`, the maximum's arguments the other way round — and the two out-degree ones recast as columns.
-/
import proofs.«143456_j27066883899969_1_alg».proof.Proof.Gen.KernelIdeal.Launch
import proofs.«143456_j27066883899969_1_alg».proof.Proof.Spec
import proofs.«143456_j27066883899969_1_alg».proof.Proof.Bridge
import proofs.«143456_j27066883899969_1_alg».proof.Proof.Gen.ReferenceIdeal
import Idealize.ShloMosaic.Lib.StableHlo.Run

set_option maxRecDepth 16384

noncomputable section

namespace Cert.KernelIdeal.HostA

open Cert.KernelIdeal Cert.KernelIdeal.Gen Idealize.ShloMosaic Idealize.ShloMosaic.TcCoe Idealize.SL.Sem Idealize.ShloMosaic.StableHlo

variable (V : Valuation τ sig (Elt Ideal))

/-- The first bias as a single row. -/
theorem bias1 : after hostOps0 V (Proc.devRef .tc main_v0) = shapeCast S1x32 (V (Proc.devRef .tc main_arg2)) shapeCasts_S32_S1x32 := by
  first | (after_results; rfl) | after_results

attribute [local irreducible] Host.reduceAdd in
/-- The mean over the nodes. -/
theorem mean : after hostOps1 V (Proc.devRef .tc main_v4) = Cert.Spec.mean (F := Ideal) (V (Proc.devRef .tc main_v1)) := by
  first | (after_results; rfl) | after_results

/-- The variance's delta degrees of freedom: none. -/
theorem ddof : after hostOps1 V (Proc.devRef .tc main_c) = constantI S_ 32 0#32 := by
  first | (after_results; rfl) | after_results

attribute [local irreducible] Host.reduceAdd in
/-- The variance over the nodes. -/
theorem var : after hostOps1_1 V (Proc.devRef .tc main_v5)
    = Cert.Spec.var (F := Ideal) (V (Proc.devRef .tc main_v1)) (V (Proc.devRef .tc main_c)) := by
  first | (after_results_simp; rfl) | after_results_simp

/-- The five single rows the second region reads. -/
theorem rowMean : after hostOps1_2 V (Proc.devRef .tc main_v6) = shapeCast S1x32 (V (Proc.devRef .tc main_v4)) shapeCasts_S32_S1x32 := by
  first | (after_results; rfl) | after_results
theorem rowVar : after hostOps1_2 V (Proc.devRef .tc main_v7) = shapeCast S1x32 (V (Proc.devRef .tc main_v5)) shapeCasts_S32_S1x32 := by
  first | (after_results; rfl) | after_results
theorem rowGamma : after hostOps1_2 V (Proc.devRef .tc main_v8) = shapeCast S1x32 (V (Proc.devRef .tc main_arg3)) shapeCasts_S32_S1x32 := by
  first | (after_results; rfl) | after_results
theorem rowBeta : after hostOps1_2 V (Proc.devRef .tc main_v9) = shapeCast S1x32 (V (Proc.devRef .tc main_arg4)) shapeCasts_S32_S1x32 := by
  first | (after_results; rfl) | after_results
theorem rowBias2 : after hostOps1_2 V (Proc.devRef .tc main_v10) = shapeCast S1x32 (V (Proc.devRef .tc main_arg6)) shapeCasts_S32_S1x32 := by
  first | (after_results; rfl) | after_results

/-- The kernel's normaliser of an endpoint list, `rsqrt (max deg 1)`, is the specification's. -/
theorem norm_eq (e : Cert.Spec.I (F := Ideal) Cert.ReferenceIdeal.S3200000) :
    Host.rsqrt (maximumf
        (Host.scatterAdd scatter_S100000_S3200000x1_S3200000_n_0_0_1
          (broadcastInDim S100000 ![] bcast_S_S100000 (constant (F := Ideal) S_ .f32 0x00000000#32))
          (broadcastInDim S3200000x1 ![0] bcast_S3200000_S3200000x1_0 e)
          (broadcastInDim S3200000 ![] bcast_S_S3200000 (constant (F := Ideal) S_ .f32 0x3F800000#32)))
        (broadcastInDim S100000 ![] bcast_S_S100000 (constant (F := Ideal) S_ .f32 0x3F800000#32)))
      = Cert.Spec.norm (F := Ideal) e :=
  congrArg Host.rsqrt (Cert.Bridge.maximumf_comm _ _)

attribute [local irreducible] Host.scatterAdd in
theorem normSrc : after hostOps2 V (Proc.devRef .tc main_v27) = Cert.Spec.norm (F := Ideal) (V (Proc.devRef .tc main_arg7)) := by
  after_results_simp; exact norm_eq _
attribute [local irreducible] Host.scatterAdd in
theorem normDst : after hostOps2 V (Proc.devRef .tc main_v30) = Cert.Spec.norm (F := Ideal) (V (Proc.devRef .tc main_arg8)) := by
  after_results_simp; exact norm_eq _
attribute [local irreducible] Host.scatterAdd in
theorem normNSrc : after hostOps2 V (Proc.devRef .tc main_v33) = Cert.Spec.norm (F := Ideal) (V (Proc.devRef .tc main_arg9)) := by
  after_results_simp; exact norm_eq _
attribute [local irreducible] Host.scatterAdd in
theorem normNDst : after hostOps2 V (Proc.devRef .tc main_v36) = Cert.Spec.norm (F := Ideal) (V (Proc.devRef .tc main_arg10)) := by
  after_results_simp; exact norm_eq _
attribute [local irreducible] Host.scatterAdd in
theorem colSrc : after hostOps2 V (Proc.devRef .tc main_v37)
    = shapeCast S100000x1 (Cert.Spec.norm (F := Ideal) (V (Proc.devRef .tc main_arg7))) shapeCasts_S100000_S100000x1 := by
  after_results_simp; exact congrArg (fun x => shapeCast S100000x1 x shapeCasts_S100000_S100000x1) (norm_eq _)
attribute [local irreducible] Host.scatterAdd in
theorem colNSrc : after hostOps2 V (Proc.devRef .tc main_v38)
    = shapeCast S100000x1 (Cert.Spec.norm (F := Ideal) (V (Proc.devRef .tc main_arg9))) shapeCasts_S100000_S100000x1 := by
  after_results_simp; exact congrArg (fun x => shapeCast S100000x1 x shapeCasts_S100000_S100000x1) (norm_eq _)

end Cert.KernelIdeal.HostA

end
-- ==== Proof.Writes.lean ====
/-
  Which buffers each stretch of host operations between the regions writes: the result buffers of its operations,
  listed per stretch. A buffer outside a stretch's list keeps its contents across the stretch.
-/
import proofs.«143456_j27066883899969_1_alg».proof.Proof.Gen.KernelIdeal.Launch
import Idealize.ShloMosaic.Lib.StableHlo.Run

noncomputable section

namespace Cert.KernelIdeal.Writes

open Cert.KernelIdeal Cert.KernelIdeal.Gen Idealize.ShloMosaic Idealize.ShloMosaic.TcCoe Idealize.SL.Sem

variable {F : FTy → Type} [FloatOps F]

/-- The buffers the stretch hostOps0 writes. -/
def w_hostOps0 : List (Ref sig .tc) := [main_v0]
theorem hostOps0_writes : (hostOps0 : List (HloOp τ sig (Elt F))).Forall fun op => op.writes ⊆ ((w_hostOps0).map (Proc.devRef (τ := τ) .tc)).toFinset := by
  simp only [hostOps0, w_hostOps0, List.Forall, StableHlo.nullary_writes, StableHlo.unary_writes, StableHlo.binary_writes, StableHlo.ternary_writes, StableHlo.reshape_writes, Finset.singleton_subset_iff, List.mem_toFinset, List.mem_map]
  exact ⟨_, by decide, rfl⟩
/-- A buffer outside that list keeps its contents across the stretch hostOps0. -/
theorem hostOps0_keeps (V : Valuation τ sig (Elt F)) (r : Ref sig .tc) (hr : r ∉ w_hostOps0) :
    StableHlo.after hostOps0 V (Proc.devRef .tc r) = V (Proc.devRef .tc r) :=
  StableHlo.after_of_writes_sub hostOps0 V hostOps0_writes hr

/-- The buffers the stretch hostOps1 writes. -/
def w_hostOps1 : List (Ref sig .tc) := [main_cst, main_v2, main_cst_0, main_v3, main_v4, main_c]
theorem hostOps1_writes : (hostOps1 : List (HloOp τ sig (Elt F))).Forall fun op => op.writes ⊆ ((w_hostOps1).map (Proc.devRef (τ := τ) .tc)).toFinset := by
  simp only [hostOps1, w_hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps1. -/
theorem hostOps1_keeps (V : Valuation τ sig (Elt F)) (r : Ref sig .tc) (hr : r ∉ w_hostOps1) :
    StableHlo.after hostOps1 V (Proc.devRef .tc r) = V (Proc.devRef .tc r) :=
  StableHlo.after_of_writes_sub hostOps1 V hostOps1_writes hr

/-- The buffers the stretch hostOps1_1 writes. -/
def w_hostOps1_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v5]
theorem hostOps1_1_writes : (hostOps1_1 : List (HloOp τ sig (Elt F))).Forall fun op => op.writes ⊆ ((w_hostOps1_1).map (Proc.devRef (τ := τ) .tc)).toFinset := by
  simp only [hostOps1_1, w_hostOps1_1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps1_1. -/
theorem hostOps1_1_keeps (V : Valuation τ sig (Elt F)) (r : Ref sig .tc) (hr : r ∉ w_hostOps1_1) :
    StableHlo.after hostOps1_1 V (Proc.devRef .tc r) = V (Proc.devRef .tc r) :=
  StableHlo.after_of_writes_sub hostOps1_1 V hostOps1_1_writes hr

/-- The buffers the stretch hostOps1_2 writes. -/
def w_hostOps1_2 : List (Ref sig .tc) := [main_v6, main_v7, main_v8, main_v9, main_v10]
theorem hostOps1_2_writes : (hostOps1_2 : List (HloOp τ sig (Elt F))).Forall fun op => op.writes ⊆ ((w_hostOps1_2).map (Proc.devRef (τ := τ) .tc)).toFinset := by
  simp only [hostOps1_2, w_hostOps1_2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps1_2. -/
theorem hostOps1_2_keeps (V : Valuation τ sig (Elt F)) (r : Ref sig .tc) (hr : r ∉ w_hostOps1_2) :
    StableHlo.after hostOps1_2 V (Proc.devRef .tc r) = V (Proc.devRef .tc r) :=
  StableHlo.after_of_writes_sub hostOps1_2 V hostOps1_2_writes hr

/-- The buffers the stretch hostOps2 writes. -/
def w_hostOps2 : List (Ref sig .tc) := [main_cst_1, main_v12, main_cst_2, main_v13, main_v14, main_v15, main_cst_3, main_v16, main_v17, main_v18, main_cst_4, main_v19, main_v20, main_v21, main_cst_5, main_v22, main_v23, main_v24, main_cst_6, main_v25, main_v26, main_v27, main_cst_7, main_v28, main_v29, main_v30, main_cst_8, main_v31, main_v32, main_v33, main_cst_9, main_v34, main_v35, main_v36, main_v37, main_v38]
theorem hostOps2_writes : (hostOps2 : List (HloOp τ sig (Elt F))).Forall fun op => op.writes ⊆ ((w_hostOps2).map (Proc.devRef (τ := τ) .tc)).toFinset := by
  simp only [hostOps2, w_hostOps2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps2. -/
theorem hostOps2_keeps (V : Valuation τ sig (Elt F)) (r : Ref sig .tc) (hr : r ∉ w_hostOps2) :
    StableHlo.after hostOps2 V (Proc.devRef .tc r) = V (Proc.devRef .tc r) :=
  StableHlo.after_of_writes_sub hostOps2 V hostOps2_writes hr

/-- The buffers the stretch hostOps3 writes. -/
def w_hostOps3 : List (Ref sig .tc) := [main_c_10, main_v40, main_v41, main_c_11, main_v42, main_v43, main_v44, main_v45, main_v46, main_cst_12, main_v47, main_v48, main_v49, main_c_13, main_v50, main_v51, main_c_14, main_v52, main_v53, main_v54, main_v55, main_v56, main_cst_15, main_v57, main_v58, main_v59, main_v60, main_v61]
theorem hostOps3_writes : (hostOps3 : List (HloOp τ sig (Elt F))).Forall fun op => op.writes ⊆ ((w_hostOps3).map (Proc.devRef (τ := τ) .tc)).toFinset := by
  simp only [hostOps3, w_hostOps3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps3. -/
theorem hostOps3_keeps (V : Valuation τ sig (Elt F)) (r : Ref sig .tc) (hr : r ∉ w_hostOps3) :
    StableHlo.after hostOps3 V (Proc.devRef .tc r) = V (Proc.devRef .tc r) :=
  StableHlo.after_of_writes_sub hostOps3 V hostOps3_writes hr

/-- The buffers the stretch hostOps4 writes. -/
def w_hostOps4 : List (Ref sig .tc) := [main_v63, main_v64]
theorem hostOps4_writes : (hostOps4 : List (HloOp τ sig (Elt F))).Forall fun op => op.writes ⊆ ((w_hostOps4).map (Proc.devRef (τ := τ) .tc)).toFinset := by
  simp only [hostOps4, w_hostOps4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps4. -/
theorem hostOps4_keeps (V : Valuation τ sig (Elt F)) (r : Ref sig .tc) (hr : r ∉ w_hostOps4) :
    StableHlo.after hostOps4 V (Proc.devRef .tc r) = V (Proc.devRef .tc r) :=
  StableHlo.after_of_writes_sub hostOps4 V hostOps4_writes hr

/-- The buffers the stretch hostOps5 writes. -/
def w_hostOps5 : List (Ref sig .tc) := [main_c_16, main_v66, main_v67, main_c_17, main_v68, main_v69, main_v70, main_v71, main_v72, main_cst_18, main_v73, main_v74, main_v75, main_c_19, main_v76, main_v77, main_c_20, main_v78, main_v79, main_v80, main_v81, main_v82, main_cst_21, main_v83, main_v84, main_v85, main_v86, main_v87]
theorem hostOps5_writes : (hostOps5 : List (HloOp τ sig (Elt F))).Forall fun op => op.writes ⊆ ((w_hostOps5).map (Proc.devRef (τ := τ) .tc)).toFinset := by
  simp only [hostOps5, w_hostOps5, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps5. -/
theorem hostOps5_keeps (V : Valuation τ sig (Elt F)) (r : Ref sig .tc) (hr : r ∉ w_hostOps5) :
    StableHlo.after hostOps5 V (Proc.devRef .tc r) = V (Proc.devRef .tc r) :=
  StableHlo.after_of_writes_sub hostOps5 V hostOps5_writes hr

/-- The buffers the stretch hostOps6 writes. -/
def w_hostOps6 : List (Ref sig .tc) := [main_v89, main_v90]
theorem hostOps6_writes : (hostOps6 : List (HloOp τ sig (Elt F))).Forall fun op => op.writes ⊆ ((w_hostOps6).map (Proc.devRef (τ := τ) .tc)).toFinset := by
  simp only [hostOps6, w_hostOps6, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps6. -/
theorem hostOps6_keeps (V : Valuation τ sig (Elt F)) (r : Ref sig .tc) (hr : r ∉ w_hostOps6) :
    StableHlo.after hostOps6 V (Proc.devRef .tc r) = V (Proc.devRef .tc r) :=
  StableHlo.after_of_writes_sub hostOps6 V hostOps6_writes hr

/-- The buffers the stretch hostOps7 writes. -/
def w_hostOps7 : List (Ref sig .tc) := [main_c_22, main_v92, main_v93, main_c_23, main_v94, main_v95, main_v96, main_v97, main_v98, main_cst_24, main_v99, main_v100, main_v101, main_c_25, main_v102, main_v103, main_c_26, main_v104, main_v105, main_v106, main_v107, main_v108, main_cst_27, main_v109, main_v110, main_v111, main_v112, main_v113]
theorem hostOps7_writes : (hostOps7 : List (HloOp τ sig (Elt F))).Forall fun op => op.writes ⊆ ((w_hostOps7).map (Proc.devRef (τ := τ) .tc)).toFinset := by
  simp only [hostOps7, w_hostOps7, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps7. -/
theorem hostOps7_keeps (V : Valuation τ sig (Elt F)) (r : Ref sig .tc) (hr : r ∉ w_hostOps7) :
    StableHlo.after hostOps7 V (Proc.devRef .tc r) = V (Proc.devRef .tc r) :=
  StableHlo.after_of_writes_sub hostOps7 V hostOps7_writes hr

/-- The buffers the stretch hostOps8 writes. -/
def w_hostOps8 : List (Ref sig .tc) := [main_v115, main_v116]
theorem hostOps8_writes : (hostOps8 : List (HloOp τ sig (Elt F))).Forall fun op => op.writes ⊆ ((w_hostOps8).map (Proc.devRef (τ := τ) .tc)).toFinset := by
  simp only [hostOps8, w_hostOps8, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps8. -/
theorem hostOps8_keeps (V : Valuation τ sig (Elt F)) (r : Ref sig .tc) (hr : r ∉ w_hostOps8) :
    StableHlo.after hostOps8 V (Proc.devRef .tc r) = V (Proc.devRef .tc r) :=
  StableHlo.after_of_writes_sub hostOps8 V hostOps8_writes hr

/-- The buffers the stretch hostOps9 writes. -/
def w_hostOps9 : List (Ref sig .tc) := [main_c_28, main_v118, main_v119, main_c_29, main_v120, main_v121, main_v122, main_v123, main_v124, main_cst_30, main_v125, main_v126, main_v127, main_c_31, main_v128, main_v129, main_c_32, main_v130, main_v131, main_v132, main_v133, main_v134, main_cst_33, main_v135, main_v136, main_v137, main_v138, main_v139]
theorem hostOps9_writes : (hostOps9 : List (HloOp τ sig (Elt F))).Forall fun op => op.writes ⊆ ((w_hostOps9).map (Proc.devRef (τ := τ) .tc)).toFinset := by
  simp only [hostOps9, w_hostOps9, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps9. -/
theorem hostOps9_keeps (V : Valuation τ sig (Elt F)) (r : Ref sig .tc) (hr : r ∉ w_hostOps9) :
    StableHlo.after hostOps9 V (Proc.devRef .tc r) = V (Proc.devRef .tc r) :=
  StableHlo.after_of_writes_sub hostOps9 V hostOps9_writes hr

/-- The buffers the stretch hostOps10 writes. -/
def w_hostOps10 : List (Ref sig .tc) := [main_v141, main_v142]
theorem hostOps10_writes : (hostOps10 : List (HloOp τ sig (Elt F))).Forall fun op => op.writes ⊆ ((w_hostOps10).map (Proc.devRef (τ := τ) .tc)).toFinset := by
  simp only [hostOps10, w_hostOps10, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps10. -/
theorem hostOps10_keeps (V : Valuation τ sig (Elt F)) (r : Ref sig .tc) (hr : r ∉ w_hostOps10) :
    StableHlo.after hostOps10 V (Proc.devRef .tc r) = V (Proc.devRef .tc r) :=
  StableHlo.after_of_writes_sub hostOps10 V hostOps10_writes hr

/-- The buffers the stretch hostOps11 writes. -/
def w_hostOps11 : List (Ref sig .tc) := [main_c_34, main_v144, main_v145, main_c_35, main_v146, main_v147, main_v148, main_v149, main_v150, main_cst_36, main_v151, main_v152, main_v153, main_c_37, main_v154, main_v155, main_c_38, main_v156, main_v157, main_v158, main_v159, main_v160, main_cst_39, main_v161, main_v162, main_v163, main_v164, main_v165]
theorem hostOps11_writes : (hostOps11 : List (HloOp τ sig (Elt F))).Forall fun op => op.writes ⊆ ((w_hostOps11).map (Proc.devRef (τ := τ) .tc)).toFinset := by
  simp only [hostOps11, w_hostOps11, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps11. -/
theorem hostOps11_keeps (V : Valuation τ sig (Elt F)) (r : Ref sig .tc) (hr : r ∉ w_hostOps11) :
    StableHlo.after hostOps11 V (Proc.devRef .tc r) = V (Proc.devRef .tc r) :=
  StableHlo.after_of_writes_sub hostOps11 V hostOps11_writes hr

/-- The buffers the stretch hostOps12 writes. -/
def w_hostOps12 : List (Ref sig .tc) := [main_v167, main_v168]
theorem hostOps12_writes : (hostOps12 : List (HloOp τ sig (Elt F))).Forall fun op => op.writes ⊆ ((w_hostOps12).map (Proc.devRef (τ := τ) .tc)).toFinset := by
  simp only [hostOps12, w_hostOps12, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps12. -/
theorem hostOps12_keeps (V : Valuation τ sig (Elt F)) (r : Ref sig .tc) (hr : r ∉ w_hostOps12) :
    StableHlo.after hostOps12 V (Proc.devRef .tc r) = V (Proc.devRef .tc r) :=
  StableHlo.after_of_writes_sub hostOps12 V hostOps12_writes hr

/-- The buffers the stretch hostOps13 writes. -/
def w_hostOps13 : List (Ref sig .tc) := [main_c_40, main_v170, main_v171, main_c_41, main_v172, main_v173, main_v174, main_v175, main_v176, main_cst_42, main_v177, main_v178, main_v179, main_c_43, main_v180, main_v181, main_c_44, main_v182, main_v183, main_v184, main_v185, main_v186, main_cst_45, main_v187, main_v188, main_v189, main_v190, main_v191]
theorem hostOps13_writes : (hostOps13 : List (HloOp τ sig (Elt F))).Forall fun op => op.writes ⊆ ((w_hostOps13).map (Proc.devRef (τ := τ) .tc)).toFinset := by
  simp only [hostOps13, w_hostOps13, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps13. -/
theorem hostOps13_keeps (V : Valuation τ sig (Elt F)) (r : Ref sig .tc) (hr : r ∉ w_hostOps13) :
    StableHlo.after hostOps13 V (Proc.devRef .tc r) = V (Proc.devRef .tc r) :=
  StableHlo.after_of_writes_sub hostOps13 V hostOps13_writes hr

/-- The buffers the stretch hostOps14 writes. -/
def w_hostOps14 : List (Ref sig .tc) := [main_v193, main_v194]
theorem hostOps14_writes : (hostOps14 : List (HloOp τ sig (Elt F))).Forall fun op => op.writes ⊆ ((w_hostOps14).map (Proc.devRef (τ := τ) .tc)).toFinset := by
  simp only [hostOps14, w_hostOps14, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps14. -/
theorem hostOps14_keeps (V : Valuation τ sig (Elt F)) (r : Ref sig .tc) (hr : r ∉ w_hostOps14) :
    StableHlo.after hostOps14 V (Proc.devRef .tc r) = V (Proc.devRef .tc r) :=
  StableHlo.after_of_writes_sub hostOps14 V hostOps14_writes hr

/-- The buffers the stretch hostOps15 writes. -/
def w_hostOps15 : List (Ref sig .tc) := [main_c_46, main_v196, main_v197, main_c_47, main_v198, main_v199, main_v200, main_v201, main_v202, main_cst_48, main_v203, main_v204, main_v205, main_c_49, main_v206, main_v207, main_c_50, main_v208, main_v209, main_v210, main_v211, main_v212, main_cst_51, main_v213, main_v214, main_v215, main_v216, main_v217]
theorem hostOps15_writes : (hostOps15 : List (HloOp τ sig (Elt F))).Forall fun op => op.writes ⊆ ((w_hostOps15).map (Proc.devRef (τ := τ) .tc)).toFinset := by
  simp only [hostOps15, w_hostOps15, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps15. -/
theorem hostOps15_keeps (V : Valuation τ sig (Elt F)) (r : Ref sig .tc) (hr : r ∉ w_hostOps15) :
    StableHlo.after hostOps15 V (Proc.devRef .tc r) = V (Proc.devRef .tc r) :=
  StableHlo.after_of_writes_sub hostOps15 V hostOps15_writes hr

/-- The buffers the stretch hostOps16 writes. -/
def w_hostOps16 : List (Ref sig .tc) := [main_v219, main_v220]
theorem hostOps16_writes : (hostOps16 : List (HloOp τ sig (Elt F))).Forall fun op => op.writes ⊆ ((w_hostOps16).map (Proc.devRef (τ := τ) .tc)).toFinset := by
  simp only [hostOps16, w_hostOps16, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps16. -/
theorem hostOps16_keeps (V : Valuation τ sig (Elt F)) (r : Ref sig .tc) (hr : r ∉ w_hostOps16) :
    StableHlo.after hostOps16 V (Proc.devRef .tc r) = V (Proc.devRef .tc r) :=
  StableHlo.after_of_writes_sub hostOps16 V hostOps16_writes hr

/-- The buffers the stretch hostOps17 writes. -/
def w_hostOps17 : List (Ref sig .tc) := [main_c_52, main_v222, main_v223, main_c_53, main_v224, main_v225, main_v226, main_v227, main_v228, main_cst_54, main_v229, main_v230, main_v231, main_c_55, main_v232, main_v233, main_c_56, main_v234, main_v235, main_v236, main_v237, main_v238, main_cst_57, main_v239, main_v240, main_v241, main_v242, main_v243]
theorem hostOps17_writes : (hostOps17 : List (HloOp τ sig (Elt F))).Forall fun op => op.writes ⊆ ((w_hostOps17).map (Proc.devRef (τ := τ) .tc)).toFinset := by
  simp only [hostOps17, w_hostOps17, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer outside that list keeps its contents across the stretch hostOps17. -/
theorem hostOps17_keeps (V : Valuation τ sig (Elt F)) (r : Ref sig .tc) (hr : r ∉ w_hostOps17) :
    StableHlo.after hostOps17 V (Proc.devRef .tc r) = V (Proc.devRef .tc r) :=
  StableHlo.after_of_writes_sub hostOps17 V hostOps17_writes hr

end Cert.KernelIdeal.Writes

end
-- ==== Proof.Head.lean ====
/-
  The kernel's side up to the first propagation step, through the fold of the program's boundaries: the first region
  leaves the first linear layer of the inputs; the host takes its mean and variance over the nodes; the second region
  leaves the perceptron's output, the residual of every step; the host takes the four degree normalisers. The argument
  arrays are written by nothing and are carried along to where each is read.
-/
import proofs.«143456_j27066883899969_1_alg».proof.Proof.Gen.KernelIdeal.Frame
import proofs.«143456_j27066883899969_1_alg».proof.Proof.Lin1
import proofs.«143456_j27066883899969_1_alg».proof.Proof.Layer2
import proofs.«143456_j27066883899969_1_alg».proof.Proof.HostA
import proofs.«143456_j27066883899969_1_alg».proof.Proof.Writes
import proofs.«143456_j27066883899969_1_alg».proof.Proof.Bridge
import proofs.«143456_j27066883899969_1_alg».proof.Proof.Spec

set_option maxRecDepth 16384

noncomputable section

namespace Cert.KernelIdeal.Head

open Cert.KernelIdeal Cert.KernelIdeal.Gen Idealize.ShloMosaic Idealize.ShloMosaic.TcCoe Idealize.SL.Sem Idealize.ShloMosaic.StableHlo
open Cert.KernelIdeal.RowOps Cert.KernelIdeal.LayerOps Cert.KernelIdeal.Writes

variable (m : (ℓ : Loc nD τ sig) → Buf (Elt Ideal) ℓ) (ρ : Dev nD → PrngReg) (c : Dev nD)

theorem w0_arg0 : W0 m ρ c (Proc.devRef .tc main_arg0) = (m ((c : Thread nD τ).loc main_arg0)) := rfl
theorem w1_arg0 : W1 m ρ c (Proc.devRef .tc main_arg0) = (m ((c : Thread nD τ).loc main_arg0)) := (hostOps0_keeps _ main_arg0 (by decide)).trans (w0_arg0 m ρ c)
theorem w0_arg1 : W0 m ρ c (Proc.devRef .tc main_arg1) = (m ((c : Thread nD τ).loc main_arg1)) := rfl
theorem w1_arg1 : W1 m ρ c (Proc.devRef .tc main_arg1) = (m ((c : Thread nD τ).loc main_arg1)) := (hostOps0_keeps _ main_arg1 (by decide)).trans (w0_arg1 m ρ c)
theorem w0_arg2 : W0 m ρ c (Proc.devRef .tc main_arg2) = (m ((c : Thread nD τ).loc main_arg2)) := rfl
theorem w0_arg3 : W0 m ρ c (Proc.devRef .tc main_arg3) = (m ((c : Thread nD τ).loc main_arg3)) := rfl
theorem w1_arg3 : W1 m ρ c (Proc.devRef .tc main_arg3) = (m ((c : Thread nD τ).loc main_arg3)) := (hostOps0_keeps _ main_arg3 (by decide)).trans (w0_arg3 m ρ c)
theorem w2_arg3 : W2 m ρ c (Proc.devRef .tc main_arg3) = (m ((c : Thread nD τ).loc main_arg3)) := (W2_of_ne m ρ c main_arg3 (by decide)).trans (w1_arg3 m ρ c)
theorem w3_arg3 : W3 m ρ c (Proc.devRef .tc main_arg3) = (m ((c : Thread nD τ).loc main_arg3)) := (hostOps1_keeps _ main_arg3 (by decide)).trans (w2_arg3 m ρ c)
theorem w4_arg3 : W4 m ρ c (Proc.devRef .tc main_arg3) = (m ((c : Thread nD τ).loc main_arg3)) := (hostOps1_1_keeps _ main_arg3 (by decide)).trans (w3_arg3 m ρ c)
theorem w0_arg4 : W0 m ρ c (Proc.devRef .tc main_arg4) = (m ((c : Thread nD τ).loc main_arg4)) := rfl
theorem w1_arg4 : W1 m ρ c (Proc.devRef .tc main_arg4) = (m ((c : Thread nD τ).loc main_arg4)) := (hostOps0_keeps _ main_arg4 (by decide)).trans (w0_arg4 m ρ c)
theorem w2_arg4 : W2 m ρ c (Proc.devRef .tc main_arg4) = (m ((c : Thread nD τ).loc main_arg4)) := (W2_of_ne m ρ c main_arg4 (by decide)).trans (w1_arg4 m ρ c)
theorem w3_arg4 : W3 m ρ c (Proc.devRef .tc main_arg4) = (m ((c : Thread nD τ).loc main_arg4)) := (hostOps1_keeps _ main_arg4 (by decide)).trans (w2_arg4 m ρ c)
theorem w4_arg4 : W4 m ρ c (Proc.devRef .tc main_arg4) = (m ((c : Thread nD τ).loc main_arg4)) := (hostOps1_1_keeps _ main_arg4 (by decide)).trans (w3_arg4 m ρ c)
theorem w0_arg5 : W0 m ρ c (Proc.devRef .tc main_arg5) = (m ((c : Thread nD τ).loc main_arg5)) := rfl
theorem w1_arg5 : W1 m ρ c (Proc.devRef .tc main_arg5) = (m ((c : Thread nD τ).loc main_arg5)) := (hostOps0_keeps _ main_arg5 (by decide)).trans (w0_arg5 m ρ c)
theorem w2_arg5 : W2 m ρ c (Proc.devRef .tc main_arg5) = (m ((c : Thread nD τ).loc main_arg5)) := (W2_of_ne m ρ c main_arg5 (by decide)).trans (w1_arg5 m ρ c)
theorem w3_arg5 : W3 m ρ c (Proc.devRef .tc main_arg5) = (m ((c : Thread nD τ).loc main_arg5)) := (hostOps1_keeps _ main_arg5 (by decide)).trans (w2_arg5 m ρ c)
theorem w4_arg5 : W4 m ρ c (Proc.devRef .tc main_arg5) = (m ((c : Thread nD τ).loc main_arg5)) := (hostOps1_1_keeps _ main_arg5 (by decide)).trans (w3_arg5 m ρ c)
theorem w5_arg5 : W5 m ρ c (Proc.devRef .tc main_arg5) = (m ((c : Thread nD τ).loc main_arg5)) := (hostOps1_2_keeps _ main_arg5 (by decide)).trans (w4_arg5 m ρ c)
theorem w0_arg6 : W0 m ρ c (Proc.devRef .tc main_arg6) = (m ((c : Thread nD τ).loc main_arg6)) := rfl
theorem w1_arg6 : W1 m ρ c (Proc.devRef .tc main_arg6) = (m ((c : Thread nD τ).loc main_arg6)) := (hostOps0_keeps _ main_arg6 (by decide)).trans (w0_arg6 m ρ c)
theorem w2_arg6 : W2 m ρ c (Proc.devRef .tc main_arg6) = (m ((c : Thread nD τ).loc main_arg6)) := (W2_of_ne m ρ c main_arg6 (by decide)).trans (w1_arg6 m ρ c)
theorem w3_arg6 : W3 m ρ c (Proc.devRef .tc main_arg6) = (m ((c : Thread nD τ).loc main_arg6)) := (hostOps1_keeps _ main_arg6 (by decide)).trans (w2_arg6 m ρ c)
theorem w4_arg6 : W4 m ρ c (Proc.devRef .tc main_arg6) = (m ((c : Thread nD τ).loc main_arg6)) := (hostOps1_1_keeps _ main_arg6 (by decide)).trans (w3_arg6 m ρ c)
theorem w0_arg7 : W0 m ρ c (Proc.devRef .tc main_arg7) = (m ((c : Thread nD τ).loc main_arg7)) := rfl
theorem w1_arg7 : W1 m ρ c (Proc.devRef .tc main_arg7) = (m ((c : Thread nD τ).loc main_arg7)) := (hostOps0_keeps _ main_arg7 (by decide)).trans (w0_arg7 m ρ c)
theorem w2_arg7 : W2 m ρ c (Proc.devRef .tc main_arg7) = (m ((c : Thread nD τ).loc main_arg7)) := (W2_of_ne m ρ c main_arg7 (by decide)).trans (w1_arg7 m ρ c)
theorem w3_arg7 : W3 m ρ c (Proc.devRef .tc main_arg7) = (m ((c : Thread nD τ).loc main_arg7)) := (hostOps1_keeps _ main_arg7 (by decide)).trans (w2_arg7 m ρ c)
theorem w4_arg7 : W4 m ρ c (Proc.devRef .tc main_arg7) = (m ((c : Thread nD τ).loc main_arg7)) := (hostOps1_1_keeps _ main_arg7 (by decide)).trans (w3_arg7 m ρ c)
theorem w5_arg7 : W5 m ρ c (Proc.devRef .tc main_arg7) = (m ((c : Thread nD τ).loc main_arg7)) := (hostOps1_2_keeps _ main_arg7 (by decide)).trans (w4_arg7 m ρ c)
theorem w6_arg7 : W6 m ρ c (Proc.devRef .tc main_arg7) = (m ((c : Thread nD τ).loc main_arg7)) := (W6_of_ne m ρ c main_arg7 (by decide)).trans (w5_arg7 m ρ c)
theorem w7_arg7 : W7 m ρ c (Proc.devRef .tc main_arg7) = (m ((c : Thread nD τ).loc main_arg7)) := (hostOps2_keeps _ main_arg7 (by decide)).trans (w6_arg7 m ρ c)
theorem w0_arg8 : W0 m ρ c (Proc.devRef .tc main_arg8) = (m ((c : Thread nD τ).loc main_arg8)) := rfl
theorem w1_arg8 : W1 m ρ c (Proc.devRef .tc main_arg8) = (m ((c : Thread nD τ).loc main_arg8)) := (hostOps0_keeps _ main_arg8 (by decide)).trans (w0_arg8 m ρ c)
theorem w2_arg8 : W2 m ρ c (Proc.devRef .tc main_arg8) = (m ((c : Thread nD τ).loc main_arg8)) := (W2_of_ne m ρ c main_arg8 (by decide)).trans (w1_arg8 m ρ c)
theorem w3_arg8 : W3 m ρ c (Proc.devRef .tc main_arg8) = (m ((c : Thread nD τ).loc main_arg8)) := (hostOps1_keeps _ main_arg8 (by decide)).trans (w2_arg8 m ρ c)
theorem w4_arg8 : W4 m ρ c (Proc.devRef .tc main_arg8) = (m ((c : Thread nD τ).loc main_arg8)) := (hostOps1_1_keeps _ main_arg8 (by decide)).trans (w3_arg8 m ρ c)
theorem w5_arg8 : W5 m ρ c (Proc.devRef .tc main_arg8) = (m ((c : Thread nD τ).loc main_arg8)) := (hostOps1_2_keeps _ main_arg8 (by decide)).trans (w4_arg8 m ρ c)
theorem w6_arg8 : W6 m ρ c (Proc.devRef .tc main_arg8) = (m ((c : Thread nD τ).loc main_arg8)) := (W6_of_ne m ρ c main_arg8 (by decide)).trans (w5_arg8 m ρ c)
theorem w7_arg8 : W7 m ρ c (Proc.devRef .tc main_arg8) = (m ((c : Thread nD τ).loc main_arg8)) := (hostOps2_keeps _ main_arg8 (by decide)).trans (w6_arg8 m ρ c)
theorem w0_arg9 : W0 m ρ c (Proc.devRef .tc main_arg9) = (m ((c : Thread nD τ).loc main_arg9)) := rfl
theorem w1_arg9 : W1 m ρ c (Proc.devRef .tc main_arg9) = (m ((c : Thread nD τ).loc main_arg9)) := (hostOps0_keeps _ main_arg9 (by decide)).trans (w0_arg9 m ρ c)
theorem w2_arg9 : W2 m ρ c (Proc.devRef .tc main_arg9) = (m ((c : Thread nD τ).loc main_arg9)) := (W2_of_ne m ρ c main_arg9 (by decide)).trans (w1_arg9 m ρ c)
theorem w3_arg9 : W3 m ρ c (Proc.devRef .tc main_arg9) = (m ((c : Thread nD τ).loc main_arg9)) := (hostOps1_keeps _ main_arg9 (by decide)).trans (w2_arg9 m ρ c)
theorem w4_arg9 : W4 m ρ c (Proc.devRef .tc main_arg9) = (m ((c : Thread nD τ).loc main_arg9)) := (hostOps1_1_keeps _ main_arg9 (by decide)).trans (w3_arg9 m ρ c)
theorem w5_arg9 : W5 m ρ c (Proc.devRef .tc main_arg9) = (m ((c : Thread nD τ).loc main_arg9)) := (hostOps1_2_keeps _ main_arg9 (by decide)).trans (w4_arg9 m ρ c)
theorem w6_arg9 : W6 m ρ c (Proc.devRef .tc main_arg9) = (m ((c : Thread nD τ).loc main_arg9)) := (W6_of_ne m ρ c main_arg9 (by decide)).trans (w5_arg9 m ρ c)
theorem w7_arg9 : W7 m ρ c (Proc.devRef .tc main_arg9) = (m ((c : Thread nD τ).loc main_arg9)) := (hostOps2_keeps _ main_arg9 (by decide)).trans (w6_arg9 m ρ c)
theorem w0_arg10 : W0 m ρ c (Proc.devRef .tc main_arg10) = (m ((c : Thread nD τ).loc main_arg10)) := rfl
theorem w1_arg10 : W1 m ρ c (Proc.devRef .tc main_arg10) = (m ((c : Thread nD τ).loc main_arg10)) := (hostOps0_keeps _ main_arg10 (by decide)).trans (w0_arg10 m ρ c)
theorem w2_arg10 : W2 m ρ c (Proc.devRef .tc main_arg10) = (m ((c : Thread nD τ).loc main_arg10)) := (W2_of_ne m ρ c main_arg10 (by decide)).trans (w1_arg10 m ρ c)
theorem w3_arg10 : W3 m ρ c (Proc.devRef .tc main_arg10) = (m ((c : Thread nD τ).loc main_arg10)) := (hostOps1_keeps _ main_arg10 (by decide)).trans (w2_arg10 m ρ c)
theorem w4_arg10 : W4 m ρ c (Proc.devRef .tc main_arg10) = (m ((c : Thread nD τ).loc main_arg10)) := (hostOps1_1_keeps _ main_arg10 (by decide)).trans (w3_arg10 m ρ c)
theorem w5_arg10 : W5 m ρ c (Proc.devRef .tc main_arg10) = (m ((c : Thread nD τ).loc main_arg10)) := (hostOps1_2_keeps _ main_arg10 (by decide)).trans (w4_arg10 m ρ c)
theorem w6_arg10 : W6 m ρ c (Proc.devRef .tc main_arg10) = (m ((c : Thread nD τ).loc main_arg10)) := (W6_of_ne m ρ c main_arg10 (by decide)).trans (w5_arg10 m ρ c)
theorem w7_arg10 : W7 m ρ c (Proc.devRef .tc main_arg10) = (m ((c : Thread nD τ).loc main_arg10)) := (hostOps2_keeps _ main_arg10 (by decide)).trans (w6_arg10 m ρ c)

/-- The bias row the first region reads. -/
theorem w1_bias : W1 m ρ c (Proc.devRef .tc main_v0) = shapeCast S1x32 (m ((c : Thread nD τ).loc main_arg2)) shapeCasts_S32_S1x32 :=
  (HostA.bias1 _).trans (by rw [w0_arg2 m ρ c])
/-- After the first region: the first linear layer. -/
theorem w2_x : W2 m ρ c (Proc.devRef .tc main_v1) = Cert.Spec.lin1 (F := Ideal) (m ((c : Thread nD τ).loc main_arg0)) (m ((c : Thread nD τ).loc main_arg1)) (m ((c : Thread nD τ).loc main_arg2)) :=
  (W2_arr m ρ c 3).trans ((Lin1.final (V1 m ρ) c).trans (by
    rw [show V1 m ρ c (Pipeline.arrRef spec0 0) = _ from w1_arg0 m ρ c, show V1 m ρ c (Pipeline.arrRef spec0 1) = _ from w1_arg1 m ρ c,
      show V1 m ρ c (Pipeline.arrRef spec0 2) = _ from w1_bias m ρ c]
    exact Cert.Bridge.affine_eq _ _ _ _))
theorem w3_x : W3 m ρ c (Proc.devRef .tc main_v1) = Cert.Spec.lin1 (F := Ideal) (m ((c : Thread nD τ).loc main_arg0)) (m ((c : Thread nD τ).loc main_arg1)) (m ((c : Thread nD τ).loc main_arg2)) := (hostOps1_keeps _ main_v1 (by decide)).trans (w2_x m ρ c)
theorem w4_x : W4 m ρ c (Proc.devRef .tc main_v1) = Cert.Spec.lin1 (F := Ideal) (m ((c : Thread nD τ).loc main_arg0)) (m ((c : Thread nD τ).loc main_arg1)) (m ((c : Thread nD τ).loc main_arg2)) := (hostOps1_1_keeps _ main_v1 (by decide)).trans (w3_x m ρ c)
theorem w5_x : W5 m ρ c (Proc.devRef .tc main_v1) = Cert.Spec.lin1 (F := Ideal) (m ((c : Thread nD τ).loc main_arg0)) (m ((c : Thread nD τ).loc main_arg1)) (m ((c : Thread nD τ).loc main_arg2)) := (hostOps1_2_keeps _ main_v1 (by decide)).trans (w4_x m ρ c)
theorem w3_mean : W3 m ρ c (Proc.devRef .tc main_v4) = Cert.Spec.mean (F := Ideal) (Cert.Spec.lin1 (F := Ideal) (m ((c : Thread nD τ).loc main_arg0)) (m ((c : Thread nD τ).loc main_arg1)) (m ((c : Thread nD τ).loc main_arg2))) := (HostA.mean _).trans (by rw [w2_x m ρ c])
theorem w3_ddof : W3 m ρ c (Proc.devRef .tc main_c) = constantI S_ 32 0#32 := HostA.ddof _
theorem w4_mean : W4 m ρ c (Proc.devRef .tc main_v4) = Cert.Spec.mean (F := Ideal) (Cert.Spec.lin1 (F := Ideal) (m ((c : Thread nD τ).loc main_arg0)) (m ((c : Thread nD τ).loc main_arg1)) (m ((c : Thread nD τ).loc main_arg2))) := (hostOps1_1_keeps _ main_v4 (by decide)).trans (w3_mean m ρ c)
theorem w4_var : W4 m ρ c (Proc.devRef .tc main_v5) = Cert.Spec.var (F := Ideal) (Cert.Spec.lin1 (F := Ideal) (m ((c : Thread nD τ).loc main_arg0)) (m ((c : Thread nD τ).loc main_arg1)) (m ((c : Thread nD τ).loc main_arg2))) (constantI S_ 32 0#32) := (HostA.var _).trans (by rw [w3_x m ρ c, w3_ddof m ρ c])
theorem w5_mean : W5 m ρ c (Proc.devRef .tc main_v6) = shapeCast S1x32 (Cert.Spec.mean (F := Ideal) (Cert.Spec.lin1 (F := Ideal) (m ((c : Thread nD τ).loc main_arg0)) (m ((c : Thread nD τ).loc main_arg1)) (m ((c : Thread nD τ).loc main_arg2)))) shapeCasts_S32_S1x32 := (HostA.rowMean _).trans (by rw [w4_mean m ρ c])
theorem w5_var : W5 m ρ c (Proc.devRef .tc main_v7) = shapeCast S1x32 (Cert.Spec.var (F := Ideal) (Cert.Spec.lin1 (F := Ideal) (m ((c : Thread nD τ).loc main_arg0)) (m ((c : Thread nD τ).loc main_arg1)) (m ((c : Thread nD τ).loc main_arg2))) (constantI S_ 32 0#32)) shapeCasts_S32_S1x32 := (HostA.rowVar _).trans (by rw [w4_var m ρ c])
theorem w5_gamma : W5 m ρ c (Proc.devRef .tc main_v8) = shapeCast S1x32 (m ((c : Thread nD τ).loc main_arg3)) shapeCasts_S32_S1x32 := (HostA.rowGamma _).trans (by rw [w4_arg3 m ρ c])
theorem w5_beta : W5 m ρ c (Proc.devRef .tc main_v9) = shapeCast S1x32 (m ((c : Thread nD τ).loc main_arg4)) shapeCasts_S32_S1x32 := (HostA.rowBeta _).trans (by rw [w4_arg4 m ρ c])
theorem w5_bias : W5 m ρ c (Proc.devRef .tc main_v10) = shapeCast S1x32 (m ((c : Thread nD τ).loc main_arg6)) shapeCasts_S32_S1x32 := (HostA.rowBias2 _).trans (by rw [w4_arg6 m ρ c])
/-- After the second region: the perceptron's output. -/
theorem w6_ori : W6 m ρ c (Proc.devRef .tc main_v11) = Cert.Spec.ori (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W6_arr m ρ c 7).trans ((Layer2.final (V5 m ρ) c).trans (by
    rw [show V5 m ρ c (Pipeline.arrRef spec1 0) = _ from w5_x m ρ c, show V5 m ρ c (Pipeline.arrRef spec1 1) = _ from w5_mean m ρ c,
      show V5 m ρ c (Pipeline.arrRef spec1 2) = _ from w5_var m ρ c, show V5 m ρ c (Pipeline.arrRef spec1 3) = _ from w5_gamma m ρ c,
      show V5 m ρ c (Pipeline.arrRef spec1 4) = _ from w5_beta m ρ c, show V5 m ρ c (Pipeline.arrRef spec1 5) = _ from w5_arg5 m ρ c,
      show V5 m ρ c (Pipeline.arrRef spec1 6) = _ from w5_bias m ρ c]
    exact Cert.Bridge.layer_eq _ _ _ _ _ _ _ _))
theorem w7_ori : W7 m ρ c (Proc.devRef .tc main_v11) = Cert.Spec.ori (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (hostOps2_keeps _ main_v11 (by decide)).trans (w6_ori m ρ c)
theorem w7_main_v27 : W7 m ρ c (Proc.devRef .tc main_v27) = Cert.Spec.norm (F := Ideal) (m ((c : Thread nD τ).loc main_arg7)) := (HostA.normSrc _).trans (by rw [w6_arg7 m ρ c])
theorem w7_main_v30 : W7 m ρ c (Proc.devRef .tc main_v30) = Cert.Spec.norm (F := Ideal) (m ((c : Thread nD τ).loc main_arg8)) := (HostA.normDst _).trans (by rw [w6_arg8 m ρ c])
theorem w7_main_v33 : W7 m ρ c (Proc.devRef .tc main_v33) = Cert.Spec.norm (F := Ideal) (m ((c : Thread nD τ).loc main_arg9)) := (HostA.normNSrc _).trans (by rw [w6_arg9 m ρ c])
theorem w7_main_v36 : W7 m ρ c (Proc.devRef .tc main_v36) = Cert.Spec.norm (F := Ideal) (m ((c : Thread nD τ).loc main_arg10)) := (HostA.normNDst _).trans (by rw [w6_arg10 m ρ c])
theorem w7_colSrc : W7 m ρ c (Proc.devRef .tc main_v37) = shapeCast S100000x1 (Cert.Spec.norm (F := Ideal) (m ((c : Thread nD τ).loc main_arg7))) shapeCasts_S100000_S100000x1 := (HostA.colSrc _).trans (by rw [w6_arg7 m ρ c])
theorem w7_colNSrc : W7 m ρ c (Proc.devRef .tc main_v38) = shapeCast S100000x1 (Cert.Spec.norm (F := Ideal) (m ((c : Thread nD τ).loc main_arg9))) shapeCasts_S100000_S100000x1 := (HostA.colNSrc _).trans (by rw [w6_arg9 m ρ c])

end Cert.KernelIdeal.Head

end
-- ==== Proof.Scale2.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale2

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k2_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k2_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Every block row below 50 is some point's. -/
theorem idx_onto : ∀ q0 : Fin 50, ∃ t : Fin cfg2.N, t.val = q0.val :=
  (by decide +kernel : ∀ q0 : Fin 50, ∃ t : Fin grid2.N, t.val = q0.val)

/-- What point `t` writes back to the first output is block `t` of `scaleRows` of the rows and that column. -/
theorem flushedP_eq (c : Dev nD) (t : Fin cfg2.N) :
    (dat2 V c).flushed 3 t = ((cfg2.win 3).blk t).view.read (Elt Ideal) (scaleRows (V c (Pipeline.arrRef spec2 0)) (V c (Pipeline.arrRef spec2 1))) := by
  show (cfg2.win 3).cut (grid2.coords t) ((dat2 V c).after 3 t) = _
  rw [after2_3]
  unfold out2_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk2 V c 0 t) (iblk2 V c 1 t) p q).trans ?_
  have h0 : ((cfg2.win 0).blk t).view.emb (ix2 p q) = ((cfg2.win 3).blk t).view.emb (ix2 p q) := by
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 32 + 1 * q.val = win2_3.index t (1 : Fin 2) * 32 + 1 * q.val; omega
  have h1 : rowOf (((cfg2.win 3).blk t).view.emb (ix2 p q)) = ((cfg2.win 1).blk t).view.emb (ix2 p (0 : Fin 1)) :=
    rowOf_eq _ _ (by show win2_1.index t (0 : Fin 2) * 2000 + 1 * p.val = win2_3.index t (0 : Fin 2) * 2000 + 1 * p.val; omega)
  show _ = scaleRows _ _ (((cfg2.win 3).blk t).view.emb (ix2 p q))
  unfold scaleRows
  exact congr (congrArg (HMul.hMul : EReal → EReal → EReal) (congrArg (V c (Pipeline.arrRef spec2 0)) h0))
    (congrArg (V c (Pipeline.arrRef spec2 1)) h1.symm)

/-- What point `t` writes back to the second output is block `t` of `scaleRows` of the rows and that column. -/
theorem flushedN_eq (c : Dev nD) (t : Fin cfg2.N) :
    (dat2 V c).flushed 4 t = ((cfg2.win 4).blk t).view.read (Elt Ideal) (scaleRows (V c (Pipeline.arrRef spec2 0)) (V c (Pipeline.arrRef spec2 2))) := by
  show (cfg2.win 4).cut (grid2.coords t) ((dat2 V c).after 4 t) = _
  rw [after2_4]
  unfold out2_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk2 V c 0 t) (iblk2 V c 2 t) p q).trans ?_
  have h0 : ((cfg2.win 0).blk t).view.emb (ix2 p q) = ((cfg2.win 4).blk t).view.emb (ix2 p q) := by
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 32 + 1 * q.val = win2_4.index t (1 : Fin 2) * 32 + 1 * q.val; omega
  have h1 : rowOf (((cfg2.win 4).blk t).view.emb (ix2 p q)) = ((cfg2.win 2).blk t).view.emb (ix2 p (0 : Fin 1)) :=
    rowOf_eq _ _ (by show win2_2.index t (0 : Fin 2) * 2000 + 1 * p.val = win2_4.index t (0 : Fin 2) * 2000 + 1 * p.val; omega)
  show _ = scaleRows _ _ (((cfg2.win 4).blk t).view.emb (ix2 p q))
  unfold scaleRows
  exact congr (congrArg (HMul.hMul : EReal → EReal → EReal) (congrArg (V c (Pipeline.arrRef spec2 0)) h0))
    (congrArg (V c (Pipeline.arrRef spec2 2)) h1.symm)

/-- An index is in point `t`'s block of the first output iff each coordinate is in the block's range. -/
theorem mem_blkP (t : Fin cfg2.N) (i : S100000x32.Idx) :
    i ∈ ((cfg2.win 3).blk t).view.set ↔ ∀ a : Fin 2, win2_3.index t a * S2000x32.size a ≤ (i a).val ∧ (i a).val < win2_3.index t a * S2000x32.size a + S2000x32.size a := by
  show i ∈ ((View.whole (Pipeline.arrRef spec2 3)).slice (win2_3.rect t)).set ↔ _
  rw [View.set_slice_whole, Rect.mem_set_unit]
  exact Iff.rfl

/-- The same for the second output. -/
theorem mem_blkN (t : Fin cfg2.N) (i : S100000x32.Idx) :
    i ∈ ((cfg2.win 4).blk t).view.set ↔ ∀ a : Fin 2, win2_4.index t a * S2000x32.size a ≤ (i a).val ∧ (i a).val < win2_4.index t a * S2000x32.size a + S2000x32.size a := by
  show i ∈ ((View.whole (Pipeline.arrRef spec2 4)).slice (win2_4.rect t)).set ↔ _
  rw [View.set_slice_whole, Rect.mem_set_unit]
  exact Iff.rfl

/-- Row `r` lies in the block of point `r / 2000`: the 50 blocks cover the first output. -/
theorem coverP (i : S100000x32.Idx) : ∃ t : Fin cfg2.N, (cfg2.win 3).flush t = true ∧ i ∈ ((cfg2.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush2_3 t, ?_⟩
  rw [mem_blkP]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 32 ≤ (i 1).val ∧ (i 1).val < win2_3.index t (1 : Fin 2) * 32 + 32; omega

/-- The 50 blocks cover the second output. -/
theorem coverN (i : S100000x32.Idx) : ∃ t : Fin cfg2.N, (cfg2.win 4).flush t = true ∧ i ∈ ((cfg2.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush2_4 t, ?_⟩
  rw [mem_blkN]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 32 ≤ (i 1).val ∧ (i 1).val < win2_4.index t (1 : Fin 2) * 32 + 32; omega

/-- The first output array after the region: `h · np`. -/
theorem finalP (c : Dev nD) : (dat2 V c).arrAt 3 cfg2.N = scaleRows (V c (Pipeline.arrRef spec2 0)) (V c (Pipeline.arrRef spec2 1)) :=
  (dat2 V c).arrAt_eq_of_cover 3 (scaleRows (V c (Pipeline.arrRef spec2 0)) (V c (Pipeline.arrRef spec2 1))) (fun t _ => flushedP_eq V c t) (coverP)

/-- The second output array after the region: `h · nn`. -/
theorem finalN (c : Dev nD) : (dat2 V c).arrAt 4 cfg2.N = scaleRows (V c (Pipeline.arrRef spec2 0)) (V c (Pipeline.arrRef spec2 2)) :=
  (dat2 V c).arrAt_eq_of_cover 4 (scaleRows (V c (Pipeline.arrRef spec2 0)) (V c (Pipeline.arrRef spec2 2))) (fun t _ => flushedN_eq V c t) (coverN)

end Cert.KernelIdeal.Scale2

end
-- ==== Proof.Combine3.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine3

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k3_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Every block row below 50 is some point's. -/
theorem idx_onto : ∀ q0 : Fin 50, ∃ t : Fin cfg3.N, t.val = q0.val :=
  (by decide +kernel : ∀ q0 : Fin 50, ∃ t : Fin grid3.N, t.val = q0.val)

set_option maxHeartbeats 1600000 in
/-- What point `t` writes back is block `t` of `combine` of the input arrays. -/
theorem flushed_eq (c : Dev nD) (t : Fin cfg3.N) :
    (dat3 V c).flushed 5 t = ((cfg3.win 5).blk t).view.read (Elt Ideal)
      (combine (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk3 V c 0 t) (iblk3 V c 2 t) (iblk3 V c 1 t) (iblk3 V c 3 t) (iblk3 V c 4 t) p q).trans ?_
  have h0 : ((cfg3.win 0).blk t).view.emb (ix2 p q) = ((cfg3.win 5).blk t).view.emb (ix2 p q) := by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 32 + 1 * q.val = win3_5.index t (1 : Fin 2) * 32 + 1 * q.val; omega
  have h1 : ((cfg3.win 1).blk t).view.emb (ix2 p q) = ((cfg3.win 5).blk t).view.emb (ix2 p q) := by
    funext a; apply Fin.ext
    match a with
    | ⟨0, _⟩ => show win3_1.index t (0 : Fin 2) * 2000 + 1 * p.val = win3_5.index t (0 : Fin 2) * 2000 + 1 * p.val; omega
    | ⟨1, _⟩ => show win3_1.index t (1 : Fin 2) * 32 + 1 * q.val = win3_5.index t (1 : Fin 2) * 32 + 1 * q.val; omega
  have h4 : ((cfg3.win 4).blk t).view.emb (ix2 p q) = ((cfg3.win 5).blk t).view.emb (ix2 p q) := by
    funext a; apply Fin.ext
    match a with
    | ⟨0, _⟩ => show win3_4.index t (0 : Fin 2) * 2000 + 1 * p.val = win3_5.index t (0 : Fin 2) * 2000 + 1 * p.val; omega
    | ⟨1, _⟩ => show win3_4.index t (1 : Fin 2) * 32 + 1 * q.val = win3_5.index t (1 : Fin 2) * 32 + 1 * q.val; omega
  have h2 : rowOf (((cfg3.win 5).blk t).view.emb (ix2 p q)) = ((cfg3.win 2).blk t).view.emb (ix2 p (0 : Fin 1)) :=
    rowOf_eq _ _ (by show win3_2.index t (0 : Fin 2) * 2000 + 1 * p.val = win3_5.index t (0 : Fin 2) * 2000 + 1 * p.val; omega)
  have h3 : rowOf (((cfg3.win 5).blk t).view.emb (ix2 p q)) = ((cfg3.win 3).blk t).view.emb (ix2 p (0 : Fin 1)) :=
    rowOf_eq _ _ (by show win3_3.index t (0 : Fin 2) * 2000 + 1 * p.val = win3_5.index t (0 : Fin 2) * 2000 + 1 * p.val; omega)
  show _ = combine _ _ _ _ _ (((cfg3.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec3 0)) h0)) (congrArg (V c (Pipeline.arrRef spec3 2)) h2.symm)))
        (congr (congrArg (HMul.hMul : EReal → EReal → EReal) (congrArg (V c (Pipeline.arrRef spec3 1)) h1)) (congrArg (V c (Pipeline.arrRef spec3 3)) h3.symm))))
    (congrArg (V c (Pipeline.arrRef spec3 4)) h4)

/-- An index is in point `t`'s block of the output iff each coordinate is in the block's range. -/
theorem mem_blk (t : Fin cfg3.N) (i : S100000x32.Idx) :
    i ∈ ((cfg3.win 5).blk t).view.set ↔ ∀ a : Fin 2, win3_5.index t a * S2000x32.size a ≤ (i a).val ∧ (i a).val < win3_5.index t a * S2000x32.size a + S2000x32.size a := by
  show i ∈ ((View.whole (Pipeline.arrRef spec3 5)).slice (win3_5.rect t)).set ↔ _
  rw [View.set_slice_whole, Rect.mem_set_unit]
  exact Iff.rfl

/-- Row `r` lies in the block of point `r / 2000`: the 50 blocks cover the output. -/
theorem cover (i : S100000x32.Idx) : ∃ t : Fin cfg3.N, (cfg3.win 5).flush t = true ∧ i ∈ ((cfg3.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 32 ≤ (i 1).val ∧ (i 1).val < win3_5.index t (1 : Fin 2) * 32 + 32; omega

/-- The output array after the region: `combine` of the input arrays as the region finds them. -/
theorem final (c : Dev nD) : (dat3 V c).arrAt 5 cfg3.N
    = combine (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed_eq V c t) cover

end Cert.KernelIdeal.Combine3

end
-- ==== Proof.HostS3.lean ====
/-
  The host operations before combining region 3: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS3

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps3 V (Proc.devRef .tc main_v49) = Cert.Spec.spmm (F := Ideal) (V (Proc.devRef .tc main_v39_0)) (V (Proc.devRef .tc main_arg7)) (V (Proc.devRef .tc main_arg8)) := by
  after_results_simp; rfl
attribute [local irreducible] Host.scatterAdd Host.gather in
theorem aggN : after hostOps3 V (Proc.devRef .tc main_v59) = Cert.Spec.spmm (F := Ideal) (V (Proc.devRef .tc main_v39_1)) (V (Proc.devRef .tc main_arg9)) (V (Proc.devRef .tc main_arg10)) := by
  after_results_simp; rfl
theorem dp : after hostOps3 V (Proc.devRef .tc main_v60) = shapeCast S100000x1 (V (Proc.devRef .tc main_v30)) shapeCasts_S100000_S100000x1 := by
  after_results_simp; rfl
theorem dn : after hostOps3 V (Proc.devRef .tc main_v61) = shapeCast S100000x1 (V (Proc.devRef .tc main_v36)) shapeCasts_S100000_S100000x1 := by
  after_results_simp; rfl

end Cert.KernelIdeal.HostS3

end
-- ==== Proof.RowCongr.lean ====
/-
  The two whole-array functions of a propagation step respect equality of their arguments.
-/
import proofs.«143456_j27066883899969_1_alg».proof.Proof.RowOps

noncomputable section

namespace Cert.KernelIdeal.RowOps

open Cert.KernelIdeal

theorem scaleRows_congr {h h' : S100000x32.Idx → EReal} {n n' : S100000x1.Idx → EReal} (e1 : h = h') (e2 : n = n') :
    scaleRows h n = scaleRows h' n' := by subst e1 e2; rfl

theorem combine_congr {ap ap' an an' : S100000x32.Idx → EReal} {dp dp' dn dn' : S100000x1.Idx → EReal} {o o' : S100000x32.Idx → EReal}
    (e1 : ap = ap') (e2 : an = an') (e3 : dp = dp') (e4 : dn = dn') (e5 : o = o') :
    combine ap an dp dn o = combine ap' an' dp' dn' o' := by subst e1 e2 e3 e4 e5; rfl

end Cert.KernelIdeal.RowOps

end
-- ==== Proof.Step2.lean ====
/-
  Propagation step 1 of 8 on the kernel's side, through the fold of the program's boundaries: scaling region 2 turns the
  current features h into h · np and h · nn; the host gathers and adds them up over the two edge lists; combining region 3
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale2
import proofs.«143456_j27066883899969_1_alg».proof.Proof.Combine3
import proofs.«143456_j27066883899969_1_alg».proof.Proof.HostS3
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr

set_option maxRecDepth 16384

noncomputable section

namespace Cert.KernelIdeal.Step2

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- From the entry of scaling region 2 to the exit of combining region 3. -/
theorem step
    (hH : W7 m ρ c (Proc.devRef .tc main_v11) = H)
    (hn1 : W7 m ρ c (Proc.devRef .tc main_v37) = shapeCast S100000x1 (Cert.Spec.norm s) shapeCasts_S100000_S100000x1)
    (hn2 : W7 m ρ c (Proc.devRef .tc main_v38) = shapeCast S100000x1 (Cert.Spec.norm ns) shapeCasts_S100000_S100000x1)
    (h_main_v11 : W7 m ρ c (Proc.devRef .tc main_v11) = O)
    (h_main_v27 : W7 m ρ c (Proc.devRef .tc main_v27) = Cert.Spec.norm s)
    (h_main_v30 : W7 m ρ c (Proc.devRef .tc main_v30) = Cert.Spec.norm d)
    (h_main_v33 : W7 m ρ c (Proc.devRef .tc main_v33) = Cert.Spec.norm ns)
    (h_main_v36 : W7 m ρ c (Proc.devRef .tc main_v36) = Cert.Spec.norm nd)
    (h_main_arg7 : W7 m ρ c (Proc.devRef .tc main_arg7) = s)
    (h_main_arg8 : W7 m ρ c (Proc.devRef .tc main_arg8) = d)
    (h_main_arg9 : W7 m ρ c (Proc.devRef .tc main_arg9) = ns)
    (h_main_arg10 : W7 m ρ c (Proc.devRef .tc main_arg10) = nd)
    : W10 m ρ c (Proc.devRef .tc main_v62) = Cert.Spec.step O s d ns nd H
    ∧ W10 m ρ c (Proc.devRef .tc main_v11) = O
    ∧ W10 m ρ c (Proc.devRef .tc main_v27) = Cert.Spec.norm s
    ∧ W10 m ρ c (Proc.devRef .tc main_v30) = Cert.Spec.norm d
    ∧ W10 m ρ c (Proc.devRef .tc main_v33) = Cert.Spec.norm ns
    ∧ W10 m ρ c (Proc.devRef .tc main_v36) = Cert.Spec.norm nd
    ∧ W10 m ρ c (Proc.devRef .tc main_arg7) = s
    ∧ W10 m ρ c (Proc.devRef .tc main_arg8) = d
    ∧ W10 m ρ c (Proc.devRef .tc main_arg9) = ns
    ∧ W10 m ρ c (Proc.devRef .tc main_arg10) = nd := by
  have x3 : W8 m ρ c (Proc.devRef .tc main_v39_0) = scaleRows H (shapeCast S100000x1 (Cert.Spec.norm s) shapeCasts_S100000_S100000x1) :=
    (W8_arr m ρ c 3).trans ((Scale2.finalP (V7 m ρ) c).trans (scaleRows_congr hH hn1))
  have x4 : W8 m ρ c (Proc.devRef .tc main_v39_1) = scaleRows H (shapeCast S100000x1 (Cert.Spec.norm ns) shapeCasts_S100000_S100000x1) :=
    (W8_arr m ρ c 4).trans ((Scale2.finalN (V7 m ρ) c).trans (scaleRows_congr hH hn2))
  have x_main_v11 : W8 m ρ c (Proc.devRef .tc main_v11) = O := (W8_arr m ρ c 0).trans ((((dat2 (V7 m ρ) c).arrAt_in 0 rfl _).trans (A_eq2 (V7 m ρ) c 0)).trans h_main_v11)
  have x_main_v27 : W8 m ρ c (Proc.devRef .tc main_v27) = Cert.Spec.norm s := (W8_of_ne m ρ c main_v27 (by decide)).trans h_main_v27
  have x_main_v30 : W8 m ρ c (Proc.devRef .tc main_v30) = Cert.Spec.norm d := (W8_of_ne m ρ c main_v30 (by decide)).trans h_main_v30
  have x_main_v33 : W8 m ρ c (Proc.devRef .tc main_v33) = Cert.Spec.norm ns := (W8_of_ne m ρ c main_v33 (by decide)).trans h_main_v33
  have x_main_v36 : W8 m ρ c (Proc.devRef .tc main_v36) = Cert.Spec.norm nd := (W8_of_ne m ρ c main_v36 (by decide)).trans h_main_v36
  have x_main_arg7 : W8 m ρ c (Proc.devRef .tc main_arg7) = s := (W8_of_ne m ρ c main_arg7 (by decide)).trans h_main_arg7
  have x_main_arg8 : W8 m ρ c (Proc.devRef .tc main_arg8) = d := (W8_of_ne m ρ c main_arg8 (by decide)).trans h_main_arg8
  have x_main_arg9 : W8 m ρ c (Proc.devRef .tc main_arg9) = ns := (W8_of_ne m ρ c main_arg9 (by decide)).trans h_main_arg9
  have x_main_arg10 : W8 m ρ c (Proc.devRef .tc main_arg10) = nd := (W8_of_ne m ρ c main_arg10 (by decide)).trans h_main_arg10
  have f_ap : W9 m ρ c (Proc.devRef .tc main_v49) = Cert.Spec.spmm (scaleRows H (shapeCast S100000x1 (Cert.Spec.norm s) shapeCasts_S100000_S100000x1)) s d :=
    (HostS3.aggP _).trans (by rw [x3, x_main_arg7, x_main_arg8])
  have f_an : W9 m ρ c (Proc.devRef .tc main_v59) = Cert.Spec.spmm (scaleRows H (shapeCast S100000x1 (Cert.Spec.norm ns) shapeCasts_S100000_S100000x1)) ns nd :=
    (HostS3.aggN _).trans (by rw [x4, x_main_arg9, x_main_arg10])
  have f_dp : W9 m ρ c (Proc.devRef .tc main_v60) = shapeCast S100000x1 (Cert.Spec.norm d) shapeCasts_S100000_S100000x1 := (HostS3.dp _).trans (by rw [x_main_v30])
  have f_dn : W9 m ρ c (Proc.devRef .tc main_v61) = shapeCast S100000x1 (Cert.Spec.norm nd) shapeCasts_S100000_S100000x1 := (HostS3.dn _).trans (by rw [x_main_v36])
  have f_main_v11 : W9 m ρ c (Proc.devRef .tc main_v11) = O := (hostOps3_keeps _ main_v11 (by decide)).trans x_main_v11
  have f_main_v27 : W9 m ρ c (Proc.devRef .tc main_v27) = Cert.Spec.norm s := (hostOps3_keeps _ main_v27 (by decide)).trans x_main_v27
  have f_main_v30 : W9 m ρ c (Proc.devRef .tc main_v30) = Cert.Spec.norm d := (hostOps3_keeps _ main_v30 (by decide)).trans x_main_v30
  have f_main_v33 : W9 m ρ c (Proc.devRef .tc main_v33) = Cert.Spec.norm ns := (hostOps3_keeps _ main_v33 (by decide)).trans x_main_v33
  have f_main_v36 : W9 m ρ c (Proc.devRef .tc main_v36) = Cert.Spec.norm nd := (hostOps3_keeps _ main_v36 (by decide)).trans x_main_v36
  have f_main_arg7 : W9 m ρ c (Proc.devRef .tc main_arg7) = s := (hostOps3_keeps _ main_arg7 (by decide)).trans x_main_arg7
  have f_main_arg8 : W9 m ρ c (Proc.devRef .tc main_arg8) = d := (hostOps3_keeps _ main_arg8 (by decide)).trans x_main_arg8
  have f_main_arg9 : W9 m ρ c (Proc.devRef .tc main_arg9) = ns := (hostOps3_keeps _ main_arg9 (by decide)).trans x_main_arg9
  have f_main_arg10 : W9 m ρ c (Proc.devRef .tc main_arg10) = nd := (hostOps3_keeps _ main_arg10 (by decide)).trans x_main_arg10
  have y_h : W10 m ρ c (Proc.devRef .tc main_v62) = Cert.Spec.step O s d ns nd H :=
    (W10_arr m ρ c 5).trans ((Combine3.final (V9 m ρ) c).trans
      ((combine_congr f_ap f_an f_dp f_dn f_main_v11).trans (Cert.Bridge.step_eq H O s d ns nd _)))
  exact ⟨y_h,
    (W10_arr m ρ c 4).trans ((((dat3 (V9 m ρ) c).arrAt_in 4 rfl _).trans (A_eq3 (V9 m ρ) c 4)).trans f_main_v11),
    (W10_of_ne m ρ c main_v27 (by decide)).trans f_main_v27,
    (W10_of_ne m ρ c main_v30 (by decide)).trans f_main_v30,
    (W10_of_ne m ρ c main_v33 (by decide)).trans f_main_v33,
    (W10_of_ne m ρ c main_v36 (by decide)).trans f_main_v36,
    (W10_of_ne m ρ c main_arg7 (by decide)).trans f_main_arg7,
    (W10_of_ne m ρ c main_arg8 (by decide)).trans f_main_arg8,
    (W10_of_ne m ρ c main_arg9 (by decide)).trans f_main_arg9,
    (W10_of_ne m ρ c main_arg10 (by decide)).trans f_main_arg10⟩

end Cert.KernelIdeal.Step2

end
-- ==== Proof.Scale4.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k4_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k4_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Every block row below 50 is some point's. -/
theorem idx_onto : ∀ q0 : Fin 50, ∃ t : Fin cfg4.N, t.val = q0.val :=
  (by decide +kernel : ∀ q0 : Fin 50, ∃ t : Fin grid4.N, t.val = q0.val)

/-- What point `t` writes back to the first output is block `t` of `scaleRows` of the rows and that column. -/
theorem flushedP_eq (c : Dev nD) (t : Fin cfg4.N) :
    (dat4 V c).flushed 3 t = ((cfg4.win 3).blk t).view.read (Elt Ideal) (scaleRows (V c (Pipeline.arrRef spec4 0)) (V c (Pipeline.arrRef spec4 1))) := by
  show (cfg4.win 3).cut (grid4.coords t) ((dat4 V c).after 3 t) = _
  rw [after4_3]
  unfold out4_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk4 V c 0 t) (iblk4 V c 1 t) p q).trans ?_
  have h0 : ((cfg4.win 0).blk t).view.emb (ix2 p q) = ((cfg4.win 3).blk t).view.emb (ix2 p q) := by
    funext a; apply Fin.ext
    match a with
    | ⟨0, _⟩ => show win4_0.index t (0 : Fin 2) * 2000 + 1 * p.val = win4_3.index t (0 : Fin 2) * 2000 + 1 * p.val; omega
    | ⟨1, _⟩ => show win4_0.index t (1 : Fin 2) * 32 + 1 * q.val = win4_3.index t (1 : Fin 2) * 32 + 1 * q.val; omega
  have h1 : rowOf (((cfg4.win 3).blk t).view.emb (ix2 p q)) = ((cfg4.win 1).blk t).view.emb (ix2 p (0 : Fin 1)) :=
    rowOf_eq _ _ (by show win4_1.index t (0 : Fin 2) * 2000 + 1 * p.val = win4_3.index t (0 : Fin 2) * 2000 + 1 * p.val; omega)
  show _ = scaleRows _ _ (((cfg4.win 3).blk t).view.emb (ix2 p q))
  unfold scaleRows
  exact congr (congrArg (HMul.hMul : EReal → EReal → EReal) (congrArg (V c (Pipeline.arrRef spec4 0)) h0))
    (congrArg (V c (Pipeline.arrRef spec4 1)) h1.symm)

/-- What point `t` writes back to the second output is block `t` of `scaleRows` of the rows and that column. -/
theorem flushedN_eq (c : Dev nD) (t : Fin cfg4.N) :
    (dat4 V c).flushed 4 t = ((cfg4.win 4).blk t).view.read (Elt Ideal) (scaleRows (V c (Pipeline.arrRef spec4 0)) (V c (Pipeline.arrRef spec4 2))) := by
  show (cfg4.win 4).cut (grid4.coords t) ((dat4 V c).after 4 t) = _
  rw [after4_4]
  unfold out4_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk4 V c 0 t) (iblk4 V c 2 t) p q).trans ?_
  have h0 : ((cfg4.win 0).blk t).view.emb (ix2 p q) = ((cfg4.win 4).blk t).view.emb (ix2 p q) := by
    funext a; apply Fin.ext
    match a with
    | ⟨0, _⟩ => show win4_0.index t (0 : Fin 2) * 2000 + 1 * p.val = win4_4.index t (0 : Fin 2) * 2000 + 1 * p.val; omega
    | ⟨1, _⟩ => show win4_0.index t (1 : Fin 2) * 32 + 1 * q.val = win4_4.index t (1 : Fin 2) * 32 + 1 * q.val; omega
  have h1 : rowOf (((cfg4.win 4).blk t).view.emb (ix2 p q)) = ((cfg4.win 2).blk t).view.emb (ix2 p (0 : Fin 1)) :=
    rowOf_eq _ _ (by show win4_2.index t (0 : Fin 2) * 2000 + 1 * p.val = win4_4.index t (0 : Fin 2) * 2000 + 1 * p.val; omega)
  show _ = scaleRows _ _ (((cfg4.win 4).blk t).view.emb (ix2 p q))
  unfold scaleRows
  exact congr (congrArg (HMul.hMul : EReal → EReal → EReal) (congrArg (V c (Pipeline.arrRef spec4 0)) h0))
    (congrArg (V c (Pipeline.arrRef spec4 2)) h1.symm)

/-- An index is in point `t`'s block of the first output iff each coordinate is in the block's range. -/
theorem mem_blkP (t : Fin cfg4.N) (i : S100000x32.Idx) :
    i ∈ ((cfg4.win 3).blk t).view.set ↔ ∀ a : Fin 2, win4_3.index t a * S2000x32.size a ≤ (i a).val ∧ (i a).val < win4_3.index t a * S2000x32.size a + S2000x32.size a := by
  show i ∈ ((View.whole (Pipeline.arrRef spec4 3)).slice (win4_3.rect t)).set ↔ _
  rw [View.set_slice_whole, Rect.mem_set_unit]
  exact Iff.rfl

/-- The same for the second output. -/
theorem mem_blkN (t : Fin cfg4.N) (i : S100000x32.Idx) :
    i ∈ ((cfg4.win 4).blk t).view.set ↔ ∀ a : Fin 2, win4_4.index t a * S2000x32.size a ≤ (i a).val ∧ (i a).val < win4_4.index t a * S2000x32.size a + S2000x32.size a := by
  show i ∈ ((View.whole (Pipeline.arrRef spec4 4)).slice (win4_4.rect t)).set ↔ _
  rw [View.set_slice_whole, Rect.mem_set_unit]
  exact Iff.rfl

/-- Row `r` lies in the block of point `r / 2000`: the 50 blocks cover the first output. -/
theorem coverP (i : S100000x32.Idx) : ∃ t : Fin cfg4.N, (cfg4.win 3).flush t = true ∧ i ∈ ((cfg4.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush4_3 t, ?_⟩
  rw [mem_blkP]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 32 ≤ (i 1).val ∧ (i 1).val < win4_3.index t (1 : Fin 2) * 32 + 32; omega

/-- The 50 blocks cover the second output. -/
theorem coverN (i : S100000x32.Idx) : ∃ t : Fin cfg4.N, (cfg4.win 4).flush t = true ∧ i ∈ ((cfg4.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush4_4 t, ?_⟩
  rw [mem_blkN]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 32 ≤ (i 1).val ∧ (i 1).val < win4_4.index t (1 : Fin 2) * 32 + 32; omega

/-- The first output array after the region: `h · np`. -/
theorem finalP (c : Dev nD) : (dat4 V c).arrAt 3 cfg4.N = scaleRows (V c (Pipeline.arrRef spec4 0)) (V c (Pipeline.arrRef spec4 1)) :=
  (dat4 V c).arrAt_eq_of_cover 3 (scaleRows (V c (Pipeline.arrRef spec4 0)) (V c (Pipeline.arrRef spec4 1))) (fun t _ => flushedP_eq V c t) (coverP)

/-- The second output array after the region: `h · nn`. -/
theorem finalN (c : Dev nD) : (dat4 V c).arrAt 4 cfg4.N = scaleRows (V c (Pipeline.arrRef spec4 0)) (V c (Pipeline.arrRef spec4 2)) :=
  (dat4 V c).arrAt_eq_of_cover 4 (scaleRows (V c (Pipeline.arrRef spec4 0)) (V c (Pipeline.arrRef spec4 2))) (fun t _ => flushedN_eq V c t) (coverN)

end Cert.KernelIdeal.Scale4

end
-- ==== Proof.Combine5.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine5

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k5_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Every block row below 50 is some point's. -/
theorem idx_onto : ∀ q0 : Fin 50, ∃ t : Fin cfg5.N, t.val = q0.val :=
  (by decide +kernel : ∀ q0 : Fin 50, ∃ t : Fin grid5.N, t.val = q0.val)

set_option maxHeartbeats 1600000 in
/-- What point `t` writes back is block `t` of `combine` of the input arrays. -/
theorem flushed_eq (c : Dev nD) (t : Fin cfg5.N) :
    (dat5 V c).flushed 5 t = ((cfg5.win 5).blk t).view.read (Elt Ideal)
      (combine (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk5 V c 0 t) (iblk5 V c 2 t) (iblk5 V c 1 t) (iblk5 V c 3 t) (iblk5 V c 4 t) p q).trans ?_
  have h0 : ((cfg5.win 0).blk t).view.emb (ix2 p q) = ((cfg5.win 5).blk t).view.emb (ix2 p q) := by
    funext a; apply Fin.ext
    match a with
    | ⟨0, _⟩ => show win5_0.index t (0 : Fin 2) * 2000 + 1 * p.val = win5_5.index t (0 : Fin 2) * 2000 + 1 * p.val; omega
    | ⟨1, _⟩ => show win5_0.index t (1 : Fin 2) * 32 + 1 * q.val = win5_5.index t (1 : Fin 2) * 32 + 1 * q.val; omega
  have h1 : ((cfg5.win 1).blk t).view.emb (ix2 p q) = ((cfg5.win 5).blk t).view.emb (ix2 p q) := by
    funext a; apply Fin.ext
    match a with
    | ⟨0, _⟩ => show win5_1.index t (0 : Fin 2) * 2000 + 1 * p.val = win5_5.index t (0 : Fin 2) * 2000 + 1 * p.val; omega
    | ⟨1, _⟩ => show win5_1.index t (1 : Fin 2) * 32 + 1 * q.val = win5_5.index t (1 : Fin 2) * 32 + 1 * q.val; omega
  have h4 : ((cfg5.win 4).blk t).view.emb (ix2 p q) = ((cfg5.win 5).blk t).view.emb (ix2 p q) := by
    funext a; apply Fin.ext
    match a with
    | ⟨0, _⟩ => show win5_4.index t (0 : Fin 2) * 2000 + 1 * p.val = win5_5.index t (0 : Fin 2) * 2000 + 1 * p.val; omega
    | ⟨1, _⟩ => show win5_4.index t (1 : Fin 2) * 32 + 1 * q.val = win5_5.index t (1 : Fin 2) * 32 + 1 * q.val; omega
  have h2 : rowOf (((cfg5.win 5).blk t).view.emb (ix2 p q)) = ((cfg5.win 2).blk t).view.emb (ix2 p (0 : Fin 1)) :=
    rowOf_eq _ _ (by show win5_2.index t (0 : Fin 2) * 2000 + 1 * p.val = win5_5.index t (0 : Fin 2) * 2000 + 1 * p.val; omega)
  have h3 : rowOf (((cfg5.win 5).blk t).view.emb (ix2 p q)) = ((cfg5.win 3).blk t).view.emb (ix2 p (0 : Fin 1)) :=
    rowOf_eq _ _ (by show win5_3.index t (0 : Fin 2) * 2000 + 1 * p.val = win5_5.index t (0 : Fin 2) * 2000 + 1 * p.val; omega)
  show _ = combine _ _ _ _ _ (((cfg5.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec5 0)) h0)) (congrArg (V c (Pipeline.arrRef spec5 2)) h2.symm)))
        (congr (congrArg (HMul.hMul : EReal → EReal → EReal) (congrArg (V c (Pipeline.arrRef spec5 1)) h1)) (congrArg (V c (Pipeline.arrRef spec5 3)) h3.symm))))
    (congrArg (V c (Pipeline.arrRef spec5 4)) h4)

/-- An index is in point `t`'s block of the output iff each coordinate is in the block's range. -/
theorem mem_blk (t : Fin cfg5.N) (i : S100000x32.Idx) :
    i ∈ ((cfg5.win 5).blk t).view.set ↔ ∀ a : Fin 2, win5_5.index t a * S2000x32.size a ≤ (i a).val ∧ (i a).val < win5_5.index t a * S2000x32.size a + S2000x32.size a := by
  show i ∈ ((View.whole (Pipeline.arrRef spec5 5)).slice (win5_5.rect t)).set ↔ _
  rw [View.set_slice_whole, Rect.mem_set_unit]
  exact Iff.rfl

/-- Row `r` lies in the block of point `r / 2000`: the 50 blocks cover the output. -/
theorem cover (i : S100000x32.Idx) : ∃ t : Fin cfg5.N, (cfg5.win 5).flush t = true ∧ i ∈ ((cfg5.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 32 ≤ (i 1).val ∧ (i 1).val < win5_5.index t (1 : Fin 2) * 32 + 32; omega

/-- The output array after the region: `combine` of the input arrays as the region finds them. -/
theorem final (c : Dev nD) : (dat5 V c).arrAt 5 cfg5.N
    = combine (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed_eq V c t) cover

end Cert.KernelIdeal.Combine5

end
-- ==== Proof.HostS5.lean ====
/-
  The host operations before combining region 5: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS5

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps5 V (Proc.devRef .tc main_v75) = Cert.Spec.spmm (F := Ideal) (V (Proc.devRef .tc main_v65_0)) (V (Proc.devRef .tc main_arg7)) (V (Proc.devRef .tc main_arg8)) := by
  after_results_simp; rfl
attribute [local irreducible] Host.scatterAdd Host.gather in
theorem aggN : after hostOps5 V (Proc.devRef .tc main_v85) = Cert.Spec.spmm (F := Ideal) (V (Proc.devRef .tc main_v65_1)) (V (Proc.devRef .tc main_arg9)) (V (Proc.devRef .tc main_arg10)) := by
  after_results_simp; rfl
theorem dp : after hostOps5 V (Proc.devRef .tc main_v86) = shapeCast S100000x1 (V (Proc.devRef .tc main_v30)) shapeCasts_S100000_S100000x1 := by
  after_results_simp; rfl
theorem dn : after hostOps5 V (Proc.devRef .tc main_v87) = shapeCast S100000x1 (V (Proc.devRef .tc main_v36)) shapeCasts_S100000_S100000x1 := by
  after_results_simp; rfl

end Cert.KernelIdeal.HostS5

end
-- ==== Proof.HostR4.lean ====
/-
  The two host operations before scaling region 4: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR4

open Cert.KernelIdeal Cert.KernelIdeal.Gen Idealize.ShloMosaic Idealize.ShloMosaic.TcCoe Idealize.SL.Sem Idealize.ShloMosaic.StableHlo

variable (V : Valuation τ sig (Elt Ideal))

theorem n1 : after hostOps4 V (Proc.devRef .tc main_v63) = shapeCast S100000x1 (V (Proc.devRef .tc main_v27)) shapeCasts_S100000_S100000x1 := by
  first | (after_results; rfl) | after_results
theorem n2 : after hostOps4 V (Proc.devRef .tc main_v64) = shapeCast S100000x1 (V (Proc.devRef .tc main_v33)) shapeCasts_S100000_S100000x1 := by
  first | (after_results; rfl) | after_results

end Cert.KernelIdeal.HostR4

end
-- ==== Proof.Step4.lean ====
/-
  Propagation step 2 of 8 on the kernel's side, through the fold of the program's boundaries: scaling region 4 turns the
  current features h into h · np and h · nn; the host gathers and adds them up over the two edge lists; combining region 5
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale4
import proofs.«143456_j27066883899969_1_alg».proof.Proof.Combine5
import proofs.«143456_j27066883899969_1_alg».proof.Proof.HostS5
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR4

set_option maxRecDepth 16384

noncomputable section

namespace Cert.KernelIdeal.Step4

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 4: the features and everything carried are untouched by the two recasts, which put the two
    out-degree normalisers in one-column form. -/
theorem enter
    (hH : W10 m ρ c (Proc.devRef .tc main_v62) = H)
    (h_main_v11 : W10 m ρ c (Proc.devRef .tc main_v11) = O)
    (h_main_v27 : W10 m ρ c (Proc.devRef .tc main_v27) = Cert.Spec.norm s)
    (h_main_v30 : W10 m ρ c (Proc.devRef .tc main_v30) = Cert.Spec.norm d)
    (h_main_v33 : W10 m ρ c (Proc.devRef .tc main_v33) = Cert.Spec.norm ns)
    (h_main_v36 : W10 m ρ c (Proc.devRef .tc main_v36) = Cert.Spec.norm nd)
    (h_main_arg7 : W10 m ρ c (Proc.devRef .tc main_arg7) = s)
    (h_main_arg8 : W10 m ρ c (Proc.devRef .tc main_arg8) = d)
    (h_main_arg9 : W10 m ρ c (Proc.devRef .tc main_arg9) = ns)
    (h_main_arg10 : W10 m ρ c (Proc.devRef .tc main_arg10) = nd)
    : W11 m ρ c (Proc.devRef .tc main_v62) = H
    ∧ W11 m ρ c (Proc.devRef .tc main_v63) = shapeCast S100000x1 (Cert.Spec.norm s) shapeCasts_S100000_S100000x1
    ∧ W11 m ρ c (Proc.devRef .tc main_v64) = shapeCast S100000x1 (Cert.Spec.norm ns) shapeCasts_S100000_S100000x1
    ∧ W11 m ρ c (Proc.devRef .tc main_v11) = O
    ∧ W11 m ρ c (Proc.devRef .tc main_v27) = Cert.Spec.norm s
    ∧ W11 m ρ c (Proc.devRef .tc main_v30) = Cert.Spec.norm d
    ∧ W11 m ρ c (Proc.devRef .tc main_v33) = Cert.Spec.norm ns
    ∧ W11 m ρ c (Proc.devRef .tc main_v36) = Cert.Spec.norm nd
    ∧ W11 m ρ c (Proc.devRef .tc main_arg7) = s
    ∧ W11 m ρ c (Proc.devRef .tc main_arg8) = d
    ∧ W11 m ρ c (Proc.devRef .tc main_arg9) = ns
    ∧ W11 m ρ c (Proc.devRef .tc main_arg10) = nd := by
  refine ⟨(hostOps4_keeps _ main_v62 (by decide)).trans hH,
    (HostR4.n1 _).trans (by rw [h_main_v27]),
    (HostR4.n2 _).trans (by rw [h_main_v33]),
    (hostOps4_keeps _ main_v11 (by decide)).trans h_main_v11,
    (hostOps4_keeps _ main_v27 (by decide)).trans h_main_v27,
    (hostOps4_keeps _ main_v30 (by decide)).trans h_main_v30,
    (hostOps4_keeps _ main_v33 (by decide)).trans h_main_v33,
    (hostOps4_keeps _ main_v36 (by decide)).trans h_main_v36,
    (hostOps4_keeps _ main_arg7 (by decide)).trans h_main_arg7,
    (hostOps4_keeps _ main_arg8 (by decide)).trans h_main_arg8,
    (hostOps4_keeps _ main_arg9 (by decide)).trans h_main_arg9,
    (hostOps4_keeps _ main_arg10 (by decide)).trans h_main_arg10⟩

/-- From the entry of scaling region 4 to the exit of combining region 5. -/
theorem step
    (hH : W11 m ρ c (Proc.devRef .tc main_v62) = H)
    (hn1 : W11 m ρ c (Proc.devRef .tc main_v63) = shapeCast S100000x1 (Cert.Spec.norm s) shapeCasts_S100000_S100000x1)
    (hn2 : W11 m ρ c (Proc.devRef .tc main_v64) = shapeCast S100000x1 (Cert.Spec.norm ns) shapeCasts_S100000_S100000x1)
    (h_main_v11 : W11 m ρ c (Proc.devRef .tc main_v11) = O)
    (h_main_v27 : W11 m ρ c (Proc.devRef .tc main_v27) = Cert.Spec.norm s)
    (h_main_v30 : W11 m ρ c (Proc.devRef .tc main_v30) = Cert.Spec.norm d)
    (h_main_v33 : W11 m ρ c (Proc.devRef .tc main_v33) = Cert.Spec.norm ns)
    (h_main_v36 : W11 m ρ c (Proc.devRef .tc main_v36) = Cert.Spec.norm nd)
    (h_main_arg7 : W11 m ρ c (Proc.devRef .tc main_arg7) = s)
    (h_main_arg8 : W11 m ρ c (Proc.devRef .tc main_arg8) = d)
    (h_main_arg9 : W11 m ρ c (Proc.devRef .tc main_arg9) = ns)
    (h_main_arg10 : W11 m ρ c (Proc.devRef .tc main_arg10) = nd)
    : W14 m ρ c (Proc.devRef .tc main_v88) = Cert.Spec.step O s d ns nd H
    ∧ W14 m ρ c (Proc.devRef .tc main_v11) = O
    ∧ W14 m ρ c (Proc.devRef .tc main_v27) = Cert.Spec.norm s
    ∧ W14 m ρ c (Proc.devRef .tc main_v30) = Cert.Spec.norm d
    ∧ W14 m ρ c (Proc.devRef .tc main_v33) = Cert.Spec.norm ns
    ∧ W14 m ρ c (Proc.devRef .tc main_v36) = Cert.Spec.norm nd
    ∧ W14 m ρ c (Proc.devRef .tc main_arg7) = s
    ∧ W14 m ρ c (Proc.devRef .tc main_arg8) = d
    ∧ W14 m ρ c (Proc.devRef .tc main_arg9) = ns
    ∧ W14 m ρ c (Proc.devRef .tc main_arg10) = nd := by
  have x3 : W12 m ρ c (Proc.devRef .tc main_v65_0) = scaleRows H (shapeCast S100000x1 (Cert.Spec.norm s) shapeCasts_S100000_S100000x1) :=
    (W12_arr m ρ c 3).trans ((Scale4.finalP (V11 m ρ) c).trans (scaleRows_congr hH hn1))
  have x4 : W12 m ρ c (Proc.devRef .tc main_v65_1) = scaleRows H (shapeCast S100000x1 (Cert.Spec.norm ns) shapeCasts_S100000_S100000x1) :=
    (W12_arr m ρ c 4).trans ((Scale4.finalN (V11 m ρ) c).trans (scaleRows_congr hH hn2))
  have x_main_v11 : W12 m ρ c (Proc.devRef .tc main_v11) = O := (W12_of_ne m ρ c main_v11 (by decide)).trans h_main_v11
  have x_main_v27 : W12 m ρ c (Proc.devRef .tc main_v27) = Cert.Spec.norm s := (W12_of_ne m ρ c main_v27 (by decide)).trans h_main_v27
  have x_main_v30 : W12 m ρ c (Proc.devRef .tc main_v30) = Cert.Spec.norm d := (W12_of_ne m ρ c main_v30 (by decide)).trans h_main_v30
  have x_main_v33 : W12 m ρ c (Proc.devRef .tc main_v33) = Cert.Spec.norm ns := (W12_of_ne m ρ c main_v33 (by decide)).trans h_main_v33
  have x_main_v36 : W12 m ρ c (Proc.devRef .tc main_v36) = Cert.Spec.norm nd := (W12_of_ne m ρ c main_v36 (by decide)).trans h_main_v36
  have x_main_arg7 : W12 m ρ c (Proc.devRef .tc main_arg7) = s := (W12_of_ne m ρ c main_arg7 (by decide)).trans h_main_arg7
  have x_main_arg8 : W12 m ρ c (Proc.devRef .tc main_arg8) = d := (W12_of_ne m ρ c main_arg8 (by decide)).trans h_main_arg8
  have x_main_arg9 : W12 m ρ c (Proc.devRef .tc main_arg9) = ns := (W12_of_ne m ρ c main_arg9 (by decide)).trans h_main_arg9
  have x_main_arg10 : W12 m ρ c (Proc.devRef .tc main_arg10) = nd := (W12_of_ne m ρ c main_arg10 (by decide)).trans h_main_arg10
  have f_ap : W13 m ρ c (Proc.devRef .tc main_v75) = Cert.Spec.spmm (scaleRows H (shapeCast S100000x1 (Cert.Spec.norm s) shapeCasts_S100000_S100000x1)) s d :=
    (HostS5.aggP _).trans (by rw [x3, x_main_arg7, x_main_arg8])
  have f_an : W13 m ρ c (Proc.devRef .tc main_v85) = Cert.Spec.spmm (scaleRows H (shapeCast S100000x1 (Cert.Spec.norm ns) shapeCasts_S100000_S100000x1)) ns nd :=
    (HostS5.aggN _).trans (by rw [x4, x_main_arg9, x_main_arg10])
  have f_dp : W13 m ρ c (Proc.devRef .tc main_v86) = shapeCast S100000x1 (Cert.Spec.norm d) shapeCasts_S100000_S100000x1 := (HostS5.dp _).trans (by rw [x_main_v30])
  have f_dn : W13 m ρ c (Proc.devRef .tc main_v87) = shapeCast S100000x1 (Cert.Spec.norm nd) shapeCasts_S100000_S100000x1 := (HostS5.dn _).trans (by rw [x_main_v36])
  have f_main_v11 : W13 m ρ c (Proc.devRef .tc main_v11) = O := (hostOps5_keeps _ main_v11 (by decide)).trans x_main_v11
  have f_main_v27 : W13 m ρ c (Proc.devRef .tc main_v27) = Cert.Spec.norm s := (hostOps5_keeps _ main_v27 (by decide)).trans x_main_v27
  have f_main_v30 : W13 m ρ c (Proc.devRef .tc main_v30) = Cert.Spec.norm d := (hostOps5_keeps _ main_v30 (by decide)).trans x_main_v30
  have f_main_v33 : W13 m ρ c (Proc.devRef .tc main_v33) = Cert.Spec.norm ns := (hostOps5_keeps _ main_v33 (by decide)).trans x_main_v33
  have f_main_v36 : W13 m ρ c (Proc.devRef .tc main_v36) = Cert.Spec.norm nd := (hostOps5_keeps _ main_v36 (by decide)).trans x_main_v36
  have f_main_arg7 : W13 m ρ c (Proc.devRef .tc main_arg7) = s := (hostOps5_keeps _ main_arg7 (by decide)).trans x_main_arg7
  have f_main_arg8 : W13 m ρ c (Proc.devRef .tc main_arg8) = d := (hostOps5_keeps _ main_arg8 (by decide)).trans x_main_arg8
  have f_main_arg9 : W13 m ρ c (Proc.devRef .tc main_arg9) = ns := (hostOps5_keeps _ main_arg9 (by decide)).trans x_main_arg9
  have f_main_arg10 : W13 m ρ c (Proc.devRef .tc main_arg10) = nd := (hostOps5_keeps _ main_arg10 (by decide)).trans x_main_arg10
  have y_h : W14 m ρ c (Proc.devRef .tc main_v88) = Cert.Spec.step O s d ns nd H :=
    (W14_arr m ρ c 5).trans ((Combine5.final (V13 m ρ) c).trans
      ((combine_congr f_ap f_an f_dp f_dn f_main_v11).trans (Cert.Bridge.step_eq H O s d ns nd _)))
  exact ⟨y_h,
    (W14_arr m ρ c 4).trans ((((dat5 (V13 m ρ) c).arrAt_in 4 rfl _).trans (A_eq5 (V13 m ρ) c 4)).trans f_main_v11),
    (W14_of_ne m ρ c main_v27 (by decide)).trans f_main_v27,
    (W14_of_ne m ρ c main_v30 (by decide)).trans f_main_v30,
    (W14_of_ne m ρ c main_v33 (by decide)).trans f_main_v33,
    (W14_of_ne m ρ c main_v36 (by decide)).trans f_main_v36,
    (W14_of_ne m ρ c main_arg7 (by decide)).trans f_main_arg7,
    (W14_of_ne m ρ c main_arg8 (by decide)).trans f_main_arg8,
    (W14_of_ne m ρ c main_arg9 (by decide)).trans f_main_arg9,
    (W14_of_ne m ρ c main_arg10 (by decide)).trans f_main_arg10⟩

end Cert.KernelIdeal.Step4

end
-- ==== Proof.Scale6.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale6

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k6_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k6_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Every block row below 50 is some point's. -/
theorem idx_onto : ∀ q0 : Fin 50, ∃ t : Fin cfg6.N, t.val = q0.val :=
  (by decide +kernel : ∀ q0 : Fin 50, ∃ t : Fin grid6.N, t.val = q0.val)

/-- What point `t` writes back to the first output is block `t` of `scaleRows` of the rows and that column. -/
theorem flushedP_eq (c : Dev nD) (t : Fin cfg6.N) :
    (dat6 V c).flushed 3 t = ((cfg6.win 3).blk t).view.read (Elt Ideal) (scaleRows (V c (Pipeline.arrRef spec6 0)) (V c (Pipeline.arrRef spec6 1))) := by
  show (cfg6.win 3).cut (grid6.coords t) ((dat6 V c).after 3 t) = _
  rw [after6_3]
  unfold out6_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk6 V c 0 t) (iblk6 V c 1 t) p q).trans ?_
  have h0 : ((cfg6.win 0).blk t).view.emb (ix2 p q) = ((cfg6.win 3).blk t).view.emb (ix2 p q) := by
    funext a; apply Fin.ext
    match a with
    | ⟨0, _⟩ => show win6_0.index t (0 : Fin 2) * 2000 + 1 * p.val = win6_3.index t (0 : Fin 2) * 2000 + 1 * p.val; omega
    | ⟨1, _⟩ => show win6_0.index t (1 : Fin 2) * 32 + 1 * q.val = win6_3.index t (1 : Fin 2) * 32 + 1 * q.val; omega
  have h1 : rowOf (((cfg6.win 3).blk t).view.emb (ix2 p q)) = ((cfg6.win 1).blk t).view.emb (ix2 p (0 : Fin 1)) :=
    rowOf_eq _ _ (by show win6_1.index t (0 : Fin 2) * 2000 + 1 * p.val = win6_3.index t (0 : Fin 2) * 2000 + 1 * p.val; omega)
  show _ = scaleRows _ _ (((cfg6.win 3).blk t).view.emb (ix2 p q))
  unfold scaleRows
  exact congr (congrArg (HMul.hMul : EReal → EReal → EReal) (congrArg (V c (Pipeline.arrRef spec6 0)) h0))
    (congrArg (V c (Pipeline.arrRef spec6 1)) h1.symm)

/-- What point `t` writes back to the second output is block `t` of `scaleRows` of the rows and that column. -/
theorem flushedN_eq (c : Dev nD) (t : Fin cfg6.N) :
    (dat6 V c).flushed 4 t = ((cfg6.win 4).blk t).view.read (Elt Ideal) (scaleRows (V c (Pipeline.arrRef spec6 0)) (V c (Pipeline.arrRef spec6 2))) := by
  show (cfg6.win 4).cut (grid6.coords t) ((dat6 V c).after 4 t) = _
  rw [after6_4]
  unfold out6_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk6 V c 0 t) (iblk6 V c 2 t) p q).trans ?_
  have h0 : ((cfg6.win 0).blk t).view.emb (ix2 p q) = ((cfg6.win 4).blk t).view.emb (ix2 p q) := by
    funext a; apply Fin.ext
    match a with
    | ⟨0, _⟩ => show win6_0.index t (0 : Fin 2) * 2000 + 1 * p.val = win6_4.index t (0 : Fin 2) * 2000 + 1 * p.val; omega
    | ⟨1, _⟩ => show win6_0.index t (1 : Fin 2) * 32 + 1 * q.val = win6_4.index t (1 : Fin 2) * 32 + 1 * q.val; omega
  have h1 : rowOf (((cfg6.win 4).blk t).view.emb (ix2 p q)) = ((cfg6.win 2).blk t).view.emb (ix2 p (0 : Fin 1)) :=
    rowOf_eq _ _ (by show win6_2.index t (0 : Fin 2) * 2000 + 1 * p.val = win6_4.index t (0 : Fin 2) * 2000 + 1 * p.val; omega)
  show _ = scaleRows _ _ (((cfg6.win 4).blk t).view.emb (ix2 p q))
  unfold scaleRows
  exact congr (congrArg (HMul.hMul : EReal → EReal → EReal) (congrArg (V c (Pipeline.arrRef spec6 0)) h0))
    (congrArg (V c (Pipeline.arrRef spec6 2)) h1.symm)

/-- An index is in point `t`'s block of the first output iff each coordinate is in the block's range. -/
theorem mem_blkP (t : Fin cfg6.N) (i : S100000x32.Idx) :
    i ∈ ((cfg6.win 3).blk t).view.set ↔ ∀ a : Fin 2, win6_3.index t a * S2000x32.size a ≤ (i a).val ∧ (i a).val < win6_3.index t a * S2000x32.size a + S2000x32.size a := by
  show i ∈ ((View.whole (Pipeline.arrRef spec6 3)).slice (win6_3.rect t)).set ↔ _
  rw [View.set_slice_whole, Rect.mem_set_unit]
  exact Iff.rfl

/-- The same for the second output. -/
theorem mem_blkN (t : Fin cfg6.N) (i : S100000x32.Idx) :
    i ∈ ((cfg6.win 4).blk t).view.set ↔ ∀ a : Fin 2, win6_4.index t a * S2000x32.size a ≤ (i a).val ∧ (i a).val < win6_4.index t a * S2000x32.size a + S2000x32.size a := by
  show i ∈ ((View.whole (Pipeline.arrRef spec6 4)).slice (win6_4.rect t)).set ↔ _
  rw [View.set_slice_whole, Rect.mem_set_unit]
  exact Iff.rfl

/-- Row `r` lies in the block of point `r / 2000`: the 50 blocks cover the first output. -/
theorem coverP (i : S100000x32.Idx) : ∃ t : Fin cfg6.N, (cfg6.win 3).flush t = true ∧ i ∈ ((cfg6.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush6_3 t, ?_⟩
  rw [mem_blkP]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 32 ≤ (i 1).val ∧ (i 1).val < win6_3.index t (1 : Fin 2) * 32 + 32; omega

/-- The 50 blocks cover the second output. -/
theorem coverN (i : S100000x32.Idx) : ∃ t : Fin cfg6.N, (cfg6.win 4).flush t = true ∧ i ∈ ((cfg6.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush6_4 t, ?_⟩
  rw [mem_blkN]
  intro a
  match a with
  | ⟨0, _⟩ => show win6_4.index t (0 : Fin 2) * 2000 ≤ (i 0).val ∧ (i 0).val < win6_4.index t (0 : Fin 2) * 2000 + 2000; omega
  | ⟨1, _⟩ => show win6_4.index t (1 : Fin 2) * 32 ≤ (i 1).val ∧ (i 1).val < win6_4.index t (1 : Fin 2) * 32 + 32; omega

/-- The first output array after the region: `h · np`. -/
theorem finalP (c : Dev nD) : (dat6 V c).arrAt 3 cfg6.N = scaleRows (V c (Pipeline.arrRef spec6 0)) (V c (Pipeline.arrRef spec6 1)) :=
  (dat6 V c).arrAt_eq_of_cover 3 (scaleRows (V c (Pipeline.arrRef spec6 0)) (V c (Pipeline.arrRef spec6 1))) (fun t _ => flushedP_eq V c t) (coverP)

/-- The second output array after the region: `h · nn`. -/
theorem finalN (c : Dev nD) : (dat6 V c).arrAt 4 cfg6.N = scaleRows (V c (Pipeline.arrRef spec6 0)) (V c (Pipeline.arrRef spec6 2)) :=
  (dat6 V c).arrAt_eq_of_cover 4 (scaleRows (V c (Pipeline.arrRef spec6 0)) (V c (Pipeline.arrRef spec6 2))) (fun t _ => flushedN_eq V c t) (coverN)

end Cert.KernelIdeal.Scale6

end
-- ==== Proof.Combine7.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine7

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k7_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- Every block row below 50 is some point's. -/
theorem idx_onto : ∀ q0 : Fin 50, ∃ t : Fin cfg7.N, t.val = q0.val :=
  (by decide +kernel : ∀ q0 : Fin 50, ∃ t : Fin grid7.N, t.val = q0.val)

set_option maxHeartbeats 1600000 in
/-- What point `t` writes back is block `t` of `combine` of the input arrays. -/
theorem flushed_eq (c : Dev nD) (t : Fin cfg7.N) :
    (dat7 V c).flushed 5 t = ((cfg7.win 5).blk t).view.read (Elt Ideal)
      (combine (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk7 V c 0 t) (iblk7 V c 2 t) (iblk7 V c 1 t) (iblk7 V c 3 t) (iblk7 V c 4 t) p q).trans ?_
  have h0 : ((cfg7.win 0).blk t).view.emb (ix2 p q) = ((cfg7.win 5).blk t).view.emb (ix2 p q) := by
    funext a; apply Fin.ext
    match a with
    | ⟨0, _⟩ => show win7_0.index t (0 : Fin 2) * 2000 + 1 * p.val = win7_5.index t (0 : Fin 2) * 2000 + 1 * p.val; omega
    | ⟨1, _⟩ => show win7_0.index t (1 : Fin 2) * 32 + 1 * q.val = win7_5.index t (1 : Fin 2) * 32 + 1 * q.val; omega
  have h1 : ((cfg7.win 1).blk t).view.emb (ix2 p q) = ((cfg7.win 5).blk t).view.emb (ix2 p q) := by
    funext a; apply Fin.ext
    match a with
    | ⟨0, _⟩ => show win7_1.index t (0 : Fin 2) * 2000 + 1 * p.val = win7_5.index t (0 : Fin 2) * 2000 + 1 * p.val; omega
    | ⟨1, _⟩ => show win7_1.index t (1 : Fin 2) * 32 + 1 * q.val = win7_5.index t (1 : Fin 2) * 32 + 1 * q.val; omega
  have h4 : ((cfg7.win 4).blk t).view.emb (ix2 p q) = ((cfg7.win 5).blk t).view.emb (ix2 p q) := by
    funext a; apply Fin.ext
    match a with
    | ⟨0, _⟩ => show win7_4.index t (0 : Fin 2) * 2000 + 1 * p.val = win7_5.index t (0 : Fin 2) * 2000 + 1 * p.val; omega
    | ⟨1, _⟩ => show win7_4.index t (1 : Fin 2) * 32 + 1 * q.val = win7_5.index t (1 : Fin 2) * 32 + 1 * q.val; omega
  have h2 : rowOf (((cfg7.win 5).blk t).view.emb (ix2 p q)) = ((cfg7.win 2).blk t).view.emb (ix2 p (0 : Fin 1)) :=
    rowOf_eq _ _ (by show win7_2.index t (0 : Fin 2) * 2000 + 1 * p.val = win7_5.index t (0 : Fin 2) * 2000 + 1 * p.val; omega)
  have h3 : rowOf (((cfg7.win 5).blk t).view.emb (ix2 p q)) = ((cfg7.win 3).blk t).view.emb (ix2 p (0 : Fin 1)) :=
    rowOf_eq _ _ (by show win7_3.index t (0 : Fin 2) * 2000 + 1 * p.val = win7_5.index t (0 : Fin 2) * 2000 + 1 * p.val; omega)
  show _ = combine _ _ _ _ _ (((cfg7.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec7 0)) h0)) (congrArg (V c (Pipeline.arrRef spec7 2)) h2.symm)))
        (congr (congrArg (HMul.hMul : EReal → EReal → EReal) (congrArg (V c (Pipeline.arrRef spec7 1)) h1)) (congrArg (V c (Pipeline.arrRef spec7 3)) h3.symm))))
    (congrArg (V c (Pipeline.arrRef spec7 4)) h4)

/-- An index is in point `t`'s block of the output iff each coordinate is in the block's range. -/
theorem mem_blk (t : Fin cfg7.N) (i : S100000x32.Idx) :
    i ∈ ((cfg7.win 5).blk t).view.set ↔ ∀ a : Fin 2, win7_5.index t a * S2000x32.size a ≤ (i a).val ∧ (i a).val < win7_5.index t a * S2000x32.size a + S2000x32.size a := by
  show i ∈ ((View.whole (Pipeline.arrRef spec7 5)).slice (win7_5.rect t)).set ↔ _
  rw [View.set_slice_whole, Rect.mem_set_unit]
  exact Iff.rfl

/-- Row `r` lies in the block of point `r / 2000`: the 50 blocks cover the output. -/
theorem cover (i : S100000x32.Idx) : ∃ t : Fin cfg7.N, (cfg7.win 5).flush t = true ∧ i ∈ ((cfg7.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush7_5 t, ?_⟩
  rw [mem_blk]
  intro a
  match a with
  | ⟨0, _⟩ => show win7_5.index t (0 : Fin 2) * 2000 ≤ (i 0).val ∧ (i 0).val < win7_5.index t (0 : Fin 2) * 2000 + 2000; omega
  | ⟨1, _⟩ => show win7_5.index t (1 : Fin 2) * 32 ≤ (i 1).val ∧ (i 1).val < win7_5.index t (1 : Fin 2) * 32 + 32; omega

/-- The output array after the region: `combine` of the input arrays as the region finds them. -/
theorem final (c : Dev nD) : (dat7 V c).arrAt 5 cfg7.N
    = combine (V c (Pipeline.arrRef spec7 0)) (V c (Pipeline.arrRef spec7 1)) (V c (Pipeline.arrRef spec7 2)) (V c (Pipeline.arrRef spec7 3)) (V c (Pipeline.arrRef spec7 4)) :=
  (dat7 V c).arrAt_eq_of_cover 5 _ (fun t _ => flushed_eq V c t) cover

end Cert.KernelIdeal.Combine7

end
-- ==== Proof.HostS7.lean ====
/-
  The host operations before combining region 7: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS7

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps7 V (Proc.devRef .tc main_v101) = Cert.Spec.spmm (F := Ideal) (V (Proc.devRef .tc main_v91_0)) (V (Proc.devRef .tc main_arg7)) (V (Proc.devRef .tc main_arg8)) := by
  after_results_simp; rfl
attribute [local irreducible] Host.scatterAdd Host.gather in
theorem aggN : after hostOps7 V (Proc.devRef .tc main_v111) = Cert.Spec.spmm (F := Ideal) (V (Proc.devRef .tc main_v91_1)) (V (Proc.devRef .tc main_arg9)) (V (Proc.devRef .tc main_arg10)) := by
  after_results_simp; rfl
theorem dp : after hostOps7 V (Proc.devRef .tc main_v112) = shapeCast S100000x1 (V (Proc.devRef .tc main_v30)) shapeCasts_S100000_S100000x1 := by
  after_results_simp; rfl
theorem dn : after hostOps7 V (Proc.devRef .tc main_v113) = shapeCast S100000x1 (V (Proc.devRef .tc main_v36)) shapeCasts_S100000_S100000x1 := by
  after_results_simp; rfl

end Cert.KernelIdeal.HostS7

end
-- ==== Proof.HostR6.lean ====
/-
  The two host operations before scaling region 6: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR6

open Cert.KernelIdeal Cert.KernelIdeal.Gen Idealize.ShloMosaic Idealize.ShloMosaic.TcCoe Idealize.SL.Sem Idealize.ShloMosaic.StableHlo

variable (V : Valuation τ sig (Elt Ideal))

theorem n1 : after hostOps6 V (Proc.devRef .tc main_v89) = shapeCast S100000x1 (V (Proc.devRef .tc main_v27)) shapeCasts_S100000_S100000x1 := by
  first | (after_results; rfl) | after_results
theorem n2 : after hostOps6 V (Proc.devRef .tc main_v90) = shapeCast S100000x1 (V (Proc.devRef .tc main_v33)) shapeCasts_S100000_S100000x1 := by
  first | (after_results; rfl) | after_results

end Cert.KernelIdeal.HostR6

end
-- ==== Proof.Step6.lean ====
/-
  Propagation step 3 of 8 on the kernel's side, through the fold of the program's boundaries: scaling region 6 turns the
  current features h into h · np and h · nn; the host gathers and adds them up over the two edge lists; combining region 7
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale6
import proofs.«143456_j27066883899969_1_alg».proof.Proof.Combine7
import proofs.«143456_j27066883899969_1_alg».proof.Proof.HostS7
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR6

set_option maxRecDepth 16384

noncomputable section

namespace Cert.KernelIdeal.Step6

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 6: the features and everything carried are untouched by the two recasts, which put the two
    out-degree normalisers in one-column form. -/
theorem enter
    (hH : W14 m ρ c (Proc.devRef .tc main_v88) = H)
    (h_main_v11 : W14 m ρ c (Proc.devRef .tc main_v11) = O)
    (h_main_v27 : W14 m ρ c (Proc.devRef .tc main_v27) = Cert.Spec.norm s)
    (h_main_v30 : W14 m ρ c (Proc.devRef .tc main_v30) = Cert.Spec.norm d)
    (h_main_v33 : W14 m ρ c (Proc.devRef .tc main_v33) = Cert.Spec.norm ns)
    (h_main_v36 : W14 m ρ c (Proc.devRef .tc main_v36) = Cert.Spec.norm nd)
    (h_main_arg7 : W14 m ρ c (Proc.devRef .tc main_arg7) = s)
    (h_main_arg8 : W14 m ρ c (Proc.devRef .tc main_arg8) = d)
    (h_main_arg9 : W14 m ρ c (Proc.devRef .tc main_arg9) = ns)
    (h_main_arg10 : W14 m ρ c (Proc.devRef .tc main_arg10) = nd)
    : W15 m ρ c (Proc.devRef .tc main_v88) = H
    ∧ W15 m ρ c (Proc.devRef .tc main_v89) = shapeCast S100000x1 (Cert.Spec.norm s) shapeCasts_S100000_S100000x1
    ∧ W15 m ρ c (Proc.devRef .tc main_v90) = shapeCast S100000x1 (Cert.Spec.norm ns) shapeCasts_S100000_S100000x1
    ∧ W15 m ρ c (Proc.devRef .tc main_v11) = O
    ∧ W15 m ρ c (Proc.devRef .tc main_v27) = Cert.Spec.norm s
    ∧ W15 m ρ c (Proc.devRef .tc main_v30) = Cert.Spec.norm d
    ∧ W15 m ρ c (Proc.devRef .tc main_v33) = Cert.Spec.norm ns
    ∧ W15 m ρ c (Proc.devRef .tc main_v36) = Cert.Spec.norm nd
    ∧ W15 m ρ c (Proc.devRef .tc main_arg7) = s
    ∧ W15 m ρ c (Proc.devRef .tc main_arg8) = d
    ∧ W15 m ρ c (Proc.devRef .tc main_arg9) = ns
    ∧ W15 m ρ c (Proc.devRef .tc main_arg10) = nd := by
  refine ⟨(hostOps6_keeps _ main_v88 (by decide)).trans hH,
    (HostR6.n1 _).trans (by rw [h_main_v27]),
    (HostR6.n2 _).trans (by rw [h_main_v33]),
    (hostOps6_keeps _ main_v11 (by decide)).trans h_main_v11,
    (hostOps6_keeps _ main_v27 (by decide)).trans h_main_v27,
    (hostOps6_keeps _ main_v30 (by decide)).trans h_main_v30,
    (hostOps6_keeps _ main_v33 (by decide)).trans h_main_v33,
    (hostOps6_keeps _ main_v36 (by decide)).trans h_main_v36,
    (hostOps6_keeps _ main_arg7 (by decide)).trans h_main_arg7,
    (hostOps6_keeps _ main_arg8 (by decide)).trans h_main_arg8,
    (hostOps6_keeps _ main_arg9 (by decide)).trans h_main_arg9,
    (hostOps6_keeps _ main_arg10 (by decide)).trans h_main_arg10⟩

/-- From the entry of scaling region 6 to the exit of combining region 7. -/
theorem step
    (hH : W15 m ρ c (Proc.devRef .tc main_v88) = H)
    (hn1 : W15 m ρ c (Proc.devRef .tc main_v89) = shapeCast S100000x1 (Cert.Spec.norm s) shapeCasts_S100000_S100000x1)
    (hn2 : W15 m ρ c (Proc.devRef .tc main_v90) = shapeCast S100000x1 (Cert.Spec.norm ns) shapeCasts_S100000_S100000x1)
    (h_main_v11 : W15 m ρ c (Proc.devRef .tc main_v11) = O)
    (h_main_v27 : W15 m ρ c (Proc.devRef .tc main_v27) = Cert.Spec.norm s)
    (h_main_v30 : W15 m ρ c (Proc.devRef .tc main_v30) = Cert.Spec.norm d)
    (h_main_v33 : W15 m ρ c (Proc.devRef .tc main_v33) = Cert.Spec.norm ns)
    (h_main_v36 : W15 m ρ c (Proc.devRef .tc main_v36) = Cert.Spec.norm nd)
    (h_main_arg7 : W15 m ρ c (Proc.devRef .tc main_arg7) = s)
    (h_main_arg8 : W15 m ρ c (Proc.devRef .tc main_arg8) = d)
    (h_main_arg9 : W15 m ρ c (Proc.devRef .tc main_arg9) = ns)
    (h_main_arg10 : W15 m ρ c (Proc.devRef .tc main_arg10) = nd)
    : W18 m ρ c (Proc.devRef .tc main_v114) = Cert.Spec.step O s d ns nd H
    ∧ W18 m ρ c (Proc.devRef .tc main_v11) = O
    ∧ W18 m ρ c (Proc.devRef .tc main_v27) = Cert.Spec.norm s
    ∧ W18 m ρ c (Proc.devRef .tc main_v30) = Cert.Spec.norm d
    ∧ W18 m ρ c (Proc.devRef .tc main_v33) = Cert.Spec.norm ns
    ∧ W18 m ρ c (Proc.devRef .tc main_v36) = Cert.Spec.norm nd
    ∧ W18 m ρ c (Proc.devRef .tc main_arg7) = s
    ∧ W18 m ρ c (Proc.devRef .tc main_arg8) = d
    ∧ W18 m ρ c (Proc.devRef .tc main_arg9) = ns
    ∧ W18 m ρ c (Proc.devRef .tc main_arg10) = nd := by
  have x3 : W16 m ρ c (Proc.devRef .tc main_v91_0) = scaleRows H (shapeCast S100000x1 (Cert.Spec.norm s) shapeCasts_S100000_S100000x1) :=
    (W16_arr m ρ c 3).trans ((Scale6.finalP (V15 m ρ) c).trans (scaleRows_congr hH hn1))
  have x4 : W16 m ρ c (Proc.devRef .tc main_v91_1) = scaleRows H (shapeCast S100000x1 (Cert.Spec.norm ns) shapeCasts_S100000_S100000x1) :=
    (W16_arr m ρ c 4).trans ((Scale6.finalN (V15 m ρ) c).trans (scaleRows_congr hH hn2))
  have x_main_v11 : W16 m ρ c (Proc.devRef .tc main_v11) = O := (W16_of_ne m ρ c main_v11 (by decide)).trans h_main_v11
  have x_main_v27 : W16 m ρ c (Proc.devRef .tc main_v27) = Cert.Spec.norm s := (W16_of_ne m ρ c main_v27 (by decide)).trans h_main_v27
  have x_main_v30 : W16 m ρ c (Proc.devRef .tc main_v30) = Cert.Spec.norm d := (W16_of_ne m ρ c main_v30 (by decide)).trans h_main_v30
  have x_main_v33 : W16 m ρ c (Proc.devRef .tc main_v33) = Cert.Spec.norm ns := (W16_of_ne m ρ c main_v33 (by decide)).trans h_main_v33
  have x_main_v36 : W16 m ρ c (Proc.devRef .tc main_v36) = Cert.Spec.norm nd := (W16_of_ne m ρ c main_v36 (by decide)).trans h_main_v36
  have x_main_arg7 : W16 m ρ c (Proc.devRef .tc main_arg7) = s := (W16_of_ne m ρ c main_arg7 (by decide)).trans h_main_arg7
  have x_main_arg8 : W16 m ρ c (Proc.devRef .tc main_arg8) = d := (W16_of_ne m ρ c main_arg8 (by decide)).trans h_main_arg8
  have x_main_arg9 : W16 m ρ c (Proc.devRef .tc main_arg9) = ns := (W16_of_ne m ρ c main_arg9 (by decide)).trans h_main_arg9
  have x_main_arg10 : W16 m ρ c (Proc.devRef .tc main_arg10) = nd := (W16_of_ne m ρ c main_arg10 (by decide)).trans h_main_arg10
  have f_ap : W17 m ρ c (Proc.devRef .tc main_v101) = Cert.Spec.spmm (scaleRows H (shapeCast S100000x1 (Cert.Spec.norm s) shapeCasts_S100000_S100000x1)) s d :=
    (HostS7.aggP _).trans (by rw [x3, x_main_arg7, x_main_arg8])
  have f_an : W17 m ρ c (Proc.devRef .tc main_v111) = Cert.Spec.spmm (scaleRows H (shapeCast S100000x1 (Cert.Spec.norm ns) shapeCasts_S100000_S100000x1)) ns nd :=
    (HostS7.aggN _).trans (by rw [x4, x_main_arg9, x_main_arg10])
  have f_dp : W17 m ρ c (Proc.devRef .tc main_v112) = shapeCast S100000x1 (Cert.Spec.norm d) shapeCasts_S100000_S100000x1 := (HostS7.dp _).trans (by rw [x_main_v30])
  have f_dn : W17 m ρ c (Proc.devRef .tc main_v113) = shapeCast S100000x1 (Cert.Spec.norm nd) shapeCasts_S100000_S100000x1 := (HostS7.dn _).trans (by rw [x_main_v36])
  have f_main_v11 : W17 m ρ c (Proc.devRef .tc main_v11) = O := (hostOps7_keeps _ main_v11 (by decide)).trans x_main_v11
  have f_main_v27 : W17 m ρ c (Proc.devRef .tc main_v27) = Cert.Spec.norm s := (hostOps7_keeps _ main_v27 (by decide)).trans x_main_v27
  have f_main_v30 : W17 m ρ c (Proc.devRef .tc main_v30) = Cert.Spec.norm d := (hostOps7_keeps _ main_v30 (by decide)).trans x_main_v30
  have f_main_v33 : W17 m ρ c (Proc.devRef .tc main_v33) = Cert.Spec.norm ns := (hostOps7_keeps _ main_v33 (by decide)).trans x_main_v33
  have f_main_v36 : W17 m ρ c (Proc.devRef .tc main_v36) = Cert.Spec.norm nd := (hostOps7_keeps _ main_v36 (by decide)).trans x_main_v36
  have f_main_arg7 : W17 m ρ c (Proc.devRef .tc main_arg7) = s := (hostOps7_keeps _ main_arg7 (by decide)).trans x_main_arg7
  have f_main_arg8 : W17 m ρ c (Proc.devRef .tc main_arg8) = d := (hostOps7_keeps _ main_arg8 (by decide)).trans x_main_arg8
  have f_main_arg9 : W17 m ρ c (Proc.devRef .tc main_arg9) = ns := (hostOps7_keeps _ main_arg9 (by decide)).trans x_main_arg9
  have f_main_arg10 : W17 m ρ c (Proc.devRef .tc main_arg10) = nd := (hostOps7_keeps _ main_arg10 (by decide)).trans x_main_arg10
  have y_h : W18 m ρ c (Proc.devRef .tc main_v114) = Cert.Spec.step O s d ns nd H :=
    (W18_arr m ρ c 5).trans ((Combine7.final (V17 m ρ) c).trans
      ((combine_congr f_ap f_an f_dp f_dn f_main_v11).trans (Cert.Bridge.step_eq H O s d ns nd _)))
  exact ⟨y_h,
    (W18_arr m ρ c 4).trans ((((dat7 (V17 m ρ) c).arrAt_in 4 rfl _).trans (A_eq7 (V17 m ρ) c 4)).trans f_main_v11),
    (W18_of_ne m ρ c main_v27 (by decide)).trans f_main_v27,
    (W18_of_ne m ρ c main_v30 (by decide)).trans f_main_v30,
    (W18_of_ne m ρ c main_v33 (by decide)).trans f_main_v33,
    (W18_of_ne m ρ c main_v36 (by decide)).trans f_main_v36,
    (W18_of_ne m ρ c main_arg7 (by decide)).trans f_main_arg7,
    (W18_of_ne m ρ c main_arg8 (by decide)).trans f_main_arg8,
    (W18_of_ne m ρ c main_arg9 (by decide)).trans f_main_arg9,
    (W18_of_ne m ρ c main_arg10 (by decide)).trans f_main_arg10⟩

end Cert.KernelIdeal.Step6

end
-- ==== Proof.Scale8.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale8

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k8_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k8_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Every block row below 50 is some point's. -/
theorem idx_onto : ∀ q0 : Fin 50, ∃ t : Fin cfg8.N, t.val = q0.val :=
  (by decide +kernel : ∀ q0 : Fin 50, ∃ t : Fin grid8.N, t.val = q0.val)

/-- What point `t` writes back to the first output is block `t` of `scaleRows` of the rows and that column. -/
theorem flushedP_eq (c : Dev nD) (t : Fin cfg8.N) :
    (dat8 V c).flushed 3 t = ((cfg8.win 3).blk t).view.read (Elt Ideal) (scaleRows (V c (Pipeline.arrRef spec8 0)) (V c (Pipeline.arrRef spec8 1))) := by
  show (cfg8.win 3).cut (grid8.coords t) ((dat8 V c).after 3 t) = _
  rw [after8_3]
  unfold out8_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk8 V c 0 t) (iblk8 V c 1 t) p q).trans ?_
  have h0 : ((cfg8.win 0).blk t).view.emb (ix2 p q) = ((cfg8.win 3).blk t).view.emb (ix2 p q) := by
    funext a; apply Fin.ext
    match a with
    | ⟨0, _⟩ => show win8_0.index t (0 : Fin 2) * 2000 + 1 * p.val = win8_3.index t (0 : Fin 2) * 2000 + 1 * p.val; omega
    | ⟨1, _⟩ => show win8_0.index t (1 : Fin 2) * 32 + 1 * q.val = win8_3.index t (1 : Fin 2) * 32 + 1 * q.val; omega
  have h1 : rowOf (((cfg8.win 3).blk t).view.emb (ix2 p q)) = ((cfg8.win 1).blk t).view.emb (ix2 p (0 : Fin 1)) :=
    rowOf_eq _ _ (by show win8_1.index t (0 : Fin 2) * 2000 + 1 * p.val = win8_3.index t (0 : Fin 2) * 2000 + 1 * p.val; omega)
  show _ = scaleRows _ _ (((cfg8.win 3).blk t).view.emb (ix2 p q))
  unfold scaleRows
  exact congr (congrArg (HMul.hMul : EReal → EReal → EReal) (congrArg (V c (Pipeline.arrRef spec8 0)) h0))
    (congrArg (V c (Pipeline.arrRef spec8 1)) h1.symm)

/-- What point `t` writes back to the second output is block `t` of `scaleRows` of the rows and that column. -/
theorem flushedN_eq (c : Dev nD) (t : Fin cfg8.N) :
    (dat8 V c).flushed 4 t = ((cfg8.win 4).blk t).view.read (Elt Ideal) (scaleRows (V c (Pipeline.arrRef spec8 0)) (V c (Pipeline.arrRef spec8 2))) := by
  show (cfg8.win 4).cut (grid8.coords t) ((dat8 V c).after 4 t) = _
  rw [after8_4]
  unfold out8_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk8 V c 0 t) (iblk8 V c 2 t) p q).trans ?_
  have h0 : ((cfg8.win 0).blk t).view.emb (ix2 p q) = ((cfg8.win 4).blk t).view.emb (ix2 p q) := by
    funext a; apply Fin.ext
    match a with
    | ⟨0, _⟩ => show win8_0.index t (0 : Fin 2) * 2000 + 1 * p.val = win8_4.index t (0 : Fin 2) * 2000 + 1 * p.val; omega
    | ⟨1, _⟩ => show win8_0.index t (1 : Fin 2) * 32 + 1 * q.val = win8_4.index t (1 : Fin 2) * 32 + 1 * q.val; omega
  have h1 : rowOf (((cfg8.win 4).blk t).view.emb (ix2 p q)) = ((cfg8.win 2).blk t).view.emb (ix2 p (0 : Fin 1)) :=
    rowOf_eq _ _ (by show win8_2.index t (0 : Fin 2) * 2000 + 1 * p.val = win8_4.index t (0 : Fin 2) * 2000 + 1 * p.val; omega)
  show _ = scaleRows _ _ (((cfg8.win 4).blk t).view.emb (ix2 p q))
  unfold scaleRows
  exact congr (congrArg (HMul.hMul : EReal → EReal → EReal) (congrArg (V c (Pipeline.arrRef spec8 0)) h0))
    (congrArg (V c (Pipeline.arrRef spec8 2)) h1.symm)

/-- An index is in point `t`'s block of the first output iff each coordinate is in the block's range. -/
theorem mem_blkP (t : Fin cfg8.N) (i : S100000x32.Idx) :
    i ∈ ((cfg8.win 3).blk t).view.set ↔ ∀ a : Fin 2, win8_3.index t a * S2000x32.size a ≤ (i a).val ∧ (i a).val < win8_3.index t a * S2000x32.size a + S2000x32.size a := by
  show i ∈ ((View.whole (Pipeline.arrRef spec8 3)).slice (win8_3.rect t)).set ↔ _
  rw [View.set_slice_whole, Rect.mem_set_unit]
  exact Iff.rfl

/-- The same for the second output. -/
theorem mem_blkN (t : Fin cfg8.N) (i : S100000x32.Idx) :
    i ∈ ((cfg8.win 4).blk t).view.set ↔ ∀ a : Fin 2, win8_4.index t a * S2000x32.size a ≤ (i a).val ∧ (i a).val < win8_4.index t a * S2000x32.size a + S2000x32.size a := by
  show i ∈ ((View.whole (Pipeline.arrRef spec8 4)).slice (win8_4.rect t)).set ↔ _
  rw [View.set_slice_whole, Rect.mem_set_unit]
  exact Iff.rfl

/-- Row `r` lies in the block of point `r / 2000`: the 50 blocks cover the first output. -/
theorem coverP (i : S100000x32.Idx) : ∃ t : Fin cfg8.N, (cfg8.win 3).flush t = true ∧ i ∈ ((cfg8.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush8_3 t, ?_⟩
  rw [mem_blkP]
  intro a
  match a with
  | ⟨0, _⟩ => show win8_3.index t (0 : Fin 2) * 2000 ≤ (i 0).val ∧ (i 0).val < win8_3.index t (0 : Fin 2) * 2000 + 2000; omega
  | ⟨1, _⟩ => show win8_3.index t (1 : Fin 2) * 32 ≤ (i 1).val ∧ (i 1).val < win8_3.index t (1 : Fin 2) * 32 + 32; omega

/-- The 50 blocks cover the second output. -/
theorem coverN (i : S100000x32.Idx) : ∃ t : Fin cfg8.N, (cfg8.win 4).flush t = true ∧ i ∈ ((cfg8.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush8_4 t, ?_⟩
  rw [mem_blkN]
  intro a
  match a with
  | ⟨0, _⟩ => show win8_4.index t (0 : Fin 2) * 2000 ≤ (i 0).val ∧ (i 0).val < win8_4.index t (0 : Fin 2) * 2000 + 2000; omega
  | ⟨1, _⟩ => show win8_4.index t (1 : Fin 2) * 32 ≤ (i 1).val ∧ (i 1).val < win8_4.index t (1 : Fin 2) * 32 + 32; omega

/-- The first output array after the region: `h · np`. -/
theorem finalP (c : Dev nD) : (dat8 V c).arrAt 3 cfg8.N = scaleRows (V c (Pipeline.arrRef spec8 0)) (V c (Pipeline.arrRef spec8 1)) :=
  (dat8 V c).arrAt_eq_of_cover 3 (scaleRows (V c (Pipeline.arrRef spec8 0)) (V c (Pipeline.arrRef spec8 1))) (fun t _ => flushedP_eq V c t) (coverP)

/-- The second output array after the region: `h · nn`. -/
theorem finalN (c : Dev nD) : (dat8 V c).arrAt 4 cfg8.N = scaleRows (V c (Pipeline.arrRef spec8 0)) (V c (Pipeline.arrRef spec8 2)) :=
  (dat8 V c).arrAt_eq_of_cover 4 (scaleRows (V c (Pipeline.arrRef spec8 0)) (V c (Pipeline.arrRef spec8 2))) (fun t _ => flushedN_eq V c t) (coverN)

end Cert.KernelIdeal.Scale8

end
-- ==== Proof.Combine9.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine9

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k9_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- Every block row below 50 is some point's. -/
theorem idx_onto : ∀ q0 : Fin 50, ∃ t : Fin cfg9.N, t.val = q0.val :=
  (by decide +kernel : ∀ q0 : Fin 50, ∃ t : Fin grid9.N, t.val = q0.val)

set_option maxHeartbeats 1600000 in
/-- What point `t` writes back is block `t` of `combine` of the input arrays. -/
theorem flushed_eq (c : Dev nD) (t : Fin cfg9.N) :
    (dat9 V c).flushed 5 t = ((cfg9.win 5).blk t).view.read (Elt Ideal)
      (combine (V c (Pipeline.arrRef spec9 0)) (V c (Pipeline.arrRef spec9 1)) (V c (Pipeline.arrRef spec9 2)) (V c (Pipeline.arrRef spec9 3)) (V c (Pipeline.arrRef spec9 4))) := by
  show (cfg9.win 5).cut (grid9.coords t) ((dat9 V c).after 5 t) = _
  rw [after9_5]
  unfold out9_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk9 V c 0 t) (iblk9 V c 2 t) (iblk9 V c 1 t) (iblk9 V c 3 t) (iblk9 V c 4 t) p q).trans ?_
  have h0 : ((cfg9.win 0).blk t).view.emb (ix2 p q) = ((cfg9.win 5).blk t).view.emb (ix2 p q) := by
    funext a; apply Fin.ext
    match a with
    | ⟨0, _⟩ => show win9_0.index t (0 : Fin 2) * 2000 + 1 * p.val = win9_5.index t (0 : Fin 2) * 2000 + 1 * p.val; omega
    | ⟨1, _⟩ => show win9_0.index t (1 : Fin 2) * 32 + 1 * q.val = win9_5.index t (1 : Fin 2) * 32 + 1 * q.val; omega
  have h1 : ((cfg9.win 1).blk t).view.emb (ix2 p q) = ((cfg9.win 5).blk t).view.emb (ix2 p q) := by
    funext a; apply Fin.ext
    match a with
    | ⟨0, _⟩ => show win9_1.index t (0 : Fin 2) * 2000 + 1 * p.val = win9_5.index t (0 : Fin 2) * 2000 + 1 * p.val; omega
    | ⟨1, _⟩ => show win9_1.index t (1 : Fin 2) * 32 + 1 * q.val = win9_5.index t (1 : Fin 2) * 32 + 1 * q.val; omega
  have h4 : ((cfg9.win 4).blk t).view.emb (ix2 p q) = ((cfg9.win 5).blk t).view.emb (ix2 p q) := by
    funext a; apply Fin.ext
    match a with
    | ⟨0, _⟩ => show win9_4.index t (0 : Fin 2) * 2000 + 1 * p.val = win9_5.index t (0 : Fin 2) * 2000 + 1 * p.val; omega
    | ⟨1, _⟩ => show win9_4.index t (1 : Fin 2) * 32 + 1 * q.val = win9_5.index t (1 : Fin 2) * 32 + 1 * q.val; omega
  have h2 : rowOf (((cfg9.win 5).blk t).view.emb (ix2 p q)) = ((cfg9.win 2).blk t).view.emb (ix2 p (0 : Fin 1)) :=
    rowOf_eq _ _ (by show win9_2.index t (0 : Fin 2) * 2000 + 1 * p.val = win9_5.index t (0 : Fin 2) * 2000 + 1 * p.val; omega)
  have h3 : rowOf (((cfg9.win 5).blk t).view.emb (ix2 p q)) = ((cfg9.win 3).blk t).view.emb (ix2 p (0 : Fin 1)) :=
    rowOf_eq _ _ (by show win9_3.index t (0 : Fin 2) * 2000 + 1 * p.val = win9_5.index t (0 : Fin 2) * 2000 + 1 * p.val; omega)
  show _ = combine _ _ _ _ _ (((cfg9.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec9 0)) h0)) (congrArg (V c (Pipeline.arrRef spec9 2)) h2.symm)))
        (congr (congrArg (HMul.hMul : EReal → EReal → EReal) (congrArg (V c (Pipeline.arrRef spec9 1)) h1)) (congrArg (V c (Pipeline.arrRef spec9 3)) h3.symm))))
    (congrArg (V c (Pipeline.arrRef spec9 4)) h4)

/-- An index is in point `t`'s block of the output iff each coordinate is in the block's range. -/
theorem mem_blk (t : Fin cfg9.N) (i : S100000x32.Idx) :
    i ∈ ((cfg9.win 5).blk t).view.set ↔ ∀ a : Fin 2, win9_5.index t a * S2000x32.size a ≤ (i a).val ∧ (i a).val < win9_5.index t a * S2000x32.size a + S2000x32.size a := by
  show i ∈ ((View.whole (Pipeline.arrRef spec9 5)).slice (win9_5.rect t)).set ↔ _
  rw [View.set_slice_whole, Rect.mem_set_unit]
  exact Iff.rfl

/-- Row `r` lies in the block of point `r / 2000`: the 50 blocks cover the output. -/
theorem cover (i : S100000x32.Idx) : ∃ t : Fin cfg9.N, (cfg9.win 5).flush t = true ∧ i ∈ ((cfg9.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush9_5 t, ?_⟩
  rw [mem_blk]
  intro a
  match a with
  | ⟨0, _⟩ => show win9_5.index t (0 : Fin 2) * 2000 ≤ (i 0).val ∧ (i 0).val < win9_5.index t (0 : Fin 2) * 2000 + 2000; omega
  | ⟨1, _⟩ => show win9_5.index t (1 : Fin 2) * 32 ≤ (i 1).val ∧ (i 1).val < win9_5.index t (1 : Fin 2) * 32 + 32; omega

/-- The output array after the region: `combine` of the input arrays as the region finds them. -/
theorem final (c : Dev nD) : (dat9 V c).arrAt 5 cfg9.N
    = combine (V c (Pipeline.arrRef spec9 0)) (V c (Pipeline.arrRef spec9 1)) (V c (Pipeline.arrRef spec9 2)) (V c (Pipeline.arrRef spec9 3)) (V c (Pipeline.arrRef spec9 4)) :=
  (dat9 V c).arrAt_eq_of_cover 5 _ (fun t _ => flushed_eq V c t) cover

end Cert.KernelIdeal.Combine9

end
-- ==== Proof.HostS9.lean ====
/-
  The host operations before combining region 9: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS9

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps9 V (Proc.devRef .tc main_v127) = Cert.Spec.spmm (F := Ideal) (V (Proc.devRef .tc main_v117_0)) (V (Proc.devRef .tc main_arg7)) (V (Proc.devRef .tc main_arg8)) := by
  after_results_simp; rfl
attribute [local irreducible] Host.scatterAdd Host.gather in
theorem aggN : after hostOps9 V (Proc.devRef .tc main_v137) = Cert.Spec.spmm (F := Ideal) (V (Proc.devRef .tc main_v117_1)) (V (Proc.devRef .tc main_arg9)) (V (Proc.devRef .tc main_arg10)) := by
  after_results_simp; rfl
theorem dp : after hostOps9 V (Proc.devRef .tc main_v138) = shapeCast S100000x1 (V (Proc.devRef .tc main_v30)) shapeCasts_S100000_S100000x1 := by
  after_results_simp; rfl
theorem dn : after hostOps9 V (Proc.devRef .tc main_v139) = shapeCast S100000x1 (V (Proc.devRef .tc main_v36)) shapeCasts_S100000_S100000x1 := by
  after_results_simp; rfl

end Cert.KernelIdeal.HostS9

end
-- ==== Proof.HostR8.lean ====
/-
  The two host operations before scaling region 8: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR8

open Cert.KernelIdeal Cert.KernelIdeal.Gen Idealize.ShloMosaic Idealize.ShloMosaic.TcCoe Idealize.SL.Sem Idealize.ShloMosaic.StableHlo

variable (V : Valuation τ sig (Elt Ideal))

theorem n1 : after hostOps8 V (Proc.devRef .tc main_v115) = shapeCast S100000x1 (V (Proc.devRef .tc main_v27)) shapeCasts_S100000_S100000x1 := by
  first | (after_results; rfl) | after_results
theorem n2 : after hostOps8 V (Proc.devRef .tc main_v116) = shapeCast S100000x1 (V (Proc.devRef .tc main_v33)) shapeCasts_S100000_S100000x1 := by
  first | (after_results; rfl) | after_results

end Cert.KernelIdeal.HostR8

end
-- ==== Proof.Step8.lean ====
/-
  Propagation step 4 of 8 on the kernel's side, through the fold of the program's boundaries: scaling region 8 turns the
  current features h into h · np and h · nn; the host gathers and adds them up over the two edge lists; combining region 9
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale8
import proofs.«143456_j27066883899969_1_alg».proof.Proof.Combine9
import proofs.«143456_j27066883899969_1_alg».proof.Proof.HostS9
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR8

set_option maxRecDepth 16384

noncomputable section

namespace Cert.KernelIdeal.Step8

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 8: the features and everything carried are untouched by the two recasts, which put the two
    out-degree normalisers in one-column form. -/
theorem enter
    (hH : W18 m ρ c (Proc.devRef .tc main_v114) = H)
    (h_main_v11 : W18 m ρ c (Proc.devRef .tc main_v11) = O)
    (h_main_v27 : W18 m ρ c (Proc.devRef .tc main_v27) = Cert.Spec.norm s)
    (h_main_v30 : W18 m ρ c (Proc.devRef .tc main_v30) = Cert.Spec.norm d)
    (h_main_v33 : W18 m ρ c (Proc.devRef .tc main_v33) = Cert.Spec.norm ns)
    (h_main_v36 : W18 m ρ c (Proc.devRef .tc main_v36) = Cert.Spec.norm nd)
    (h_main_arg7 : W18 m ρ c (Proc.devRef .tc main_arg7) = s)
    (h_main_arg8 : W18 m ρ c (Proc.devRef .tc main_arg8) = d)
    (h_main_arg9 : W18 m ρ c (Proc.devRef .tc main_arg9) = ns)
    (h_main_arg10 : W18 m ρ c (Proc.devRef .tc main_arg10) = nd)
    : W19 m ρ c (Proc.devRef .tc main_v114) = H
    ∧ W19 m ρ c (Proc.devRef .tc main_v115) = shapeCast S100000x1 (Cert.Spec.norm s) shapeCasts_S100000_S100000x1
    ∧ W19 m ρ c (Proc.devRef .tc main_v116) = shapeCast S100000x1 (Cert.Spec.norm ns) shapeCasts_S100000_S100000x1
    ∧ W19 m ρ c (Proc.devRef .tc main_v11) = O
    ∧ W19 m ρ c (Proc.devRef .tc main_v27) = Cert.Spec.norm s
    ∧ W19 m ρ c (Proc.devRef .tc main_v30) = Cert.Spec.norm d
    ∧ W19 m ρ c (Proc.devRef .tc main_v33) = Cert.Spec.norm ns
    ∧ W19 m ρ c (Proc.devRef .tc main_v36) = Cert.Spec.norm nd
    ∧ W19 m ρ c (Proc.devRef .tc main_arg7) = s
    ∧ W19 m ρ c (Proc.devRef .tc main_arg8) = d
    ∧ W19 m ρ c (Proc.devRef .tc main_arg9) = ns
    ∧ W19 m ρ c (Proc.devRef .tc main_arg10) = nd := by
  refine ⟨(hostOps8_keeps _ main_v114 (by decide)).trans hH,
    (HostR8.n1 _).trans (by rw [h_main_v27]),
    (HostR8.n2 _).trans (by rw [h_main_v33]),
    (hostOps8_keeps _ main_v11 (by decide)).trans h_main_v11,
    (hostOps8_keeps _ main_v27 (by decide)).trans h_main_v27,
    (hostOps8_keeps _ main_v30 (by decide)).trans h_main_v30,
    (hostOps8_keeps _ main_v33 (by decide)).trans h_main_v33,
    (hostOps8_keeps _ main_v36 (by decide)).trans h_main_v36,
    (hostOps8_keeps _ main_arg7 (by decide)).trans h_main_arg7,
    (hostOps8_keeps _ main_arg8 (by decide)).trans h_main_arg8,
    (hostOps8_keeps _ main_arg9 (by decide)).trans h_main_arg9,
    (hostOps8_keeps _ main_arg10 (by decide)).trans h_main_arg10⟩

/-- From the entry of scaling region 8 to the exit of combining region 9. -/
theorem step
    (hH : W19 m ρ c (Proc.devRef .tc main_v114) = H)
    (hn1 : W19 m ρ c (Proc.devRef .tc main_v115) = shapeCast S100000x1 (Cert.Spec.norm s) shapeCasts_S100000_S100000x1)
    (hn2 : W19 m ρ c (Proc.devRef .tc main_v116) = shapeCast S100000x1 (Cert.Spec.norm ns) shapeCasts_S100000_S100000x1)
    (h_main_v11 : W19 m ρ c (Proc.devRef .tc main_v11) = O)
    (h_main_v27 : W19 m ρ c (Proc.devRef .tc main_v27) = Cert.Spec.norm s)
    (h_main_v30 : W19 m ρ c (Proc.devRef .tc main_v30) = Cert.Spec.norm d)
    (h_main_v33 : W19 m ρ c (Proc.devRef .tc main_v33) = Cert.Spec.norm ns)
    (h_main_v36 : W19 m ρ c (Proc.devRef .tc main_v36) = Cert.Spec.norm nd)
    (h_main_arg7 : W19 m ρ c (Proc.devRef .tc main_arg7) = s)
    (h_main_arg8 : W19 m ρ c (Proc.devRef .tc main_arg8) = d)
    (h_main_arg9 : W19 m ρ c (Proc.devRef .tc main_arg9) = ns)
    (h_main_arg10 : W19 m ρ c (Proc.devRef .tc main_arg10) = nd)
    : W22 m ρ c (Proc.devRef .tc main_v140) = Cert.Spec.step O s d ns nd H
    ∧ W22 m ρ c (Proc.devRef .tc main_v11) = O
    ∧ W22 m ρ c (Proc.devRef .tc main_v27) = Cert.Spec.norm s
    ∧ W22 m ρ c (Proc.devRef .tc main_v30) = Cert.Spec.norm d
    ∧ W22 m ρ c (Proc.devRef .tc main_v33) = Cert.Spec.norm ns
    ∧ W22 m ρ c (Proc.devRef .tc main_v36) = Cert.Spec.norm nd
    ∧ W22 m ρ c (Proc.devRef .tc main_arg7) = s
    ∧ W22 m ρ c (Proc.devRef .tc main_arg8) = d
    ∧ W22 m ρ c (Proc.devRef .tc main_arg9) = ns
    ∧ W22 m ρ c (Proc.devRef .tc main_arg10) = nd := by
  have x3 : W20 m ρ c (Proc.devRef .tc main_v117_0) = scaleRows H (shapeCast S100000x1 (Cert.Spec.norm s) shapeCasts_S100000_S100000x1) :=
    (W20_arr m ρ c 3).trans ((Scale8.finalP (V19 m ρ) c).trans (scaleRows_congr hH hn1))
  have x4 : W20 m ρ c (Proc.devRef .tc main_v117_1) = scaleRows H (shapeCast S100000x1 (Cert.Spec.norm ns) shapeCasts_S100000_S100000x1) :=
    (W20_arr m ρ c 4).trans ((Scale8.finalN (V19 m ρ) c).trans (scaleRows_congr hH hn2))
  have x_main_v11 : W20 m ρ c (Proc.devRef .tc main_v11) = O := (W20_of_ne m ρ c main_v11 (by decide)).trans h_main_v11
  have x_main_v27 : W20 m ρ c (Proc.devRef .tc main_v27) = Cert.Spec.norm s := (W20_of_ne m ρ c main_v27 (by decide)).trans h_main_v27
  have x_main_v30 : W20 m ρ c (Proc.devRef .tc main_v30) = Cert.Spec.norm d := (W20_of_ne m ρ c main_v30 (by decide)).trans h_main_v30
  have x_main_v33 : W20 m ρ c (Proc.devRef .tc main_v33) = Cert.Spec.norm ns := (W20_of_ne m ρ c main_v33 (by decide)).trans h_main_v33
  have x_main_v36 : W20 m ρ c (Proc.devRef .tc main_v36) = Cert.Spec.norm nd := (W20_of_ne m ρ c main_v36 (by decide)).trans h_main_v36
  have x_main_arg7 : W20 m ρ c (Proc.devRef .tc main_arg7) = s := (W20_of_ne m ρ c main_arg7 (by decide)).trans h_main_arg7
  have x_main_arg8 : W20 m ρ c (Proc.devRef .tc main_arg8) = d := (W20_of_ne m ρ c main_arg8 (by decide)).trans h_main_arg8
  have x_main_arg9 : W20 m ρ c (Proc.devRef .tc main_arg9) = ns := (W20_of_ne m ρ c main_arg9 (by decide)).trans h_main_arg9
  have x_main_arg10 : W20 m ρ c (Proc.devRef .tc main_arg10) = nd := (W20_of_ne m ρ c main_arg10 (by decide)).trans h_main_arg10
  have f_ap : W21 m ρ c (Proc.devRef .tc main_v127) = Cert.Spec.spmm (scaleRows H (shapeCast S100000x1 (Cert.Spec.norm s) shapeCasts_S100000_S100000x1)) s d :=
    (HostS9.aggP _).trans (by rw [x3, x_main_arg7, x_main_arg8])
  have f_an : W21 m ρ c (Proc.devRef .tc main_v137) = Cert.Spec.spmm (scaleRows H (shapeCast S100000x1 (Cert.Spec.norm ns) shapeCasts_S100000_S100000x1)) ns nd :=
    (HostS9.aggN _).trans (by rw [x4, x_main_arg9, x_main_arg10])
  have f_dp : W21 m ρ c (Proc.devRef .tc main_v138) = shapeCast S100000x1 (Cert.Spec.norm d) shapeCasts_S100000_S100000x1 := (HostS9.dp _).trans (by rw [x_main_v30])
  have f_dn : W21 m ρ c (Proc.devRef .tc main_v139) = shapeCast S100000x1 (Cert.Spec.norm nd) shapeCasts_S100000_S100000x1 := (HostS9.dn _).trans (by rw [x_main_v36])
  have f_main_v11 : W21 m ρ c (Proc.devRef .tc main_v11) = O := (hostOps9_keeps _ main_v11 (by decide)).trans x_main_v11
  have f_main_v27 : W21 m ρ c (Proc.devRef .tc main_v27) = Cert.Spec.norm s := (hostOps9_keeps _ main_v27 (by decide)).trans x_main_v27
  have f_main_v30 : W21 m ρ c (Proc.devRef .tc main_v30) = Cert.Spec.norm d := (hostOps9_keeps _ main_v30 (by decide)).trans x_main_v30
  have f_main_v33 : W21 m ρ c (Proc.devRef .tc main_v33) = Cert.Spec.norm ns := (hostOps9_keeps _ main_v33 (by decide)).trans x_main_v33
  have f_main_v36 : W21 m ρ c (Proc.devRef .tc main_v36) = Cert.Spec.norm nd := (hostOps9_keeps _ main_v36 (by decide)).trans x_main_v36
  have f_main_arg7 : W21 m ρ c (Proc.devRef .tc main_arg7) = s := (hostOps9_keeps _ main_arg7 (by decide)).trans x_main_arg7
  have f_main_arg8 : W21 m ρ c (Proc.devRef .tc main_arg8) = d := (hostOps9_keeps _ main_arg8 (by decide)).trans x_main_arg8
  have f_main_arg9 : W21 m ρ c (Proc.devRef .tc main_arg9) = ns := (hostOps9_keeps _ main_arg9 (by decide)).trans x_main_arg9
  have f_main_arg10 : W21 m ρ c (Proc.devRef .tc main_arg10) = nd := (hostOps9_keeps _ main_arg10 (by decide)).trans x_main_arg10
  have y_h : W22 m ρ c (Proc.devRef .tc main_v140) = Cert.Spec.step O s d ns nd H :=
    (W22_arr m ρ c 5).trans ((Combine9.final (V21 m ρ) c).trans
      ((combine_congr f_ap f_an f_dp f_dn f_main_v11).trans (Cert.Bridge.step_eq H O s d ns nd _)))
  exact ⟨y_h,
    (W22_arr m ρ c 4).trans ((((dat9 (V21 m ρ) c).arrAt_in 4 rfl _).trans (A_eq9 (V21 m ρ) c 4)).trans f_main_v11),
    (W22_of_ne m ρ c main_v27 (by decide)).trans f_main_v27,
    (W22_of_ne m ρ c main_v30 (by decide)).trans f_main_v30,
    (W22_of_ne m ρ c main_v33 (by decide)).trans f_main_v33,
    (W22_of_ne m ρ c main_v36 (by decide)).trans f_main_v36,
    (W22_of_ne m ρ c main_arg7 (by decide)).trans f_main_arg7,
    (W22_of_ne m ρ c main_arg8 (by decide)).trans f_main_arg8,
    (W22_of_ne m ρ c main_arg9 (by decide)).trans f_main_arg9,
    (W22_of_ne m ρ c main_arg10 (by decide)).trans f_main_arg10⟩

end Cert.KernelIdeal.Step8

end
-- ==== Proof.Scale10.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale10

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k10_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k10_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- Every block row below 50 is some point's. -/
theorem idx_onto : ∀ q0 : Fin 50, ∃ t : Fin cfg10.N, t.val = q0.val :=
  (by decide +kernel : ∀ q0 : Fin 50, ∃ t : Fin grid10.N, t.val = q0.val)

/-- What point `t` writes back to the first output is block `t` of `scaleRows` of the rows and that column. -/
theorem flushedP_eq (c : Dev nD) (t : Fin cfg10.N) :
    (dat10 V c).flushed 3 t = ((cfg10.win 3).blk t).view.read (Elt Ideal) (scaleRows (V c (Pipeline.arrRef spec10 0)) (V c (Pipeline.arrRef spec10 1))) := by
  show (cfg10.win 3).cut (grid10.coords t) ((dat10 V c).after 3 t) = _
  rw [after10_3]
  unfold out10_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk10 V c 0 t) (iblk10 V c 1 t) p q).trans ?_
  have h0 : ((cfg10.win 0).blk t).view.emb (ix2 p q) = ((cfg10.win 3).blk t).view.emb (ix2 p q) := by
    funext a; apply Fin.ext
    match a with
    | ⟨0, _⟩ => show win10_0.index t (0 : Fin 2) * 2000 + 1 * p.val = win10_3.index t (0 : Fin 2) * 2000 + 1 * p.val; omega
    | ⟨1, _⟩ => show win10_0.index t (1 : Fin 2) * 32 + 1 * q.val = win10_3.index t (1 : Fin 2) * 32 + 1 * q.val; omega
  have h1 : rowOf (((cfg10.win 3).blk t).view.emb (ix2 p q)) = ((cfg10.win 1).blk t).view.emb (ix2 p (0 : Fin 1)) :=
    rowOf_eq _ _ (by show win10_1.index t (0 : Fin 2) * 2000 + 1 * p.val = win10_3.index t (0 : Fin 2) * 2000 + 1 * p.val; omega)
  show _ = scaleRows _ _ (((cfg10.win 3).blk t).view.emb (ix2 p q))
  unfold scaleRows
  exact congr (congrArg (HMul.hMul : EReal → EReal → EReal) (congrArg (V c (Pipeline.arrRef spec10 0)) h0))
    (congrArg (V c (Pipeline.arrRef spec10 1)) h1.symm)

/-- What point `t` writes back to the second output is block `t` of `scaleRows` of the rows and that column. -/
theorem flushedN_eq (c : Dev nD) (t : Fin cfg10.N) :
    (dat10 V c).flushed 4 t = ((cfg10.win 4).blk t).view.read (Elt Ideal) (scaleRows (V c (Pipeline.arrRef spec10 0)) (V c (Pipeline.arrRef spec10 2))) := by
  show (cfg10.win 4).cut (grid10.coords t) ((dat10 V c).after 4 t) = _
  rw [after10_4]
  unfold out10_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk10 V c 0 t) (iblk10 V c 2 t) p q).trans ?_
  have h0 : ((cfg10.win 0).blk t).view.emb (ix2 p q) = ((cfg10.win 4).blk t).view.emb (ix2 p q) := by
    funext a; apply Fin.ext
    match a with
    | ⟨0, _⟩ => show win10_0.index t (0 : Fin 2) * 2000 + 1 * p.val = win10_4.index t (0 : Fin 2) * 2000 + 1 * p.val; omega
    | ⟨1, _⟩ => show win10_0.index t (1 : Fin 2) * 32 + 1 * q.val = win10_4.index t (1 : Fin 2) * 32 + 1 * q.val; omega
  have h1 : rowOf (((cfg10.win 4).blk t).view.emb (ix2 p q)) = ((cfg10.win 2).blk t).view.emb (ix2 p (0 : Fin 1)) :=
    rowOf_eq _ _ (by show win10_2.index t (0 : Fin 2) * 2000 + 1 * p.val = win10_4.index t (0 : Fin 2) * 2000 + 1 * p.val; omega)
  show _ = scaleRows _ _ (((cfg10.win 4).blk t).view.emb (ix2 p q))
  unfold scaleRows
  exact congr (congrArg (HMul.hMul : EReal → EReal → EReal) (congrArg (V c (Pipeline.arrRef spec10 0)) h0))
    (congrArg (V c (Pipeline.arrRef spec10 2)) h1.symm)

/-- An index is in point `t`'s block of the first output iff each coordinate is in the block's range. -/
theorem mem_blkP (t : Fin cfg10.N) (i : S100000x32.Idx) :
    i ∈ ((cfg10.win 3).blk t).view.set ↔ ∀ a : Fin 2, win10_3.index t a * S2000x32.size a ≤ (i a).val ∧ (i a).val < win10_3.index t a * S2000x32.size a + S2000x32.size a := by
  show i ∈ ((View.whole (Pipeline.arrRef spec10 3)).slice (win10_3.rect t)).set ↔ _
  rw [View.set_slice_whole, Rect.mem_set_unit]
  exact Iff.rfl

/-- The same for the second output. -/
theorem mem_blkN (t : Fin cfg10.N) (i : S100000x32.Idx) :
    i ∈ ((cfg10.win 4).blk t).view.set ↔ ∀ a : Fin 2, win10_4.index t a * S2000x32.size a ≤ (i a).val ∧ (i a).val < win10_4.index t a * S2000x32.size a + S2000x32.size a := by
  show i ∈ ((View.whole (Pipeline.arrRef spec10 4)).slice (win10_4.rect t)).set ↔ _
  rw [View.set_slice_whole, Rect.mem_set_unit]
  exact Iff.rfl

/-- Row `r` lies in the block of point `r / 2000`: the 50 blocks cover the first output. -/
theorem coverP (i : S100000x32.Idx) : ∃ t : Fin cfg10.N, (cfg10.win 3).flush t = true ∧ i ∈ ((cfg10.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush10_3 t, ?_⟩
  rw [mem_blkP]
  intro a
  match a with
  | ⟨0, _⟩ => show win10_3.index t (0 : Fin 2) * 2000 ≤ (i 0).val ∧ (i 0).val < win10_3.index t (0 : Fin 2) * 2000 + 2000; omega
  | ⟨1, _⟩ => show win10_3.index t (1 : Fin 2) * 32 ≤ (i 1).val ∧ (i 1).val < win10_3.index t (1 : Fin 2) * 32 + 32; omega

/-- The 50 blocks cover the second output. -/
theorem coverN (i : S100000x32.Idx) : ∃ t : Fin cfg10.N, (cfg10.win 4).flush t = true ∧ i ∈ ((cfg10.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush10_4 t, ?_⟩
  rw [mem_blkN]
  intro a
  match a with
  | ⟨0, _⟩ => show win10_4.index t (0 : Fin 2) * 2000 ≤ (i 0).val ∧ (i 0).val < win10_4.index t (0 : Fin 2) * 2000 + 2000; omega
  | ⟨1, _⟩ => show win10_4.index t (1 : Fin 2) * 32 ≤ (i 1).val ∧ (i 1).val < win10_4.index t (1 : Fin 2) * 32 + 32; omega

/-- The first output array after the region: `h · np`. -/
theorem finalP (c : Dev nD) : (dat10 V c).arrAt 3 cfg10.N = scaleRows (V c (Pipeline.arrRef spec10 0)) (V c (Pipeline.arrRef spec10 1)) :=
  (dat10 V c).arrAt_eq_of_cover 3 (scaleRows (V c (Pipeline.arrRef spec10 0)) (V c (Pipeline.arrRef spec10 1))) (fun t _ => flushedP_eq V c t) (coverP)

/-- The second output array after the region: `h · nn`. -/
theorem finalN (c : Dev nD) : (dat10 V c).arrAt 4 cfg10.N = scaleRows (V c (Pipeline.arrRef spec10 0)) (V c (Pipeline.arrRef spec10 2)) :=
  (dat10 V c).arrAt_eq_of_cover 4 (scaleRows (V c (Pipeline.arrRef spec10 0)) (V c (Pipeline.arrRef spec10 2))) (fun t _ => flushedN_eq V c t) (coverN)

end Cert.KernelIdeal.Scale10

end
-- ==== Proof.Combine11.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine11

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k11_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

/-- Every block row below 50 is some point's. -/
theorem idx_onto : ∀ q0 : Fin 50, ∃ t : Fin cfg11.N, t.val = q0.val :=
  (by decide +kernel : ∀ q0 : Fin 50, ∃ t : Fin grid11.N, t.val = q0.val)

set_option maxHeartbeats 1600000 in
/-- What point `t` writes back is block `t` of `combine` of the input arrays. -/
theorem flushed_eq (c : Dev nD) (t : Fin cfg11.N) :
    (dat11 V c).flushed 5 t = ((cfg11.win 5).blk t).view.read (Elt Ideal)
      (combine (V c (Pipeline.arrRef spec11 0)) (V c (Pipeline.arrRef spec11 1)) (V c (Pipeline.arrRef spec11 2)) (V c (Pipeline.arrRef spec11 3)) (V c (Pipeline.arrRef spec11 4))) := by
  show (cfg11.win 5).cut (grid11.coords t) ((dat11 V c).after 5 t) = _
  rw [after11_5]
  unfold out11_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk11 V c 0 t) (iblk11 V c 2 t) (iblk11 V c 1 t) (iblk11 V c 3 t) (iblk11 V c 4 t) p q).trans ?_
  have h0 : ((cfg11.win 0).blk t).view.emb (ix2 p q) = ((cfg11.win 5).blk t).view.emb (ix2 p q) := by
    funext a; apply Fin.ext
    match a with
    | ⟨0, _⟩ => show win11_0.index t (0 : Fin 2) * 2000 + 1 * p.val = win11_5.index t (0 : Fin 2) * 2000 + 1 * p.val; omega
    | ⟨1, _⟩ => show win11_0.index t (1 : Fin 2) * 32 + 1 * q.val = win11_5.index t (1 : Fin 2) * 32 + 1 * q.val; omega
  have h1 : ((cfg11.win 1).blk t).view.emb (ix2 p q) = ((cfg11.win 5).blk t).view.emb (ix2 p q) := by
    funext a; apply Fin.ext
    match a with
    | ⟨0, _⟩ => show win11_1.index t (0 : Fin 2) * 2000 + 1 * p.val = win11_5.index t (0 : Fin 2) * 2000 + 1 * p.val; omega
    | ⟨1, _⟩ => show win11_1.index t (1 : Fin 2) * 32 + 1 * q.val = win11_5.index t (1 : Fin 2) * 32 + 1 * q.val; omega
  have h4 : ((cfg11.win 4).blk t).view.emb (ix2 p q) = ((cfg11.win 5).blk t).view.emb (ix2 p q) := by
    funext a; apply Fin.ext
    match a with
    | ⟨0, _⟩ => show win11_4.index t (0 : Fin 2) * 2000 + 1 * p.val = win11_5.index t (0 : Fin 2) * 2000 + 1 * p.val; omega
    | ⟨1, _⟩ => show win11_4.index t (1 : Fin 2) * 32 + 1 * q.val = win11_5.index t (1 : Fin 2) * 32 + 1 * q.val; omega
  have h2 : rowOf (((cfg11.win 5).blk t).view.emb (ix2 p q)) = ((cfg11.win 2).blk t).view.emb (ix2 p (0 : Fin 1)) :=
    rowOf_eq _ _ (by show win11_2.index t (0 : Fin 2) * 2000 + 1 * p.val = win11_5.index t (0 : Fin 2) * 2000 + 1 * p.val; omega)
  have h3 : rowOf (((cfg11.win 5).blk t).view.emb (ix2 p q)) = ((cfg11.win 3).blk t).view.emb (ix2 p (0 : Fin 1)) :=
    rowOf_eq _ _ (by show win11_3.index t (0 : Fin 2) * 2000 + 1 * p.val = win11_5.index t (0 : Fin 2) * 2000 + 1 * p.val; omega)
  show _ = combine _ _ _ _ _ (((cfg11.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec11 0)) h0)) (congrArg (V c (Pipeline.arrRef spec11 2)) h2.symm)))
        (congr (congrArg (HMul.hMul : EReal → EReal → EReal) (congrArg (V c (Pipeline.arrRef spec11 1)) h1)) (congrArg (V c (Pipeline.arrRef spec11 3)) h3.symm))))
    (congrArg (V c (Pipeline.arrRef spec11 4)) h4)

/-- An index is in point `t`'s block of the output iff each coordinate is in the block's range. -/
theorem mem_blk (t : Fin cfg11.N) (i : S100000x32.Idx) :
    i ∈ ((cfg11.win 5).blk t).view.set ↔ ∀ a : Fin 2, win11_5.index t a * S2000x32.size a ≤ (i a).val ∧ (i a).val < win11_5.index t a * S2000x32.size a + S2000x32.size a := by
  show i ∈ ((View.whole (Pipeline.arrRef spec11 5)).slice (win11_5.rect t)).set ↔ _
  rw [View.set_slice_whole, Rect.mem_set_unit]
  exact Iff.rfl

/-- Row `r` lies in the block of point `r / 2000`: the 50 blocks cover the output. -/
theorem cover (i : S100000x32.Idx) : ∃ t : Fin cfg11.N, (cfg11.win 5).flush t = true ∧ i ∈ ((cfg11.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush11_5 t, ?_⟩
  rw [mem_blk]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 32 ≤ (i 1).val ∧ (i 1).val < win11_5.index t (1 : Fin 2) * 32 + 32; omega

/-- The output array after the region: `combine` of the input arrays as the region finds them. -/
theorem final (c : Dev nD) : (dat11 V c).arrAt 5 cfg11.N
    = combine (V c (Pipeline.arrRef spec11 0)) (V c (Pipeline.arrRef spec11 1)) (V c (Pipeline.arrRef spec11 2)) (V c (Pipeline.arrRef spec11 3)) (V c (Pipeline.arrRef spec11 4)) :=
  (dat11 V c).arrAt_eq_of_cover 5 _ (fun t _ => flushed_eq V c t) cover

end Cert.KernelIdeal.Combine11

end
-- ==== Proof.HostS11.lean ====
/-
  The host operations before combining region 11: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS11

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps11 V (Proc.devRef .tc main_v153) = Cert.Spec.spmm (F := Ideal) (V (Proc.devRef .tc main_v143_0)) (V (Proc.devRef .tc main_arg7)) (V (Proc.devRef .tc main_arg8)) := by
  after_results_simp; rfl
attribute [local irreducible] Host.scatterAdd Host.gather in
theorem aggN : after hostOps11 V (Proc.devRef .tc main_v163) = Cert.Spec.spmm (F := Ideal) (V (Proc.devRef .tc main_v143_1)) (V (Proc.devRef .tc main_arg9)) (V (Proc.devRef .tc main_arg10)) := by
  after_results_simp; rfl
theorem dp : after hostOps11 V (Proc.devRef .tc main_v164) = shapeCast S100000x1 (V (Proc.devRef .tc main_v30)) shapeCasts_S100000_S100000x1 := by
  after_results_simp; rfl
theorem dn : after hostOps11 V (Proc.devRef .tc main_v165) = shapeCast S100000x1 (V (Proc.devRef .tc main_v36)) shapeCasts_S100000_S100000x1 := by
  after_results_simp; rfl

end Cert.KernelIdeal.HostS11

end
-- ==== Proof.HostR10.lean ====
/-
  The two host operations before scaling region 10: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR10

open Cert.KernelIdeal Cert.KernelIdeal.Gen Idealize.ShloMosaic Idealize.ShloMosaic.TcCoe Idealize.SL.Sem Idealize.ShloMosaic.StableHlo

variable (V : Valuation τ sig (Elt Ideal))

theorem n1 : after hostOps10 V (Proc.devRef .tc main_v141) = shapeCast S100000x1 (V (Proc.devRef .tc main_v27)) shapeCasts_S100000_S100000x1 := by
  first | (after_results; rfl) | after_results
theorem n2 : after hostOps10 V (Proc.devRef .tc main_v142) = shapeCast S100000x1 (V (Proc.devRef .tc main_v33)) shapeCasts_S100000_S100000x1 := by
  first | (after_results; rfl) | after_results

end Cert.KernelIdeal.HostR10

end
-- ==== Proof.Step10.lean ====
/-
  Propagation step 5 of 8 on the kernel's side, through the fold of the program's boundaries: scaling region 10 turns the
  current features h into h · np and h · nn; the host gathers and adds them up over the two edge lists; combining region 11
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale10
import proofs.«143456_j27066883899969_1_alg».proof.Proof.Combine11
import proofs.«143456_j27066883899969_1_alg».proof.Proof.HostS11
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR10

set_option maxRecDepth 16384

noncomputable section

namespace Cert.KernelIdeal.Step10

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 10: the features and everything carried are untouched by the two recasts, which put the two
    out-degree normalisers in one-column form. -/
theorem enter
    (hH : W22 m ρ c (Proc.devRef .tc main_v140) = H)
    (h_main_v11 : W22 m ρ c (Proc.devRef .tc main_v11) = O)
    (h_main_v27 : W22 m ρ c (Proc.devRef .tc main_v27) = Cert.Spec.norm s)
    (h_main_v30 : W22 m ρ c (Proc.devRef .tc main_v30) = Cert.Spec.norm d)
    (h_main_v33 : W22 m ρ c (Proc.devRef .tc main_v33) = Cert.Spec.norm ns)
    (h_main_v36 : W22 m ρ c (Proc.devRef .tc main_v36) = Cert.Spec.norm nd)
    (h_main_arg7 : W22 m ρ c (Proc.devRef .tc main_arg7) = s)
    (h_main_arg8 : W22 m ρ c (Proc.devRef .tc main_arg8) = d)
    (h_main_arg9 : W22 m ρ c (Proc.devRef .tc main_arg9) = ns)
    (h_main_arg10 : W22 m ρ c (Proc.devRef .tc main_arg10) = nd)
    : W23 m ρ c (Proc.devRef .tc main_v140) = H
    ∧ W23 m ρ c (Proc.devRef .tc main_v141) = shapeCast S100000x1 (Cert.Spec.norm s) shapeCasts_S100000_S100000x1
    ∧ W23 m ρ c (Proc.devRef .tc main_v142) = shapeCast S100000x1 (Cert.Spec.norm ns) shapeCasts_S100000_S100000x1
    ∧ W23 m ρ c (Proc.devRef .tc main_v11) = O
    ∧ W23 m ρ c (Proc.devRef .tc main_v27) = Cert.Spec.norm s
    ∧ W23 m ρ c (Proc.devRef .tc main_v30) = Cert.Spec.norm d
    ∧ W23 m ρ c (Proc.devRef .tc main_v33) = Cert.Spec.norm ns
    ∧ W23 m ρ c (Proc.devRef .tc main_v36) = Cert.Spec.norm nd
    ∧ W23 m ρ c (Proc.devRef .tc main_arg7) = s
    ∧ W23 m ρ c (Proc.devRef .tc main_arg8) = d
    ∧ W23 m ρ c (Proc.devRef .tc main_arg9) = ns
    ∧ W23 m ρ c (Proc.devRef .tc main_arg10) = nd := by
  refine ⟨(hostOps10_keeps _ main_v140 (by decide)).trans hH,
    (HostR10.n1 _).trans (by rw [h_main_v27]),
    (HostR10.n2 _).trans (by rw [h_main_v33]),
    (hostOps10_keeps _ main_v11 (by decide)).trans h_main_v11,
    (hostOps10_keeps _ main_v27 (by decide)).trans h_main_v27,
    (hostOps10_keeps _ main_v30 (by decide)).trans h_main_v30,
    (hostOps10_keeps _ main_v33 (by decide)).trans h_main_v33,
    (hostOps10_keeps _ main_v36 (by decide)).trans h_main_v36,
    (hostOps10_keeps _ main_arg7 (by decide)).trans h_main_arg7,
    (hostOps10_keeps _ main_arg8 (by decide)).trans h_main_arg8,
    (hostOps10_keeps _ main_arg9 (by decide)).trans h_main_arg9,
    (hostOps10_keeps _ main_arg10 (by decide)).trans h_main_arg10⟩

/-- From the entry of scaling region 10 to the exit of combining region 11. -/
theorem step
    (hH : W23 m ρ c (Proc.devRef .tc main_v140) = H)
    (hn1 : W23 m ρ c (Proc.devRef .tc main_v141) = shapeCast S100000x1 (Cert.Spec.norm s) shapeCasts_S100000_S100000x1)
    (hn2 : W23 m ρ c (Proc.devRef .tc main_v142) = shapeCast S100000x1 (Cert.Spec.norm ns) shapeCasts_S100000_S100000x1)
    (h_main_v11 : W23 m ρ c (Proc.devRef .tc main_v11) = O)
    (h_main_v27 : W23 m ρ c (Proc.devRef .tc main_v27) = Cert.Spec.norm s)
    (h_main_v30 : W23 m ρ c (Proc.devRef .tc main_v30) = Cert.Spec.norm d)
    (h_main_v33 : W23 m ρ c (Proc.devRef .tc main_v33) = Cert.Spec.norm ns)
    (h_main_v36 : W23 m ρ c (Proc.devRef .tc main_v36) = Cert.Spec.norm nd)
    (h_main_arg7 : W23 m ρ c (Proc.devRef .tc main_arg7) = s)
    (h_main_arg8 : W23 m ρ c (Proc.devRef .tc main_arg8) = d)
    (h_main_arg9 : W23 m ρ c (Proc.devRef .tc main_arg9) = ns)
    (h_main_arg10 : W23 m ρ c (Proc.devRef .tc main_arg10) = nd)
    : W26 m ρ c (Proc.devRef .tc main_v166) = Cert.Spec.step O s d ns nd H
    ∧ W26 m ρ c (Proc.devRef .tc main_v11) = O
    ∧ W26 m ρ c (Proc.devRef .tc main_v27) = Cert.Spec.norm s
    ∧ W26 m ρ c (Proc.devRef .tc main_v30) = Cert.Spec.norm d
    ∧ W26 m ρ c (Proc.devRef .tc main_v33) = Cert.Spec.norm ns
    ∧ W26 m ρ c (Proc.devRef .tc main_v36) = Cert.Spec.norm nd
    ∧ W26 m ρ c (Proc.devRef .tc main_arg7) = s
    ∧ W26 m ρ c (Proc.devRef .tc main_arg8) = d
    ∧ W26 m ρ c (Proc.devRef .tc main_arg9) = ns
    ∧ W26 m ρ c (Proc.devRef .tc main_arg10) = nd := by
  have x3 : W24 m ρ c (Proc.devRef .tc main_v143_0) = scaleRows H (shapeCast S100000x1 (Cert.Spec.norm s) shapeCasts_S100000_S100000x1) :=
    (W24_arr m ρ c 3).trans ((Scale10.finalP (V23 m ρ) c).trans (scaleRows_congr hH hn1))
  have x4 : W24 m ρ c (Proc.devRef .tc main_v143_1) = scaleRows H (shapeCast S100000x1 (Cert.Spec.norm ns) shapeCasts_S100000_S100000x1) :=
    (W24_arr m ρ c 4).trans ((Scale10.finalN (V23 m ρ) c).trans (scaleRows_congr hH hn2))
  have x_main_v11 : W24 m ρ c (Proc.devRef .tc main_v11) = O := (W24_of_ne m ρ c main_v11 (by decide)).trans h_main_v11
  have x_main_v27 : W24 m ρ c (Proc.devRef .tc main_v27) = Cert.Spec.norm s := (W24_of_ne m ρ c main_v27 (by decide)).trans h_main_v27
  have x_main_v30 : W24 m ρ c (Proc.devRef .tc main_v30) = Cert.Spec.norm d := (W24_of_ne m ρ c main_v30 (by decide)).trans h_main_v30
  have x_main_v33 : W24 m ρ c (Proc.devRef .tc main_v33) = Cert.Spec.norm ns := (W24_of_ne m ρ c main_v33 (by decide)).trans h_main_v33
  have x_main_v36 : W24 m ρ c (Proc.devRef .tc main_v36) = Cert.Spec.norm nd := (W24_of_ne m ρ c main_v36 (by decide)).trans h_main_v36
  have x_main_arg7 : W24 m ρ c (Proc.devRef .tc main_arg7) = s := (W24_of_ne m ρ c main_arg7 (by decide)).trans h_main_arg7
  have x_main_arg8 : W24 m ρ c (Proc.devRef .tc main_arg8) = d := (W24_of_ne m ρ c main_arg8 (by decide)).trans h_main_arg8
  have x_main_arg9 : W24 m ρ c (Proc.devRef .tc main_arg9) = ns := (W24_of_ne m ρ c main_arg9 (by decide)).trans h_main_arg9
  have x_main_arg10 : W24 m ρ c (Proc.devRef .tc main_arg10) = nd := (W24_of_ne m ρ c main_arg10 (by decide)).trans h_main_arg10
  have f_ap : W25 m ρ c (Proc.devRef .tc main_v153) = Cert.Spec.spmm (scaleRows H (shapeCast S100000x1 (Cert.Spec.norm s) shapeCasts_S100000_S100000x1)) s d :=
    (HostS11.aggP _).trans (by rw [x3, x_main_arg7, x_main_arg8])
  have f_an : W25 m ρ c (Proc.devRef .tc main_v163) = Cert.Spec.spmm (scaleRows H (shapeCast S100000x1 (Cert.Spec.norm ns) shapeCasts_S100000_S100000x1)) ns nd :=
    (HostS11.aggN _).trans (by rw [x4, x_main_arg9, x_main_arg10])
  have f_dp : W25 m ρ c (Proc.devRef .tc main_v164) = shapeCast S100000x1 (Cert.Spec.norm d) shapeCasts_S100000_S100000x1 := (HostS11.dp _).trans (by rw [x_main_v30])
  have f_dn : W25 m ρ c (Proc.devRef .tc main_v165) = shapeCast S100000x1 (Cert.Spec.norm nd) shapeCasts_S100000_S100000x1 := (HostS11.dn _).trans (by rw [x_main_v36])
  have f_main_v11 : W25 m ρ c (Proc.devRef .tc main_v11) = O := (hostOps11_keeps _ main_v11 (by decide)).trans x_main_v11
  have f_main_v27 : W25 m ρ c (Proc.devRef .tc main_v27) = Cert.Spec.norm s := (hostOps11_keeps _ main_v27 (by decide)).trans x_main_v27
  have f_main_v30 : W25 m ρ c (Proc.devRef .tc main_v30) = Cert.Spec.norm d := (hostOps11_keeps _ main_v30 (by decide)).trans x_main_v30
  have f_main_v33 : W25 m ρ c (Proc.devRef .tc main_v33) = Cert.Spec.norm ns := (hostOps11_keeps _ main_v33 (by decide)).trans x_main_v33
  have f_main_v36 : W25 m ρ c (Proc.devRef .tc main_v36) = Cert.Spec.norm nd := (hostOps11_keeps _ main_v36 (by decide)).trans x_main_v36
  have f_main_arg7 : W25 m ρ c (Proc.devRef .tc main_arg7) = s := (hostOps11_keeps _ main_arg7 (by decide)).trans x_main_arg7
  have f_main_arg8 : W25 m ρ c (Proc.devRef .tc main_arg8) = d := (hostOps11_keeps _ main_arg8 (by decide)).trans x_main_arg8
  have f_main_arg9 : W25 m ρ c (Proc.devRef .tc main_arg9) = ns := (hostOps11_keeps _ main_arg9 (by decide)).trans x_main_arg9
  have f_main_arg10 : W25 m ρ c (Proc.devRef .tc main_arg10) = nd := (hostOps11_keeps _ main_arg10 (by decide)).trans x_main_arg10
  have y_h : W26 m ρ c (Proc.devRef .tc main_v166) = Cert.Spec.step O s d ns nd H :=
    (W26_arr m ρ c 5).trans ((Combine11.final (V25 m ρ) c).trans
      ((combine_congr f_ap f_an f_dp f_dn f_main_v11).trans (Cert.Bridge.step_eq H O s d ns nd _)))
  exact ⟨y_h,
    (W26_arr m ρ c 4).trans ((((dat11 (V25 m ρ) c).arrAt_in 4 rfl _).trans (A_eq11 (V25 m ρ) c 4)).trans f_main_v11),
    (W26_of_ne m ρ c main_v27 (by decide)).trans f_main_v27,
    (W26_of_ne m ρ c main_v30 (by decide)).trans f_main_v30,
    (W26_of_ne m ρ c main_v33 (by decide)).trans f_main_v33,
    (W26_of_ne m ρ c main_v36 (by decide)).trans f_main_v36,
    (W26_of_ne m ρ c main_arg7 (by decide)).trans f_main_arg7,
    (W26_of_ne m ρ c main_arg8 (by decide)).trans f_main_arg8,
    (W26_of_ne m ρ c main_arg9 (by decide)).trans f_main_arg9,
    (W26_of_ne m ρ c main_arg10 (by decide)).trans f_main_arg10⟩

end Cert.KernelIdeal.Step10

end
-- ==== Proof.Scale12.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale12

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k12_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k12_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

/-- Every block row below 50 is some point's. -/
theorem idx_onto : ∀ q0 : Fin 50, ∃ t : Fin cfg12.N, t.val = q0.val :=
  (by decide +kernel : ∀ q0 : Fin 50, ∃ t : Fin grid12.N, t.val = q0.val)

/-- What point `t` writes back to the first output is block `t` of `scaleRows` of the rows and that column. -/
theorem flushedP_eq (c : Dev nD) (t : Fin cfg12.N) :
    (dat12 V c).flushed 3 t = ((cfg12.win 3).blk t).view.read (Elt Ideal) (scaleRows (V c (Pipeline.arrRef spec12 0)) (V c (Pipeline.arrRef spec12 1))) := by
  show (cfg12.win 3).cut (grid12.coords t) ((dat12 V c).after 3 t) = _
  rw [after12_3]
  unfold out12_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk12 V c 0 t) (iblk12 V c 1 t) p q).trans ?_
  have h0 : ((cfg12.win 0).blk t).view.emb (ix2 p q) = ((cfg12.win 3).blk t).view.emb (ix2 p q) := by
    funext a; apply Fin.ext
    match a with
    | ⟨0, _⟩ => show win12_0.index t (0 : Fin 2) * 2000 + 1 * p.val = win12_3.index t (0 : Fin 2) * 2000 + 1 * p.val; omega
    | ⟨1, _⟩ => show win12_0.index t (1 : Fin 2) * 32 + 1 * q.val = win12_3.index t (1 : Fin 2) * 32 + 1 * q.val; omega
  have h1 : rowOf (((cfg12.win 3).blk t).view.emb (ix2 p q)) = ((cfg12.win 1).blk t).view.emb (ix2 p (0 : Fin 1)) :=
    rowOf_eq _ _ (by show win12_1.index t (0 : Fin 2) * 2000 + 1 * p.val = win12_3.index t (0 : Fin 2) * 2000 + 1 * p.val; omega)
  show _ = scaleRows _ _ (((cfg12.win 3).blk t).view.emb (ix2 p q))
  unfold scaleRows
  exact congr (congrArg (HMul.hMul : EReal → EReal → EReal) (congrArg (V c (Pipeline.arrRef spec12 0)) h0))
    (congrArg (V c (Pipeline.arrRef spec12 1)) h1.symm)

/-- What point `t` writes back to the second output is block `t` of `scaleRows` of the rows and that column. -/
theorem flushedN_eq (c : Dev nD) (t : Fin cfg12.N) :
    (dat12 V c).flushed 4 t = ((cfg12.win 4).blk t).view.read (Elt Ideal) (scaleRows (V c (Pipeline.arrRef spec12 0)) (V c (Pipeline.arrRef spec12 2))) := by
  show (cfg12.win 4).cut (grid12.coords t) ((dat12 V c).after 4 t) = _
  rw [after12_4]
  unfold out12_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk12 V c 0 t) (iblk12 V c 2 t) p q).trans ?_
  have h0 : ((cfg12.win 0).blk t).view.emb (ix2 p q) = ((cfg12.win 4).blk t).view.emb (ix2 p q) := by
    funext a; apply Fin.ext
    match a with
    | ⟨0, _⟩ => show win12_0.index t (0 : Fin 2) * 2000 + 1 * p.val = win12_4.index t (0 : Fin 2) * 2000 + 1 * p.val; omega
    | ⟨1, _⟩ => show win12_0.index t (1 : Fin 2) * 32 + 1 * q.val = win12_4.index t (1 : Fin 2) * 32 + 1 * q.val; omega
  have h1 : rowOf (((cfg12.win 4).blk t).view.emb (ix2 p q)) = ((cfg12.win 2).blk t).view.emb (ix2 p (0 : Fin 1)) :=
    rowOf_eq _ _ (by show win12_2.index t (0 : Fin 2) * 2000 + 1 * p.val = win12_4.index t (0 : Fin 2) * 2000 + 1 * p.val; omega)
  show _ = scaleRows _ _ (((cfg12.win 4).blk t).view.emb (ix2 p q))
  unfold scaleRows
  exact congr (congrArg (HMul.hMul : EReal → EReal → EReal) (congrArg (V c (Pipeline.arrRef spec12 0)) h0))
    (congrArg (V c (Pipeline.arrRef spec12 2)) h1.symm)

/-- An index is in point `t`'s block of the first output iff each coordinate is in the block's range. -/
theorem mem_blkP (t : Fin cfg12.N) (i : S100000x32.Idx) :
    i ∈ ((cfg12.win 3).blk t).view.set ↔ ∀ a : Fin 2, win12_3.index t a * S2000x32.size a ≤ (i a).val ∧ (i a).val < win12_3.index t a * S2000x32.size a + S2000x32.size a := by
  show i ∈ ((View.whole (Pipeline.arrRef spec12 3)).slice (win12_3.rect t)).set ↔ _
  rw [View.set_slice_whole, Rect.mem_set_unit]
  exact Iff.rfl

/-- The same for the second output. -/
theorem mem_blkN (t : Fin cfg12.N) (i : S100000x32.Idx) :
    i ∈ ((cfg12.win 4).blk t).view.set ↔ ∀ a : Fin 2, win12_4.index t a * S2000x32.size a ≤ (i a).val ∧ (i a).val < win12_4.index t a * S2000x32.size a + S2000x32.size a := by
  show i ∈ ((View.whole (Pipeline.arrRef spec12 4)).slice (win12_4.rect t)).set ↔ _
  rw [View.set_slice_whole, Rect.mem_set_unit]
  exact Iff.rfl

/-- Row `r` lies in the block of point `r / 2000`: the 50 blocks cover the first output. -/
theorem coverP (i : S100000x32.Idx) : ∃ t : Fin cfg12.N, (cfg12.win 3).flush t = true ∧ i ∈ ((cfg12.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush12_3 t, ?_⟩
  rw [mem_blkP]
  intro a
  match a with
  | ⟨0, _⟩ => show win12_3.index t (0 : Fin 2) * 2000 ≤ (i 0).val ∧ (i 0).val < win12_3.index t (0 : Fin 2) * 2000 + 2000; omega
  | ⟨1, _⟩ => show win12_3.index t (1 : Fin 2) * 32 ≤ (i 1).val ∧ (i 1).val < win12_3.index t (1 : Fin 2) * 32 + 32; omega

/-- The 50 blocks cover the second output. -/
theorem coverN (i : S100000x32.Idx) : ∃ t : Fin cfg12.N, (cfg12.win 4).flush t = true ∧ i ∈ ((cfg12.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush12_4 t, ?_⟩
  rw [mem_blkN]
  intro a
  match a with
  | ⟨0, _⟩ => show win12_4.index t (0 : Fin 2) * 2000 ≤ (i 0).val ∧ (i 0).val < win12_4.index t (0 : Fin 2) * 2000 + 2000; omega
  | ⟨1, _⟩ => show win12_4.index t (1 : Fin 2) * 32 ≤ (i 1).val ∧ (i 1).val < win12_4.index t (1 : Fin 2) * 32 + 32; omega

/-- The first output array after the region: `h · np`. -/
theorem finalP (c : Dev nD) : (dat12 V c).arrAt 3 cfg12.N = scaleRows (V c (Pipeline.arrRef spec12 0)) (V c (Pipeline.arrRef spec12 1)) :=
  (dat12 V c).arrAt_eq_of_cover 3 (scaleRows (V c (Pipeline.arrRef spec12 0)) (V c (Pipeline.arrRef spec12 1))) (fun t _ => flushedP_eq V c t) (coverP)

/-- The second output array after the region: `h · nn`. -/
theorem finalN (c : Dev nD) : (dat12 V c).arrAt 4 cfg12.N = scaleRows (V c (Pipeline.arrRef spec12 0)) (V c (Pipeline.arrRef spec12 2)) :=
  (dat12 V c).arrAt_eq_of_cover 4 (scaleRows (V c (Pipeline.arrRef spec12 0)) (V c (Pipeline.arrRef spec12 2))) (fun t _ => flushedN_eq V c t) (coverN)

end Cert.KernelIdeal.Scale12

end
-- ==== Proof.Combine13.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine13

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k13_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-- Every block row below 50 is some point's. -/
theorem idx_onto : ∀ q0 : Fin 50, ∃ t : Fin cfg13.N, t.val = q0.val :=
  (by decide +kernel : ∀ q0 : Fin 50, ∃ t : Fin grid13.N, t.val = q0.val)

set_option maxHeartbeats 1600000 in
/-- What point `t` writes back is block `t` of `combine` of the input arrays. -/
theorem flushed_eq (c : Dev nD) (t : Fin cfg13.N) :
    (dat13 V c).flushed 5 t = ((cfg13.win 5).blk t).view.read (Elt Ideal)
      (combine (V c (Pipeline.arrRef spec13 0)) (V c (Pipeline.arrRef spec13 1)) (V c (Pipeline.arrRef spec13 2)) (V c (Pipeline.arrRef spec13 3)) (V c (Pipeline.arrRef spec13 4))) := by
  show (cfg13.win 5).cut (grid13.coords t) ((dat13 V c).after 5 t) = _
  rw [after13_5]
  unfold out13_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk13 V c 0 t) (iblk13 V c 2 t) (iblk13 V c 1 t) (iblk13 V c 3 t) (iblk13 V c 4 t) p q).trans ?_
  have h0 : ((cfg13.win 0).blk t).view.emb (ix2 p q) = ((cfg13.win 5).blk t).view.emb (ix2 p q) := by
    funext a; apply Fin.ext
    match a with
    | ⟨0, _⟩ => show win13_0.index t (0 : Fin 2) * 2000 + 1 * p.val = win13_5.index t (0 : Fin 2) * 2000 + 1 * p.val; omega
    | ⟨1, _⟩ => show win13_0.index t (1 : Fin 2) * 32 + 1 * q.val = win13_5.index t (1 : Fin 2) * 32 + 1 * q.val; omega
  have h1 : ((cfg13.win 1).blk t).view.emb (ix2 p q) = ((cfg13.win 5).blk t).view.emb (ix2 p q) := by
    funext a; apply Fin.ext
    match a with
    | ⟨0, _⟩ => show win13_1.index t (0 : Fin 2) * 2000 + 1 * p.val = win13_5.index t (0 : Fin 2) * 2000 + 1 * p.val; omega
    | ⟨1, _⟩ => show win13_1.index t (1 : Fin 2) * 32 + 1 * q.val = win13_5.index t (1 : Fin 2) * 32 + 1 * q.val; omega
  have h4 : ((cfg13.win 4).blk t).view.emb (ix2 p q) = ((cfg13.win 5).blk t).view.emb (ix2 p q) := by
    funext a; apply Fin.ext
    match a with
    | ⟨0, _⟩ => show win13_4.index t (0 : Fin 2) * 2000 + 1 * p.val = win13_5.index t (0 : Fin 2) * 2000 + 1 * p.val; omega
    | ⟨1, _⟩ => show win13_4.index t (1 : Fin 2) * 32 + 1 * q.val = win13_5.index t (1 : Fin 2) * 32 + 1 * q.val; omega
  have h2 : rowOf (((cfg13.win 5).blk t).view.emb (ix2 p q)) = ((cfg13.win 2).blk t).view.emb (ix2 p (0 : Fin 1)) :=
    rowOf_eq _ _ (by show win13_2.index t (0 : Fin 2) * 2000 + 1 * p.val = win13_5.index t (0 : Fin 2) * 2000 + 1 * p.val; omega)
  have h3 : rowOf (((cfg13.win 5).blk t).view.emb (ix2 p q)) = ((cfg13.win 3).blk t).view.emb (ix2 p (0 : Fin 1)) :=
    rowOf_eq _ _ (by show win13_3.index t (0 : Fin 2) * 2000 + 1 * p.val = win13_5.index t (0 : Fin 2) * 2000 + 1 * p.val; omega)
  show _ = combine _ _ _ _ _ (((cfg13.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec13 0)) h0)) (congrArg (V c (Pipeline.arrRef spec13 2)) h2.symm)))
        (congr (congrArg (HMul.hMul : EReal → EReal → EReal) (congrArg (V c (Pipeline.arrRef spec13 1)) h1)) (congrArg (V c (Pipeline.arrRef spec13 3)) h3.symm))))
    (congrArg (V c (Pipeline.arrRef spec13 4)) h4)

/-- An index is in point `t`'s block of the output iff each coordinate is in the block's range. -/
theorem mem_blk (t : Fin cfg13.N) (i : S100000x32.Idx) :
    i ∈ ((cfg13.win 5).blk t).view.set ↔ ∀ a : Fin 2, win13_5.index t a * S2000x32.size a ≤ (i a).val ∧ (i a).val < win13_5.index t a * S2000x32.size a + S2000x32.size a := by
  show i ∈ ((View.whole (Pipeline.arrRef spec13 5)).slice (win13_5.rect t)).set ↔ _
  rw [View.set_slice_whole, Rect.mem_set_unit]
  exact Iff.rfl

/-- Row `r` lies in the block of point `r / 2000`: the 50 blocks cover the output. -/
theorem cover (i : S100000x32.Idx) : ∃ t : Fin cfg13.N, (cfg13.win 5).flush t = true ∧ i ∈ ((cfg13.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush13_5 t, ?_⟩
  rw [mem_blk]
  intro a
  match a with
  | ⟨0, _⟩ => show win13_5.index t (0 : Fin 2) * 2000 ≤ (i 0).val ∧ (i 0).val < win13_5.index t (0 : Fin 2) * 2000 + 2000; omega
  | ⟨1, _⟩ => show win13_5.index t (1 : Fin 2) * 32 ≤ (i 1).val ∧ (i 1).val < win13_5.index t (1 : Fin 2) * 32 + 32; omega

/-- The output array after the region: `combine` of the input arrays as the region finds them. -/
theorem final (c : Dev nD) : (dat13 V c).arrAt 5 cfg13.N
    = combine (V c (Pipeline.arrRef spec13 0)) (V c (Pipeline.arrRef spec13 1)) (V c (Pipeline.arrRef spec13 2)) (V c (Pipeline.arrRef spec13 3)) (V c (Pipeline.arrRef spec13 4)) :=
  (dat13 V c).arrAt_eq_of_cover 5 _ (fun t _ => flushed_eq V c t) cover

end Cert.KernelIdeal.Combine13

end
-- ==== Proof.HostS13.lean ====
/-
  The host operations before combining region 13: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS13

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps13 V (Proc.devRef .tc main_v179) = Cert.Spec.spmm (F := Ideal) (V (Proc.devRef .tc main_v169_0)) (V (Proc.devRef .tc main_arg7)) (V (Proc.devRef .tc main_arg8)) := by
  after_results_simp; rfl
attribute [local irreducible] Host.scatterAdd Host.gather in
theorem aggN : after hostOps13 V (Proc.devRef .tc main_v189) = Cert.Spec.spmm (F := Ideal) (V (Proc.devRef .tc main_v169_1)) (V (Proc.devRef .tc main_arg9)) (V (Proc.devRef .tc main_arg10)) := by
  after_results_simp; rfl
theorem dp : after hostOps13 V (Proc.devRef .tc main_v190) = shapeCast S100000x1 (V (Proc.devRef .tc main_v30)) shapeCasts_S100000_S100000x1 := by
  after_results_simp; rfl
theorem dn : after hostOps13 V (Proc.devRef .tc main_v191) = shapeCast S100000x1 (V (Proc.devRef .tc main_v36)) shapeCasts_S100000_S100000x1 := by
  after_results_simp; rfl

end Cert.KernelIdeal.HostS13

end
-- ==== Proof.HostR12.lean ====
/-
  The two host operations before scaling region 12: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR12

open Cert.KernelIdeal Cert.KernelIdeal.Gen Idealize.ShloMosaic Idealize.ShloMosaic.TcCoe Idealize.SL.Sem Idealize.ShloMosaic.StableHlo

variable (V : Valuation τ sig (Elt Ideal))

theorem n1 : after hostOps12 V (Proc.devRef .tc main_v167) = shapeCast S100000x1 (V (Proc.devRef .tc main_v27)) shapeCasts_S100000_S100000x1 := by
  first | (after_results; rfl) | after_results
theorem n2 : after hostOps12 V (Proc.devRef .tc main_v168) = shapeCast S100000x1 (V (Proc.devRef .tc main_v33)) shapeCasts_S100000_S100000x1 := by
  first | (after_results; rfl) | after_results

end Cert.KernelIdeal.HostR12

end
-- ==== Proof.Step12.lean ====
/-
  Propagation step 6 of 8 on the kernel's side, through the fold of the program's boundaries: scaling region 12 turns the
  current features h into h · np and h · nn; the host gathers and adds them up over the two edge lists; combining region 13
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale12
import proofs.«143456_j27066883899969_1_alg».proof.Proof.Combine13
import proofs.«143456_j27066883899969_1_alg».proof.Proof.HostS13
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR12

set_option maxRecDepth 16384

noncomputable section

namespace Cert.KernelIdeal.Step12

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 12: the features and everything carried are untouched by the two recasts, which put the two
    out-degree normalisers in one-column form. -/
theorem enter
    (hH : W26 m ρ c (Proc.devRef .tc main_v166) = H)
    (h_main_v11 : W26 m ρ c (Proc.devRef .tc main_v11) = O)
    (h_main_v27 : W26 m ρ c (Proc.devRef .tc main_v27) = Cert.Spec.norm s)
    (h_main_v30 : W26 m ρ c (Proc.devRef .tc main_v30) = Cert.Spec.norm d)
    (h_main_v33 : W26 m ρ c (Proc.devRef .tc main_v33) = Cert.Spec.norm ns)
    (h_main_v36 : W26 m ρ c (Proc.devRef .tc main_v36) = Cert.Spec.norm nd)
    (h_main_arg7 : W26 m ρ c (Proc.devRef .tc main_arg7) = s)
    (h_main_arg8 : W26 m ρ c (Proc.devRef .tc main_arg8) = d)
    (h_main_arg9 : W26 m ρ c (Proc.devRef .tc main_arg9) = ns)
    (h_main_arg10 : W26 m ρ c (Proc.devRef .tc main_arg10) = nd)
    : W27 m ρ c (Proc.devRef .tc main_v166) = H
    ∧ W27 m ρ c (Proc.devRef .tc main_v167) = shapeCast S100000x1 (Cert.Spec.norm s) shapeCasts_S100000_S100000x1
    ∧ W27 m ρ c (Proc.devRef .tc main_v168) = shapeCast S100000x1 (Cert.Spec.norm ns) shapeCasts_S100000_S100000x1
    ∧ W27 m ρ c (Proc.devRef .tc main_v11) = O
    ∧ W27 m ρ c (Proc.devRef .tc main_v27) = Cert.Spec.norm s
    ∧ W27 m ρ c (Proc.devRef .tc main_v30) = Cert.Spec.norm d
    ∧ W27 m ρ c (Proc.devRef .tc main_v33) = Cert.Spec.norm ns
    ∧ W27 m ρ c (Proc.devRef .tc main_v36) = Cert.Spec.norm nd
    ∧ W27 m ρ c (Proc.devRef .tc main_arg7) = s
    ∧ W27 m ρ c (Proc.devRef .tc main_arg8) = d
    ∧ W27 m ρ c (Proc.devRef .tc main_arg9) = ns
    ∧ W27 m ρ c (Proc.devRef .tc main_arg10) = nd := by
  refine ⟨(hostOps12_keeps _ main_v166 (by decide)).trans hH,
    (HostR12.n1 _).trans (by rw [h_main_v27]),
    (HostR12.n2 _).trans (by rw [h_main_v33]),
    (hostOps12_keeps _ main_v11 (by decide)).trans h_main_v11,
    (hostOps12_keeps _ main_v27 (by decide)).trans h_main_v27,
    (hostOps12_keeps _ main_v30 (by decide)).trans h_main_v30,
    (hostOps12_keeps _ main_v33 (by decide)).trans h_main_v33,
    (hostOps12_keeps _ main_v36 (by decide)).trans h_main_v36,
    (hostOps12_keeps _ main_arg7 (by decide)).trans h_main_arg7,
    (hostOps12_keeps _ main_arg8 (by decide)).trans h_main_arg8,
    (hostOps12_keeps _ main_arg9 (by decide)).trans h_main_arg9,
    (hostOps12_keeps _ main_arg10 (by decide)).trans h_main_arg10⟩

/-- From the entry of scaling region 12 to the exit of combining region 13. -/
theorem step
    (hH : W27 m ρ c (Proc.devRef .tc main_v166) = H)
    (hn1 : W27 m ρ c (Proc.devRef .tc main_v167) = shapeCast S100000x1 (Cert.Spec.norm s) shapeCasts_S100000_S100000x1)
    (hn2 : W27 m ρ c (Proc.devRef .tc main_v168) = shapeCast S100000x1 (Cert.Spec.norm ns) shapeCasts_S100000_S100000x1)
    (h_main_v11 : W27 m ρ c (Proc.devRef .tc main_v11) = O)
    (h_main_v27 : W27 m ρ c (Proc.devRef .tc main_v27) = Cert.Spec.norm s)
    (h_main_v30 : W27 m ρ c (Proc.devRef .tc main_v30) = Cert.Spec.norm d)
    (h_main_v33 : W27 m ρ c (Proc.devRef .tc main_v33) = Cert.Spec.norm ns)
    (h_main_v36 : W27 m ρ c (Proc.devRef .tc main_v36) = Cert.Spec.norm nd)
    (h_main_arg7 : W27 m ρ c (Proc.devRef .tc main_arg7) = s)
    (h_main_arg8 : W27 m ρ c (Proc.devRef .tc main_arg8) = d)
    (h_main_arg9 : W27 m ρ c (Proc.devRef .tc main_arg9) = ns)
    (h_main_arg10 : W27 m ρ c (Proc.devRef .tc main_arg10) = nd)
    : W30 m ρ c (Proc.devRef .tc main_v192) = Cert.Spec.step O s d ns nd H
    ∧ W30 m ρ c (Proc.devRef .tc main_v11) = O
    ∧ W30 m ρ c (Proc.devRef .tc main_v27) = Cert.Spec.norm s
    ∧ W30 m ρ c (Proc.devRef .tc main_v30) = Cert.Spec.norm d
    ∧ W30 m ρ c (Proc.devRef .tc main_v33) = Cert.Spec.norm ns
    ∧ W30 m ρ c (Proc.devRef .tc main_v36) = Cert.Spec.norm nd
    ∧ W30 m ρ c (Proc.devRef .tc main_arg7) = s
    ∧ W30 m ρ c (Proc.devRef .tc main_arg8) = d
    ∧ W30 m ρ c (Proc.devRef .tc main_arg9) = ns
    ∧ W30 m ρ c (Proc.devRef .tc main_arg10) = nd := by
  have x3 : W28 m ρ c (Proc.devRef .tc main_v169_0) = scaleRows H (shapeCast S100000x1 (Cert.Spec.norm s) shapeCasts_S100000_S100000x1) :=
    (W28_arr m ρ c 3).trans ((Scale12.finalP (V27 m ρ) c).trans (scaleRows_congr hH hn1))
  have x4 : W28 m ρ c (Proc.devRef .tc main_v169_1) = scaleRows H (shapeCast S100000x1 (Cert.Spec.norm ns) shapeCasts_S100000_S100000x1) :=
    (W28_arr m ρ c 4).trans ((Scale12.finalN (V27 m ρ) c).trans (scaleRows_congr hH hn2))
  have x_main_v11 : W28 m ρ c (Proc.devRef .tc main_v11) = O := (W28_of_ne m ρ c main_v11 (by decide)).trans h_main_v11
  have x_main_v27 : W28 m ρ c (Proc.devRef .tc main_v27) = Cert.Spec.norm s := (W28_of_ne m ρ c main_v27 (by decide)).trans h_main_v27
  have x_main_v30 : W28 m ρ c (Proc.devRef .tc main_v30) = Cert.Spec.norm d := (W28_of_ne m ρ c main_v30 (by decide)).trans h_main_v30
  have x_main_v33 : W28 m ρ c (Proc.devRef .tc main_v33) = Cert.Spec.norm ns := (W28_of_ne m ρ c main_v33 (by decide)).trans h_main_v33
  have x_main_v36 : W28 m ρ c (Proc.devRef .tc main_v36) = Cert.Spec.norm nd := (W28_of_ne m ρ c main_v36 (by decide)).trans h_main_v36
  have x_main_arg7 : W28 m ρ c (Proc.devRef .tc main_arg7) = s := (W28_of_ne m ρ c main_arg7 (by decide)).trans h_main_arg7
  have x_main_arg8 : W28 m ρ c (Proc.devRef .tc main_arg8) = d := (W28_of_ne m ρ c main_arg8 (by decide)).trans h_main_arg8
  have x_main_arg9 : W28 m ρ c (Proc.devRef .tc main_arg9) = ns := (W28_of_ne m ρ c main_arg9 (by decide)).trans h_main_arg9
  have x_main_arg10 : W28 m ρ c (Proc.devRef .tc main_arg10) = nd := (W28_of_ne m ρ c main_arg10 (by decide)).trans h_main_arg10
  have f_ap : W29 m ρ c (Proc.devRef .tc main_v179) = Cert.Spec.spmm (scaleRows H (shapeCast S100000x1 (Cert.Spec.norm s) shapeCasts_S100000_S100000x1)) s d :=
    (HostS13.aggP _).trans (by rw [x3, x_main_arg7, x_main_arg8])
  have f_an : W29 m ρ c (Proc.devRef .tc main_v189) = Cert.Spec.spmm (scaleRows H (shapeCast S100000x1 (Cert.Spec.norm ns) shapeCasts_S100000_S100000x1)) ns nd :=
    (HostS13.aggN _).trans (by rw [x4, x_main_arg9, x_main_arg10])
  have f_dp : W29 m ρ c (Proc.devRef .tc main_v190) = shapeCast S100000x1 (Cert.Spec.norm d) shapeCasts_S100000_S100000x1 := (HostS13.dp _).trans (by rw [x_main_v30])
  have f_dn : W29 m ρ c (Proc.devRef .tc main_v191) = shapeCast S100000x1 (Cert.Spec.norm nd) shapeCasts_S100000_S100000x1 := (HostS13.dn _).trans (by rw [x_main_v36])
  have f_main_v11 : W29 m ρ c (Proc.devRef .tc main_v11) = O := (hostOps13_keeps _ main_v11 (by decide)).trans x_main_v11
  have f_main_v27 : W29 m ρ c (Proc.devRef .tc main_v27) = Cert.Spec.norm s := (hostOps13_keeps _ main_v27 (by decide)).trans x_main_v27
  have f_main_v30 : W29 m ρ c (Proc.devRef .tc main_v30) = Cert.Spec.norm d := (hostOps13_keeps _ main_v30 (by decide)).trans x_main_v30
  have f_main_v33 : W29 m ρ c (Proc.devRef .tc main_v33) = Cert.Spec.norm ns := (hostOps13_keeps _ main_v33 (by decide)).trans x_main_v33
  have f_main_v36 : W29 m ρ c (Proc.devRef .tc main_v36) = Cert.Spec.norm nd := (hostOps13_keeps _ main_v36 (by decide)).trans x_main_v36
  have f_main_arg7 : W29 m ρ c (Proc.devRef .tc main_arg7) = s := (hostOps13_keeps _ main_arg7 (by decide)).trans x_main_arg7
  have f_main_arg8 : W29 m ρ c (Proc.devRef .tc main_arg8) = d := (hostOps13_keeps _ main_arg8 (by decide)).trans x_main_arg8
  have f_main_arg9 : W29 m ρ c (Proc.devRef .tc main_arg9) = ns := (hostOps13_keeps _ main_arg9 (by decide)).trans x_main_arg9
  have f_main_arg10 : W29 m ρ c (Proc.devRef .tc main_arg10) = nd := (hostOps13_keeps _ main_arg10 (by decide)).trans x_main_arg10
  have y_h : W30 m ρ c (Proc.devRef .tc main_v192) = Cert.Spec.step O s d ns nd H :=
    (W30_arr m ρ c 5).trans ((Combine13.final (V29 m ρ) c).trans
      ((combine_congr f_ap f_an f_dp f_dn f_main_v11).trans (Cert.Bridge.step_eq H O s d ns nd _)))
  exact ⟨y_h,
    (W30_arr m ρ c 4).trans ((((dat13 (V29 m ρ) c).arrAt_in 4 rfl _).trans (A_eq13 (V29 m ρ) c 4)).trans f_main_v11),
    (W30_of_ne m ρ c main_v27 (by decide)).trans f_main_v27,
    (W30_of_ne m ρ c main_v30 (by decide)).trans f_main_v30,
    (W30_of_ne m ρ c main_v33 (by decide)).trans f_main_v33,
    (W30_of_ne m ρ c main_v36 (by decide)).trans f_main_v36,
    (W30_of_ne m ρ c main_arg7 (by decide)).trans f_main_arg7,
    (W30_of_ne m ρ c main_arg8 (by decide)).trans f_main_arg8,
    (W30_of_ne m ρ c main_arg9 (by decide)).trans f_main_arg9,
    (W30_of_ne m ρ c main_arg10 (by decide)).trans f_main_arg10⟩

end Cert.KernelIdeal.Step12

end
-- ==== Proof.Scale14.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale14

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k14_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k14_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0 :=
  (by decide +kernel : ∀ t : Fin grid14.N, _)

/-- Every block row below 50 is some point's. -/
theorem idx_onto : ∀ q0 : Fin 50, ∃ t : Fin cfg14.N, t.val = q0.val :=
  (by decide +kernel : ∀ q0 : Fin 50, ∃ t : Fin grid14.N, t.val = q0.val)

/-- What point `t` writes back to the first output is block `t` of `scaleRows` of the rows and that column. -/
theorem flushedP_eq (c : Dev nD) (t : Fin cfg14.N) :
    (dat14 V c).flushed 3 t = ((cfg14.win 3).blk t).view.read (Elt Ideal) (scaleRows (V c (Pipeline.arrRef spec14 0)) (V c (Pipeline.arrRef spec14 1))) := by
  show (cfg14.win 3).cut (grid14.coords t) ((dat14 V c).after 3 t) = _
  rw [after14_3]
  unfold out14_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk14 V c 0 t) (iblk14 V c 1 t) p q).trans ?_
  have h0 : ((cfg14.win 0).blk t).view.emb (ix2 p q) = ((cfg14.win 3).blk t).view.emb (ix2 p q) := by
    funext a; apply Fin.ext
    match a with
    | ⟨0, _⟩ => show win14_0.index t (0 : Fin 2) * 2000 + 1 * p.val = win14_3.index t (0 : Fin 2) * 2000 + 1 * p.val; omega
    | ⟨1, _⟩ => show win14_0.index t (1 : Fin 2) * 32 + 1 * q.val = win14_3.index t (1 : Fin 2) * 32 + 1 * q.val; omega
  have h1 : rowOf (((cfg14.win 3).blk t).view.emb (ix2 p q)) = ((cfg14.win 1).blk t).view.emb (ix2 p (0 : Fin 1)) :=
    rowOf_eq _ _ (by show win14_1.index t (0 : Fin 2) * 2000 + 1 * p.val = win14_3.index t (0 : Fin 2) * 2000 + 1 * p.val; omega)
  show _ = scaleRows _ _ (((cfg14.win 3).blk t).view.emb (ix2 p q))
  unfold scaleRows
  exact congr (congrArg (HMul.hMul : EReal → EReal → EReal) (congrArg (V c (Pipeline.arrRef spec14 0)) h0))
    (congrArg (V c (Pipeline.arrRef spec14 1)) h1.symm)

/-- What point `t` writes back to the second output is block `t` of `scaleRows` of the rows and that column. -/
theorem flushedN_eq (c : Dev nD) (t : Fin cfg14.N) :
    (dat14 V c).flushed 4 t = ((cfg14.win 4).blk t).view.read (Elt Ideal) (scaleRows (V c (Pipeline.arrRef spec14 0)) (V c (Pipeline.arrRef spec14 2))) := by
  show (cfg14.win 4).cut (grid14.coords t) ((dat14 V c).after 4 t) = _
  rw [after14_4]
  unfold out14_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk14 V c 0 t) (iblk14 V c 2 t) p q).trans ?_
  have h0 : ((cfg14.win 0).blk t).view.emb (ix2 p q) = ((cfg14.win 4).blk t).view.emb (ix2 p q) := by
    funext a; apply Fin.ext
    match a with
    | ⟨0, _⟩ => show win14_0.index t (0 : Fin 2) * 2000 + 1 * p.val = win14_4.index t (0 : Fin 2) * 2000 + 1 * p.val; omega
    | ⟨1, _⟩ => show win14_0.index t (1 : Fin 2) * 32 + 1 * q.val = win14_4.index t (1 : Fin 2) * 32 + 1 * q.val; omega
  have h1 : rowOf (((cfg14.win 4).blk t).view.emb (ix2 p q)) = ((cfg14.win 2).blk t).view.emb (ix2 p (0 : Fin 1)) :=
    rowOf_eq _ _ (by show win14_2.index t (0 : Fin 2) * 2000 + 1 * p.val = win14_4.index t (0 : Fin 2) * 2000 + 1 * p.val; omega)
  show _ = scaleRows _ _ (((cfg14.win 4).blk t).view.emb (ix2 p q))
  unfold scaleRows
  exact congr (congrArg (HMul.hMul : EReal → EReal → EReal) (congrArg (V c (Pipeline.arrRef spec14 0)) h0))
    (congrArg (V c (Pipeline.arrRef spec14 2)) h1.symm)

/-- An index is in point `t`'s block of the first output iff each coordinate is in the block's range. -/
theorem mem_blkP (t : Fin cfg14.N) (i : S100000x32.Idx) :
    i ∈ ((cfg14.win 3).blk t).view.set ↔ ∀ a : Fin 2, win14_3.index t a * S2000x32.size a ≤ (i a).val ∧ (i a).val < win14_3.index t a * S2000x32.size a + S2000x32.size a := by
  show i ∈ ((View.whole (Pipeline.arrRef spec14 3)).slice (win14_3.rect t)).set ↔ _
  rw [View.set_slice_whole, Rect.mem_set_unit]
  exact Iff.rfl

/-- The same for the second output. -/
theorem mem_blkN (t : Fin cfg14.N) (i : S100000x32.Idx) :
    i ∈ ((cfg14.win 4).blk t).view.set ↔ ∀ a : Fin 2, win14_4.index t a * S2000x32.size a ≤ (i a).val ∧ (i a).val < win14_4.index t a * S2000x32.size a + S2000x32.size a := by
  show i ∈ ((View.whole (Pipeline.arrRef spec14 4)).slice (win14_4.rect t)).set ↔ _
  rw [View.set_slice_whole, Rect.mem_set_unit]
  exact Iff.rfl

/-- Row `r` lies in the block of point `r / 2000`: the 50 blocks cover the first output. -/
theorem coverP (i : S100000x32.Idx) : ∃ t : Fin cfg14.N, (cfg14.win 3).flush t = true ∧ i ∈ ((cfg14.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush14_3 t, ?_⟩
  rw [mem_blkP]
  intro a
  match a with
  | ⟨0, _⟩ => show win14_3.index t (0 : Fin 2) * 2000 ≤ (i 0).val ∧ (i 0).val < win14_3.index t (0 : Fin 2) * 2000 + 2000; omega
  | ⟨1, _⟩ => show win14_3.index t (1 : Fin 2) * 32 ≤ (i 1).val ∧ (i 1).val < win14_3.index t (1 : Fin 2) * 32 + 32; omega

/-- The 50 blocks cover the second output. -/
theorem coverN (i : S100000x32.Idx) : ∃ t : Fin cfg14.N, (cfg14.win 4).flush t = true ∧ i ∈ ((cfg14.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush14_4 t, ?_⟩
  rw [mem_blkN]
  intro a
  match a with
  | ⟨0, _⟩ => show win14_4.index t (0 : Fin 2) * 2000 ≤ (i 0).val ∧ (i 0).val < win14_4.index t (0 : Fin 2) * 2000 + 2000; omega
  | ⟨1, _⟩ => show win14_4.index t (1 : Fin 2) * 32 ≤ (i 1).val ∧ (i 1).val < win14_4.index t (1 : Fin 2) * 32 + 32; omega

/-- The first output array after the region: `h · np`. -/
theorem finalP (c : Dev nD) : (dat14 V c).arrAt 3 cfg14.N = scaleRows (V c (Pipeline.arrRef spec14 0)) (V c (Pipeline.arrRef spec14 1)) :=
  (dat14 V c).arrAt_eq_of_cover 3 (scaleRows (V c (Pipeline.arrRef spec14 0)) (V c (Pipeline.arrRef spec14 1))) (fun t _ => flushedP_eq V c t) (coverP)

/-- The second output array after the region: `h · nn`. -/
theorem finalN (c : Dev nD) : (dat14 V c).arrAt 4 cfg14.N = scaleRows (V c (Pipeline.arrRef spec14 0)) (V c (Pipeline.arrRef spec14 2)) :=
  (dat14 V c).arrAt_eq_of_cover 4 (scaleRows (V c (Pipeline.arrRef spec14 0)) (V c (Pipeline.arrRef spec14 2))) (fun t _ => flushedN_eq V c t) (coverN)

end Cert.KernelIdeal.Scale14

end
-- ==== Proof.Combine15.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine15

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k15_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg15.N,
    win15_0.index t (0 : Fin 2) = t.val ∧ win15_0.index t (1 : Fin 2) = 0
    ∧ win15_1.index t (0 : Fin 2) = t.val ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0
    ∧ win15_4.index t (0 : Fin 2) = t.val ∧ win15_4.index t (1 : Fin 2) = 0
    ∧ win15_5.index t (0 : Fin 2) = t.val ∧ win15_5.index t (1 : Fin 2) = 0 :=
  (by decide +kernel : ∀ t : Fin grid15.N, _)

/-- Every block row below 50 is some point's. -/
theorem idx_onto : ∀ q0 : Fin 50, ∃ t : Fin cfg15.N, t.val = q0.val :=
  (by decide +kernel : ∀ q0 : Fin 50, ∃ t : Fin grid15.N, t.val = q0.val)

set_option maxHeartbeats 1600000 in
/-- What point `t` writes back is block `t` of `combine` of the input arrays. -/
theorem flushed_eq (c : Dev nD) (t : Fin cfg15.N) :
    (dat15 V c).flushed 5 t = ((cfg15.win 5).blk t).view.read (Elt Ideal)
      (combine (V c (Pipeline.arrRef spec15 0)) (V c (Pipeline.arrRef spec15 1)) (V c (Pipeline.arrRef spec15 2)) (V c (Pipeline.arrRef spec15 3)) (V c (Pipeline.arrRef spec15 4))) := by
  show (cfg15.win 5).cut (grid15.coords t) ((dat15 V c).after 5 t) = _
  rw [after15_5]
  unfold out15_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk15 V c 0 t) (iblk15 V c 2 t) (iblk15 V c 1 t) (iblk15 V c 3 t) (iblk15 V c 4 t) p q).trans ?_
  have h0 : ((cfg15.win 0).blk t).view.emb (ix2 p q) = ((cfg15.win 5).blk t).view.emb (ix2 p q) := by
    funext a; apply Fin.ext
    match a with
    | ⟨0, _⟩ => show win15_0.index t (0 : Fin 2) * 2000 + 1 * p.val = win15_5.index t (0 : Fin 2) * 2000 + 1 * p.val; omega
    | ⟨1, _⟩ => show win15_0.index t (1 : Fin 2) * 32 + 1 * q.val = win15_5.index t (1 : Fin 2) * 32 + 1 * q.val; omega
  have h1 : ((cfg15.win 1).blk t).view.emb (ix2 p q) = ((cfg15.win 5).blk t).view.emb (ix2 p q) := by
    funext a; apply Fin.ext
    match a with
    | ⟨0, _⟩ => show win15_1.index t (0 : Fin 2) * 2000 + 1 * p.val = win15_5.index t (0 : Fin 2) * 2000 + 1 * p.val; omega
    | ⟨1, _⟩ => show win15_1.index t (1 : Fin 2) * 32 + 1 * q.val = win15_5.index t (1 : Fin 2) * 32 + 1 * q.val; omega
  have h4 : ((cfg15.win 4).blk t).view.emb (ix2 p q) = ((cfg15.win 5).blk t).view.emb (ix2 p q) := by
    funext a; apply Fin.ext
    match a with
    | ⟨0, _⟩ => show win15_4.index t (0 : Fin 2) * 2000 + 1 * p.val = win15_5.index t (0 : Fin 2) * 2000 + 1 * p.val; omega
    | ⟨1, _⟩ => show win15_4.index t (1 : Fin 2) * 32 + 1 * q.val = win15_5.index t (1 : Fin 2) * 32 + 1 * q.val; omega
  have h2 : rowOf (((cfg15.win 5).blk t).view.emb (ix2 p q)) = ((cfg15.win 2).blk t).view.emb (ix2 p (0 : Fin 1)) :=
    rowOf_eq _ _ (by show win15_2.index t (0 : Fin 2) * 2000 + 1 * p.val = win15_5.index t (0 : Fin 2) * 2000 + 1 * p.val; omega)
  have h3 : rowOf (((cfg15.win 5).blk t).view.emb (ix2 p q)) = ((cfg15.win 3).blk t).view.emb (ix2 p (0 : Fin 1)) :=
    rowOf_eq _ _ (by show win15_3.index t (0 : Fin 2) * 2000 + 1 * p.val = win15_5.index t (0 : Fin 2) * 2000 + 1 * p.val; omega)
  show _ = combine _ _ _ _ _ (((cfg15.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec15 0)) h0)) (congrArg (V c (Pipeline.arrRef spec15 2)) h2.symm)))
        (congr (congrArg (HMul.hMul : EReal → EReal → EReal) (congrArg (V c (Pipeline.arrRef spec15 1)) h1)) (congrArg (V c (Pipeline.arrRef spec15 3)) h3.symm))))
    (congrArg (V c (Pipeline.arrRef spec15 4)) h4)

/-- An index is in point `t`'s block of the output iff each coordinate is in the block's range. -/
theorem mem_blk (t : Fin cfg15.N) (i : S100000x32.Idx) :
    i ∈ ((cfg15.win 5).blk t).view.set ↔ ∀ a : Fin 2, win15_5.index t a * S2000x32.size a ≤ (i a).val ∧ (i a).val < win15_5.index t a * S2000x32.size a + S2000x32.size a := by
  show i ∈ ((View.whole (Pipeline.arrRef spec15 5)).slice (win15_5.rect t)).set ↔ _
  rw [View.set_slice_whole, Rect.mem_set_unit]
  exact Iff.rfl

/-- Row `r` lies in the block of point `r / 2000`: the 50 blocks cover the output. -/
theorem cover (i : S100000x32.Idx) : ∃ t : Fin cfg15.N, (cfg15.win 5).flush t = true ∧ i ∈ ((cfg15.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush15_5 t, ?_⟩
  rw [mem_blk]
  intro a
  match a with
  | ⟨0, _⟩ => show win15_5.index t (0 : Fin 2) * 2000 ≤ (i 0).val ∧ (i 0).val < win15_5.index t (0 : Fin 2) * 2000 + 2000; omega
  | ⟨1, _⟩ => show win15_5.index t (1 : Fin 2) * 32 ≤ (i 1).val ∧ (i 1).val < win15_5.index t (1 : Fin 2) * 32 + 32; omega

/-- The output array after the region: `combine` of the input arrays as the region finds them. -/
theorem final (c : Dev nD) : (dat15 V c).arrAt 5 cfg15.N
    = combine (V c (Pipeline.arrRef spec15 0)) (V c (Pipeline.arrRef spec15 1)) (V c (Pipeline.arrRef spec15 2)) (V c (Pipeline.arrRef spec15 3)) (V c (Pipeline.arrRef spec15 4)) :=
  (dat15 V c).arrAt_eq_of_cover 5 _ (fun t _ => flushed_eq V c t) cover

end Cert.KernelIdeal.Combine15

end
-- ==== Proof.HostS15.lean ====
/-
  The host operations before combining region 15: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS15

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps15 V (Proc.devRef .tc main_v205) = Cert.Spec.spmm (F := Ideal) (V (Proc.devRef .tc main_v195_0)) (V (Proc.devRef .tc main_arg7)) (V (Proc.devRef .tc main_arg8)) := by
  after_results_simp; rfl
attribute [local irreducible] Host.scatterAdd Host.gather in
theorem aggN : after hostOps15 V (Proc.devRef .tc main_v215) = Cert.Spec.spmm (F := Ideal) (V (Proc.devRef .tc main_v195_1)) (V (Proc.devRef .tc main_arg9)) (V (Proc.devRef .tc main_arg10)) := by
  after_results_simp; rfl
theorem dp : after hostOps15 V (Proc.devRef .tc main_v216) = shapeCast S100000x1 (V (Proc.devRef .tc main_v30)) shapeCasts_S100000_S100000x1 := by
  after_results_simp; rfl
theorem dn : after hostOps15 V (Proc.devRef .tc main_v217) = shapeCast S100000x1 (V (Proc.devRef .tc main_v36)) shapeCasts_S100000_S100000x1 := by
  after_results_simp; rfl

end Cert.KernelIdeal.HostS15

end
-- ==== Proof.HostR14.lean ====
/-
  The two host operations before scaling region 14: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR14

open Cert.KernelIdeal Cert.KernelIdeal.Gen Idealize.ShloMosaic Idealize.ShloMosaic.TcCoe Idealize.SL.Sem Idealize.ShloMosaic.StableHlo

variable (V : Valuation τ sig (Elt Ideal))

theorem n1 : after hostOps14 V (Proc.devRef .tc main_v193) = shapeCast S100000x1 (V (Proc.devRef .tc main_v27)) shapeCasts_S100000_S100000x1 := by
  first | (after_results; rfl) | after_results
theorem n2 : after hostOps14 V (Proc.devRef .tc main_v194) = shapeCast S100000x1 (V (Proc.devRef .tc main_v33)) shapeCasts_S100000_S100000x1 := by
  first | (after_results; rfl) | after_results

end Cert.KernelIdeal.HostR14

end
-- ==== Proof.Step14.lean ====
/-
  Propagation step 7 of 8 on the kernel's side, through the fold of the program's boundaries: scaling region 14 turns the
  current features h into h · np and h · nn; the host gathers and adds them up over the two edge lists; combining region 15
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale14
import proofs.«143456_j27066883899969_1_alg».proof.Proof.Combine15
import proofs.«143456_j27066883899969_1_alg».proof.Proof.HostS15
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR14

set_option maxRecDepth 16384

noncomputable section

namespace Cert.KernelIdeal.Step14

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 14: the features and everything carried are untouched by the two recasts, which put the two
    out-degree normalisers in one-column form. -/
theorem enter
    (hH : W30 m ρ c (Proc.devRef .tc main_v192) = H)
    (h_main_v11 : W30 m ρ c (Proc.devRef .tc main_v11) = O)
    (h_main_v27 : W30 m ρ c (Proc.devRef .tc main_v27) = Cert.Spec.norm s)
    (h_main_v30 : W30 m ρ c (Proc.devRef .tc main_v30) = Cert.Spec.norm d)
    (h_main_v33 : W30 m ρ c (Proc.devRef .tc main_v33) = Cert.Spec.norm ns)
    (h_main_v36 : W30 m ρ c (Proc.devRef .tc main_v36) = Cert.Spec.norm nd)
    (h_main_arg7 : W30 m ρ c (Proc.devRef .tc main_arg7) = s)
    (h_main_arg8 : W30 m ρ c (Proc.devRef .tc main_arg8) = d)
    (h_main_arg9 : W30 m ρ c (Proc.devRef .tc main_arg9) = ns)
    (h_main_arg10 : W30 m ρ c (Proc.devRef .tc main_arg10) = nd)
    : W31 m ρ c (Proc.devRef .tc main_v192) = H
    ∧ W31 m ρ c (Proc.devRef .tc main_v193) = shapeCast S100000x1 (Cert.Spec.norm s) shapeCasts_S100000_S100000x1
    ∧ W31 m ρ c (Proc.devRef .tc main_v194) = shapeCast S100000x1 (Cert.Spec.norm ns) shapeCasts_S100000_S100000x1
    ∧ W31 m ρ c (Proc.devRef .tc main_v11) = O
    ∧ W31 m ρ c (Proc.devRef .tc main_v27) = Cert.Spec.norm s
    ∧ W31 m ρ c (Proc.devRef .tc main_v30) = Cert.Spec.norm d
    ∧ W31 m ρ c (Proc.devRef .tc main_v33) = Cert.Spec.norm ns
    ∧ W31 m ρ c (Proc.devRef .tc main_v36) = Cert.Spec.norm nd
    ∧ W31 m ρ c (Proc.devRef .tc main_arg7) = s
    ∧ W31 m ρ c (Proc.devRef .tc main_arg8) = d
    ∧ W31 m ρ c (Proc.devRef .tc main_arg9) = ns
    ∧ W31 m ρ c (Proc.devRef .tc main_arg10) = nd := by
  refine ⟨(hostOps14_keeps _ main_v192 (by decide)).trans hH,
    (HostR14.n1 _).trans (by rw [h_main_v27]),
    (HostR14.n2 _).trans (by rw [h_main_v33]),
    (hostOps14_keeps _ main_v11 (by decide)).trans h_main_v11,
    (hostOps14_keeps _ main_v27 (by decide)).trans h_main_v27,
    (hostOps14_keeps _ main_v30 (by decide)).trans h_main_v30,
    (hostOps14_keeps _ main_v33 (by decide)).trans h_main_v33,
    (hostOps14_keeps _ main_v36 (by decide)).trans h_main_v36,
    (hostOps14_keeps _ main_arg7 (by decide)).trans h_main_arg7,
    (hostOps14_keeps _ main_arg8 (by decide)).trans h_main_arg8,
    (hostOps14_keeps _ main_arg9 (by decide)).trans h_main_arg9,
    (hostOps14_keeps _ main_arg10 (by decide)).trans h_main_arg10⟩

/-- From the entry of scaling region 14 to the exit of combining region 15. -/
theorem step
    (hH : W31 m ρ c (Proc.devRef .tc main_v192) = H)
    (hn1 : W31 m ρ c (Proc.devRef .tc main_v193) = shapeCast S100000x1 (Cert.Spec.norm s) shapeCasts_S100000_S100000x1)
    (hn2 : W31 m ρ c (Proc.devRef .tc main_v194) = shapeCast S100000x1 (Cert.Spec.norm ns) shapeCasts_S100000_S100000x1)
    (h_main_v11 : W31 m ρ c (Proc.devRef .tc main_v11) = O)
    (h_main_v27 : W31 m ρ c (Proc.devRef .tc main_v27) = Cert.Spec.norm s)
    (h_main_v30 : W31 m ρ c (Proc.devRef .tc main_v30) = Cert.Spec.norm d)
    (h_main_v33 : W31 m ρ c (Proc.devRef .tc main_v33) = Cert.Spec.norm ns)
    (h_main_v36 : W31 m ρ c (Proc.devRef .tc main_v36) = Cert.Spec.norm nd)
    (h_main_arg7 : W31 m ρ c (Proc.devRef .tc main_arg7) = s)
    (h_main_arg8 : W31 m ρ c (Proc.devRef .tc main_arg8) = d)
    (h_main_arg9 : W31 m ρ c (Proc.devRef .tc main_arg9) = ns)
    (h_main_arg10 : W31 m ρ c (Proc.devRef .tc main_arg10) = nd)
    : W34 m ρ c (Proc.devRef .tc main_v218) = Cert.Spec.step O s d ns nd H
    ∧ W34 m ρ c (Proc.devRef .tc main_v11) = O
    ∧ W34 m ρ c (Proc.devRef .tc main_v27) = Cert.Spec.norm s
    ∧ W34 m ρ c (Proc.devRef .tc main_v30) = Cert.Spec.norm d
    ∧ W34 m ρ c (Proc.devRef .tc main_v33) = Cert.Spec.norm ns
    ∧ W34 m ρ c (Proc.devRef .tc main_v36) = Cert.Spec.norm nd
    ∧ W34 m ρ c (Proc.devRef .tc main_arg7) = s
    ∧ W34 m ρ c (Proc.devRef .tc main_arg8) = d
    ∧ W34 m ρ c (Proc.devRef .tc main_arg9) = ns
    ∧ W34 m ρ c (Proc.devRef .tc main_arg10) = nd := by
  have x3 : W32 m ρ c (Proc.devRef .tc main_v195_0) = scaleRows H (shapeCast S100000x1 (Cert.Spec.norm s) shapeCasts_S100000_S100000x1) :=
    (W32_arr m ρ c 3).trans ((Scale14.finalP (V31 m ρ) c).trans (scaleRows_congr hH hn1))
  have x4 : W32 m ρ c (Proc.devRef .tc main_v195_1) = scaleRows H (shapeCast S100000x1 (Cert.Spec.norm ns) shapeCasts_S100000_S100000x1) :=
    (W32_arr m ρ c 4).trans ((Scale14.finalN (V31 m ρ) c).trans (scaleRows_congr hH hn2))
  have x_main_v11 : W32 m ρ c (Proc.devRef .tc main_v11) = O := (W32_of_ne m ρ c main_v11 (by decide)).trans h_main_v11
  have x_main_v27 : W32 m ρ c (Proc.devRef .tc main_v27) = Cert.Spec.norm s := (W32_of_ne m ρ c main_v27 (by decide)).trans h_main_v27
  have x_main_v30 : W32 m ρ c (Proc.devRef .tc main_v30) = Cert.Spec.norm d := (W32_of_ne m ρ c main_v30 (by decide)).trans h_main_v30
  have x_main_v33 : W32 m ρ c (Proc.devRef .tc main_v33) = Cert.Spec.norm ns := (W32_of_ne m ρ c main_v33 (by decide)).trans h_main_v33
  have x_main_v36 : W32 m ρ c (Proc.devRef .tc main_v36) = Cert.Spec.norm nd := (W32_of_ne m ρ c main_v36 (by decide)).trans h_main_v36
  have x_main_arg7 : W32 m ρ c (Proc.devRef .tc main_arg7) = s := (W32_of_ne m ρ c main_arg7 (by decide)).trans h_main_arg7
  have x_main_arg8 : W32 m ρ c (Proc.devRef .tc main_arg8) = d := (W32_of_ne m ρ c main_arg8 (by decide)).trans h_main_arg8
  have x_main_arg9 : W32 m ρ c (Proc.devRef .tc main_arg9) = ns := (W32_of_ne m ρ c main_arg9 (by decide)).trans h_main_arg9
  have x_main_arg10 : W32 m ρ c (Proc.devRef .tc main_arg10) = nd := (W32_of_ne m ρ c main_arg10 (by decide)).trans h_main_arg10
  have f_ap : W33 m ρ c (Proc.devRef .tc main_v205) = Cert.Spec.spmm (scaleRows H (shapeCast S100000x1 (Cert.Spec.norm s) shapeCasts_S100000_S100000x1)) s d :=
    (HostS15.aggP _).trans (by rw [x3, x_main_arg7, x_main_arg8])
  have f_an : W33 m ρ c (Proc.devRef .tc main_v215) = Cert.Spec.spmm (scaleRows H (shapeCast S100000x1 (Cert.Spec.norm ns) shapeCasts_S100000_S100000x1)) ns nd :=
    (HostS15.aggN _).trans (by rw [x4, x_main_arg9, x_main_arg10])
  have f_dp : W33 m ρ c (Proc.devRef .tc main_v216) = shapeCast S100000x1 (Cert.Spec.norm d) shapeCasts_S100000_S100000x1 := (HostS15.dp _).trans (by rw [x_main_v30])
  have f_dn : W33 m ρ c (Proc.devRef .tc main_v217) = shapeCast S100000x1 (Cert.Spec.norm nd) shapeCasts_S100000_S100000x1 := (HostS15.dn _).trans (by rw [x_main_v36])
  have f_main_v11 : W33 m ρ c (Proc.devRef .tc main_v11) = O := (hostOps15_keeps _ main_v11 (by decide)).trans x_main_v11
  have f_main_v27 : W33 m ρ c (Proc.devRef .tc main_v27) = Cert.Spec.norm s := (hostOps15_keeps _ main_v27 (by decide)).trans x_main_v27
  have f_main_v30 : W33 m ρ c (Proc.devRef .tc main_v30) = Cert.Spec.norm d := (hostOps15_keeps _ main_v30 (by decide)).trans x_main_v30
  have f_main_v33 : W33 m ρ c (Proc.devRef .tc main_v33) = Cert.Spec.norm ns := (hostOps15_keeps _ main_v33 (by decide)).trans x_main_v33
  have f_main_v36 : W33 m ρ c (Proc.devRef .tc main_v36) = Cert.Spec.norm nd := (hostOps15_keeps _ main_v36 (by decide)).trans x_main_v36
  have f_main_arg7 : W33 m ρ c (Proc.devRef .tc main_arg7) = s := (hostOps15_keeps _ main_arg7 (by decide)).trans x_main_arg7
  have f_main_arg8 : W33 m ρ c (Proc.devRef .tc main_arg8) = d := (hostOps15_keeps _ main_arg8 (by decide)).trans x_main_arg8
  have f_main_arg9 : W33 m ρ c (Proc.devRef .tc main_arg9) = ns := (hostOps15_keeps _ main_arg9 (by decide)).trans x_main_arg9
  have f_main_arg10 : W33 m ρ c (Proc.devRef .tc main_arg10) = nd := (hostOps15_keeps _ main_arg10 (by decide)).trans x_main_arg10
  have y_h : W34 m ρ c (Proc.devRef .tc main_v218) = Cert.Spec.step O s d ns nd H :=
    (W34_arr m ρ c 5).trans ((Combine15.final (V33 m ρ) c).trans
      ((combine_congr f_ap f_an f_dp f_dn f_main_v11).trans (Cert.Bridge.step_eq H O s d ns nd _)))
  exact ⟨y_h,
    (W34_arr m ρ c 4).trans ((((dat15 (V33 m ρ) c).arrAt_in 4 rfl _).trans (A_eq15 (V33 m ρ) c 4)).trans f_main_v11),
    (W34_of_ne m ρ c main_v27 (by decide)).trans f_main_v27,
    (W34_of_ne m ρ c main_v30 (by decide)).trans f_main_v30,
    (W34_of_ne m ρ c main_v33 (by decide)).trans f_main_v33,
    (W34_of_ne m ρ c main_v36 (by decide)).trans f_main_v36,
    (W34_of_ne m ρ c main_arg7 (by decide)).trans f_main_arg7,
    (W34_of_ne m ρ c main_arg8 (by decide)).trans f_main_arg8,
    (W34_of_ne m ρ c main_arg9 (by decide)).trans f_main_arg9,
    (W34_of_ne m ρ c main_arg10 (by decide)).trans f_main_arg10⟩

end Cert.KernelIdeal.Step14

end
-- ==== Proof.Scale16.lean ====
/-
  The row-scaling region: its two output arrays as whole-array functions of its three input arrays.

  The region walks the 100000 rows in 50 blocks of 2000. At a block it reads 2000 rows of `h` (32 wide) and the same
  2000 rows of two one-column arrays `np`, `nn`, and writes `h · np` and `h · nn`, the column repeated along the 32
  features. So each output array, after all 50 blocks have been written back, is `h i · n (i₀, 0)` at every index `i`:
  block `t` of that function is what point `t` writes, and the 50 blocks cover the array.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Scale16

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- The first product the body stores, at an entry of the block. -/
theorem payP_apply (x0 : Vec Ideal S2000x32 .f32) (x1 : Vec Ideal S2000x1 .f32) (p : Fin 2000) (q : Fin 32) :
    k16_pay2 x0 x1 (ix2 p q) = x0 (ix2 p q) * x1 (ix2 p (0 : Fin 1)) := by
  show (shapeCast S2000x32 x0 shapeCasts_S2000x32_S2000x32) (ix2 p q)
    * (broadcastTo S2000x32 (shapeCast S2000x1 x1 shapeCasts_S2000x1_S2000x1) broadcasts_S2000x1_S2000x32) (ix2 p q) = _
  rw [shapeCast_self, shapeCast_self, colBlock_apply]

/-- The second product the body stores, at an entry of the block. -/
theorem payN_apply (x0 : Vec Ideal S2000x32 .f32) (x2 : Vec Ideal S2000x1 .f32) (p : Fin 2000) (q : Fin 32) :
    k16_pay3 x0 x2 (ix2 p q) = x0 (ix2 p q) * x2 (ix2 p (0 : Fin 1)) := by
  show (shapeCast S2000x32 x0 shapeCasts_S2000x32_S2000x32) (ix2 p q)
    * (broadcastTo S2000x32 (shapeCast S2000x1 x2 shapeCasts_S2000x1_S2000x1) broadcasts_S2000x1_S2000x32) (ix2 p q) = _
  rw [shapeCast_self, shapeCast_self, colBlock_apply]

/-- The index maps over the 50 points: every window's block row is the point's number, its block column 0. -/
theorem idx_facts : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

/-- Every block row below 50 is some point's. -/
theorem idx_onto : ∀ q0 : Fin 50, ∃ t : Fin cfg16.N, t.val = q0.val :=
  (by decide +kernel : ∀ q0 : Fin 50, ∃ t : Fin grid16.N, t.val = q0.val)

/-- What point `t` writes back to the first output is block `t` of `scaleRows` of the rows and that column. -/
theorem flushedP_eq (c : Dev nD) (t : Fin cfg16.N) :
    (dat16 V c).flushed 3 t = ((cfg16.win 3).blk t).view.read (Elt Ideal) (scaleRows (V c (Pipeline.arrRef spec16 0)) (V c (Pipeline.arrRef spec16 1))) := by
  show (cfg16.win 3).cut (grid16.coords t) ((dat16 V c).after 3 t) = _
  rw [after16_3]
  unfold out16_3
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payP_apply (iblk16 V c 0 t) (iblk16 V c 1 t) p q).trans ?_
  have h0 : ((cfg16.win 0).blk t).view.emb (ix2 p q) = ((cfg16.win 3).blk t).view.emb (ix2 p q) := by
    funext a; apply Fin.ext
    match a with
    | ⟨0, _⟩ => show win16_0.index t (0 : Fin 2) * 2000 + 1 * p.val = win16_3.index t (0 : Fin 2) * 2000 + 1 * p.val; omega
    | ⟨1, _⟩ => show win16_0.index t (1 : Fin 2) * 32 + 1 * q.val = win16_3.index t (1 : Fin 2) * 32 + 1 * q.val; omega
  have h1 : rowOf (((cfg16.win 3).blk t).view.emb (ix2 p q)) = ((cfg16.win 1).blk t).view.emb (ix2 p (0 : Fin 1)) :=
    rowOf_eq _ _ (by show win16_1.index t (0 : Fin 2) * 2000 + 1 * p.val = win16_3.index t (0 : Fin 2) * 2000 + 1 * p.val; omega)
  show _ = scaleRows _ _ (((cfg16.win 3).blk t).view.emb (ix2 p q))
  unfold scaleRows
  exact congr (congrArg (HMul.hMul : EReal → EReal → EReal) (congrArg (V c (Pipeline.arrRef spec16 0)) h0))
    (congrArg (V c (Pipeline.arrRef spec16 1)) h1.symm)

/-- What point `t` writes back to the second output is block `t` of `scaleRows` of the rows and that column. -/
theorem flushedN_eq (c : Dev nD) (t : Fin cfg16.N) :
    (dat16 V c).flushed 4 t = ((cfg16.win 4).blk t).view.read (Elt Ideal) (scaleRows (V c (Pipeline.arrRef spec16 0)) (V c (Pipeline.arrRef spec16 2))) := by
  show (cfg16.win 4).cut (grid16.coords t) ((dat16 V c).after 4 t) = _
  rw [after16_4]
  unfold out16_4
  rw [View.canon_unit_zero origin]
  simp only [View.ld_unit_zero (S := S2000x32) origin, View.ld_unit_zero (S := S2000x1) origin]
  obtain ⟨e00, e01, e10, e11, e20, e21, e30, e31, e40, e41⟩ := idx_facts t
  refine funext fun (j : S2000x32.Idx) => ?_
  obtain ⟨p, q, rfl⟩ : ∃ (p : Fin 2000) (q : Fin 32), j = ix2 p q := ⟨j 0, j 1, eq_ix2 j⟩
  refine (payN_apply (iblk16 V c 0 t) (iblk16 V c 2 t) p q).trans ?_
  have h0 : ((cfg16.win 0).blk t).view.emb (ix2 p q) = ((cfg16.win 4).blk t).view.emb (ix2 p q) := by
    funext a; apply Fin.ext
    match a with
    | ⟨0, _⟩ => show win16_0.index t (0 : Fin 2) * 2000 + 1 * p.val = win16_4.index t (0 : Fin 2) * 2000 + 1 * p.val; omega
    | ⟨1, _⟩ => show win16_0.index t (1 : Fin 2) * 32 + 1 * q.val = win16_4.index t (1 : Fin 2) * 32 + 1 * q.val; omega
  have h1 : rowOf (((cfg16.win 4).blk t).view.emb (ix2 p q)) = ((cfg16.win 2).blk t).view.emb (ix2 p (0 : Fin 1)) :=
    rowOf_eq _ _ (by show win16_2.index t (0 : Fin 2) * 2000 + 1 * p.val = win16_4.index t (0 : Fin 2) * 2000 + 1 * p.val; omega)
  show _ = scaleRows _ _ (((cfg16.win 4).blk t).view.emb (ix2 p q))
  unfold scaleRows
  exact congr (congrArg (HMul.hMul : EReal → EReal → EReal) (congrArg (V c (Pipeline.arrRef spec16 0)) h0))
    (congrArg (V c (Pipeline.arrRef spec16 2)) h1.symm)

/-- An index is in point `t`'s block of the first output iff each coordinate is in the block's range. -/
theorem mem_blkP (t : Fin cfg16.N) (i : S100000x32.Idx) :
    i ∈ ((cfg16.win 3).blk t).view.set ↔ ∀ a : Fin 2, win16_3.index t a * S2000x32.size a ≤ (i a).val ∧ (i a).val < win16_3.index t a * S2000x32.size a + S2000x32.size a := by
  show i ∈ ((View.whole (Pipeline.arrRef spec16 3)).slice (win16_3.rect t)).set ↔ _
  rw [View.set_slice_whole, Rect.mem_set_unit]
  exact Iff.rfl

/-- The same for the second output. -/
theorem mem_blkN (t : Fin cfg16.N) (i : S100000x32.Idx) :
    i ∈ ((cfg16.win 4).blk t).view.set ↔ ∀ a : Fin 2, win16_4.index t a * S2000x32.size a ≤ (i a).val ∧ (i a).val < win16_4.index t a * S2000x32.size a + S2000x32.size a := by
  show i ∈ ((View.whole (Pipeline.arrRef spec16 4)).slice (win16_4.rect t)).set ↔ _
  rw [View.set_slice_whole, Rect.mem_set_unit]
  exact Iff.rfl

/-- Row `r` lies in the block of point `r / 2000`: the 50 blocks cover the first output. -/
theorem coverP (i : S100000x32.Idx) : ∃ t : Fin cfg16.N, (cfg16.win 3).flush t = true ∧ i ∈ ((cfg16.win 3).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush16_3 t, ?_⟩
  rw [mem_blkP]
  intro a
  match a with
  | ⟨0, _⟩ => show win16_3.index t (0 : Fin 2) * 2000 ≤ (i 0).val ∧ (i 0).val < win16_3.index t (0 : Fin 2) * 2000 + 2000; omega
  | ⟨1, _⟩ => show win16_3.index t (1 : Fin 2) * 32 ≤ (i 1).val ∧ (i 1).val < win16_3.index t (1 : Fin 2) * 32 + 32; omega

/-- The 50 blocks cover the second output. -/
theorem coverN (i : S100000x32.Idx) : ∃ t : Fin cfg16.N, (cfg16.win 4).flush t = true ∧ i ∈ ((cfg16.win 4).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41⟩ := idx_facts t
  refine ⟨t, flush16_4 t, ?_⟩
  rw [mem_blkN]
  intro a
  match a with
  | ⟨0, _⟩ => show win16_4.index t (0 : Fin 2) * 2000 ≤ (i 0).val ∧ (i 0).val < win16_4.index t (0 : Fin 2) * 2000 + 2000; omega
  | ⟨1, _⟩ => show win16_4.index t (1 : Fin 2) * 32 ≤ (i 1).val ∧ (i 1).val < win16_4.index t (1 : Fin 2) * 32 + 32; omega

/-- The first output array after the region: `h · np`. -/
theorem finalP (c : Dev nD) : (dat16 V c).arrAt 3 cfg16.N = scaleRows (V c (Pipeline.arrRef spec16 0)) (V c (Pipeline.arrRef spec16 1)) :=
  (dat16 V c).arrAt_eq_of_cover 3 (scaleRows (V c (Pipeline.arrRef spec16 0)) (V c (Pipeline.arrRef spec16 1))) (fun t _ => flushedP_eq V c t) (coverP)

/-- The second output array after the region: `h · nn`. -/
theorem finalN (c : Dev nD) : (dat16 V c).arrAt 4 cfg16.N = scaleRows (V c (Pipeline.arrRef spec16 0)) (V c (Pipeline.arrRef spec16 2)) :=
  (dat16 V c).arrAt_eq_of_cover 4 (scaleRows (V c (Pipeline.arrRef spec16 0)) (V c (Pipeline.arrRef spec16 2))) (fun t _ => flushedN_eq V c t) (coverN)

end Cert.KernelIdeal.Scale16

end
-- ==== Proof.Combine17.lean ====
/-
  The combining region: its output array as a whole-array function of its five input arrays.

  The region walks the 100000 rows in 50 blocks of 2000. At a block it reads 2000 rows of the two aggregates `ap`, `an`
  (32 wide), the same rows of the two one-column arrays `dp`, `dn` and of the residual `o`, and writes
  `ap · dp − an · dn + o`, each column repeated along the 32 features. So the output array, after all 50 blocks have
  been written back, is that expression at every index: block `t` of it is what point `t` writes, and the blocks cover.
-/
import proofs.«143456_j27066883899969_1_alg».proof.Proof.Gen.KernelIdeal.Frame
import proofs.«143456_j27066883899969_1_alg».proof.Proof.RowOps
import Idealize.ShloMosaic.Lib.Pipeline.Value
import Idealize.ShloMosaic.Lib.ValueIdx
import Idealize.ShloMosaic.Lib.ValueLayout

set_option maxRecDepth 16384

noncomputable section

namespace Cert.KernelIdeal.Combine17

open Cert.KernelIdeal Cert.KernelIdeal.Gen Idealize.ShloMosaic Idealize.ShloMosaic.TcCoe Idealize.SL.Sem
open Idealize.ShloMosaic.ValueIdx Cert.KernelIdeal.RowOps
open Idealize.ShloMosaic.Pipeline (Dat)

variable (V : (c : Dev nD) → (b : Ref sig .tc) → Buf (Elt Ideal) ((c : Thread nD τ).loc b))

/-- What the body stores, at an entry of the block. -/
theorem pay_apply (x0 : Vec Ideal S2000x32 .f32) (x2 : Vec Ideal S2000x1 .f32) (x1 : Vec Ideal S2000x32 .f32)
    (x3 : Vec Ideal S2000x1 .f32) (x4 : Vec Ideal S2000x32 .f32) (p : Fin 2000) (q : Fin 32) :
    k17_pay1 x0 x2 x1 x3 x4 (ix2 p q)
      = x0 (ix2 p q) * x2 (ix2 p (0 : Fin 1)) - x1 (ix2 p q) * x3 (ix2 p (0 : Fin 1)) + x4 (ix2 p q) := by
  show (shapeCast S2000x32 x0 shapeCasts_S2000x32_S2000x32) (ix2 p q)
      * (broadcastTo S2000x32 (shapeCast S2000x1 x2 shapeCasts_S2000x1_S2000x1) broadcasts_S2000x1_S2000x32) (ix2 p q)
    - (shapeCast S2000x32 x1 shapeCasts_S2000x32_S2000x32) (ix2 p q)
      * (broadcastTo S2000x32 (shapeCast S2000x1 x3 shapeCasts_S2000x1_S2000x1) broadcasts_S2000x1_S2000x32) (ix2 p q)
    + (shapeCast S2000x32 x4 shapeCasts_S2000x32_S2000x32) (ix2 p q) = _
  rw [shapeCast_self, shapeCast_self, shapeCast_self, shapeCast_self, shapeCast_self, colBlock_apply, colBlock_apply]

/-- The index maps over the 50 points: every window's block row is the point's number, its block column 0. -/
theorem idx_facts : ∀ t : Fin cfg17.N,
    win17_0.index t (0 : Fin 2) = t.val ∧ win17_0.index t (1 : Fin 2) = 0
    ∧ win17_1.index t (0 : Fin 2) = t.val ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0
    ∧ win17_5.index t (0 : Fin 2) = t.val ∧ win17_5.index t (1 : Fin 2) = 0 :=
  (by decide +kernel : ∀ t : Fin grid17.N, _)

/-- Every block row below 50 is some point's. -/
theorem idx_onto : ∀ q0 : Fin 50, ∃ t : Fin cfg17.N, t.val = q0.val :=
  (by decide +kernel : ∀ q0 : Fin 50, ∃ t : Fin grid17.N, t.val = q0.val)

set_option maxHeartbeats 1600000 in
/-- What point `t` writes back is block `t` of `combine` of the input arrays. -/
theorem flushed_eq (c : Dev nD) (t : Fin cfg17.N) :
    (dat17 V c).flushed 5 t = ((cfg17.win 5).blk t).view.read (Elt Ideal)
      (combine (V c (Pipeline.arrRef spec17 0)) (V c (Pipeline.arrRef spec17 1)) (V c (Pipeline.arrRef spec17 2)) (V c (Pipeline.arrRef spec17 3)) (V c (Pipeline.arrRef spec17 4))) := by
  show (cfg17.win 5).cut (grid17.coords t) ((dat17 V c).after 5 t) = _
  rw [after17_5]
  unfold out17_5
  rw [View.canon_unit_zero origin]
  simp only [View.ld_unit_zero (S := S2000x32) origin, View.ld_unit_zero (S := S2000x1) origin]
  obtain ⟨e00, e01, e10, e11, e20, e21, e30, e31, e40, e41, e50, e51⟩ := idx_facts t
  refine funext fun (j : S2000x32.Idx) => ?_
  obtain ⟨p, q, rfl⟩ : ∃ (p : Fin 2000) (q : Fin 32), j = ix2 p q := ⟨j 0, j 1, eq_ix2 j⟩
  refine (pay_apply (iblk17 V c 0 t) (iblk17 V c 2 t) (iblk17 V c 1 t) (iblk17 V c 3 t) (iblk17 V c 4 t) p q).trans ?_
  have h0 : ((cfg17.win 0).blk t).view.emb (ix2 p q) = ((cfg17.win 5).blk t).view.emb (ix2 p q) := by
    funext a; apply Fin.ext
    match a with
    | ⟨0, _⟩ => show win17_0.index t (0 : Fin 2) * 2000 + 1 * p.val = win17_5.index t (0 : Fin 2) * 2000 + 1 * p.val; omega
    | ⟨1, _⟩ => show win17_0.index t (1 : Fin 2) * 32 + 1 * q.val = win17_5.index t (1 : Fin 2) * 32 + 1 * q.val; omega
  have h1 : ((cfg17.win 1).blk t).view.emb (ix2 p q) = ((cfg17.win 5).blk t).view.emb (ix2 p q) := by
    funext a; apply Fin.ext
    match a with
    | ⟨0, _⟩ => show win17_1.index t (0 : Fin 2) * 2000 + 1 * p.val = win17_5.index t (0 : Fin 2) * 2000 + 1 * p.val; omega
    | ⟨1, _⟩ => show win17_1.index t (1 : Fin 2) * 32 + 1 * q.val = win17_5.index t (1 : Fin 2) * 32 + 1 * q.val; omega
  have h4 : ((cfg17.win 4).blk t).view.emb (ix2 p q) = ((cfg17.win 5).blk t).view.emb (ix2 p q) := by
    funext a; apply Fin.ext
    match a with
    | ⟨0, _⟩ => show win17_4.index t (0 : Fin 2) * 2000 + 1 * p.val = win17_5.index t (0 : Fin 2) * 2000 + 1 * p.val; omega
    | ⟨1, _⟩ => show win17_4.index t (1 : Fin 2) * 32 + 1 * q.val = win17_5.index t (1 : Fin 2) * 32 + 1 * q.val; omega
  have h2 : rowOf (((cfg17.win 5).blk t).view.emb (ix2 p q)) = ((cfg17.win 2).blk t).view.emb (ix2 p (0 : Fin 1)) :=
    rowOf_eq _ _ (by show win17_2.index t (0 : Fin 2) * 2000 + 1 * p.val = win17_5.index t (0 : Fin 2) * 2000 + 1 * p.val; omega)
  have h3 : rowOf (((cfg17.win 5).blk t).view.emb (ix2 p q)) = ((cfg17.win 3).blk t).view.emb (ix2 p (0 : Fin 1)) :=
    rowOf_eq _ _ (by show win17_3.index t (0 : Fin 2) * 2000 + 1 * p.val = win17_5.index t (0 : Fin 2) * 2000 + 1 * p.val; omega)
  show _ = combine _ _ _ _ _ (((cfg17.win 5).blk t).view.emb (ix2 p q))
  unfold combine
  exact congr (congrArg (HAdd.hAdd : EReal → EReal → EReal)
      (congr (congrArg (HSub.hSub : EReal → EReal → EReal)
          (congr (congrArg (HMul.hMul : EReal → EReal → EReal) (congrArg (V c (Pipeline.arrRef spec17 0)) h0)) (congrArg (V c (Pipeline.arrRef spec17 2)) h2.symm)))
        (congr (congrArg (HMul.hMul : EReal → EReal → EReal) (congrArg (V c (Pipeline.arrRef spec17 1)) h1)) (congrArg (V c (Pipeline.arrRef spec17 3)) h3.symm))))
    (congrArg (V c (Pipeline.arrRef spec17 4)) h4)

/-- An index is in point `t`'s block of the output iff each coordinate is in the block's range. -/
theorem mem_blk (t : Fin cfg17.N) (i : S100000x32.Idx) :
    i ∈ ((cfg17.win 5).blk t).view.set ↔ ∀ a : Fin 2, win17_5.index t a * S2000x32.size a ≤ (i a).val ∧ (i a).val < win17_5.index t a * S2000x32.size a + S2000x32.size a := by
  show i ∈ ((View.whole (Pipeline.arrRef spec17 5)).slice (win17_5.rect t)).set ↔ _
  rw [View.set_slice_whole, Rect.mem_set_unit]
  exact Iff.rfl

/-- Row `r` lies in the block of point `r / 2000`: the 50 blocks cover the output. -/
theorem cover (i : S100000x32.Idx) : ∃ t : Fin cfg17.N, (cfg17.win 5).flush t = true ∧ i ∈ ((cfg17.win 5).blk t).view.set := by
  have hi0 : (i 0).val < 100000 := idx2_lt0 i
  have hi1 : (i 1).val < 32 := idx2_lt1 i
  obtain ⟨t, ht⟩ := idx_onto ⟨(i 0).val / 2000, by omega⟩
  have ht' : t.val = (i 0).val / 2000 := ht
  obtain ⟨e00, e01, e10, e11, e20, e21, e30, e31, e40, e41, e50, e51⟩ := idx_facts t
  refine ⟨t, flush17_5 t, ?_⟩
  rw [mem_blk]
  intro a
  match a with
  | ⟨0, _⟩ => show win17_5.index t (0 : Fin 2) * 2000 ≤ (i 0).val ∧ (i 0).val < win17_5.index t (0 : Fin 2) * 2000 + 2000; omega
  | ⟨1, _⟩ => show win17_5.index t (1 : Fin 2) * 32 ≤ (i 1).val ∧ (i 1).val < win17_5.index t (1 : Fin 2) * 32 + 32; omega

/-- The output array after the region: `combine` of the input arrays as the region finds them. -/
theorem final (c : Dev nD) : (dat17 V c).arrAt 5 cfg17.N
    = combine (V c (Pipeline.arrRef spec17 0)) (V c (Pipeline.arrRef spec17 1)) (V c (Pipeline.arrRef spec17 2)) (V c (Pipeline.arrRef spec17 3)) (V c (Pipeline.arrRef spec17 4)) :=
  (dat17 V c).arrAt_eq_of_cover 5 _ (fun t _ => flushed_eq V c t) cover

end Cert.KernelIdeal.Combine17

end
-- ==== Proof.HostS17.lean ====
/-
  The host operations before combining region 17: for each of the two edge lists, the rows gathered at the
  sources and added up at the destinations; and the two in-degree normalisers recast as one-column arrays.
-/
import proofs.«143456_j27066883899969_1_alg».proof.Proof.Gen.KernelIdeal.Launch
import proofs.«143456_j27066883899969_1_alg».proof.Proof.Spec
import proofs.«143456_j27066883899969_1_alg».proof.Proof.Gen.ReferenceIdeal
import Idealize.ShloMosaic.Lib.StableHlo.Run
import Idealize.ShloMosaic.PureOps.Ideal

set_option maxRecDepth 16384

noncomputable section

namespace Cert.KernelIdeal.HostS17

open Cert.KernelIdeal Cert.KernelIdeal.Gen Idealize.ShloMosaic Idealize.ShloMosaic.TcCoe Idealize.SL.Sem Idealize.ShloMosaic.StableHlo

variable (V : Valuation τ sig (Elt Ideal))

attribute [local irreducible] Host.scatterAdd Host.gather in
theorem aggP : after hostOps17 V (Proc.devRef .tc main_v231) = Cert.Spec.spmm (F := Ideal) (V (Proc.devRef .tc main_v221_0)) (V (Proc.devRef .tc main_arg7)) (V (Proc.devRef .tc main_arg8)) := by
  after_results_simp; rfl
attribute [local irreducible] Host.scatterAdd Host.gather in
theorem aggN : after hostOps17 V (Proc.devRef .tc main_v241) = Cert.Spec.spmm (F := Ideal) (V (Proc.devRef .tc main_v221_1)) (V (Proc.devRef .tc main_arg9)) (V (Proc.devRef .tc main_arg10)) := by
  after_results_simp; rfl
theorem dp : after hostOps17 V (Proc.devRef .tc main_v242) = shapeCast S100000x1 (V (Proc.devRef .tc main_v30)) shapeCasts_S100000_S100000x1 := by
  after_results_simp; rfl
theorem dn : after hostOps17 V (Proc.devRef .tc main_v243) = shapeCast S100000x1 (V (Proc.devRef .tc main_v36)) shapeCasts_S100000_S100000x1 := by
  after_results_simp; rfl

end Cert.KernelIdeal.HostS17

end
-- ==== Proof.HostR16.lean ====
/-
  The two host operations before scaling region 16: the two out-degree normalisers recast as one-column arrays.
-/
import proofs.«143456_j27066883899969_1_alg».proof.Proof.Gen.KernelIdeal.Launch
import Idealize.ShloMosaic.Lib.StableHlo.Run
import Idealize.ShloMosaic.PureOps.Ideal

set_option maxRecDepth 16384

noncomputable section

namespace Cert.KernelIdeal.HostR16

open Cert.KernelIdeal Cert.KernelIdeal.Gen Idealize.ShloMosaic Idealize.ShloMosaic.TcCoe Idealize.SL.Sem Idealize.ShloMosaic.StableHlo

variable (V : Valuation τ sig (Elt Ideal))

theorem n1 : after hostOps16 V (Proc.devRef .tc main_v219) = shapeCast S100000x1 (V (Proc.devRef .tc main_v27)) shapeCasts_S100000_S100000x1 := by
  first | (after_results; rfl) | after_results
theorem n2 : after hostOps16 V (Proc.devRef .tc main_v220) = shapeCast S100000x1 (V (Proc.devRef .tc main_v33)) shapeCasts_S100000_S100000x1 := by
  first | (after_results; rfl) | after_results

end Cert.KernelIdeal.HostR16

end
-- ==== Proof.Step16.lean ====
/-
  Propagation step 8 of 8 on the kernel's side, through the fold of the program's boundaries: scaling region 16 turns the
  current features h into h · np and h · nn; the host gathers and adds them up over the two edge lists; combining region 17
  writes agg_p · dp − agg_n · dn + ori, which is the specification's step of h. Every other buffer the later steps read —
  the residual, the four normalisers, the four edge lists — is carried through unchanged.
-/
import proofs.«143456_j27066883899969_1_alg».proof.Proof.Gen.KernelIdeal.Frame
import proofs.«143456_j27066883899969_1_alg».proof.Proof.Scale16
import proofs.«143456_j27066883899969_1_alg».proof.Proof.Combine17
import proofs.«143456_j27066883899969_1_alg».proof.Proof.HostS17
import proofs.«143456_j27066883899969_1_alg».proof.Proof.Writes
import proofs.«143456_j27066883899969_1_alg».proof.Proof.Bridge
import proofs.«143456_j27066883899969_1_alg».proof.Proof.Spec
import proofs.«143456_j27066883899969_1_alg».proof.Proof.RowCongr
import proofs.«143456_j27066883899969_1_alg».proof.Proof.HostR16

set_option maxRecDepth 16384

noncomputable section

namespace Cert.KernelIdeal.Step16

open Cert.KernelIdeal Cert.KernelIdeal.Gen Idealize.ShloMosaic Idealize.ShloMosaic.TcCoe Idealize.SL.Sem Idealize.ShloMosaic.StableHlo
open Cert.KernelIdeal.RowOps Cert.KernelIdeal.Writes

variable (m : (ℓ : Loc nD τ sig) → Buf (Elt Ideal) ℓ) (ρ : Dev nD → PrngReg) (c : Dev nD)
variable (H O : Cert.Spec.A (F := Ideal) Cert.ReferenceIdeal.S100000x32) (s d ns nd : Cert.Spec.I (F := Ideal) Cert.ReferenceIdeal.S3200000)

/-- Entering scaling region 16: the features and everything carried are untouched by the two recasts, which put the two
    out-degree normalisers in one-column form. -/
theorem enter
    (hH : W34 m ρ c (Proc.devRef .tc main_v218) = H)
    (h_main_v11 : W34 m ρ c (Proc.devRef .tc main_v11) = O)
    (h_main_v27 : W34 m ρ c (Proc.devRef .tc main_v27) = Cert.Spec.norm s)
    (h_main_v30 : W34 m ρ c (Proc.devRef .tc main_v30) = Cert.Spec.norm d)
    (h_main_v33 : W34 m ρ c (Proc.devRef .tc main_v33) = Cert.Spec.norm ns)
    (h_main_v36 : W34 m ρ c (Proc.devRef .tc main_v36) = Cert.Spec.norm nd)
    (h_main_arg7 : W34 m ρ c (Proc.devRef .tc main_arg7) = s)
    (h_main_arg8 : W34 m ρ c (Proc.devRef .tc main_arg8) = d)
    (h_main_arg9 : W34 m ρ c (Proc.devRef .tc main_arg9) = ns)
    (h_main_arg10 : W34 m ρ c (Proc.devRef .tc main_arg10) = nd)
    : W35 m ρ c (Proc.devRef .tc main_v218) = H
    ∧ W35 m ρ c (Proc.devRef .tc main_v219) = shapeCast S100000x1 (Cert.Spec.norm s) shapeCasts_S100000_S100000x1
    ∧ W35 m ρ c (Proc.devRef .tc main_v220) = shapeCast S100000x1 (Cert.Spec.norm ns) shapeCasts_S100000_S100000x1
    ∧ W35 m ρ c (Proc.devRef .tc main_v11) = O
    ∧ W35 m ρ c (Proc.devRef .tc main_v27) = Cert.Spec.norm s
    ∧ W35 m ρ c (Proc.devRef .tc main_v30) = Cert.Spec.norm d
    ∧ W35 m ρ c (Proc.devRef .tc main_v33) = Cert.Spec.norm ns
    ∧ W35 m ρ c (Proc.devRef .tc main_v36) = Cert.Spec.norm nd
    ∧ W35 m ρ c (Proc.devRef .tc main_arg7) = s
    ∧ W35 m ρ c (Proc.devRef .tc main_arg8) = d
    ∧ W35 m ρ c (Proc.devRef .tc main_arg9) = ns
    ∧ W35 m ρ c (Proc.devRef .tc main_arg10) = nd := by
  refine ⟨(hostOps16_keeps _ main_v218 (by decide)).trans hH,
    (HostR16.n1 _).trans (by rw [h_main_v27]),
    (HostR16.n2 _).trans (by rw [h_main_v33]),
    (hostOps16_keeps _ main_v11 (by decide)).trans h_main_v11,
    (hostOps16_keeps _ main_v27 (by decide)).trans h_main_v27,
    (hostOps16_keeps _ main_v30 (by decide)).trans h_main_v30,
    (hostOps16_keeps _ main_v33 (by decide)).trans h_main_v33,
    (hostOps16_keeps _ main_v36 (by decide)).trans h_main_v36,
    (hostOps16_keeps _ main_arg7 (by decide)).trans h_main_arg7,
    (hostOps16_keeps _ main_arg8 (by decide)).trans h_main_arg8,
    (hostOps16_keeps _ main_arg9 (by decide)).trans h_main_arg9,
    (hostOps16_keeps _ main_arg10 (by decide)).trans h_main_arg10⟩

/-- From the entry of scaling region 16 to the exit of combining region 17. -/
theorem step
    (hH : W35 m ρ c (Proc.devRef .tc main_v218) = H)
    (hn1 : W35 m ρ c (Proc.devRef .tc main_v219) = shapeCast S100000x1 (Cert.Spec.norm s) shapeCasts_S100000_S100000x1)
    (hn2 : W35 m ρ c (Proc.devRef .tc main_v220) = shapeCast S100000x1 (Cert.Spec.norm ns) shapeCasts_S100000_S100000x1)
    (h_main_v11 : W35 m ρ c (Proc.devRef .tc main_v11) = O)
    (h_main_v27 : W35 m ρ c (Proc.devRef .tc main_v27) = Cert.Spec.norm s)
    (h_main_v30 : W35 m ρ c (Proc.devRef .tc main_v30) = Cert.Spec.norm d)
    (h_main_v33 : W35 m ρ c (Proc.devRef .tc main_v33) = Cert.Spec.norm ns)
    (h_main_v36 : W35 m ρ c (Proc.devRef .tc main_v36) = Cert.Spec.norm nd)
    (h_main_arg7 : W35 m ρ c (Proc.devRef .tc main_arg7) = s)
    (h_main_arg8 : W35 m ρ c (Proc.devRef .tc main_arg8) = d)
    (h_main_arg9 : W35 m ρ c (Proc.devRef .tc main_arg9) = ns)
    (h_main_arg10 : W35 m ρ c (Proc.devRef .tc main_arg10) = nd)
    : W38 m ρ c (Proc.devRef .tc main_v244) = Cert.Spec.step O s d ns nd H
    ∧ W38 m ρ c (Proc.devRef .tc main_v11) = O
    ∧ W38 m ρ c (Proc.devRef .tc main_v27) = Cert.Spec.norm s
    ∧ W38 m ρ c (Proc.devRef .tc main_v30) = Cert.Spec.norm d
    ∧ W38 m ρ c (Proc.devRef .tc main_v33) = Cert.Spec.norm ns
    ∧ W38 m ρ c (Proc.devRef .tc main_v36) = Cert.Spec.norm nd
    ∧ W38 m ρ c (Proc.devRef .tc main_arg7) = s
    ∧ W38 m ρ c (Proc.devRef .tc main_arg8) = d
    ∧ W38 m ρ c (Proc.devRef .tc main_arg9) = ns
    ∧ W38 m ρ c (Proc.devRef .tc main_arg10) = nd := by
  have x3 : W36 m ρ c (Proc.devRef .tc main_v221_0) = scaleRows H (shapeCast S100000x1 (Cert.Spec.norm s) shapeCasts_S100000_S100000x1) :=
    (W36_arr m ρ c 3).trans ((Scale16.finalP (V35 m ρ) c).trans (scaleRows_congr hH hn1))
  have x4 : W36 m ρ c (Proc.devRef .tc main_v221_1) = scaleRows H (shapeCast S100000x1 (Cert.Spec.norm ns) shapeCasts_S100000_S100000x1) :=
    (W36_arr m ρ c 4).trans ((Scale16.finalN (V35 m ρ) c).trans (scaleRows_congr hH hn2))
  have x_main_v11 : W36 m ρ c (Proc.devRef .tc main_v11) = O := (W36_of_ne m ρ c main_v11 (by decide)).trans h_main_v11
  have x_main_v27 : W36 m ρ c (Proc.devRef .tc main_v27) = Cert.Spec.norm s := (W36_of_ne m ρ c main_v27 (by decide)).trans h_main_v27
  have x_main_v30 : W36 m ρ c (Proc.devRef .tc main_v30) = Cert.Spec.norm d := (W36_of_ne m ρ c main_v30 (by decide)).trans h_main_v30
  have x_main_v33 : W36 m ρ c (Proc.devRef .tc main_v33) = Cert.Spec.norm ns := (W36_of_ne m ρ c main_v33 (by decide)).trans h_main_v33
  have x_main_v36 : W36 m ρ c (Proc.devRef .tc main_v36) = Cert.Spec.norm nd := (W36_of_ne m ρ c main_v36 (by decide)).trans h_main_v36
  have x_main_arg7 : W36 m ρ c (Proc.devRef .tc main_arg7) = s := (W36_of_ne m ρ c main_arg7 (by decide)).trans h_main_arg7
  have x_main_arg8 : W36 m ρ c (Proc.devRef .tc main_arg8) = d := (W36_of_ne m ρ c main_arg8 (by decide)).trans h_main_arg8
  have x_main_arg9 : W36 m ρ c (Proc.devRef .tc main_arg9) = ns := (W36_of_ne m ρ c main_arg9 (by decide)).trans h_main_arg9
  have x_main_arg10 : W36 m ρ c (Proc.devRef .tc main_arg10) = nd := (W36_of_ne m ρ c main_arg10 (by decide)).trans h_main_arg10
  have f_ap : W37 m ρ c (Proc.devRef .tc main_v231) = Cert.Spec.spmm (scaleRows H (shapeCast S100000x1 (Cert.Spec.norm s) shapeCasts_S100000_S100000x1)) s d :=
    (HostS17.aggP _).trans (by rw [x3, x_main_arg7, x_main_arg8])
  have f_an : W37 m ρ c (Proc.devRef .tc main_v241) = Cert.Spec.spmm (scaleRows H (shapeCast S100000x1 (Cert.Spec.norm ns) shapeCasts_S100000_S100000x1)) ns nd :=
    (HostS17.aggN _).trans (by rw [x4, x_main_arg9, x_main_arg10])
  have f_dp : W37 m ρ c (Proc.devRef .tc main_v242) = shapeCast S100000x1 (Cert.Spec.norm d) shapeCasts_S100000_S100000x1 := (HostS17.dp _).trans (by rw [x_main_v30])
  have f_dn : W37 m ρ c (Proc.devRef .tc main_v243) = shapeCast S100000x1 (Cert.Spec.norm nd) shapeCasts_S100000_S100000x1 := (HostS17.dn _).trans (by rw [x_main_v36])
  have f_main_v11 : W37 m ρ c (Proc.devRef .tc main_v11) = O := (hostOps17_keeps _ main_v11 (by decide)).trans x_main_v11
  have f_main_v27 : W37 m ρ c (Proc.devRef .tc main_v27) = Cert.Spec.norm s := (hostOps17_keeps _ main_v27 (by decide)).trans x_main_v27
  have f_main_v30 : W37 m ρ c (Proc.devRef .tc main_v30) = Cert.Spec.norm d := (hostOps17_keeps _ main_v30 (by decide)).trans x_main_v30
  have f_main_v33 : W37 m ρ c (Proc.devRef .tc main_v33) = Cert.Spec.norm ns := (hostOps17_keeps _ main_v33 (by decide)).trans x_main_v33
  have f_main_v36 : W37 m ρ c (Proc.devRef .tc main_v36) = Cert.Spec.norm nd := (hostOps17_keeps _ main_v36 (by decide)).trans x_main_v36
  have f_main_arg7 : W37 m ρ c (Proc.devRef .tc main_arg7) = s := (hostOps17_keeps _ main_arg7 (by decide)).trans x_main_arg7
  have f_main_arg8 : W37 m ρ c (Proc.devRef .tc main_arg8) = d := (hostOps17_keeps _ main_arg8 (by decide)).trans x_main_arg8
  have f_main_arg9 : W37 m ρ c (Proc.devRef .tc main_arg9) = ns := (hostOps17_keeps _ main_arg9 (by decide)).trans x_main_arg9
  have f_main_arg10 : W37 m ρ c (Proc.devRef .tc main_arg10) = nd := (hostOps17_keeps _ main_arg10 (by decide)).trans x_main_arg10
  have y_h : W38 m ρ c (Proc.devRef .tc main_v244) = Cert.Spec.step O s d ns nd H :=
    (W38_arr m ρ c 5).trans ((Combine17.final (V37 m ρ) c).trans
      ((combine_congr f_ap f_an f_dp f_dn f_main_v11).trans (Cert.Bridge.step_eq H O s d ns nd _)))
  exact ⟨y_h,
    (W38_arr m ρ c 4).trans ((((dat17 (V37 m ρ) c).arrAt_in 4 rfl _).trans (A_eq17 (V37 m ρ) c 4)).trans f_main_v11),
    (W38_of_ne m ρ c main_v27 (by decide)).trans f_main_v27,
    (W38_of_ne m ρ c main_v30 (by decide)).trans f_main_v30,
    (W38_of_ne m ρ c main_v33 (by decide)).trans f_main_v33,
    (W38_of_ne m ρ c main_v36 (by decide)).trans f_main_v36,
    (W38_of_ne m ρ c main_arg7 (by decide)).trans f_main_arg7,
    (W38_of_ne m ρ c main_arg8 (by decide)).trans f_main_arg8,
    (W38_of_ne m ρ c main_arg9 (by decide)).trans f_main_arg9,
    (W38_of_ne m ρ c main_arg10 (by decide)).trans f_main_arg10⟩

end Cert.KernelIdeal.Step16

end
-- ==== Proof.Chain.lean ====
/-
  The kernel's result: the contents of the result buffer at the last boundary of the program's fold are the
  specification's function of the argument arrays — the perceptron's output taken through the eight propagation steps.
-/
import proofs.«143456_j27066883899969_1_alg».proof.Proof.Gen.KernelIdeal.Frame
import proofs.«143456_j27066883899969_1_alg».proof.Proof.Head
import proofs.«143456_j27066883899969_1_alg».proof.Proof.Spec
import proofs.«143456_j27066883899969_1_alg».proof.Proof.Step2
import proofs.«143456_j27066883899969_1_alg».proof.Proof.Step4
import proofs.«143456_j27066883899969_1_alg».proof.Proof.Step6
import proofs.«143456_j27066883899969_1_alg».proof.Proof.Step8
import proofs.«143456_j27066883899969_1_alg».proof.Proof.Step10
import proofs.«143456_j27066883899969_1_alg».proof.Proof.Step12
import proofs.«143456_j27066883899969_1_alg».proof.Proof.Step14
import proofs.«143456_j27066883899969_1_alg».proof.Proof.Step16

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem result : W38 m ρ c (Proc.devRef .tc main_v244) = Cert.Spec.ref (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  obtain ⟨h1, o1, n271, n301, n331, n361, a71, a81, a91, a101⟩ := Step2.step m ρ c _ _ _ _ _ _ (Head.w7_ori m ρ c) (Head.w7_colSrc m ρ c) (Head.w7_colNSrc m ρ c)
    (Head.w7_ori m ρ c) (Head.w7_main_v27 m ρ c) (Head.w7_main_v30 m ρ c) (Head.w7_main_v33 m ρ c) (Head.w7_main_v36 m ρ c)
    (Head.w7_arg7 m ρ c) (Head.w7_arg8 m ρ c) (Head.w7_arg9 m ρ c) (Head.w7_arg10 m ρ c)
  obtain ⟨e1, c11, c21, eo1, en271, en301, en331, en361, ea71, ea81, ea91, ea101⟩ := Step4.enter m ρ c _ _ _ _ _ _ h1 o1 n271 n301 n331 n361 a71 a81 a91 a101
  obtain ⟨h2, o2, n272, n302, n332, n362, a72, a82, a92, a102⟩ := Step4.step m ρ c _ _ _ _ _ _ e1 c11 c21 eo1 en271 en301 en331 en361 ea71 ea81 ea91 ea101
  obtain ⟨e2, c12, c22, eo2, en272, en302, en332, en362, ea72, ea82, ea92, ea102⟩ := Step6.enter m ρ c _ _ _ _ _ _ h2 o2 n272 n302 n332 n362 a72 a82 a92 a102
  obtain ⟨h3, o3, n273, n303, n333, n363, a73, a83, a93, a103⟩ := Step6.step m ρ c _ _ _ _ _ _ e2 c12 c22 eo2 en272 en302 en332 en362 ea72 ea82 ea92 ea102
  obtain ⟨e3, c13, c23, eo3, en273, en303, en333, en363, ea73, ea83, ea93, ea103⟩ := Step8.enter m ρ c _ _ _ _ _ _ h3 o3 n273 n303 n333 n363 a73 a83 a93 a103
  obtain ⟨h4, o4, n274, n304, n334, n364, a74, a84, a94, a104⟩ := Step8.step m ρ c _ _ _ _ _ _ e3 c13 c23 eo3 en273 en303 en333 en363 ea73 ea83 ea93 ea103
  obtain ⟨e4, c14, c24, eo4, en274, en304, en334, en364, ea74, ea84, ea94, ea104⟩ := Step10.enter m ρ c _ _ _ _ _ _ h4 o4 n274 n304 n334 n364 a74 a84 a94 a104
  obtain ⟨h5, o5, n275, n305, n335, n365, a75, a85, a95, a105⟩ := Step10.step m ρ c _ _ _ _ _ _ e4 c14 c24 eo4 en274 en304 en334 en364 ea74 ea84 ea94 ea104
  obtain ⟨e5, c15, c25, eo5, en275, en305, en335, en365, ea75, ea85, ea95, ea105⟩ := Step12.enter m ρ c _ _ _ _ _ _ h5 o5 n275 n305 n335 n365 a75 a85 a95 a105
  obtain ⟨h6, o6, n276, n306, n336, n366, a76, a86, a96, a106⟩ := Step12.step m ρ c _ _ _ _ _ _ e5 c15 c25 eo5 en275 en305 en335 en365 ea75 ea85 ea95 ea105
  obtain ⟨e6, c16, c26, eo6, en276, en306, en336, en366, ea76, ea86, ea96, ea106⟩ := Step14.enter m ρ c _ _ _ _ _ _ h6 o6 n276 n306 n336 n366 a76 a86 a96 a106
  obtain ⟨h7, o7, n277, n307, n337, n367, a77, a87, a97, a107⟩ := Step14.step m ρ c _ _ _ _ _ _ e6 c16 c26 eo6 en276 en306 en336 en366 ea76 ea86 ea96 ea106
  obtain ⟨e7, c17, c27, eo7, en277, en307, en337, en367, ea77, ea87, ea97, ea107⟩ := Step16.enter m ρ c _ _ _ _ _ _ h7 o7 n277 n307 n337 n367 a77 a87 a97 a107
  obtain ⟨h8, o8, n278, n308, n338, n368, a78, a88, a98, a108⟩ := Step16.step m ρ c _ _ _ _ _ _ e7 c17 c27 eo7 en277 en307 en337 en367 ea77 ea87 ea97 ea107
  exact h8

end Cert.KernelIdeal.Chain

end
-- ==== Proof.RefW0.lean ====
/- The text of the list below was produced by: python3 scratch/gen_refops.py .   (run in the unit's directory; it writes proof/Proof/RefW0.lean … RefW10.lean) — a table read off the printed lines of window
   main_part0 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 85 operations of window 0 of @main, in order, each call's operations in the callee's order over the call's record. -/
abbrev ops0 : List (HloOp τ sig (Elt F)) :=
  [ StableHlo.binary main_arg0 main_arg1 main_v0 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg2 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S100000x32 ![0, 1] bcast_S1x32_S100000x32_0_1 : (⟨S1x32, .f32⟩ : BufTy).Contents (Elt F) → (⟨S100000x32, .f32⟩ : BufTy).Contents (Elt F)),
    StableHlo.binary main_v0 main_v2 main_v3 (addf : (⟨S100000x32, .f32⟩ : BufTy).Contents (Elt F) → (⟨S100000x32, .f32⟩ : BufTy).Contents (Elt F) → (⟨S100000x32, .f32⟩ : BufTy).Contents (Elt F)),
    StableHlo.nullary main_cst (constant S_ .f32 0x00000000#32),
    StableHlo.binary main_v3 main_cst main_v4 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_0 (constant S_ .f32 0x47C35000#32),
    StableHlo.unary main_cst_0 main_v5 (broadcastInDim S32 ![] bcast_S_S32 : (⟨S_, .f32⟩ : BufTy).Contents (Elt F) → (⟨S32, .f32⟩ : BufTy).Contents (Elt F)),
    StableHlo.binary main_v4 main_v5 main_v6 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (StableHlo.TRef.of main_v3 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (StableHlo.TRef.of main_v3 : StableHlo.TRef sig ⟨S100000x32, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v6 main_v8 (broadcastInDim S1x32 ![1] bcast_S32_S1x32_1 : (⟨S32, .f32⟩ : BufTy).Contents (Elt F) → (⟨S1x32, .f32⟩ : BufTy).Contents (Elt F)),
    StableHlo.unary main_v8 main_v9 (broadcastInDim S100000x32 ![0, 1] bcast_S1x32_S100000x32_0_1 : (⟨S1x32, .f32⟩ : BufTy).Contents (Elt F) → (⟨S100000x32, .f32⟩ : BufTy).Contents (Elt F)),
    StableHlo.binary main_v3 main_v9 main_v10 (subf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x3727C5AC#32),
    StableHlo.unary main_cst_1 main_v11 (broadcastInDim S32 ![] bcast_S_S32 : (⟨S_, .f32⟩ : BufTy).Contents (Elt F) → (⟨S32, .f32⟩ : BufTy).Contents (Elt F)),
    StableHlo.binary main_v7 main_v11 main_v12 (addf : (⟨S32, .f32⟩ : BufTy).Contents (Elt F) → (⟨S32, .f32⟩ : BufTy).Contents (Elt F) → (⟨S32, .f32⟩ : BufTy).Contents (Elt F)),
    StableHlo.unary main_v12 main_v13 (Host.rsqrt : (⟨S32, .f32⟩ : BufTy).Contents (Elt F) → (⟨S32, .f32⟩ : BufTy).Contents (Elt F)),
    StableHlo.unary main_v13 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S100000x32 ![0, 1] bcast_S1x32_S100000x32_0_1 : (⟨S1x32, .f32⟩ : BufTy).Contents (Elt F) → (⟨S100000x32, .f32⟩ : BufTy).Contents (Elt F)),
    StableHlo.binary main_v10 main_v15 main_v16 (mulf : (⟨S100000x32, .f32⟩ : BufTy).Contents (Elt F) → (⟨S100000x32, .f32⟩ : BufTy).Contents (Elt F) → (⟨S100000x32, .f32⟩ : BufTy).Contents (Elt F)),
    StableHlo.unary main_arg3 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S100000x32 ![0, 1] bcast_S1x32_S100000x32_0_1 : (⟨S1x32, .f32⟩ : BufTy).Contents (Elt F) → (⟨S100000x32, .f32⟩ : BufTy).Contents (Elt F)),
    StableHlo.binary main_v16 main_v18 main_v19 (mulf : (⟨S100000x32, .f32⟩ : BufTy).Contents (Elt F) → (⟨S100000x32, .f32⟩ : BufTy).Contents (Elt F) → (⟨S100000x32, .f32⟩ : BufTy).Contents (Elt F)),
    StableHlo.unary main_arg4 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S100000x32 ![0, 1] bcast_S1x32_S100000x32_0_1 : (⟨S1x32, .f32⟩ : BufTy).Contents (Elt F) → (⟨S100000x32, .f32⟩ : BufTy).Contents (Elt F)),
    StableHlo.binary main_v19 main_v21 main_v22 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (StableHlo.TRef.of main_v22 : StableHlo.TRef sig ⟨S100000x32, .f32⟩) main_call1.v0 main_call1.v1 maximumf,
    StableHlo.binary main_v23 main_arg5 main_v24 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S100000x32 ![0, 1] bcast_S1x32_S100000x32_0_1 : (⟨S1x32, .f32⟩ : BufTy).Contents (Elt F) → (⟨S100000x32, .f32⟩ : BufTy).Contents (Elt F)),
    StableHlo.binary main_v24 main_v26 main_v27 (addf : (⟨S100000x32, .f32⟩ : BufTy).Contents (Elt F) → (⟨S100000x32, .f32⟩ : BufTy).Contents (Elt F) → (⟨S100000x32, .f32⟩ : BufTy).Contents (Elt F)),
    StableHlo.nullary main_cst_2 (constant S_ .f32 0x3F800000#32),
    StableHlo.unary main_cst_2 main_v28 (broadcastInDim S3200000 ![] bcast_S_S3200000 : (⟨S_, .f32⟩ : BufTy).Contents (Elt F) → (⟨S3200000, .f32⟩ : BufTy).Contents (Elt F)),
    StableHlo.nullary main_cst_3 (constant S_ .f32 0x00000000#32),
    StableHlo.unary main_cst_3 main_v29 (broadcastInDim S100000 ![] bcast_S_S100000 : (⟨S_, .f32⟩ : BufTy).Contents (Elt F) → (⟨S100000, .f32⟩ : BufTy).Contents (Elt F)),
    StableHlo.unary main_arg7 main_v30 (broadcastInDim S3200000x1 ![0] bcast_S3200000_S3200000x1_0 : (⟨S3200000, .i32⟩ : BufTy).Contents (Elt F) → (⟨S3200000x1, .i32⟩ : BufTy).Contents (Elt F)),
    StableHlo.ternary main_v29 main_v30 main_v28 main_v31 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_4 (constant S_ .f32 0x00000000#32),
    StableHlo.unary main_cst_4 main_v32 (broadcastInDim S100000 ![] bcast_S_S100000 : (⟨S_, .f32⟩ : BufTy).Contents (Elt F) → (⟨S100000, .f32⟩ : BufTy).Contents (Elt F)),
    StableHlo.unary main_arg8 main_v33 (broadcastInDim S3200000x1 ![0] bcast_S3200000_S3200000x1_0 : (⟨S3200000, .i32⟩ : BufTy).Contents (Elt F) → (⟨S3200000x1, .i32⟩ : BufTy).Contents (Elt F)),
    StableHlo.ternary main_v32 main_v33 main_v28 main_v34 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_5 (constant S_ .f32 0x3F800000#32),
    StableHlo.TRef.unary (StableHlo.TRef.of main_cst_5 : StableHlo.TRef sig ⟨S_, .f32⟩) main_call2.v0 id,
    StableHlo.TRef.unary main_call2.v0 main_call2.v1 (broadcastInDim S100000 ![] bcast_S_S100000),
    StableHlo.TRef.binary main_call2.v1 (StableHlo.TRef.of main_v31 : StableHlo.TRef sig ⟨S100000, .f32⟩) main_call2.v2 maximumf,
    StableHlo.unary main_v35 main_v36 (Host.rsqrt : (⟨S100000, .f32⟩ : BufTy).Contents (Elt F) → (⟨S100000, .f32⟩ : BufTy).Contents (Elt F)),
    StableHlo.unary main_v36 main_v37 (broadcastInDim S100000x1 ![0] bcast_S100000_S100000x1_0 : (⟨S100000, .f32⟩ : BufTy).Contents (Elt F) → (⟨S100000x1, .f32⟩ : BufTy).Contents (Elt F)),
    StableHlo.unary main_v37 main_v38 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v38 main_v39 (mulf : (⟨S100000x32, .f32⟩ : BufTy).Contents (Elt F) → (⟨S100000x32, .f32⟩ : BufTy).Contents (Elt F) → (⟨S100000x32, .f32⟩ : BufTy).Contents (Elt F)),
    StableHlo.nullary main_c_6 (constantI S_ 32 0#32),
    StableHlo.unary main_c_6 main_v40 (broadcastInDim S3200000 ![] bcast_S_S3200000 : (⟨S_, .i32⟩ : BufTy).Contents (Elt F) → (⟨S3200000, .i32⟩ : BufTy).Contents (Elt F)),
    StableHlo.binary main_arg7 main_v40 main_v41 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v42 (broadcastInDim S3200000 ![] bcast_S_S3200000 : (⟨S_, .i32⟩ : BufTy).Contents (Elt F) → (⟨S3200000, .i32⟩ : BufTy).Contents (Elt F)),
    StableHlo.binary main_arg7 main_v42 main_v43 (addi : (⟨S3200000, .i32⟩ : BufTy).Contents (Elt F) → (⟨S3200000, .i32⟩ : BufTy).Contents (Elt F) → (⟨S3200000, .i32⟩ : BufTy).Contents (Elt F)),
    StableHlo.ternary main_v41 main_v43 main_arg7 main_v44 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v44 main_v45 (broadcastInDim S3200000x1 ![0] bcast_S3200000_S3200000x1_0 : (⟨S3200000, .i32⟩ : BufTy).Contents (Elt F) → (⟨S3200000x1, .i32⟩ : BufTy).Contents (Elt F)),
    StableHlo.binary main_v39 main_v45 main_v46 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_8 (constant S_ .f32 0x00000000#32),
    StableHlo.unary main_cst_8 main_v47 (broadcastInDim S100000x32 ![] bcast_S_S100000x32 : (⟨S_, .f32⟩ : BufTy).Contents (Elt F) → (⟨S100000x32, .f32⟩ : BufTy).Contents (Elt F)),
    StableHlo.unary main_arg8 main_v48 (broadcastInDim S3200000x1 ![0] bcast_S3200000_S3200000x1_0 : (⟨S3200000, .i32⟩ : BufTy).Contents (Elt F) → (⟨S3200000x1, .i32⟩ : BufTy).Contents (Elt F)) ]

/-- Window 0 is that straight line: the callees' definitions unfold at their calls, the records at their fields. -/
theorem main_part0_eq (c : Dev nD) : main_part0 (F := F) c = seq ops0 := rfl

/-- Every buffer the window's operations touch is a TensorCore reference. -/
theorem ops0_sub : (ops0 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW1.lean ====
/- The text of the list below was produced by: python3 scratch/gen_refops.py .   (run in the unit's directory; it writes proof/Proof/RefW0.lean … RefW10.lean) — a table read off the printed lines of window
   main_part1 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 68 operations of window 1 of @main, in order, each call's operations in the callee's order over the call's record. -/
abbrev ops1 : List (HloOp τ sig (Elt F)) :=
  [ StableHlo.ternary main_v47 main_v48 main_v46 main_v49 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_9 (constant S_ .f32 0x3F800000#32),
    StableHlo.TRef.unary (StableHlo.TRef.of main_cst_9 : StableHlo.TRef sig ⟨S_, .f32⟩) main_call3.v0 id,
    StableHlo.TRef.unary main_call3.v0 main_call3.v1 (broadcastInDim S100000 ![] bcast_S_S100000),
    StableHlo.TRef.binary main_call3.v1 (StableHlo.TRef.of main_v34 : StableHlo.TRef sig ⟨S100000, .f32⟩) main_call3.v2 maximumf,
    StableHlo.unary main_v50 main_v51 (Host.rsqrt : (⟨S100000, .f32⟩ : BufTy).Contents (Elt F) → (⟨S100000, .f32⟩ : BufTy).Contents (Elt F)),
    StableHlo.unary main_v51 main_v52 (broadcastInDim S100000x1 ![0] bcast_S100000_S100000x1_0 : (⟨S100000, .f32⟩ : BufTy).Contents (Elt F) → (⟨S100000x1, .f32⟩ : BufTy).Contents (Elt F)),
    StableHlo.unary main_v52 main_v53 (broadcastInDim S100000x32 ![0, 1] bcast_S100000x1_S100000x32_0_1 : (⟨S100000x1, .f32⟩ : BufTy).Contents (Elt F) → (⟨S100000x32, .f32⟩ : BufTy).Contents (Elt F)),
    StableHlo.binary main_v49 main_v53 main_v54 (mulf : (⟨S100000x32, .f32⟩ : BufTy).Contents (Elt F) → (⟨S100000x32, .f32⟩ : BufTy).Contents (Elt F) → (⟨S100000x32, .f32⟩ : BufTy).Contents (Elt F)),
    StableHlo.nullary main_cst_10 (constant S_ .f32 0x3F800000#32),
    StableHlo.unary main_cst_10 main_v55 (broadcastInDim S3200000 ![] bcast_S_S3200000 : (⟨S_, .f32⟩ : BufTy).Contents (Elt F) → (⟨S3200000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.unary main_arg9 main_v57 (broadcastInDim S3200000x1 ![0] bcast_S3200000_S3200000x1_0 : (⟨S3200000, .i32⟩ : BufTy).Contents (Elt F) → (⟨S3200000x1, .i32⟩ : BufTy).Contents (Elt F)),
    StableHlo.ternary main_v56 main_v57 main_v55 main_v58 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_12 (constant S_ .f32 0x00000000#32),
    StableHlo.unary main_cst_12 main_v59 (broadcastInDim S100000 ![] bcast_S_S100000 : (⟨S_, .f32⟩ : BufTy).Contents (Elt F) → (⟨S100000, .f32⟩ : BufTy).Contents (Elt F)),
    StableHlo.unary main_arg10 main_v60 (broadcastInDim S3200000x1 ![0] bcast_S3200000_S3200000x1_0 : (⟨S3200000, .i32⟩ : BufTy).Contents (Elt F) → (⟨S3200000x1, .i32⟩ : BufTy).Contents (Elt F)),
    StableHlo.ternary main_v59 main_v60 main_v55 main_v61 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_13 (constant S_ .f32 0x3F800000#32),
    StableHlo.TRef.unary (StableHlo.TRef.of main_cst_13 : StableHlo.TRef sig ⟨S_, .f32⟩) main_call4.v0 id,
    StableHlo.TRef.unary main_call4.v0 main_call4.v1 (broadcastInDim S100000 ![] bcast_S_S100000),
    StableHlo.TRef.binary main_call4.v1 (StableHlo.TRef.of main_v58 : StableHlo.TRef sig ⟨S100000, .f32⟩) main_call4.v2 maximumf,
    StableHlo.unary main_v62 main_v63 (Host.rsqrt : (⟨S100000, .f32⟩ : BufTy).Contents (Elt F) → (⟨S100000, .f32⟩ : BufTy).Contents (Elt F)),
    StableHlo.unary main_v63 main_v64 (broadcastInDim S100000x1 ![0] bcast_S100000_S100000x1_0 : (⟨S100000, .f32⟩ : BufTy).Contents (Elt F) → (⟨S100000x1, .f32⟩ : BufTy).Contents (Elt F)),
    StableHlo.unary main_v64 main_v65 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v65 main_v66 (mulf : (⟨S100000x32, .f32⟩ : BufTy).Contents (Elt F) → (⟨S100000x32, .f32⟩ : BufTy).Contents (Elt F) → (⟨S100000x32, .f32⟩ : BufTy).Contents (Elt F)),
    StableHlo.nullary main_c_14 (constantI S_ 32 0#32),
    StableHlo.unary main_c_14 main_v67 (broadcastInDim S3200000 ![] bcast_S_S3200000 : (⟨S_, .i32⟩ : BufTy).Contents (Elt F) → (⟨S3200000, .i32⟩ : BufTy).Contents (Elt F)),
    StableHlo.binary main_arg9 main_v67 main_v68 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v69 (broadcastInDim S3200000 ![] bcast_S_S3200000 : (⟨S_, .i32⟩ : BufTy).Contents (Elt F) → (⟨S3200000, .i32⟩ : BufTy).Contents (Elt F)),
    StableHlo.binary main_arg9 main_v69 main_v70 (addi : (⟨S3200000, .i32⟩ : BufTy).Contents (Elt F) → (⟨S3200000, .i32⟩ : BufTy).Contents (Elt F) → (⟨S3200000, .i32⟩ : BufTy).Contents (Elt F)),
    StableHlo.ternary main_v68 main_v70 main_arg9 main_v71 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v71 main_v72 (broadcastInDim S3200000x1 ![0] bcast_S3200000_S3200000x1_0 : (⟨S3200000, .i32⟩ : BufTy).Contents (Elt F) → (⟨S3200000x1, .i32⟩ : BufTy).Contents (Elt F)),
    StableHlo.binary main_v66 main_v72 main_v73 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_16 (constant S_ .f32 0x00000000#32),
    StableHlo.unary main_cst_16 main_v74 (broadcastInDim S100000x32 ![] bcast_S_S100000x32 : (⟨S_, .f32⟩ : BufTy).Contents (Elt F) → (⟨S100000x32, .f32⟩ : BufTy).Contents (Elt F)),
    StableHlo.unary main_arg10 main_v75 (broadcastInDim S3200000x1 ![0] bcast_S3200000_S3200000x1_0 : (⟨S3200000, .i32⟩ : BufTy).Contents (Elt F) → (⟨S3200000x1, .i32⟩ : BufTy).Contents (Elt F)),
    StableHlo.ternary main_v74 main_v75 main_v73 main_v76 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_17 (constant S_ .f32 0x3F800000#32),
    StableHlo.TRef.unary (StableHlo.TRef.of main_cst_17 : StableHlo.TRef sig ⟨S_, .f32⟩) main_call5.v0 id,
    StableHlo.TRef.unary main_call5.v0 main_call5.v1 (broadcastInDim S100000 ![] bcast_S_S100000),
    StableHlo.TRef.binary main_call5.v1 (StableHlo.TRef.of main_v61 : StableHlo.TRef sig ⟨S100000, .f32⟩) main_call5.v2 maximumf,
    StableHlo.unary main_v77 main_v78 (Host.rsqrt : (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x32 ![0, 1] bcast_S100000x1_S100000x32_0_1 : (⟨S100000x1, .f32⟩ : BufTy).Contents (Elt F) → (⟨S100000x32, .f32⟩ : BufTy).Contents (Elt F)),
    StableHlo.binary main_v76 main_v80 main_v81 (mulf : (⟨S100000x32, .f32⟩ : BufTy).Contents (Elt F) → (⟨S100000x32, .f32⟩ : BufTy).Contents (Elt F) → (⟨S100000x32, .f32⟩ : BufTy).Contents (Elt F)),
    StableHlo.binary main_v54 main_v81 main_v82 (subf : (⟨S100000x32, .f32⟩ : BufTy).Contents (Elt F) → (⟨S100000x32, .f32⟩ : BufTy).Contents (Elt F) → (⟨S100000x32, .f32⟩ : BufTy).Contents (Elt F)),
    StableHlo.binary main_v82 main_v27 main_v83 (addf : (⟨S100000x32, .f32⟩ : BufTy).Contents (Elt F) → (⟨S100000x32, .f32⟩ : BufTy).Contents (Elt F) → (⟨S100000x32, .f32⟩ : BufTy).Contents (Elt F)),
    StableHlo.nullary main_cst_18 (constant S_ .f32 0x3F800000#32),
    StableHlo.unary main_cst_18 main_v84 (broadcastInDim S3200000 ![] bcast_S_S3200000 : (⟨S_, .f32⟩ : BufTy).Contents (Elt F) → (⟨S3200000, .f32⟩ : BufTy).Contents (Elt F)),
    StableHlo.nullary main_cst_19 (constant S_ .f32 0x00000000#32),
    StableHlo.unary main_cst_19 main_v85 (broadcastInDim S100000 ![] bcast_S_S100000 : (⟨S_, .f32⟩ : BufTy).Contents (Elt F) → (⟨S100000, .f32⟩ : BufTy).Contents (Elt F)),
    StableHlo.unary main_arg7 main_v86 (broadcastInDim S3200000x1 ![0] bcast_S3200000_S3200000x1_0 : (⟨S3200000, .i32⟩ : BufTy).Contents (Elt F) → (⟨S3200000x1, .i32⟩ : BufTy).Contents (Elt F)),
    StableHlo.ternary main_v85 main_v86 main_v84 main_v87 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_20 (constant S_ .f32 0x00000000#32),
    StableHlo.unary main_cst_20 main_v88 (broadcastInDim S100000 ![] bcast_S_S100000 : (⟨S_, .f32⟩ : BufTy).Contents (Elt F) → (⟨S100000, .f32⟩ : BufTy).Contents (Elt F)),
    StableHlo.unary main_arg8 main_v89 (broadcastInDim S3200000x1 ![0] bcast_S3200000_S3200000x1_0 : (⟨S3200000, .i32⟩ : BufTy).Contents (Elt F) → (⟨S3200000x1, .i32⟩ : BufTy).Contents (Elt F)),
    StableHlo.ternary main_v88 main_v89 main_v84 main_v90 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_21 (constant S_ .f32 0x3F800000#32),
    StableHlo.TRef.unary (StableHlo.TRef.of main_cst_21 : StableHlo.TRef sig ⟨S_, .f32⟩) main_call6.v0 id,
    StableHlo.TRef.unary main_call6.v0 main_call6.v1 (broadcastInDim S100000 ![] bcast_S_S100000),
    StableHlo.TRef.binary main_call6.v1 (StableHlo.TRef.of main_v87 : StableHlo.TRef sig ⟨S100000, .f32⟩) main_call6.v2 maximumf,
    StableHlo.unary main_v91 main_v92 (Host.rsqrt : (⟨S100000, .f32⟩ : BufTy).Contents (Elt F) → (⟨S100000, .f32⟩ : BufTy).Contents (Elt F)),
    StableHlo.unary main_v92 main_v93 (broadcastInDim S100000x1 ![0] bcast_S100000_S100000x1_0 : (⟨S100000, .f32⟩ : BufTy).Contents (Elt F) → (⟨S100000x1, .f32⟩ : BufTy).Contents (Elt F)),
    StableHlo.unary main_v93 main_v94 (broadcastInDim S100000x32 ![0, 1] bcast_S100000x1_S100000x32_0_1 : (⟨S100000x1, .f32⟩ : BufTy).Contents (Elt F) → (⟨S100000x32, .f32⟩ : BufTy).Contents (Elt F)),
    StableHlo.binary main_v83 main_v94 main_v95 (mulf : (⟨S100000x32, .f32⟩ : BufTy).Contents (Elt F) → (⟨S100000x32, .f32⟩ : BufTy).Contents (Elt F) → (⟨S100000x32, .f32⟩ : BufTy).Contents (Elt F)) ]

/-- Window 1 is that straight line: the callees' definitions unfold at their calls, the records at their fields. -/
theorem main_part1_eq (c : Dev nD) : main_part1 (F := F) c = seq ops1 := rfl

/-- Every buffer the window's operations touch is a TensorCore reference. -/
theorem ops1_sub : (ops1 : List (HloOp τ sig (Elt F))).Forall fun op => op.bufs ⊆ tcRefs τ sig :=
  ⟨ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub ..⟩

/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW2.lean ====
/- The text of the list below was produced by: python3 scratch/gen_refops.py .   (run in the unit's directory; it writes proof/Proof/RefW0.lean … RefW10.lean) — a table read off the printed lines of window
   main_part2 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 2 of @main, in order, each call's operations in the callee's order over the call's record. -/
abbrev ops2 : List (HloOp τ sig (Elt F)) :=
  [ StableHlo.nullary main_c_22 (constantI S_ 32 0#32),
    StableHlo.unary main_c_22 main_v96 (broadcastInDim S3200000 ![] bcast_S_S3200000 : (⟨S_, .i32⟩ : BufTy).Contents (Elt F) → (⟨S3200000, .i32⟩ : BufTy).Contents (Elt F)),
    StableHlo.binary main_arg7 main_v96 main_v97 (cmpi .slt : (⟨S3200000, .i32⟩ : BufTy).Contents (Elt F) → (⟨S3200000, .i32⟩ : BufTy).Contents (Elt F) → (⟨S3200000, .i1⟩ : BufTy).Contents (Elt F)),
    StableHlo.nullary main_c_23 (constantI S_ 32 100000#32),
    StableHlo.unary main_c_23 main_v98 (broadcastInDim S3200000 ![] bcast_S_S3200000 : (⟨S_, .i32⟩ : BufTy).Contents (Elt F) → (⟨S3200000, .i32⟩ : BufTy).Contents (Elt F)),
    StableHlo.binary main_arg7 main_v98 main_v99 (addi : (⟨S3200000, .i32⟩ : BufTy).Contents (Elt F) → (⟨S3200000, .i32⟩ : BufTy).Contents (Elt F) → (⟨S3200000, .i32⟩ : BufTy).Contents (Elt F)),
    StableHlo.ternary main_v97 main_v99 main_arg7 main_v100 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v100 main_v101 (broadcastInDim S3200000x1 ![0] bcast_S3200000_S3200000x1_0 : (⟨S3200000, .i32⟩ : BufTy).Contents (Elt F) → (⟨S3200000x1, .i32⟩ : BufTy).Contents (Elt F)),
    StableHlo.binary main_v95 main_v101 main_v102 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_24 (constant S_ .f32 0x00000000#32),
    StableHlo.unary main_cst_24 main_v103 (broadcastInDim S100000x32 ![] bcast_S_S100000x32 : (⟨S_, .f32⟩ : BufTy).Contents (Elt F) → (⟨S100000x32, .f32⟩ : BufTy).Contents (Elt F)),
    StableHlo.unary main_arg8 main_v104 (broadcastInDim S3200000x1 ![0] bcast_S3200000_S3200000x1_0 : (⟨S3200000, .i32⟩ : BufTy).Contents (Elt F) → (⟨S3200000x1, .i32⟩ : BufTy).Contents (Elt F)),
    StableHlo.ternary main_v103 main_v104 main_v102 main_v105 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_25 (constant S_ .f32 0x3F800000#32),
    StableHlo.TRef.unary (StableHlo.TRef.of main_cst_25 : StableHlo.TRef sig ⟨S_, .f32⟩) main_call7.v0 id,
    StableHlo.TRef.unary main_call7.v0 main_call7.v1 (broadcastInDim S100000 ![] bcast_S_S100000),
    StableHlo.TRef.binary main_call7.v1 (StableHlo.TRef.of main_v90 : StableHlo.TRef sig ⟨S100000, .f32⟩) main_call7.v2 maximumf,
    StableHlo.unary main_v106 main_v107 (Host.rsqrt : (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x32 ![0, 1] bcast_S100000x1_S100000x32_0_1 : (⟨S100000x1, .f32⟩ : BufTy).Contents (Elt F) → (⟨S100000x32, .f32⟩ : BufTy).Contents (Elt F)),
    StableHlo.binary main_v105 main_v109 main_v110 (mulf : (⟨S100000x32, .f32⟩ : BufTy).Contents (Elt F) → (⟨S100000x32, .f32⟩ : BufTy).Contents (Elt F) → (⟨S100000x32, .f32⟩ : BufTy).Contents (Elt F)),
    StableHlo.nullary main_cst_26 (constant S_ .f32 0x3F800000#32),
    StableHlo.unary main_cst_26 main_v111 (broadcastInDim S3200000 ![] bcast_S_S3200000 : (⟨S_, .f32⟩ : BufTy).Contents (Elt F) → (⟨S3200000, .f32⟩ : BufTy).Contents (Elt F)),
    StableHlo.nullary main_cst_27 (constant S_ .f32 0x00000000#32),
    StableHlo.unary main_cst_27 main_v112 (broadcastInDim S100000 ![] bcast_S_S100000 : (⟨S_, .f32⟩ : BufTy).Contents (Elt F) → (⟨S100000, .f32⟩ : BufTy).Contents (Elt F)),
    StableHlo.unary main_arg9 main_v113 (broadcastInDim S3200000x1 ![0] bcast_S3200000_S3200000x1_0 : (⟨S3200000, .i32⟩ : BufTy).Contents (Elt F) → (⟨S3200000x1, .i32⟩ : BufTy).Contents (Elt F)),
    StableHlo.ternary main_v112 main_v113 main_v111 main_v114 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_28 (constant S_ .f32 0x00000000#32),
    StableHlo.unary main_cst_28 main_v115 (broadcastInDim S100000 ![] bcast_S_S100000 : (⟨S_, .f32⟩ : BufTy).Contents (Elt F) → (⟨S100000, .f32⟩ : BufTy).Contents (Elt F)),
    StableHlo.unary main_arg10 main_v116 (broadcastInDim S3200000x1 ![0] bcast_S3200000_S3200000x1_0 : (⟨S3200000, .i32⟩ : BufTy).Contents (Elt F) → (⟨S3200000x1, .i32⟩ : BufTy).Contents (Elt F)),
    StableHlo.ternary main_v115 main_v116 main_v111 main_v117 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_29 (constant S_ .f32 0x3F800000#32),
    StableHlo.TRef.unary (StableHlo.TRef.of main_cst_29 : StableHlo.TRef sig ⟨S_, .f32⟩) main_call8.v0 id,
    StableHlo.TRef.unary main_call8.v0 main_call8.v1 (broadcastInDim S100000 ![] bcast_S_S100000),
    StableHlo.TRef.binary main_call8.v1 (StableHlo.TRef.of main_v114 : StableHlo.TRef sig ⟨S100000, .f32⟩) main_call8.v2 maximumf,
    StableHlo.unary main_v118 main_v119 (Host.rsqrt : (⟨S100000, .f32⟩ : BufTy).Contents (Elt F) → (⟨S100000, .f32⟩ : BufTy).Contents (Elt F)),
    StableHlo.unary main_v119 main_v120 (broadcastInDim S100000x1 ![0] bcast_S100000_S100000x1_0 : (⟨S100000, .f32⟩ : BufTy).Contents (Elt F) → (⟨S100000x1, .f32⟩ : BufTy).Contents (Elt F)),
    StableHlo.unary main_v120 main_v121 (broadcastInDim S100000x32 ![0, 1] bcast_S100000x1_S100000x32_0_1 : (⟨S100000x1, .f32⟩ : BufTy).Contents (Elt F) → (⟨S100000x32, .f32⟩ : BufTy).Contents (Elt F)),
    StableHlo.binary main_v83 main_v121 main_v122 (mulf : (⟨S100000x32, .f32⟩ : BufTy).Contents (Elt F) → (⟨S100000x32, .f32⟩ : BufTy).Contents (Elt F) → (⟨S100000x32, .f32⟩ : BufTy).Contents (Elt F)),
    StableHlo.nullary main_c_30 (constantI S_ 32 0#32),
    StableHlo.unary main_c_30 main_v123 (broadcastInDim S3200000 ![] bcast_S_S3200000 : (⟨S_, .i32⟩ : BufTy).Contents (Elt F) → (⟨S3200000, .i32⟩ : BufTy).Contents (Elt F)),
    StableHlo.binary main_arg9 main_v123 main_v124 (cmpi .slt : (⟨S3200000, .i32⟩ : BufTy).Contents (Elt F) → (⟨S3200000, .i32⟩ : BufTy).Contents (Elt F) → (⟨S3200000, .i1⟩ : BufTy).Contents (Elt F)),
    StableHlo.nullary main_c_31 (constantI S_ 32 100000#32),
    StableHlo.unary main_c_31 main_v125 (broadcastInDim S3200000 ![] bcast_S_S3200000 : (⟨S_, .i32⟩ : BufTy).Contents (Elt F) → (⟨S3200000, .i32⟩ : BufTy).Contents (Elt F)),
    StableHlo.binary main_arg9 main_v125 main_v126 (addi : (⟨S3200000, .i32⟩ : BufTy).Contents (Elt F) → (⟨S3200000, .i32⟩ : BufTy).Contents (Elt F) → (⟨S3200000, .i32⟩ : BufTy).Contents (Elt F)),
    StableHlo.ternary main_v124 main_v126 main_arg9 main_v127 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v127 main_v128 (broadcastInDim S3200000x1 ![0] bcast_S3200000_S3200000x1_0 : (⟨S3200000, .i32⟩ : BufTy).Contents (Elt F) → (⟨S3200000x1, .i32⟩ : BufTy).Contents (Elt F)),
    StableHlo.binary main_v122 main_v128 main_v129 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_32 (constant S_ .f32 0x00000000#32),
    StableHlo.unary main_cst_32 main_v130 (broadcastInDim S100000x32 ![] bcast_S_S100000x32 : (⟨S_, .f32⟩ : BufTy).Contents (Elt F) → (⟨S100000x32, .f32⟩ : BufTy).Contents (Elt F)),
    StableHlo.unary main_arg10 main_v131 (broadcastInDim S3200000x1 ![0] bcast_S3200000_S3200000x1_0 : (⟨S3200000, .i32⟩ : BufTy).Contents (Elt F) → (⟨S3200000x1, .i32⟩ : BufTy).Contents (Elt F)),
    StableHlo.ternary main_v130 main_v131 main_v129 main_v132 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_33 (constant S_ .f32 0x3F800000#32),
    StableHlo.TRef.unary (StableHlo.TRef.of main_cst_33 : StableHlo.TRef sig ⟨S_, .f32⟩) main_call9.v0 id,
    StableHlo.TRef.unary main_call9.v0 main_call9.v1 (broadcastInDim S100000 ![] bcast_S_S100000),
    StableHlo.TRef.binary main_call9.v1 (StableHlo.TRef.of main_v117 : StableHlo.TRef sig ⟨S100000, .f32⟩) main_call9.v2 maximumf,
    StableHlo.unary main_v133 main_v134 (Host.rsqrt : (⟨S100000, .f32⟩ : BufTy).Contents (Elt F) → (⟨S100000, .f32⟩ : BufTy).Contents (Elt F)),
    StableHlo.unary main_v134 main_v135 (broadcastInDim S100000x1 ![0] bcast_S100000_S100000x1_0 : (⟨S100000, .f32⟩ : BufTy).Contents (Elt F) → (⟨S100000x1, .f32⟩ : BufTy).Contents (Elt F)),
    StableHlo.unary main_v135 main_v136 (broadcastInDim S100000x32 ![0, 1] bcast_S100000x1_S100000x32_0_1 : (⟨S100000x1, .f32⟩ : BufTy).Contents (Elt F) → (⟨S100000x32, .f32⟩ : BufTy).Contents (Elt F)),
    StableHlo.binary main_v132 main_v136 main_v137 (mulf : (⟨S100000x32, .f32⟩ : BufTy).Contents (Elt F) → (⟨S100000x32, .f32⟩ : BufTy).Contents (Elt F) → (⟨S100000x32, .f32⟩ : BufTy).Contents (Elt F)),
    StableHlo.binary main_v110 main_v137 main_v138 (subf : (⟨S100000x32, .f32⟩ : BufTy).Contents (Elt F) → (⟨S100000x32, .f32⟩ : BufTy).Contents (Elt F) → (⟨S100000x32, .f32⟩ : BufTy).Contents (Elt F)),
    StableHlo.binary main_v138 main_v27 main_v139 (addf : (⟨S100000x32, .f32⟩ : BufTy).Contents (Elt F) → (⟨S100000x32, .f32⟩ : BufTy).Contents (Elt F) → (⟨S100000x32, .f32⟩ : BufTy).Contents (Elt F)),
    StableHlo.nullary main_cst_34 (constant S_ .f32 0x3F800000#32),
    StableHlo.unary main_cst_34 main_v140 (broadcastInDim S3200000 ![] bcast_S_S3200000 : (⟨S_, .f32⟩ : BufTy).Contents (Elt F) → (⟨S3200000, .f32⟩ : BufTy).Contents (Elt F)),
    StableHlo.nullary main_cst_35 (constant S_ .f32 0x00000000#32),
    StableHlo.unary main_cst_35 main_v141 (broadcastInDim S100000 ![] bcast_S_S100000 : (⟨S_, .f32⟩ : BufTy).Contents (Elt F) → (⟨S100000, .f32⟩ : BufTy).Contents (Elt F)) ]

/-- Window 2 is that straight line: the callees' definitions unfold at their calls, the records at their fields. -/
theorem main_part2_eq (c : Dev nD) : main_part2 (F := F) c = seq ops2 := rfl

/-- Every buffer the window's operations touch is a TensorCore reference. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub ..⟩

/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW3.lean ====
/- The text of the list below was produced by: python3 scratch/gen_refops.py .   (run in the unit's directory; it writes proof/Proof/RefW0.lean … RefW10.lean) — a table read off the printed lines of window
   main_part3 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 3 of @main, in order, each call's operations in the callee's order over the call's record. -/
abbrev ops3 : List (HloOp τ sig (Elt F)) :=
  [ StableHlo.unary main_arg7 main_v142 (broadcastInDim S3200000x1 ![0] bcast_S3200000_S3200000x1_0 : (⟨S3200000, .i32⟩ : BufTy).Contents (Elt F) → (⟨S3200000x1, .i32⟩ : BufTy).Contents (Elt F)),
    StableHlo.ternary main_v141 main_v142 main_v140 main_v143 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_36 (constant S_ .f32 0x00000000#32),
    StableHlo.unary main_cst_36 main_v144 (broadcastInDim S100000 ![] bcast_S_S100000 : (⟨S_, .f32⟩ : BufTy).Contents (Elt F) → (⟨S100000, .f32⟩ : BufTy).Contents (Elt F)),
    StableHlo.unary main_arg8 main_v145 (broadcastInDim S3200000x1 ![0] bcast_S3200000_S3200000x1_0 : (⟨S3200000, .i32⟩ : BufTy).Contents (Elt F) → (⟨S3200000x1, .i32⟩ : BufTy).Contents (Elt F)),
    StableHlo.ternary main_v144 main_v145 main_v140 main_v146 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_37 (constant S_ .f32 0x3F800000#32),
    StableHlo.TRef.unary (StableHlo.TRef.of main_cst_37 : StableHlo.TRef sig ⟨S_, .f32⟩) main_call10.v0 id,
    StableHlo.TRef.unary main_call10.v0 main_call10.v1 (broadcastInDim S100000 ![] bcast_S_S100000),
    StableHlo.TRef.binary main_call10.v1 (StableHlo.TRef.of main_v143 : StableHlo.TRef sig ⟨S100000, .f32⟩) main_call10.v2 maximumf,
    StableHlo.unary main_v147 main_v148 (Host.rsqrt : (⟨S100000, .f32⟩ : BufTy).Contents (Elt F) → (⟨S100000, .f32⟩ : BufTy).Contents (Elt F)),
    StableHlo.unary main_v148 main_v149 (broadcastInDim S100000x1 ![0] bcast_S100000_S100000x1_0 : (⟨S100000, .f32⟩ : BufTy).Contents (Elt F) → (⟨S100000x1, .f32⟩ : BufTy).Contents (Elt F)),
    StableHlo.unary main_v149 main_v150 (broadcastInDim S100000x32 ![0, 1] bcast_S100000x1_S100000x32_0_1 : (⟨S100000x1, .f32⟩ : BufTy).Contents (Elt F) → (⟨S100000x32, .f32⟩ : BufTy).Contents (Elt F)),
    StableHlo.binary main_v139 main_v150 main_v151 (mulf : (⟨S100000x32, .f32⟩ : BufTy).Contents (Elt F) → (⟨S100000x32, .f32⟩ : BufTy).Contents (Elt F) → (⟨S100000x32, .f32⟩ : BufTy).Contents (Elt F)),
    StableHlo.nullary main_c_38 (constantI S_ 32 0#32),
    StableHlo.unary main_c_38 main_v152 (broadcastInDim S3200000 ![] bcast_S_S3200000 : (⟨S_, .i32⟩ : BufTy).Contents (Elt F) → (⟨S3200000, .i32⟩ : BufTy).Contents (Elt F)),
    StableHlo.binary main_arg7 main_v152 main_v153 (cmpi .slt : (⟨S3200000, .i32⟩ : BufTy).Contents (Elt F) → (⟨S3200000, .i32⟩ : BufTy).Contents (Elt F) → (⟨S3200000, .i1⟩ : BufTy).Contents (Elt F)),
    StableHlo.nullary main_c_39 (constantI S_ 32 100000#32),
    StableHlo.unary main_c_39 main_v154 (broadcastInDim S3200000 ![] bcast_S_S3200000 : (⟨S_, .i32⟩ : BufTy).Contents (Elt F) → (⟨S3200000, .i32⟩ : BufTy).Contents (Elt F)),
    StableHlo.binary main_arg7 main_v154 main_v155 (addi : (⟨S3200000, .i32⟩ : BufTy).Contents (Elt F) → (⟨S3200000, .i32⟩ : BufTy).Contents (Elt F) → (⟨S3200000, .i32⟩ : BufTy).Contents (Elt F)),
    StableHlo.ternary main_v153 main_v155 main_arg7 main_v156 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v156 main_v157 (broadcastInDim S3200000x1 ![0] bcast_S3200000_S3200000x1_0 : (⟨S3200000, .i32⟩ : BufTy).Contents (Elt F) → (⟨S3200000x1, .i32⟩ : BufTy).Contents (Elt F)),
    StableHlo.binary main_v151 main_v157 main_v158 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_40 (constant S_ .f32 0x00000000#32),
    StableHlo.unary main_cst_40 main_v159 (broadcastInDim S100000x32 ![] bcast_S_S100000x32 : (⟨S_, .f32⟩ : BufTy).Contents (Elt F) → (⟨S100000x32, .f32⟩ : BufTy).Contents (Elt F)),
    StableHlo.unary main_arg8 main_v160 (broadcastInDim S3200000x1 ![0] bcast_S3200000_S3200000x1_0 : (⟨S3200000, .i32⟩ : BufTy).Contents (Elt F) → (⟨S3200000x1, .i32⟩ : BufTy).Contents (Elt F)),
    StableHlo.ternary main_v159 main_v160 main_v158 main_v161 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_41 (constant S_ .f32 0x3F800000#32),
    StableHlo.TRef.unary (StableHlo.TRef.of main_cst_41 : StableHlo.TRef sig ⟨S_, .f32⟩) main_call11.v0 id,
    StableHlo.TRef.unary main_call11.v0 main_call11.v1 (broadcastInDim S100000 ![] bcast_S_S100000),
    StableHlo.TRef.binary main_call11.v1 (StableHlo.TRef.of main_v146 : StableHlo.TRef sig ⟨S100000, .f32⟩) main_call11.v2 maximumf,
    StableHlo.unary main_v162 main_v163 (Host.rsqrt : (⟨S100000, .f32⟩ : BufTy).Contents (Elt F) → (⟨S100000, .f32⟩ : BufTy).Contents (Elt F)),
    StableHlo.unary main_v163 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x32 ![0, 1] bcast_S100000x1_S100000x32_0_1 : (⟨S100000x1, .f32⟩ : BufTy).Contents (Elt F) → (⟨S100000x32, .f32⟩ : BufTy).Contents (Elt F)),
    StableHlo.binary main_v161 main_v165 main_v166 (mulf : (⟨S100000x32, .f32⟩ : BufTy).Contents (Elt F) → (⟨S100000x32, .f32⟩ : BufTy).Contents (Elt F) → (⟨S100000x32, .f32⟩ : BufTy).Contents (Elt F)),
    StableHlo.nullary main_cst_42 (constant S_ .f32 0x3F800000#32),
    StableHlo.unary main_cst_42 main_v167 (broadcastInDim S3200000 ![] bcast_S_S3200000 : (⟨S_, .f32⟩ : BufTy).Contents (Elt F) → (⟨S3200000, .f32⟩ : BufTy).Contents (Elt F)),
    StableHlo.nullary main_cst_43 (constant S_ .f32 0x00000000#32),
    StableHlo.unary main_cst_43 main_v168 (broadcastInDim S100000 ![] bcast_S_S100000 : (⟨S_, .f32⟩ : BufTy).Contents (Elt F) → (⟨S100000, .f32⟩ : BufTy).Contents (Elt F)),
    StableHlo.unary main_arg9 main_v169 (broadcastInDim S3200000x1 ![0] bcast_S3200000_S3200000x1_0 : (⟨S3200000, .i32⟩ : BufTy).Contents (Elt F) → (⟨S3200000x1, .i32⟩ : BufTy).Contents (Elt F)),
    StableHlo.ternary main_v168 main_v169 main_v167 main_v170 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_44 (constant S_ .f32 0x00000000#32),
    StableHlo.unary main_cst_44 main_v171 (broadcastInDim S100000 ![] bcast_S_S100000 : (⟨S_, .f32⟩ : BufTy).Contents (Elt F) → (⟨S100000, .f32⟩ : BufTy).Contents (Elt F)),
    StableHlo.unary main_arg10 main_v172 (broadcastInDim S3200000x1 ![0] bcast_S3200000_S3200000x1_0 : (⟨S3200000, .i32⟩ : BufTy).Contents (Elt F) → (⟨S3200000x1, .i32⟩ : BufTy).Contents (Elt F)),
    StableHlo.ternary main_v171 main_v172 main_v167 main_v173 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_45 (constant S_ .f32 0x3F800000#32),
    StableHlo.TRef.unary (StableHlo.TRef.of main_cst_45 : StableHlo.TRef sig ⟨S_, .f32⟩) main_call12.v0 id,
    StableHlo.TRef.unary main_call12.v0 main_call12.v1 (broadcastInDim S100000 ![] bcast_S_S100000),
    StableHlo.TRef.binary main_call12.v1 (StableHlo.TRef.of main_v170 : StableHlo.TRef sig ⟨S100000, .f32⟩) main_call12.v2 maximumf,
    StableHlo.unary main_v174 main_v175 (Host.rsqrt : (⟨S100000, .f32⟩ : BufTy).Contents (Elt F) → (⟨S100000, .f32⟩ : BufTy).Contents (Elt F)),
    StableHlo.unary main_v175 main_v176 (broadcastInDim S100000x1 ![0] bcast_S100000_S100000x1_0 : (⟨S100000, .f32⟩ : BufTy).Contents (Elt F) → (⟨S100000x1, .f32⟩ : BufTy).Contents (Elt F)),
    StableHlo.unary main_v176 main_v177 (broadcastInDim S100000x32 ![0, 1] bcast_S100000x1_S100000x32_0_1 : (⟨S100000x1, .f32⟩ : BufTy).Contents (Elt F) → (⟨S100000x32, .f32⟩ : BufTy).Contents (Elt F)),
    StableHlo.binary main_v139 main_v177 main_v178 (mulf : (⟨S100000x32, .f32⟩ : BufTy).Contents (Elt F) → (⟨S100000x32, .f32⟩ : BufTy).Contents (Elt F) → (⟨S100000x32, .f32⟩ : BufTy).Contents (Elt F)),
    StableHlo.nullary main_c_46 (constantI S_ 32 0#32),
    StableHlo.unary main_c_46 main_v179 (broadcastInDim S3200000 ![] bcast_S_S3200000 : (⟨S_, .i32⟩ : BufTy).Contents (Elt F) → (⟨S3200000, .i32⟩ : BufTy).Contents (Elt F)),
    StableHlo.binary main_arg9 main_v179 main_v180 (cmpi .slt : (⟨S3200000, .i32⟩ : BufTy).Contents (Elt F) → (⟨S3200000, .i32⟩ : BufTy).Contents (Elt F) → (⟨S3200000, .i1⟩ : BufTy).Contents (Elt F)),
    StableHlo.nullary main_c_47 (constantI S_ 32 100000#32),
    StableHlo.unary main_c_47 main_v181 (broadcastInDim S3200000 ![] bcast_S_S3200000 : (⟨S_, .i32⟩ : BufTy).Contents (Elt F) → (⟨S3200000, .i32⟩ : BufTy).Contents (Elt F)),
    StableHlo.binary main_arg9 main_v181 main_v182 (addi : (⟨S3200000, .i32⟩ : BufTy).Contents (Elt F) → (⟨S3200000, .i32⟩ : BufTy).Contents (Elt F) → (⟨S3200000, .i32⟩ : BufTy).Contents (Elt F)),
    StableHlo.ternary main_v180 main_v182 main_arg9 main_v183 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v183 main_v184 (broadcastInDim S3200000x1 ![0] bcast_S3200000_S3200000x1_0 : (⟨S3200000, .i32⟩ : BufTy).Contents (Elt F) → (⟨S3200000x1, .i32⟩ : BufTy).Contents (Elt F)),
    StableHlo.binary main_v178 main_v184 main_v185 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_48 (constant S_ .f32 0x00000000#32),
    StableHlo.unary main_cst_48 main_v186 (broadcastInDim S100000x32 ![] bcast_S_S100000x32 : (⟨S_, .f32⟩ : BufTy).Contents (Elt F) → (⟨S100000x32, .f32⟩ : BufTy).Contents (Elt F)),
    StableHlo.unary main_arg10 main_v187 (broadcastInDim S3200000x1 ![0] bcast_S3200000_S3200000x1_0 : (⟨S3200000, .i32⟩ : BufTy).Contents (Elt F) → (⟨S3200000x1, .i32⟩ : BufTy).Contents (Elt F)),
    StableHlo.ternary main_v186 main_v187 main_v185 main_v188 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Window 3 is that straight line: the callees' definitions unfold at their calls, the records at their fields. -/
theorem main_part3_eq (c : Dev nD) : main_part3 (F := F) c = seq ops3 := rfl

/-- Every buffer the window's operations touch is a TensorCore reference. -/
theorem ops3_sub : (ops3 : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW4.lean ====
/- The text of the list below was produced by: python3 scratch/gen_refops.py .   (run in the unit's directory; it writes proof/Proof/RefW0.lean … RefW10.lean) — a table read off the printed lines of window
   main_part4 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 68 operations of window 4 of @main, in order, each call's operations in the callee's order over the call's record. -/
abbrev ops4 : List (HloOp τ sig (Elt F)) :=
  [ StableHlo.nullary main_cst_49 (constant S_ .f32 0x3F800000#32),
    StableHlo.TRef.unary (StableHlo.TRef.of main_cst_49 : StableHlo.TRef sig ⟨S_, .f32⟩) main_call13.v0 id,
    StableHlo.TRef.unary main_call13.v0 main_call13.v1 (broadcastInDim S100000 ![] bcast_S_S100000),
    StableHlo.TRef.binary main_call13.v1 (StableHlo.TRef.of main_v173 : StableHlo.TRef sig ⟨S100000, .f32⟩) main_call13.v2 maximumf,
    StableHlo.unary main_v189 main_v190 (Host.rsqrt : (⟨S100000, .f32⟩ : BufTy).Contents (Elt F) → (⟨S100000, .f32⟩ : BufTy).Contents (Elt F)),
    StableHlo.unary main_v190 main_v191 (broadcastInDim S100000x1 ![0] bcast_S100000_S100000x1_0 : (⟨S100000, .f32⟩ : BufTy).Contents (Elt F) → (⟨S100000x1, .f32⟩ : BufTy).Contents (Elt F)),
    StableHlo.unary main_v191 main_v192 (broadcastInDim S100000x32 ![0, 1] bcast_S100000x1_S100000x32_0_1 : (⟨S100000x1, .f32⟩ : BufTy).Contents (Elt F) → (⟨S100000x32, .f32⟩ : BufTy).Contents (Elt F)),
    StableHlo.binary main_v188 main_v192 main_v193 (mulf : (⟨S100000x32, .f32⟩ : BufTy).Contents (Elt F) → (⟨S100000x32, .f32⟩ : BufTy).Contents (Elt F) → (⟨S100000x32, .f32⟩ : BufTy).Contents (Elt F)),
    StableHlo.binary main_v166 main_v193 main_v194 (subf : (⟨S100000x32, .f32⟩ : BufTy).Contents (Elt F) → (⟨S100000x32, .f32⟩ : BufTy).Contents (Elt F) → (⟨S100000x32, .f32⟩ : BufTy).Contents (Elt F)),
    StableHlo.binary main_v194 main_v27 main_v195 (addf : (⟨S100000x32, .f32⟩ : BufTy).Contents (Elt F) → (⟨S100000x32, .f32⟩ : BufTy).Contents (Elt F) → (⟨S100000x32, .f32⟩ : BufTy).Contents (Elt F)),
    StableHlo.nullary main_cst_50 (constant S_ .f32 0x3F800000#32),
    StableHlo.unary main_cst_50 main_v196 (broadcastInDim S3200000 ![] bcast_S_S3200000 : (⟨S_, .f32⟩ : BufTy).Contents (Elt F) → (⟨S3200000, .f32⟩ : BufTy).Contents (Elt F)),
    StableHlo.nullary main_cst_51 (constant S_ .f32 0x00000000#32),
    StableHlo.unary main_cst_51 main_v197 (broadcastInDim S100000 ![] bcast_S_S100000 : (⟨S_, .f32⟩ : BufTy).Contents (Elt F) → (⟨S100000, .f32⟩ : BufTy).Contents (Elt F)),
    StableHlo.unary main_arg7 main_v198 (broadcastInDim S3200000x1 ![0] bcast_S3200000_S3200000x1_0 : (⟨S3200000, .i32⟩ : BufTy).Contents (Elt F) → (⟨S3200000x1, .i32⟩ : BufTy).Contents (Elt F)),
    StableHlo.ternary main_v197 main_v198 main_v196 main_v199 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_52 (constant S_ .f32 0x00000000#32),
    StableHlo.unary main_cst_52 main_v200 (broadcastInDim S100000 ![] bcast_S_S100000 : (⟨S_, .f32⟩ : BufTy).Contents (Elt F) → (⟨S100000, .f32⟩ : BufTy).Contents (Elt F)),
    StableHlo.unary main_arg8 main_v201 (broadcastInDim S3200000x1 ![0] bcast_S3200000_S3200000x1_0 : (⟨S3200000, .i32⟩ : BufTy).Contents (Elt F) → (⟨S3200000x1, .i32⟩ : BufTy).Contents (Elt F)),
    StableHlo.ternary main_v200 main_v201 main_v196 main_v202 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_53 (constant S_ .f32 0x3F800000#32),
    StableHlo.TRef.unary (StableHlo.TRef.of main_cst_53 : StableHlo.TRef sig ⟨S_, .f32⟩) main_call14.v0 id,
    StableHlo.TRef.unary main_call14.v0 main_call14.v1 (broadcastInDim S100000 ![] bcast_S_S100000),
    StableHlo.TRef.binary main_call14.v1 (StableHlo.TRef.of main_v199 : StableHlo.TRef sig ⟨S100000, .f32⟩) main_call14.v2 maximumf,
    StableHlo.unary main_v203 main_v204 (Host.rsqrt : (⟨S100000, .f32⟩ : BufTy).Contents (Elt F) → (⟨S100000, .f32⟩ : BufTy).Contents (Elt F)),
    StableHlo.unary main_v204 main_v205 (broadcastInDim S100000x1 ![0] bcast_S100000_S100000x1_0 : (⟨S100000, .f32⟩ : BufTy).Contents (Elt F) → (⟨S100000x1, .f32⟩ : BufTy).Contents (Elt F)),
    StableHlo.unary main_v205 main_v206 (broadcastInDim S100000x32 ![0, 1] bcast_S100000x1_S100000x32_0_1 : (⟨S100000x1, .f32⟩ : BufTy).Contents (Elt F) → (⟨S100000x32, .f32⟩ : BufTy).Contents (Elt F)),
    StableHlo.binary main_v195 main_v206 main_v207 (mulf : (⟨S100000x32, .f32⟩ : BufTy).Contents (Elt F) → (⟨S100000x32, .f32⟩ : BufTy).Contents (Elt F) → (⟨S100000x32, .f32⟩ : BufTy).Contents (Elt F)),
    StableHlo.nullary main_c_54 (constantI S_ 32 0#32),
    StableHlo.unary main_c_54 main_v208 (broadcastInDim S3200000 ![] bcast_S_S3200000 : (⟨S_, .i32⟩ : BufTy).Contents (Elt F) → (⟨S3200000, .i32⟩ : BufTy).Contents (Elt F)),
    StableHlo.binary main_arg7 main_v208 main_v209 (cmpi .slt : (⟨S3200000, .i32⟩ : BufTy).Contents (Elt F) → (⟨S3200000, .i32⟩ : BufTy).Contents (Elt F) → (⟨S3200000, .i1⟩ : BufTy).Contents (Elt F)),
    StableHlo.nullary main_c_55 (constantI S_ 32 100000#32),
    StableHlo.unary main_c_55 main_v210 (broadcastInDim S3200000 ![] bcast_S_S3200000 : (⟨S_, .i32⟩ : BufTy).Contents (Elt F) → (⟨S3200000, .i32⟩ : BufTy).Contents (Elt F)),
    StableHlo.binary main_arg7 main_v210 main_v211 (addi : (⟨S3200000, .i32⟩ : BufTy).Contents (Elt F) → (⟨S3200000, .i32⟩ : BufTy).Contents (Elt F) → (⟨S3200000, .i32⟩ : BufTy).Contents (Elt F)),
    StableHlo.ternary main_v209 main_v211 main_arg7 main_v212 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v212 main_v213 (broadcastInDim S3200000x1 ![0] bcast_S3200000_S3200000x1_0 : (⟨S3200000, .i32⟩ : BufTy).Contents (Elt F) → (⟨S3200000x1, .i32⟩ : BufTy).Contents (Elt F)),
    StableHlo.binary main_v207 main_v213 main_v214 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_56 (constant S_ .f32 0x00000000#32),
    StableHlo.unary main_cst_56 main_v215 (broadcastInDim S100000x32 ![] bcast_S_S100000x32 : (⟨S_, .f32⟩ : BufTy).Contents (Elt F) → (⟨S100000x32, .f32⟩ : BufTy).Contents (Elt F)),
    StableHlo.unary main_arg8 main_v216 (broadcastInDim S3200000x1 ![0] bcast_S3200000_S3200000x1_0 : (⟨S3200000, .i32⟩ : BufTy).Contents (Elt F) → (⟨S3200000x1, .i32⟩ : BufTy).Contents (Elt F)),
    StableHlo.ternary main_v215 main_v216 main_v214 main_v217 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_57 (constant S_ .f32 0x3F800000#32),
    StableHlo.TRef.unary (StableHlo.TRef.of main_cst_57 : StableHlo.TRef sig ⟨S_, .f32⟩) main_call15.v0 id,
    StableHlo.TRef.unary main_call15.v0 main_call15.v1 (broadcastInDim S100000 ![] bcast_S_S100000),
    StableHlo.TRef.binary main_call15.v1 (StableHlo.TRef.of main_v202 : StableHlo.TRef sig ⟨S100000, .f32⟩) main_call15.v2 maximumf,
    StableHlo.unary main_v218 main_v219 (Host.rsqrt : (⟨S100000, .f32⟩ : BufTy).Contents (Elt F) → (⟨S100000, .f32⟩ : BufTy).Contents (Elt F)),
    StableHlo.unary main_v219 main_v220 (broadcastInDim S100000x1 ![0] bcast_S100000_S100000x1_0 : (⟨S100000, .f32⟩ : BufTy).Contents (Elt F) → (⟨S100000x1, .f32⟩ : BufTy).Contents (Elt F)),
    StableHlo.unary main_v220 main_v221 (broadcastInDim S100000x32 ![0, 1] bcast_S100000x1_S100000x32_0_1 : (⟨S100000x1, .f32⟩ : BufTy).Contents (Elt F) → (⟨S100000x32, .f32⟩ : BufTy).Contents (Elt F)),
    StableHlo.binary main_v217 main_v221 main_v222 (mulf : (⟨S100000x32, .f32⟩ : BufTy).Contents (Elt F) → (⟨S100000x32, .f32⟩ : BufTy).Contents (Elt F) → (⟨S100000x32, .f32⟩ : BufTy).Contents (Elt F)),
    StableHlo.nullary main_cst_58 (constant S_ .f32 0x3F800000#32),
    StableHlo.unary main_cst_58 main_v223 (broadcastInDim S3200000 ![] bcast_S_S3200000 : (⟨S_, .f32⟩ : BufTy).Contents (Elt F) → (⟨S3200000, .f32⟩ : BufTy).Contents (Elt F)),
    StableHlo.nullary main_cst_59 (constant S_ .f32 0x00000000#32),
    StableHlo.unary main_cst_59 main_v224 (broadcastInDim S100000 ![] bcast_S_S100000 : (⟨S_, .f32⟩ : BufTy).Contents (Elt F) → (⟨S100000, .f32⟩ : BufTy).Contents (Elt F)),
    StableHlo.unary main_arg9 main_v225 (broadcastInDim S3200000x1 ![0] bcast_S3200000_S3200000x1_0 : (⟨S3200000, .i32⟩ : BufTy).Contents (Elt F) → (⟨S3200000x1, .i32⟩ : BufTy).Contents (Elt F)),
    StableHlo.ternary main_v224 main_v225 main_v223 main_v226 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_60 (constant S_ .f32 0x00000000#32),
    StableHlo.unary main_cst_60 main_v227 (broadcastInDim S100000 ![] bcast_S_S100000 : (⟨S_, .f32⟩ : BufTy).Contents (Elt F) → (⟨S100000, .f32⟩ : BufTy).Contents (Elt F)),
    StableHlo.unary main_arg10 main_v228 (broadcastInDim S3200000x1 ![0] bcast_S3200000_S3200000x1_0 : (⟨S3200000, .i32⟩ : BufTy).Contents (Elt F) → (⟨S3200000x1, .i32⟩ : BufTy).Contents (Elt F)),
    StableHlo.ternary main_v227 main_v228 main_v223 main_v229 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_61 (constant S_ .f32 0x3F800000#32),
    StableHlo.TRef.unary (StableHlo.TRef.of main_cst_61 : StableHlo.TRef sig ⟨S_, .f32⟩) main_call16.v0 id,
    StableHlo.TRef.unary main_call16.v0 main_call16.v1 (broadcastInDim S100000 ![] bcast_S_S100000),
    StableHlo.TRef.binary main_call16.v1 (StableHlo.TRef.of main_v226 : StableHlo.TRef sig ⟨S100000, .f32⟩) main_call16.v2 maximumf,
    StableHlo.unary main_v230 main_v231 (Host.rsqrt : (⟨S100000, .f32⟩ : BufTy).Contents (Elt F) → (⟨S100000, .f32⟩ : BufTy).Contents (Elt F)),
    StableHlo.unary main_v231 main_v232 (broadcastInDim S100000x1 ![0] bcast_S100000_S100000x1_0 : (⟨S100000, .f32⟩ : BufTy).Contents (Elt F) → (⟨S100000x1, .f32⟩ : BufTy).Contents (Elt F)),
    StableHlo.unary main_v232 main_v233 (broadcastInDim S100000x32 ![0, 1] bcast_S100000x1_S100000x32_0_1 : (⟨S100000x1, .f32⟩ : BufTy).Contents (Elt F) → (⟨S100000x32, .f32⟩ : BufTy).Contents (Elt F)),
    StableHlo.binary main_v195 main_v233 main_v234 (mulf : (⟨S100000x32, .f32⟩ : BufTy).Contents (Elt F) → (⟨S100000x32, .f32⟩ : BufTy).Contents (Elt F) → (⟨S100000x32, .f32⟩ : BufTy).Contents (Elt F)),
    StableHlo.nullary main_c_62 (constantI S_ 32 0#32) ]

/-- Window 4 is that straight line: the callees' definitions unfold at their calls, the records at their fields. -/
theorem main_part4_eq (c : Dev nD) : main_part4 (F := F) c = seq ops4 := rfl

/-- Every buffer the window's operations touch is a TensorCore reference. -/
theorem ops4_sub : (ops4 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub ..⟩

/-- Every operation of the window determines its results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW5.lean ====
/- The text of the list below was produced by: python3 scratch/gen_refops.py .   (run in the unit's directory; it writes proof/Proof/RefW0.lean … RefW10.lean) — a table read off the printed lines of window
   main_part5 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 5 of @main, in order, each call's operations in the callee's order over the call's record. -/
abbrev ops5 : List (HloOp τ sig (Elt F)) :=
  [ StableHlo.unary main_c_62 main_v235 (broadcastInDim S3200000 ![] bcast_S_S3200000 : (⟨S_, .i32⟩ : BufTy).Contents (Elt F) → (⟨S3200000, .i32⟩ : BufTy).Contents (Elt F)),
    StableHlo.binary main_arg9 main_v235 main_v236 (cmpi .slt : (⟨S3200000, .i32⟩ : BufTy).Contents (Elt F) → (⟨S3200000, .i32⟩ : BufTy).Contents (Elt F) → (⟨S3200000, .i1⟩ : BufTy).Contents (Elt F)),
    StableHlo.nullary main_c_63 (constantI S_ 32 100000#32),
    StableHlo.unary main_c_63 main_v237 (broadcastInDim S3200000 ![] bcast_S_S3200000 : (⟨S_, .i32⟩ : BufTy).Contents (Elt F) → (⟨S3200000, .i32⟩ : BufTy).Contents (Elt F)),
    StableHlo.binary main_arg9 main_v237 main_v238 (addi : (⟨S3200000, .i32⟩ : BufTy).Contents (Elt F) → (⟨S3200000, .i32⟩ : BufTy).Contents (Elt F) → (⟨S3200000, .i32⟩ : BufTy).Contents (Elt F)),
    StableHlo.ternary main_v236 main_v238 main_arg9 main_v239 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v239 main_v240 (broadcastInDim S3200000x1 ![0] bcast_S3200000_S3200000x1_0 : (⟨S3200000, .i32⟩ : BufTy).Contents (Elt F) → (⟨S3200000x1, .i32⟩ : BufTy).Contents (Elt F)),
    StableHlo.binary main_v234 main_v240 main_v241 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_64 (constant S_ .f32 0x00000000#32),
    StableHlo.unary main_cst_64 main_v242 (broadcastInDim S100000x32 ![] bcast_S_S100000x32 : (⟨S_, .f32⟩ : BufTy).Contents (Elt F) → (⟨S100000x32, .f32⟩ : BufTy).Contents (Elt F)),
    StableHlo.unary main_arg10 main_v243 (broadcastInDim S3200000x1 ![0] bcast_S3200000_S3200000x1_0 : (⟨S3200000, .i32⟩ : BufTy).Contents (Elt F) → (⟨S3200000x1, .i32⟩ : BufTy).Contents (Elt F)),
    StableHlo.ternary main_v242 main_v243 main_v241 main_v244 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_65 (constant S_ .f32 0x3F800000#32),
    StableHlo.TRef.unary (StableHlo.TRef.of main_cst_65 : StableHlo.TRef sig ⟨S_, .f32⟩) main_call17.v0 id,
    StableHlo.TRef.unary main_call17.v0 main_call17.v1 (broadcastInDim S100000 ![] bcast_S_S100000),
    StableHlo.TRef.binary main_call17.v1 (StableHlo.TRef.of main_v229 : StableHlo.TRef sig ⟨S100000, .f32⟩) main_call17.v2 maximumf,
    StableHlo.unary main_v245 main_v246 (Host.rsqrt : (⟨S100000, .f32⟩ : BufTy).Contents (Elt F) → (⟨S100000, .f32⟩ : BufTy).Contents (Elt F)),
    StableHlo.unary main_v246 main_v247 (broadcastInDim S100000x1 ![0] bcast_S100000_S100000x1_0 : (⟨S100000, .f32⟩ : BufTy).Contents (Elt F) → (⟨S100000x1, .f32⟩ : BufTy).Contents (Elt F)),
    StableHlo.unary main_v247 main_v248 (broadcastInDim S100000x32 ![0, 1] bcast_S100000x1_S100000x32_0_1 : (⟨S100000x1, .f32⟩ : BufTy).Contents (Elt F) → (⟨S100000x32, .f32⟩ : BufTy).Contents (Elt F)),
    StableHlo.binary main_v244 main_v248 main_v249 (mulf : (⟨S100000x32, .f32⟩ : BufTy).Contents (Elt F) → (⟨S100000x32, .f32⟩ : BufTy).Contents (Elt F) → (⟨S100000x32, .f32⟩ : BufTy).Contents (Elt F)),
    StableHlo.binary main_v222 main_v249 main_v250 (subf : (⟨S100000x32, .f32⟩ : BufTy).Contents (Elt F) → (⟨S100000x32, .f32⟩ : BufTy).Contents (Elt F) → (⟨S100000x32, .f32⟩ : BufTy).Contents (Elt F)),
    StableHlo.binary main_v250 main_v27 main_v251 (addf : (⟨S100000x32, .f32⟩ : BufTy).Contents (Elt F) → (⟨S100000x32, .f32⟩ : BufTy).Contents (Elt F) → (⟨S100000x32, .f32⟩ : BufTy).Contents (Elt F)),
    StableHlo.nullary main_cst_66 (constant S_ .f32 0x3F800000#32),
    StableHlo.unary main_cst_66 main_v252 (broadcastInDim S3200000 ![] bcast_S_S3200000 : (⟨S_, .f32⟩ : BufTy).Contents (Elt F) → (⟨S3200000, .f32⟩ : BufTy).Contents (Elt F)),
    StableHlo.nullary main_cst_67 (constant S_ .f32 0x00000000#32),
    StableHlo.unary main_cst_67 main_v253 (broadcastInDim S100000 ![] bcast_S_S100000 : (⟨S_, .f32⟩ : BufTy).Contents (Elt F) → (⟨S100000, .f32⟩ : BufTy).Contents (Elt F)),
    StableHlo.unary main_arg7 main_v254 (broadcastInDim S3200000x1 ![0] bcast_S3200000_S3200000x1_0 : (⟨S3200000, .i32⟩ : BufTy).Contents (Elt F) → (⟨S3200000x1, .i32⟩ : BufTy).Contents (Elt F)),
    StableHlo.ternary main_v253 main_v254 main_v252 main_v255 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_68 (constant S_ .f32 0x00000000#32),
    StableHlo.unary main_cst_68 main_v256 (broadcastInDim S100000 ![] bcast_S_S100000 : (⟨S_, .f32⟩ : BufTy).Contents (Elt F) → (⟨S100000, .f32⟩ : BufTy).Contents (Elt F)),
    StableHlo.unary main_arg8 main_v257 (broadcastInDim S3200000x1 ![0] bcast_S3200000_S3200000x1_0 : (⟨S3200000, .i32⟩ : BufTy).Contents (Elt F) → (⟨S3200000x1, .i32⟩ : BufTy).Contents (Elt F)),
    StableHlo.ternary main_v256 main_v257 main_v252 main_v258 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_69 (constant S_ .f32 0x3F800000#32),
    StableHlo.TRef.unary (StableHlo.TRef.of main_cst_69 : StableHlo.TRef sig ⟨S_, .f32⟩) main_call18.v0 id,
    StableHlo.TRef.unary main_call18.v0 main_call18.v1 (broadcastInDim S100000 ![] bcast_S_S100000),
    StableHlo.TRef.binary main_call18.v1 (StableHlo.TRef.of main_v255 : StableHlo.TRef sig ⟨S100000, .f32⟩) main_call18.v2 maximumf,
    StableHlo.unary main_v259 main_v260 (Host.rsqrt : (⟨S100000, .f32⟩ : BufTy).Contents (Elt F) → (⟨S100000, .f32⟩ : BufTy).Contents (Elt F)),
    StableHlo.unary main_v260 main_v261 (broadcastInDim S100000x1 ![0] bcast_S100000_S100000x1_0 : (⟨S100000, .f32⟩ : BufTy).Contents (Elt F) → (⟨S100000x1, .f32⟩ : BufTy).Contents (Elt F)),
    StableHlo.unary main_v261 main_v262 (broadcastInDim S100000x32 ![0, 1] bcast_S100000x1_S100000x32_0_1 : (⟨S100000x1, .f32⟩ : BufTy).Contents (Elt F) → (⟨S100000x32, .f32⟩ : BufTy).Contents (Elt F)),
    StableHlo.binary main_v251 main_v262 main_v263 (mulf : (⟨S100000x32, .f32⟩ : BufTy).Contents (Elt F) → (⟨S100000x32, .f32⟩ : BufTy).Contents (Elt F) → (⟨S100000x32, .f32⟩ : BufTy).Contents (Elt F)),
    StableHlo.nullary main_c_70 (constantI S_ 32 0#32),
    StableHlo.unary main_c_70 main_v264 (broadcastInDim S3200000 ![] bcast_S_S3200000 : (⟨S_, .i32⟩ : BufTy).Contents (Elt F) → (⟨S3200000, .i32⟩ : BufTy).Contents (Elt F)),
    StableHlo.binary main_arg7 main_v264 main_v265 (cmpi .slt : (⟨S3200000, .i32⟩ : BufTy).Contents (Elt F) → (⟨S3200000, .i32⟩ : BufTy).Contents (Elt F) → (⟨S3200000, .i1⟩ : BufTy).Contents (Elt F)),
    StableHlo.nullary main_c_71 (constantI S_ 32 100000#32),
    StableHlo.unary main_c_71 main_v266 (broadcastInDim S3200000 ![] bcast_S_S3200000 : (⟨S_, .i32⟩ : BufTy).Contents (Elt F) → (⟨S3200000, .i32⟩ : BufTy).Contents (Elt F)),
    StableHlo.binary main_arg7 main_v266 main_v267 (addi : (⟨S3200000, .i32⟩ : BufTy).Contents (Elt F) → (⟨S3200000, .i32⟩ : BufTy).Contents (Elt F) → (⟨S3200000, .i32⟩ : BufTy).Contents (Elt F)),
    StableHlo.ternary main_v265 main_v267 main_arg7 main_v268 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v268 main_v269 (broadcastInDim S3200000x1 ![0] bcast_S3200000_S3200000x1_0 : (⟨S3200000, .i32⟩ : BufTy).Contents (Elt F) → (⟨S3200000x1, .i32⟩ : BufTy).Contents (Elt F)),
    StableHlo.binary main_v263 main_v269 main_v270 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_72 (constant S_ .f32 0x00000000#32),
    StableHlo.unary main_cst_72 main_v271 (broadcastInDim S100000x32 ![] bcast_S_S100000x32 : (⟨S_, .f32⟩ : BufTy).Contents (Elt F) → (⟨S100000x32, .f32⟩ : BufTy).Contents (Elt F)),
    StableHlo.unary main_arg8 main_v272 (broadcastInDim S3200000x1 ![0] bcast_S3200000_S3200000x1_0 : (⟨S3200000, .i32⟩ : BufTy).Contents (Elt F) → (⟨S3200000x1, .i32⟩ : BufTy).Contents (Elt F)),
    StableHlo.ternary main_v271 main_v272 main_v270 main_v273 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_73 (constant S_ .f32 0x3F800000#32),
    StableHlo.TRef.unary (StableHlo.TRef.of main_cst_73 : StableHlo.TRef sig ⟨S_, .f32⟩) main_call19.v0 id,
    StableHlo.TRef.unary main_call19.v0 main_call19.v1 (broadcastInDim S100000 ![] bcast_S_S100000),
    StableHlo.TRef.binary main_call19.v1 (StableHlo.TRef.of main_v258 : StableHlo.TRef sig ⟨S100000, .f32⟩) main_call19.v2 maximumf,
    StableHlo.unary main_v274 main_v275 (Host.rsqrt : (⟨S100000, .f32⟩ : BufTy).Contents (Elt F) → (⟨S100000, .f32⟩ : BufTy).Contents (Elt F)),
    StableHlo.unary main_v275 main_v276 (broadcastInDim S100000x1 ![0] bcast_S100000_S100000x1_0 : (⟨S100000, .f32⟩ : BufTy).Contents (Elt F) → (⟨S100000x1, .f32⟩ : BufTy).Contents (Elt F)),
    StableHlo.unary main_v276 main_v277 (broadcastInDim S100000x32 ![0, 1] bcast_S100000x1_S100000x32_0_1 : (⟨S100000x1, .f32⟩ : BufTy).Contents (Elt F) → (⟨S100000x32, .f32⟩ : BufTy).Contents (Elt F)),
    StableHlo.binary main_v273 main_v277 main_v278 (mulf : (⟨S100000x32, .f32⟩ : BufTy).Contents (Elt F) → (⟨S100000x32, .f32⟩ : BufTy).Contents (Elt F) → (⟨S100000x32, .f32⟩ : BufTy).Contents (Elt F)),
    StableHlo.nullary main_cst_74 (constant S_ .f32 0x3F800000#32),
    StableHlo.unary main_cst_74 main_v279 (broadcastInDim S3200000 ![] bcast_S_S3200000 : (⟨S_, .f32⟩ : BufTy).Contents (Elt F) → (⟨S3200000, .f32⟩ : BufTy).Contents (Elt F)),
    StableHlo.nullary main_cst_75 (constant S_ .f32 0x00000000#32),
    StableHlo.unary main_cst_75 main_v280 (broadcastInDim S100000 ![] bcast_S_S100000 : (⟨S_, .f32⟩ : BufTy).Contents (Elt F) → (⟨S100000, .f32⟩ : BufTy).Contents (Elt F)),
    StableHlo.unary main_arg9 main_v281 (broadcastInDim S3200000x1 ![0] bcast_S3200000_S3200000x1_0 : (⟨S3200000, .i32⟩ : BufTy).Contents (Elt F) → (⟨S3200000x1, .i32⟩ : BufTy).Contents (Elt F)) ]

/-- Window 5 is that straight line: the callees' definitions unfold at their calls, the records at their fields. -/
theorem main_part5_eq (c : Dev nD) : main_part5 (F := F) c = seq ops5 := rfl

/-- Every buffer the window's operations touch is a TensorCore reference. -/
theorem ops5_sub : (ops5 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub ..⟩

/-- Every operation of the window determines its results. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW6.lean ====
/- The text of the list below was produced by: python3 scratch/gen_refops.py .   (run in the unit's directory; it writes proof/Proof/RefW0.lean … RefW10.lean) — a table read off the printed lines of window
   main_part6 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 6 of @main, in order, each call's operations in the callee's order over the call's record. -/
abbrev ops6 : List (HloOp τ sig (Elt F)) :=
  [ StableHlo.ternary main_v280 main_v281 main_v279 main_v282 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_76 (constant S_ .f32 0x00000000#32),
    StableHlo.unary main_cst_76 main_v283 (broadcastInDim S100000 ![] bcast_S_S100000 : (⟨S_, .f32⟩ : BufTy).Contents (Elt F) → (⟨S100000, .f32⟩ : BufTy).Contents (Elt F)),
    StableHlo.unary main_arg10 main_v284 (broadcastInDim S3200000x1 ![0] bcast_S3200000_S3200000x1_0 : (⟨S3200000, .i32⟩ : BufTy).Contents (Elt F) → (⟨S3200000x1, .i32⟩ : BufTy).Contents (Elt F)),
    StableHlo.ternary main_v283 main_v284 main_v279 main_v285 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_77 (constant S_ .f32 0x3F800000#32),
    StableHlo.TRef.unary (StableHlo.TRef.of main_cst_77 : StableHlo.TRef sig ⟨S_, .f32⟩) main_call20.v0 id,
    StableHlo.TRef.unary main_call20.v0 main_call20.v1 (broadcastInDim S100000 ![] bcast_S_S100000),
    StableHlo.TRef.binary main_call20.v1 (StableHlo.TRef.of main_v282 : StableHlo.TRef sig ⟨S100000, .f32⟩) main_call20.v2 maximumf,
    StableHlo.unary main_v286 main_v287 (Host.rsqrt : (⟨S100000, .f32⟩ : BufTy).Contents (Elt F) → (⟨S100000, .f32⟩ : BufTy).Contents (Elt F)),
    StableHlo.unary main_v287 main_v288 (broadcastInDim S100000x1 ![0] bcast_S100000_S100000x1_0 : (⟨S100000, .f32⟩ : BufTy).Contents (Elt F) → (⟨S100000x1, .f32⟩ : BufTy).Contents (Elt F)),
    StableHlo.unary main_v288 main_v289 (broadcastInDim S100000x32 ![0, 1] bcast_S100000x1_S100000x32_0_1 : (⟨S100000x1, .f32⟩ : BufTy).Contents (Elt F) → (⟨S100000x32, .f32⟩ : BufTy).Contents (Elt F)),
    StableHlo.binary main_v251 main_v289 main_v290 (mulf : (⟨S100000x32, .f32⟩ : BufTy).Contents (Elt F) → (⟨S100000x32, .f32⟩ : BufTy).Contents (Elt F) → (⟨S100000x32, .f32⟩ : BufTy).Contents (Elt F)),
    StableHlo.nullary main_c_78 (constantI S_ 32 0#32),
    StableHlo.unary main_c_78 main_v291 (broadcastInDim S3200000 ![] bcast_S_S3200000 : (⟨S_, .i32⟩ : BufTy).Contents (Elt F) → (⟨S3200000, .i32⟩ : BufTy).Contents (Elt F)),
    StableHlo.binary main_arg9 main_v291 main_v292 (cmpi .slt : (⟨S3200000, .i32⟩ : BufTy).Contents (Elt F) → (⟨S3200000, .i32⟩ : BufTy).Contents (Elt F) → (⟨S3200000, .i1⟩ : BufTy).Contents (Elt F)),
    StableHlo.nullary main_c_79 (constantI S_ 32 100000#32),
    StableHlo.unary main_c_79 main_v293 (broadcastInDim S3200000 ![] bcast_S_S3200000 : (⟨S_, .i32⟩ : BufTy).Contents (Elt F) → (⟨S3200000, .i32⟩ : BufTy).Contents (Elt F)),
    StableHlo.binary main_arg9 main_v293 main_v294 (addi : (⟨S3200000, .i32⟩ : BufTy).Contents (Elt F) → (⟨S3200000, .i32⟩ : BufTy).Contents (Elt F) → (⟨S3200000, .i32⟩ : BufTy).Contents (Elt F)),
    StableHlo.ternary main_v292 main_v294 main_arg9 main_v295 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v295 main_v296 (broadcastInDim S3200000x1 ![0] bcast_S3200000_S3200000x1_0 : (⟨S3200000, .i32⟩ : BufTy).Contents (Elt F) → (⟨S3200000x1, .i32⟩ : BufTy).Contents (Elt F)),
    StableHlo.binary main_v290 main_v296 main_v297 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_80 (constant S_ .f32 0x00000000#32),
    StableHlo.unary main_cst_80 main_v298 (broadcastInDim S100000x32 ![] bcast_S_S100000x32 : (⟨S_, .f32⟩ : BufTy).Contents (Elt F) → (⟨S100000x32, .f32⟩ : BufTy).Contents (Elt F)),
    StableHlo.unary main_arg10 main_v299 (broadcastInDim S3200000x1 ![0] bcast_S3200000_S3200000x1_0 : (⟨S3200000, .i32⟩ : BufTy).Contents (Elt F) → (⟨S3200000x1, .i32⟩ : BufTy).Contents (Elt F)),
    StableHlo.ternary main_v298 main_v299 main_v297 main_v300 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_81 (constant S_ .f32 0x3F800000#32),
    StableHlo.TRef.unary (StableHlo.TRef.of main_cst_81 : StableHlo.TRef sig ⟨S_, .f32⟩) main_call21.v0 id,
    StableHlo.TRef.unary main_call21.v0 main_call21.v1 (broadcastInDim S100000 ![] bcast_S_S100000),
    StableHlo.TRef.binary main_call21.v1 (StableHlo.TRef.of main_v285 : StableHlo.TRef sig ⟨S100000, .f32⟩) main_call21.v2 maximumf,
    StableHlo.unary main_v301 main_v302 (Host.rsqrt : (⟨S100000, .f32⟩ : BufTy).Contents (Elt F) → (⟨S100000, .f32⟩ : BufTy).Contents (Elt F)),
    StableHlo.unary main_v302 main_v303 (broadcastInDim S100000x1 ![0] bcast_S100000_S100000x1_0 : (⟨S100000, .f32⟩ : BufTy).Contents (Elt F) → (⟨S100000x1, .f32⟩ : BufTy).Contents (Elt F)),
    StableHlo.unary main_v303 main_v304 (broadcastInDim S100000x32 ![0, 1] bcast_S100000x1_S100000x32_0_1 : (⟨S100000x1, .f32⟩ : BufTy).Contents (Elt F) → (⟨S100000x32, .f32⟩ : BufTy).Contents (Elt F)),
    StableHlo.binary main_v300 main_v304 main_v305 (mulf : (⟨S100000x32, .f32⟩ : BufTy).Contents (Elt F) → (⟨S100000x32, .f32⟩ : BufTy).Contents (Elt F) → (⟨S100000x32, .f32⟩ : BufTy).Contents (Elt F)),
    StableHlo.binary main_v278 main_v305 main_v306 (subf : (⟨S100000x32, .f32⟩ : BufTy).Contents (Elt F) → (⟨S100000x32, .f32⟩ : BufTy).Contents (Elt F) → (⟨S100000x32, .f32⟩ : BufTy).Contents (Elt F)),
    StableHlo.binary main_v306 main_v27 main_v307 (addf : (⟨S100000x32, .f32⟩ : BufTy).Contents (Elt F) → (⟨S100000x32, .f32⟩ : BufTy).Contents (Elt F) → (⟨S100000x32, .f32⟩ : BufTy).Contents (Elt F)),
    StableHlo.nullary main_cst_82 (constant S_ .f32 0x3F800000#32),
    StableHlo.unary main_cst_82 main_v308 (broadcastInDim S3200000 ![] bcast_S_S3200000 : (⟨S_, .f32⟩ : BufTy).Contents (Elt F) → (⟨S3200000, .f32⟩ : BufTy).Contents (Elt F)),
    StableHlo.nullary main_cst_83 (constant S_ .f32 0x00000000#32),
    StableHlo.unary main_cst_83 main_v309 (broadcastInDim S100000 ![] bcast_S_S100000 : (⟨S_, .f32⟩ : BufTy).Contents (Elt F) → (⟨S100000, .f32⟩ : BufTy).Contents (Elt F)),
    StableHlo.unary main_arg7 main_v310 (broadcastInDim S3200000x1 ![0] bcast_S3200000_S3200000x1_0 : (⟨S3200000, .i32⟩ : BufTy).Contents (Elt F) → (⟨S3200000x1, .i32⟩ : BufTy).Contents (Elt F)),
    StableHlo.ternary main_v309 main_v310 main_v308 main_v311 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_84 (constant S_ .f32 0x00000000#32),
    StableHlo.unary main_cst_84 main_v312 (broadcastInDim S100000 ![] bcast_S_S100000 : (⟨S_, .f32⟩ : BufTy).Contents (Elt F) → (⟨S100000, .f32⟩ : BufTy).Contents (Elt F)),
    StableHlo.unary main_arg8 main_v313 (broadcastInDim S3200000x1 ![0] bcast_S3200000_S3200000x1_0 : (⟨S3200000, .i32⟩ : BufTy).Contents (Elt F) → (⟨S3200000x1, .i32⟩ : BufTy).Contents (Elt F)),
    StableHlo.ternary main_v312 main_v313 main_v308 main_v314 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_85 (constant S_ .f32 0x3F800000#32),
    StableHlo.TRef.unary (StableHlo.TRef.of main_cst_85 : StableHlo.TRef sig ⟨S_, .f32⟩) main_call22.v0 id,
    StableHlo.TRef.unary main_call22.v0 main_call22.v1 (broadcastInDim S100000 ![] bcast_S_S100000),
    StableHlo.TRef.binary main_call22.v1 (StableHlo.TRef.of main_v311 : StableHlo.TRef sig ⟨S100000, .f32⟩) main_call22.v2 maximumf,
    StableHlo.unary main_v315 main_v316 (Host.rsqrt : (⟨S100000, .f32⟩ : BufTy).Contents (Elt F) → (⟨S100000, .f32⟩ : BufTy).Contents (Elt F)),
    StableHlo.unary main_v316 main_v317 (broadcastInDim S100000x1 ![0] bcast_S100000_S100000x1_0 : (⟨S100000, .f32⟩ : BufTy).Contents (Elt F) → (⟨S100000x1, .f32⟩ : BufTy).Contents (Elt F)),
    StableHlo.unary main_v317 main_v318 (broadcastInDim S100000x32 ![0, 1] bcast_S100000x1_S100000x32_0_1 : (⟨S100000x1, .f32⟩ : BufTy).Contents (Elt F) → (⟨S100000x32, .f32⟩ : BufTy).Contents (Elt F)),
    StableHlo.binary main_v307 main_v318 main_v319 (mulf : (⟨S100000x32, .f32⟩ : BufTy).Contents (Elt F) → (⟨S100000x32, .f32⟩ : BufTy).Contents (Elt F) → (⟨S100000x32, .f32⟩ : BufTy).Contents (Elt F)),
    StableHlo.nullary main_c_86 (constantI S_ 32 0#32),
    StableHlo.unary main_c_86 main_v320 (broadcastInDim S3200000 ![] bcast_S_S3200000 : (⟨S_, .i32⟩ : BufTy).Contents (Elt F) → (⟨S3200000, .i32⟩ : BufTy).Contents (Elt F)),
    StableHlo.binary main_arg7 main_v320 main_v321 (cmpi .slt : (⟨S3200000, .i32⟩ : BufTy).Contents (Elt F) → (⟨S3200000, .i32⟩ : BufTy).Contents (Elt F) → (⟨S3200000, .i1⟩ : BufTy).Contents (Elt F)),
    StableHlo.nullary main_c_87 (constantI S_ 32 100000#32),
    StableHlo.unary main_c_87 main_v322 (broadcastInDim S3200000 ![] bcast_S_S3200000 : (⟨S_, .i32⟩ : BufTy).Contents (Elt F) → (⟨S3200000, .i32⟩ : BufTy).Contents (Elt F)),
    StableHlo.binary main_arg7 main_v322 main_v323 (addi : (⟨S3200000, .i32⟩ : BufTy).Contents (Elt F) → (⟨S3200000, .i32⟩ : BufTy).Contents (Elt F) → (⟨S3200000, .i32⟩ : BufTy).Contents (Elt F)),
    StableHlo.ternary main_v321 main_v323 main_arg7 main_v324 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v324 main_v325 (broadcastInDim S3200000x1 ![0] bcast_S3200000_S3200000x1_0 : (⟨S3200000, .i32⟩ : BufTy).Contents (Elt F) → (⟨S3200000x1, .i32⟩ : BufTy).Contents (Elt F)),
    StableHlo.binary main_v319 main_v325 main_v326 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_88 (constant S_ .f32 0x00000000#32),
    StableHlo.unary main_cst_88 main_v327 (broadcastInDim S100000x32 ![] bcast_S_S100000x32 : (⟨S_, .f32⟩ : BufTy).Contents (Elt F) → (⟨S100000x32, .f32⟩ : BufTy).Contents (Elt F)),
    StableHlo.unary main_arg8 main_v328 (broadcastInDim S3200000x1 ![0] bcast_S3200000_S3200000x1_0 : (⟨S3200000, .i32⟩ : BufTy).Contents (Elt F) → (⟨S3200000x1, .i32⟩ : BufTy).Contents (Elt F)) ]

/-- Window 6 is that straight line: the callees' definitions unfold at their calls, the records at their fields. -/
theorem main_part6_eq (c : Dev nD) : main_part6 (F := F) c = seq ops6 := rfl

/-- Every buffer the window's operations touch is a TensorCore reference. -/
theorem ops6_sub : (ops6 : List (HloOp τ sig (Elt F))).Forall fun op => op.bufs ⊆ tcRefs τ sig :=
  ⟨ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

/-- Every operation of the window determines its results. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW7.lean ====
/- The text of the list below was produced by: python3 scratch/gen_refops.py .   (run in the unit's directory; it writes proof/Proof/RefW0.lean … RefW10.lean) — a table read off the printed lines of window
   main_part7 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 68 operations of window 7 of @main, in order, each call's operations in the callee's order over the call's record. -/
abbrev ops7 : List (HloOp τ sig (Elt F)) :=
  [ StableHlo.ternary main_v327 main_v328 main_v326 main_v329 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_89 (constant S_ .f32 0x3F800000#32),
    StableHlo.TRef.unary (StableHlo.TRef.of main_cst_89 : StableHlo.TRef sig ⟨S_, .f32⟩) main_call23.v0 id,
    StableHlo.TRef.unary main_call23.v0 main_call23.v1 (broadcastInDim S100000 ![] bcast_S_S100000),
    StableHlo.TRef.binary main_call23.v1 (StableHlo.TRef.of main_v314 : StableHlo.TRef sig ⟨S100000, .f32⟩) main_call23.v2 maximumf,
    StableHlo.unary main_v330 main_v331 (Host.rsqrt : (⟨S100000, .f32⟩ : BufTy).Contents (Elt F) → (⟨S100000, .f32⟩ : BufTy).Contents (Elt F)),
    StableHlo.unary main_v331 main_v332 (broadcastInDim S100000x1 ![0] bcast_S100000_S100000x1_0 : (⟨S100000, .f32⟩ : BufTy).Contents (Elt F) → (⟨S100000x1, .f32⟩ : BufTy).Contents (Elt F)),
    StableHlo.unary main_v332 main_v333 (broadcastInDim S100000x32 ![0, 1] bcast_S100000x1_S100000x32_0_1 : (⟨S100000x1, .f32⟩ : BufTy).Contents (Elt F) → (⟨S100000x32, .f32⟩ : BufTy).Contents (Elt F)),
    StableHlo.binary main_v329 main_v333 main_v334 (mulf : (⟨S100000x32, .f32⟩ : BufTy).Contents (Elt F) → (⟨S100000x32, .f32⟩ : BufTy).Contents (Elt F) → (⟨S100000x32, .f32⟩ : BufTy).Contents (Elt F)),
    StableHlo.nullary main_cst_90 (constant S_ .f32 0x3F800000#32),
    StableHlo.unary main_cst_90 main_v335 (broadcastInDim S3200000 ![] bcast_S_S3200000 : (⟨S_, .f32⟩ : BufTy).Contents (Elt F) → (⟨S3200000, .f32⟩ : BufTy).Contents (Elt F)),
    StableHlo.nullary main_cst_91 (constant S_ .f32 0x00000000#32),
    StableHlo.unary main_cst_91 main_v336 (broadcastInDim S100000 ![] bcast_S_S100000 : (⟨S_, .f32⟩ : BufTy).Contents (Elt F) → (⟨S100000, .f32⟩ : BufTy).Contents (Elt F)),
    StableHlo.unary main_arg9 main_v337 (broadcastInDim S3200000x1 ![0] bcast_S3200000_S3200000x1_0 : (⟨S3200000, .i32⟩ : BufTy).Contents (Elt F) → (⟨S3200000x1, .i32⟩ : BufTy).Contents (Elt F)),
    StableHlo.ternary main_v336 main_v337 main_v335 main_v338 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_92 (constant S_ .f32 0x00000000#32),
    StableHlo.unary main_cst_92 main_v339 (broadcastInDim S100000 ![] bcast_S_S100000 : (⟨S_, .f32⟩ : BufTy).Contents (Elt F) → (⟨S100000, .f32⟩ : BufTy).Contents (Elt F)),
    StableHlo.unary main_arg10 main_v340 (broadcastInDim S3200000x1 ![0] bcast_S3200000_S3200000x1_0 : (⟨S3200000, .i32⟩ : BufTy).Contents (Elt F) → (⟨S3200000x1, .i32⟩ : BufTy).Contents (Elt F)),
    StableHlo.ternary main_v339 main_v340 main_v335 main_v341 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_93 (constant S_ .f32 0x3F800000#32),
    StableHlo.TRef.unary (StableHlo.TRef.of main_cst_93 : StableHlo.TRef sig ⟨S_, .f32⟩) main_call24.v0 id,
    StableHlo.TRef.unary main_call24.v0 main_call24.v1 (broadcastInDim S100000 ![] bcast_S_S100000),
    StableHlo.TRef.binary main_call24.v1 (StableHlo.TRef.of main_v338 : StableHlo.TRef sig ⟨S100000, .f32⟩) main_call24.v2 maximumf,
    StableHlo.unary main_v342 main_v343 (Host.rsqrt : (⟨S100000, .f32⟩ : BufTy).Contents (Elt F) → (⟨S100000, .f32⟩ : BufTy).Contents (Elt F)),
    StableHlo.unary main_v343 main_v344 (broadcastInDim S100000x1 ![0] bcast_S100000_S100000x1_0 : (⟨S100000, .f32⟩ : BufTy).Contents (Elt F) → (⟨S100000x1, .f32⟩ : BufTy).Contents (Elt F)),
    StableHlo.unary main_v344 main_v345 (broadcastInDim S100000x32 ![0, 1] bcast_S100000x1_S100000x32_0_1 : (⟨S100000x1, .f32⟩ : BufTy).Contents (Elt F) → (⟨S100000x32, .f32⟩ : BufTy).Contents (Elt F)),
    StableHlo.binary main_v307 main_v345 main_v346 (mulf : (⟨S100000x32, .f32⟩ : BufTy).Contents (Elt F) → (⟨S100000x32, .f32⟩ : BufTy).Contents (Elt F) → (⟨S100000x32, .f32⟩ : BufTy).Contents (Elt F)),
    StableHlo.nullary main_c_94 (constantI S_ 32 0#32),
    StableHlo.unary main_c_94 main_v347 (broadcastInDim S3200000 ![] bcast_S_S3200000 : (⟨S_, .i32⟩ : BufTy).Contents (Elt F) → (⟨S3200000, .i32⟩ : BufTy).Contents (Elt F)),
    StableHlo.binary main_arg9 main_v347 main_v348 (cmpi .slt : (⟨S3200000, .i32⟩ : BufTy).Contents (Elt F) → (⟨S3200000, .i32⟩ : BufTy).Contents (Elt F) → (⟨S3200000, .i1⟩ : BufTy).Contents (Elt F)),
    StableHlo.nullary main_c_95 (constantI S_ 32 100000#32),
    StableHlo.unary main_c_95 main_v349 (broadcastInDim S3200000 ![] bcast_S_S3200000 : (⟨S_, .i32⟩ : BufTy).Contents (Elt F) → (⟨S3200000, .i32⟩ : BufTy).Contents (Elt F)),
    StableHlo.binary main_arg9 main_v349 main_v350 (addi : (⟨S3200000, .i32⟩ : BufTy).Contents (Elt F) → (⟨S3200000, .i32⟩ : BufTy).Contents (Elt F) → (⟨S3200000, .i32⟩ : BufTy).Contents (Elt F)),
    StableHlo.ternary main_v348 main_v350 main_arg9 main_v351 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v351 main_v352 (broadcastInDim S3200000x1 ![0] bcast_S3200000_S3200000x1_0 : (⟨S3200000, .i32⟩ : BufTy).Contents (Elt F) → (⟨S3200000x1, .i32⟩ : BufTy).Contents (Elt F)),
    StableHlo.binary main_v346 main_v352 main_v353 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_96 (constant S_ .f32 0x00000000#32),
    StableHlo.unary main_cst_96 main_v354 (broadcastInDim S100000x32 ![] bcast_S_S100000x32 : (⟨S_, .f32⟩ : BufTy).Contents (Elt F) → (⟨S100000x32, .f32⟩ : BufTy).Contents (Elt F)),
    StableHlo.unary main_arg10 main_v355 (broadcastInDim S3200000x1 ![0] bcast_S3200000_S3200000x1_0 : (⟨S3200000, .i32⟩ : BufTy).Contents (Elt F) → (⟨S3200000x1, .i32⟩ : BufTy).Contents (Elt F)),
    StableHlo.ternary main_v354 main_v355 main_v353 main_v356 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_97 (constant S_ .f32 0x3F800000#32),
    StableHlo.TRef.unary (StableHlo.TRef.of main_cst_97 : StableHlo.TRef sig ⟨S_, .f32⟩) main_call25.v0 id,
    StableHlo.TRef.unary main_call25.v0 main_call25.v1 (broadcastInDim S100000 ![] bcast_S_S100000),
    StableHlo.TRef.binary main_call25.v1 (StableHlo.TRef.of main_v341 : StableHlo.TRef sig ⟨S100000, .f32⟩) main_call25.v2 maximumf,
    StableHlo.unary main_v357 main_v358 (Host.rsqrt : (⟨S100000, .f32⟩ : BufTy).Contents (Elt F) → (⟨S100000, .f32⟩ : BufTy).Contents (Elt F)),
    StableHlo.unary main_v358 main_v359 (broadcastInDim S100000x1 ![0] bcast_S100000_S100000x1_0 : (⟨S100000, .f32⟩ : BufTy).Contents (Elt F) → (⟨S100000x1, .f32⟩ : BufTy).Contents (Elt F)),
    StableHlo.unary main_v359 main_v360 (broadcastInDim S100000x32 ![0, 1] bcast_S100000x1_S100000x32_0_1 : (⟨S100000x1, .f32⟩ : BufTy).Contents (Elt F) → (⟨S100000x32, .f32⟩ : BufTy).Contents (Elt F)),
    StableHlo.binary main_v356 main_v360 main_v361 (mulf : (⟨S100000x32, .f32⟩ : BufTy).Contents (Elt F) → (⟨S100000x32, .f32⟩ : BufTy).Contents (Elt F) → (⟨S100000x32, .f32⟩ : BufTy).Contents (Elt F)),
    StableHlo.binary main_v334 main_v361 main_v362 (subf : (⟨S100000x32, .f32⟩ : BufTy).Contents (Elt F) → (⟨S100000x32, .f32⟩ : BufTy).Contents (Elt F) → (⟨S100000x32, .f32⟩ : BufTy).Contents (Elt F)),
    StableHlo.binary main_v362 main_v27 main_v363 (addf : (⟨S100000x32, .f32⟩ : BufTy).Contents (Elt F) → (⟨S100000x32, .f32⟩ : BufTy).Contents (Elt F) → (⟨S100000x32, .f32⟩ : BufTy).Contents (Elt F)),
    StableHlo.nullary main_cst_98 (constant S_ .f32 0x3F800000#32),
    StableHlo.unary main_cst_98 main_v364 (broadcastInDim S3200000 ![] bcast_S_S3200000 : (⟨S_, .f32⟩ : BufTy).Contents (Elt F) → (⟨S3200000, .f32⟩ : BufTy).Contents (Elt F)),
    StableHlo.nullary main_cst_99 (constant S_ .f32 0x00000000#32),
    StableHlo.unary main_cst_99 main_v365 (broadcastInDim S100000 ![] bcast_S_S100000 : (⟨S_, .f32⟩ : BufTy).Contents (Elt F) → (⟨S100000, .f32⟩ : BufTy).Contents (Elt F)),
    StableHlo.unary main_arg7 main_v366 (broadcastInDim S3200000x1 ![0] bcast_S3200000_S3200000x1_0 : (⟨S3200000, .i32⟩ : BufTy).Contents (Elt F) → (⟨S3200000x1, .i32⟩ : BufTy).Contents (Elt F)),
    StableHlo.ternary main_v365 main_v366 main_v364 main_v367 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_100 (constant S_ .f32 0x00000000#32),
    StableHlo.unary main_cst_100 main_v368 (broadcastInDim S100000 ![] bcast_S_S100000 : (⟨S_, .f32⟩ : BufTy).Contents (Elt F) → (⟨S100000, .f32⟩ : BufTy).Contents (Elt F)),
    StableHlo.unary main_arg8 main_v369 (broadcastInDim S3200000x1 ![0] bcast_S3200000_S3200000x1_0 : (⟨S3200000, .i32⟩ : BufTy).Contents (Elt F) → (⟨S3200000x1, .i32⟩ : BufTy).Contents (Elt F)),
    StableHlo.ternary main_v368 main_v369 main_v364 main_v370 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_101 (constant S_ .f32 0x3F800000#32),
    StableHlo.TRef.unary (StableHlo.TRef.of main_cst_101 : StableHlo.TRef sig ⟨S_, .f32⟩) main_call26.v0 id,
    StableHlo.TRef.unary main_call26.v0 main_call26.v1 (broadcastInDim S100000 ![] bcast_S_S100000),
    StableHlo.TRef.binary main_call26.v1 (StableHlo.TRef.of main_v367 : StableHlo.TRef sig ⟨S100000, .f32⟩) main_call26.v2 maximumf,
    StableHlo.unary main_v371 main_v372 (Host.rsqrt : (⟨S100000, .f32⟩ : BufTy).Contents (Elt F) → (⟨S100000, .f32⟩ : BufTy).Contents (Elt F)),
    StableHlo.unary main_v372 main_v373 (broadcastInDim S100000x1 ![0] bcast_S100000_S100000x1_0 : (⟨S100000, .f32⟩ : BufTy).Contents (Elt F) → (⟨S100000x1, .f32⟩ : BufTy).Contents (Elt F)),
    StableHlo.unary main_v373 main_v374 (broadcastInDim S100000x32 ![0, 1] bcast_S100000x1_S100000x32_0_1 : (⟨S100000x1, .f32⟩ : BufTy).Contents (Elt F) → (⟨S100000x32, .f32⟩ : BufTy).Contents (Elt F)),
    StableHlo.binary main_v363 main_v374 main_v375 (mulf : (⟨S100000x32, .f32⟩ : BufTy).Contents (Elt F) → (⟨S100000x32, .f32⟩ : BufTy).Contents (Elt F) → (⟨S100000x32, .f32⟩ : BufTy).Contents (Elt F)) ]

/-- Window 7 is that straight line: the callees' definitions unfold at their calls, the records at their fields. -/
theorem main_part7_eq (c : Dev nD) : main_part7 (F := F) c = seq ops7 := rfl

/-- Every buffer the window's operations touch is a TensorCore reference. -/
theorem ops7_sub : (ops7 : List (HloOp τ sig (Elt F))).Forall fun op => op.bufs ⊆ tcRefs τ sig :=
  ⟨ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub ..⟩

/-- Every operation of the window determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW8.lean ====
/- The text of the list below was produced by: python3 scratch/gen_refops.py .   (run in the unit's directory; it writes proof/Proof/RefW0.lean … RefW10.lean) — a table read off the printed lines of window
   main_part8 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 8 of @main, in order, each call's operations in the callee's order over the call's record. -/
abbrev ops8 : List (HloOp τ sig (Elt F)) :=
  [ StableHlo.nullary main_c_102 (constantI S_ 32 0#32),
    StableHlo.unary main_c_102 main_v376 (broadcastInDim S3200000 ![] bcast_S_S3200000 : (⟨S_, .i32⟩ : BufTy).Contents (Elt F) → (⟨S3200000, .i32⟩ : BufTy).Contents (Elt F)),
    StableHlo.binary main_arg7 main_v376 main_v377 (cmpi .slt : (⟨S3200000, .i32⟩ : BufTy).Contents (Elt F) → (⟨S3200000, .i32⟩ : BufTy).Contents (Elt F) → (⟨S3200000, .i1⟩ : BufTy).Contents (Elt F)),
    StableHlo.nullary main_c_103 (constantI S_ 32 100000#32),
    StableHlo.unary main_c_103 main_v378 (broadcastInDim S3200000 ![] bcast_S_S3200000 : (⟨S_, .i32⟩ : BufTy).Contents (Elt F) → (⟨S3200000, .i32⟩ : BufTy).Contents (Elt F)),
    StableHlo.binary main_arg7 main_v378 main_v379 (addi : (⟨S3200000, .i32⟩ : BufTy).Contents (Elt F) → (⟨S3200000, .i32⟩ : BufTy).Contents (Elt F) → (⟨S3200000, .i32⟩ : BufTy).Contents (Elt F)),
    StableHlo.ternary main_v377 main_v379 main_arg7 main_v380 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v380 main_v381 (broadcastInDim S3200000x1 ![0] bcast_S3200000_S3200000x1_0 : (⟨S3200000, .i32⟩ : BufTy).Contents (Elt F) → (⟨S3200000x1, .i32⟩ : BufTy).Contents (Elt F)),
    StableHlo.binary main_v375 main_v381 main_v382 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_104 (constant S_ .f32 0x00000000#32),
    StableHlo.unary main_cst_104 main_v383 (broadcastInDim S100000x32 ![] bcast_S_S100000x32 : (⟨S_, .f32⟩ : BufTy).Contents (Elt F) → (⟨S100000x32, .f32⟩ : BufTy).Contents (Elt F)),
    StableHlo.unary main_arg8 main_v384 (broadcastInDim S3200000x1 ![0] bcast_S3200000_S3200000x1_0 : (⟨S3200000, .i32⟩ : BufTy).Contents (Elt F) → (⟨S3200000x1, .i32⟩ : BufTy).Contents (Elt F)),
    StableHlo.ternary main_v383 main_v384 main_v382 main_v385 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_105 (constant S_ .f32 0x3F800000#32),
    StableHlo.TRef.unary (StableHlo.TRef.of main_cst_105 : StableHlo.TRef sig ⟨S_, .f32⟩) main_call27.v0 id,
    StableHlo.TRef.unary main_call27.v0 main_call27.v1 (broadcastInDim S100000 ![] bcast_S_S100000),
    StableHlo.TRef.binary main_call27.v1 (StableHlo.TRef.of main_v370 : StableHlo.TRef sig ⟨S100000, .f32⟩) main_call27.v2 maximumf,
    StableHlo.unary main_v386 main_v387 (Host.rsqrt : (⟨S100000, .f32⟩ : BufTy).Contents (Elt F) → (⟨S100000, .f32⟩ : BufTy).Contents (Elt F)),
    StableHlo.unary main_v387 main_v388 (broadcastInDim S100000x1 ![0] bcast_S100000_S100000x1_0 : (⟨S100000, .f32⟩ : BufTy).Contents (Elt F) → (⟨S100000x1, .f32⟩ : BufTy).Contents (Elt F)),
    StableHlo.unary main_v388 main_v389 (broadcastInDim S100000x32 ![0, 1] bcast_S100000x1_S100000x32_0_1 : (⟨S100000x1, .f32⟩ : BufTy).Contents (Elt F) → (⟨S100000x32, .f32⟩ : BufTy).Contents (Elt F)),
    StableHlo.binary main_v385 main_v389 main_v390 (mulf : (⟨S100000x32, .f32⟩ : BufTy).Contents (Elt F) → (⟨S100000x32, .f32⟩ : BufTy).Contents (Elt F) → (⟨S100000x32, .f32⟩ : BufTy).Contents (Elt F)),
    StableHlo.nullary main_cst_106 (constant S_ .f32 0x3F800000#32),
    StableHlo.unary main_cst_106 main_v391 (broadcastInDim S3200000 ![] bcast_S_S3200000 : (⟨S_, .f32⟩ : BufTy).Contents (Elt F) → (⟨S3200000, .f32⟩ : BufTy).Contents (Elt F)),
    StableHlo.nullary main_cst_107 (constant S_ .f32 0x00000000#32),
    StableHlo.unary main_cst_107 main_v392 (broadcastInDim S100000 ![] bcast_S_S100000 : (⟨S_, .f32⟩ : BufTy).Contents (Elt F) → (⟨S100000, .f32⟩ : BufTy).Contents (Elt F)),
    StableHlo.unary main_arg9 main_v393 (broadcastInDim S3200000x1 ![0] bcast_S3200000_S3200000x1_0 : (⟨S3200000, .i32⟩ : BufTy).Contents (Elt F) → (⟨S3200000x1, .i32⟩ : BufTy).Contents (Elt F)),
    StableHlo.ternary main_v392 main_v393 main_v391 main_v394 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_108 (constant S_ .f32 0x00000000#32),
    StableHlo.unary main_cst_108 main_v395 (broadcastInDim S100000 ![] bcast_S_S100000 : (⟨S_, .f32⟩ : BufTy).Contents (Elt F) → (⟨S100000, .f32⟩ : BufTy).Contents (Elt F)),
    StableHlo.unary main_arg10 main_v396 (broadcastInDim S3200000x1 ![0] bcast_S3200000_S3200000x1_0 : (⟨S3200000, .i32⟩ : BufTy).Contents (Elt F) → (⟨S3200000x1, .i32⟩ : BufTy).Contents (Elt F)),
    StableHlo.ternary main_v395 main_v396 main_v391 main_v397 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_109 (constant S_ .f32 0x3F800000#32),
    StableHlo.TRef.unary (StableHlo.TRef.of main_cst_109 : StableHlo.TRef sig ⟨S_, .f32⟩) main_call28.v0 id,
    StableHlo.TRef.unary main_call28.v0 main_call28.v1 (broadcastInDim S100000 ![] bcast_S_S100000),
    StableHlo.TRef.binary main_call28.v1 (StableHlo.TRef.of main_v394 : StableHlo.TRef sig ⟨S100000, .f32⟩) main_call28.v2 maximumf,
    StableHlo.unary main_v398 main_v399 (Host.rsqrt : (⟨S100000, .f32⟩ : BufTy).Contents (Elt F) → (⟨S100000, .f32⟩ : BufTy).Contents (Elt F)),
    StableHlo.unary main_v399 main_v400 (broadcastInDim S100000x1 ![0] bcast_S100000_S100000x1_0 : (⟨S100000, .f32⟩ : BufTy).Contents (Elt F) → (⟨S100000x1, .f32⟩ : BufTy).Contents (Elt F)),
    StableHlo.unary main_v400 main_v401 (broadcastInDim S100000x32 ![0, 1] bcast_S100000x1_S100000x32_0_1 : (⟨S100000x1, .f32⟩ : BufTy).Contents (Elt F) → (⟨S100000x32, .f32⟩ : BufTy).Contents (Elt F)),
    StableHlo.binary main_v363 main_v401 main_v402 (mulf : (⟨S100000x32, .f32⟩ : BufTy).Contents (Elt F) → (⟨S100000x32, .f32⟩ : BufTy).Contents (Elt F) → (⟨S100000x32, .f32⟩ : BufTy).Contents (Elt F)),
    StableHlo.nullary main_c_110 (constantI S_ 32 0#32),
    StableHlo.unary main_c_110 main_v403 (broadcastInDim S3200000 ![] bcast_S_S3200000 : (⟨S_, .i32⟩ : BufTy).Contents (Elt F) → (⟨S3200000, .i32⟩ : BufTy).Contents (Elt F)),
    StableHlo.binary main_arg9 main_v403 main_v404 (cmpi .slt : (⟨S3200000, .i32⟩ : BufTy).Contents (Elt F) → (⟨S3200000, .i32⟩ : BufTy).Contents (Elt F) → (⟨S3200000, .i1⟩ : BufTy).Contents (Elt F)),
    StableHlo.nullary main_c_111 (constantI S_ 32 100000#32),
    StableHlo.unary main_c_111 main_v405 (broadcastInDim S3200000 ![] bcast_S_S3200000 : (⟨S_, .i32⟩ : BufTy).Contents (Elt F) → (⟨S3200000, .i32⟩ : BufTy).Contents (Elt F)),
    StableHlo.binary main_arg9 main_v405 main_v406 (addi : (⟨S3200000, .i32⟩ : BufTy).Contents (Elt F) → (⟨S3200000, .i32⟩ : BufTy).Contents (Elt F) → (⟨S3200000, .i32⟩ : BufTy).Contents (Elt F)),
    StableHlo.ternary main_v404 main_v406 main_arg9 main_v407 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v407 main_v408 (broadcastInDim S3200000x1 ![0] bcast_S3200000_S3200000x1_0 : (⟨S3200000, .i32⟩ : BufTy).Contents (Elt F) → (⟨S3200000x1, .i32⟩ : BufTy).Contents (Elt F)),
    StableHlo.binary main_v402 main_v408 main_v409 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_112 (constant S_ .f32 0x00000000#32),
    StableHlo.unary main_cst_112 main_v410 (broadcastInDim S100000x32 ![] bcast_S_S100000x32 : (⟨S_, .f32⟩ : BufTy).Contents (Elt F) → (⟨S100000x32, .f32⟩ : BufTy).Contents (Elt F)),
    StableHlo.unary main_arg10 main_v411 (broadcastInDim S3200000x1 ![0] bcast_S3200000_S3200000x1_0 : (⟨S3200000, .i32⟩ : BufTy).Contents (Elt F) → (⟨S3200000x1, .i32⟩ : BufTy).Contents (Elt F)),
    StableHlo.ternary main_v410 main_v411 main_v409 main_v412 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_113 (constant S_ .f32 0x3F800000#32),
    StableHlo.TRef.unary (StableHlo.TRef.of main_cst_113 : StableHlo.TRef sig ⟨S_, .f32⟩) main_call29.v0 id,
    StableHlo.TRef.unary main_call29.v0 main_call29.v1 (broadcastInDim S100000 ![] bcast_S_S100000),
    StableHlo.TRef.binary main_call29.v1 (StableHlo.TRef.of main_v397 : StableHlo.TRef sig ⟨S100000, .f32⟩) main_call29.v2 maximumf,
    StableHlo.unary main_v413 main_v414 (Host.rsqrt : (⟨S100000, .f32⟩ : BufTy).Contents (Elt F) → (⟨S100000, .f32⟩ : BufTy).Contents (Elt F)),
    StableHlo.unary main_v414 main_v415 (broadcastInDim S100000x1 ![0] bcast_S100000_S100000x1_0 : (⟨S100000, .f32⟩ : BufTy).Contents (Elt F) → (⟨S100000x1, .f32⟩ : BufTy).Contents (Elt F)),
    StableHlo.unary main_v415 main_v416 (broadcastInDim S100000x32 ![0, 1] bcast_S100000x1_S100000x32_0_1 : (⟨S100000x1, .f32⟩ : BufTy).Contents (Elt F) → (⟨S100000x32, .f32⟩ : BufTy).Contents (Elt F)),
    StableHlo.binary main_v412 main_v416 main_v417 (mulf : (⟨S100000x32, .f32⟩ : BufTy).Contents (Elt F) → (⟨S100000x32, .f32⟩ : BufTy).Contents (Elt F) → (⟨S100000x32, .f32⟩ : BufTy).Contents (Elt F)),
    StableHlo.binary main_v390 main_v417 main_v418 (subf : (⟨S100000x32, .f32⟩ : BufTy).Contents (Elt F) → (⟨S100000x32, .f32⟩ : BufTy).Contents (Elt F) → (⟨S100000x32, .f32⟩ : BufTy).Contents (Elt F)),
    StableHlo.binary main_v418 main_v27 main_v419 (addf : (⟨S100000x32, .f32⟩ : BufTy).Contents (Elt F) → (⟨S100000x32, .f32⟩ : BufTy).Contents (Elt F) → (⟨S100000x32, .f32⟩ : BufTy).Contents (Elt F)),
    StableHlo.nullary main_cst_114 (constant S_ .f32 0x3F800000#32),
    StableHlo.unary main_cst_114 main_v420 (broadcastInDim S3200000 ![] bcast_S_S3200000 : (⟨S_, .f32⟩ : BufTy).Contents (Elt F) → (⟨S3200000, .f32⟩ : BufTy).Contents (Elt F)),
    StableHlo.nullary main_cst_115 (constant S_ .f32 0x00000000#32),
    StableHlo.unary main_cst_115 main_v421 (broadcastInDim S100000 ![] bcast_S_S100000 : (⟨S_, .f32⟩ : BufTy).Contents (Elt F) → (⟨S100000, .f32⟩ : BufTy).Contents (Elt F)) ]

/-- Window 8 is that straight line: the callees' definitions unfold at their calls, the records at their fields. -/
theorem main_part8_eq (c : Dev nD) : main_part8 (F := F) c = seq ops8 := rfl

/-- Every buffer the window's operations touch is a TensorCore reference. -/
theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., binary_bufs_sub .., binary_bufs_sub .., nullary_bufs_sub .., unary_bufs_sub .., nullary_bufs_sub .., unary_bufs_sub ..⟩

/-- Every operation of the window determines its results. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW9.lean ====
/- The text of the list below was produced by: python3 scratch/gen_refops.py .   (run in the unit's directory; it writes proof/Proof/RefW0.lean … RefW10.lean) — a table read off the printed lines of window
   main_part9 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 66 operations of window 9 of @main, in order, each call's operations in the callee's order over the call's record. -/
abbrev ops9 : List (HloOp τ sig (Elt F)) :=
  [ StableHlo.unary main_arg7 main_v422 (broadcastInDim S3200000x1 ![0] bcast_S3200000_S3200000x1_0 : (⟨S3200000, .i32⟩ : BufTy).Contents (Elt F) → (⟨S3200000x1, .i32⟩ : BufTy).Contents (Elt F)),
    StableHlo.ternary main_v421 main_v422 main_v420 main_v423 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_116 (constant S_ .f32 0x00000000#32),
    StableHlo.unary main_cst_116 main_v424 (broadcastInDim S100000 ![] bcast_S_S100000 : (⟨S_, .f32⟩ : BufTy).Contents (Elt F) → (⟨S100000, .f32⟩ : BufTy).Contents (Elt F)),
    StableHlo.unary main_arg8 main_v425 (broadcastInDim S3200000x1 ![0] bcast_S3200000_S3200000x1_0 : (⟨S3200000, .i32⟩ : BufTy).Contents (Elt F) → (⟨S3200000x1, .i32⟩ : BufTy).Contents (Elt F)),
    StableHlo.ternary main_v424 main_v425 main_v420 main_v426 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_117 (constant S_ .f32 0x3F800000#32),
    StableHlo.TRef.unary (StableHlo.TRef.of main_cst_117 : StableHlo.TRef sig ⟨S_, .f32⟩) main_call30.v0 id,
    StableHlo.TRef.unary main_call30.v0 main_call30.v1 (broadcastInDim S100000 ![] bcast_S_S100000),
    StableHlo.TRef.binary main_call30.v1 (StableHlo.TRef.of main_v423 : StableHlo.TRef sig ⟨S100000, .f32⟩) main_call30.v2 maximumf,
    StableHlo.unary main_v427 main_v428 (Host.rsqrt : (⟨S100000, .f32⟩ : BufTy).Contents (Elt F) → (⟨S100000, .f32⟩ : BufTy).Contents (Elt F)),
    StableHlo.unary main_v428 main_v429 (broadcastInDim S100000x1 ![0] bcast_S100000_S100000x1_0 : (⟨S100000, .f32⟩ : BufTy).Contents (Elt F) → (⟨S100000x1, .f32⟩ : BufTy).Contents (Elt F)),
    StableHlo.unary main_v429 main_v430 (broadcastInDim S100000x32 ![0, 1] bcast_S100000x1_S100000x32_0_1 : (⟨S100000x1, .f32⟩ : BufTy).Contents (Elt F) → (⟨S100000x32, .f32⟩ : BufTy).Contents (Elt F)),
    StableHlo.binary main_v419 main_v430 main_v431 (mulf : (⟨S100000x32, .f32⟩ : BufTy).Contents (Elt F) → (⟨S100000x32, .f32⟩ : BufTy).Contents (Elt F) → (⟨S100000x32, .f32⟩ : BufTy).Contents (Elt F)),
    StableHlo.nullary main_c_118 (constantI S_ 32 0#32),
    StableHlo.unary main_c_118 main_v432 (broadcastInDim S3200000 ![] bcast_S_S3200000 : (⟨S_, .i32⟩ : BufTy).Contents (Elt F) → (⟨S3200000, .i32⟩ : BufTy).Contents (Elt F)),
    StableHlo.binary main_arg7 main_v432 main_v433 (cmpi .slt : (⟨S3200000, .i32⟩ : BufTy).Contents (Elt F) → (⟨S3200000, .i32⟩ : BufTy).Contents (Elt F) → (⟨S3200000, .i1⟩ : BufTy).Contents (Elt F)),
    StableHlo.nullary main_c_119 (constantI S_ 32 100000#32),
    StableHlo.unary main_c_119 main_v434 (broadcastInDim S3200000 ![] bcast_S_S3200000 : (⟨S_, .i32⟩ : BufTy).Contents (Elt F) → (⟨S3200000, .i32⟩ : BufTy).Contents (Elt F)),
    StableHlo.binary main_arg7 main_v434 main_v435 (addi : (⟨S3200000, .i32⟩ : BufTy).Contents (Elt F) → (⟨S3200000, .i32⟩ : BufTy).Contents (Elt F) → (⟨S3200000, .i32⟩ : BufTy).Contents (Elt F)),
    StableHlo.ternary main_v433 main_v435 main_arg7 main_v436 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v436 main_v437 (broadcastInDim S3200000x1 ![0] bcast_S3200000_S3200000x1_0 : (⟨S3200000, .i32⟩ : BufTy).Contents (Elt F) → (⟨S3200000x1, .i32⟩ : BufTy).Contents (Elt F)),
    StableHlo.binary main_v431 main_v437 main_v438 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_120 (constant S_ .f32 0x00000000#32),
    StableHlo.unary main_cst_120 main_v439 (broadcastInDim S100000x32 ![] bcast_S_S100000x32 : (⟨S_, .f32⟩ : BufTy).Contents (Elt F) → (⟨S100000x32, .f32⟩ : BufTy).Contents (Elt F)),
    StableHlo.unary main_arg8 main_v440 (broadcastInDim S3200000x1 ![0] bcast_S3200000_S3200000x1_0 : (⟨S3200000, .i32⟩ : BufTy).Contents (Elt F) → (⟨S3200000x1, .i32⟩ : BufTy).Contents (Elt F)),
    StableHlo.ternary main_v439 main_v440 main_v438 main_v441 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_121 (constant S_ .f32 0x3F800000#32),
    StableHlo.TRef.unary (StableHlo.TRef.of main_cst_121 : StableHlo.TRef sig ⟨S_, .f32⟩) main_call31.v0 id,
    StableHlo.TRef.unary main_call31.v0 main_call31.v1 (broadcastInDim S100000 ![] bcast_S_S100000),
    StableHlo.TRef.binary main_call31.v1 (StableHlo.TRef.of main_v426 : StableHlo.TRef sig ⟨S100000, .f32⟩) main_call31.v2 maximumf,
    StableHlo.unary main_v442 main_v443 (Host.rsqrt : (⟨S100000, .f32⟩ : BufTy).Contents (Elt F) → (⟨S100000, .f32⟩ : BufTy).Contents (Elt F)),
    StableHlo.unary main_v443 main_v444 (broadcastInDim S100000x1 ![0] bcast_S100000_S100000x1_0 : (⟨S100000, .f32⟩ : BufTy).Contents (Elt F) → (⟨S100000x1, .f32⟩ : BufTy).Contents (Elt F)),
    StableHlo.unary main_v444 main_v445 (broadcastInDim S100000x32 ![0, 1] bcast_S100000x1_S100000x32_0_1 : (⟨S100000x1, .f32⟩ : BufTy).Contents (Elt F) → (⟨S100000x32, .f32⟩ : BufTy).Contents (Elt F)),
    StableHlo.binary main_v441 main_v445 main_v446 (mulf : (⟨S100000x32, .f32⟩ : BufTy).Contents (Elt F) → (⟨S100000x32, .f32⟩ : BufTy).Contents (Elt F) → (⟨S100000x32, .f32⟩ : BufTy).Contents (Elt F)),
    StableHlo.nullary main_cst_122 (constant S_ .f32 0x3F800000#32),
    StableHlo.unary main_cst_122 main_v447 (broadcastInDim S3200000 ![] bcast_S_S3200000 : (⟨S_, .f32⟩ : BufTy).Contents (Elt F) → (⟨S3200000, .f32⟩ : BufTy).Contents (Elt F)),
    StableHlo.nullary main_cst_123 (constant S_ .f32 0x00000000#32),
    StableHlo.unary main_cst_123 main_v448 (broadcastInDim S100000 ![] bcast_S_S100000 : (⟨S_, .f32⟩ : BufTy).Contents (Elt F) → (⟨S100000, .f32⟩ : BufTy).Contents (Elt F)),
    StableHlo.unary main_arg9 main_v449 (broadcastInDim S3200000x1 ![0] bcast_S3200000_S3200000x1_0 : (⟨S3200000, .i32⟩ : BufTy).Contents (Elt F) → (⟨S3200000x1, .i32⟩ : BufTy).Contents (Elt F)),
    StableHlo.ternary main_v448 main_v449 main_v447 main_v450 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_124 (constant S_ .f32 0x00000000#32),
    StableHlo.unary main_cst_124 main_v451 (broadcastInDim S100000 ![] bcast_S_S100000 : (⟨S_, .f32⟩ : BufTy).Contents (Elt F) → (⟨S100000, .f32⟩ : BufTy).Contents (Elt F)),
    StableHlo.unary main_arg10 main_v452 (broadcastInDim S3200000x1 ![0] bcast_S3200000_S3200000x1_0 : (⟨S3200000, .i32⟩ : BufTy).Contents (Elt F) → (⟨S3200000x1, .i32⟩ : BufTy).Contents (Elt F)),
    StableHlo.ternary main_v451 main_v452 main_v447 main_v453 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_125 (constant S_ .f32 0x3F800000#32),
    StableHlo.TRef.unary (StableHlo.TRef.of main_cst_125 : StableHlo.TRef sig ⟨S_, .f32⟩) main_call32.v0 id,
    StableHlo.TRef.unary main_call32.v0 main_call32.v1 (broadcastInDim S100000 ![] bcast_S_S100000),
    StableHlo.TRef.binary main_call32.v1 (StableHlo.TRef.of main_v450 : StableHlo.TRef sig ⟨S100000, .f32⟩) main_call32.v2 maximumf,
    StableHlo.unary main_v454 main_v455 (Host.rsqrt : (⟨S100000, .f32⟩ : BufTy).Contents (Elt F) → (⟨S100000, .f32⟩ : BufTy).Contents (Elt F)),
    StableHlo.unary main_v455 main_v456 (broadcastInDim S100000x1 ![0] bcast_S100000_S100000x1_0 : (⟨S100000, .f32⟩ : BufTy).Contents (Elt F) → (⟨S100000x1, .f32⟩ : BufTy).Contents (Elt F)),
    StableHlo.unary main_v456 main_v457 (broadcastInDim S100000x32 ![0, 1] bcast_S100000x1_S100000x32_0_1 : (⟨S100000x1, .f32⟩ : BufTy).Contents (Elt F) → (⟨S100000x32, .f32⟩ : BufTy).Contents (Elt F)),
    StableHlo.binary main_v419 main_v457 main_v458 (mulf : (⟨S100000x32, .f32⟩ : BufTy).Contents (Elt F) → (⟨S100000x32, .f32⟩ : BufTy).Contents (Elt F) → (⟨S100000x32, .f32⟩ : BufTy).Contents (Elt F)),
    StableHlo.nullary main_c_126 (constantI S_ 32 0#32),
    StableHlo.unary main_c_126 main_v459 (broadcastInDim S3200000 ![] bcast_S_S3200000 : (⟨S_, .i32⟩ : BufTy).Contents (Elt F) → (⟨S3200000, .i32⟩ : BufTy).Contents (Elt F)),
    StableHlo.binary main_arg9 main_v459 main_v460 (cmpi .slt : (⟨S3200000, .i32⟩ : BufTy).Contents (Elt F) → (⟨S3200000, .i32⟩ : BufTy).Contents (Elt F) → (⟨S3200000, .i1⟩ : BufTy).Contents (Elt F)),
    StableHlo.nullary main_c_127 (constantI S_ 32 100000#32),
    StableHlo.unary main_c_127 main_v461 (broadcastInDim S3200000 ![] bcast_S_S3200000 : (⟨S_, .i32⟩ : BufTy).Contents (Elt F) → (⟨S3200000, .i32⟩ : BufTy).Contents (Elt F)),
    StableHlo.binary main_arg9 main_v461 main_v462 (addi : (⟨S3200000, .i32⟩ : BufTy).Contents (Elt F) → (⟨S3200000, .i32⟩ : BufTy).Contents (Elt F) → (⟨S3200000, .i32⟩ : BufTy).Contents (Elt F)),
    StableHlo.ternary main_v460 main_v462 main_arg9 main_v463 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v463 main_v464 (broadcastInDim S3200000x1 ![0] bcast_S3200000_S3200000x1_0 : (⟨S3200000, .i32⟩ : BufTy).Contents (Elt F) → (⟨S3200000x1, .i32⟩ : BufTy).Contents (Elt F)),
    StableHlo.binary main_v458 main_v464 main_v465 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_128 (constant S_ .f32 0x00000000#32),
    StableHlo.unary main_cst_128 main_v466 (broadcastInDim S100000x32 ![] bcast_S_S100000x32 : (⟨S_, .f32⟩ : BufTy).Contents (Elt F) → (⟨S100000x32, .f32⟩ : BufTy).Contents (Elt F)),
    StableHlo.unary main_arg10 main_v467 (broadcastInDim S3200000x1 ![0] bcast_S3200000_S3200000x1_0 : (⟨S3200000, .i32⟩ : BufTy).Contents (Elt F) → (⟨S3200000x1, .i32⟩ : BufTy).Contents (Elt F)),
    StableHlo.ternary main_v466 main_v467 main_v465 main_v468 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Window 9 is that straight line: the callees' definitions unfold at their calls, the records at their fields. -/
theorem main_part9_eq (c : Dev nD) : main_part9 (F := F) c = seq ops9 := rfl

/-- Every buffer the window's operations touch is a TensorCore reference. -/
theorem ops9_sub : (ops9 : List (HloOp τ sig (Elt F))).Forall fun op => op.bufs ⊆ tcRefs τ sig :=
  ⟨unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- Every operation of the window determines its results. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefW10.lean ====
/- The text of the list below was produced by: python3 scratch/gen_refops.py .   (run in the unit's directory; it writes proof/Proof/RefW0.lean … RefW10.lean) — a table read off the printed lines of window
   main_part10 of proof/ReferenceIdeal.lean (the operation of a printed line is the term it runs; a call is the callee's
   printed lines over the call's operands and its record). The statements about it are checked here. -/
import proofs.«143456_j27066883899969_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 10 operations of window 10 of @main, in order, each call's operations in the callee's order over the call's record. -/
abbrev ops10 : List (HloOp τ sig (Elt F)) :=
  [ StableHlo.nullary main_cst_129 (constant S_ .f32 0x3F800000#32),
    StableHlo.TRef.unary (StableHlo.TRef.of main_cst_129 : StableHlo.TRef sig ⟨S_, .f32⟩) main_call33.v0 id,
    StableHlo.TRef.unary main_call33.v0 main_call33.v1 (broadcastInDim S100000 ![] bcast_S_S100000),
    StableHlo.TRef.binary main_call33.v1 (StableHlo.TRef.of main_v453 : StableHlo.TRef sig ⟨S100000, .f32⟩) main_call33.v2 maximumf,
    StableHlo.unary main_v469 main_v470 (Host.rsqrt : (⟨S100000, .f32⟩ : BufTy).Contents (Elt F) → (⟨S100000, .f32⟩ : BufTy).Contents (Elt F)),
    StableHlo.unary main_v470 main_v471 (broadcastInDim S100000x1 ![0] bcast_S100000_S100000x1_0 : (⟨S100000, .f32⟩ : BufTy).Contents (Elt F) → (⟨S100000x1, .f32⟩ : BufTy).Contents (Elt F)),
    StableHlo.unary main_v471 main_v472 (broadcastInDim S100000x32 ![0, 1] bcast_S100000x1_S100000x32_0_1 : (⟨S100000x1, .f32⟩ : BufTy).Contents (Elt F) → (⟨S100000x32, .f32⟩ : BufTy).Contents (Elt F)),
    StableHlo.binary main_v468 main_v472 main_v473 (mulf : (⟨S100000x32, .f32⟩ : BufTy).Contents (Elt F) → (⟨S100000x32, .f32⟩ : BufTy).Contents (Elt F) → (⟨S100000x32, .f32⟩ : BufTy).Contents (Elt F)),
    StableHlo.binary main_v446 main_v473 main_v474 (subf : (⟨S100000x32, .f32⟩ : BufTy).Contents (Elt F) → (⟨S100000x32, .f32⟩ : BufTy).Contents (Elt F) → (⟨S100000x32, .f32⟩ : BufTy).Contents (Elt F)),
    StableHlo.binary main_v474 main_v27 main_v475 (addf : (⟨S100000x32, .f32⟩ : BufTy).Contents (Elt F) → (⟨S100000x32, .f32⟩ : BufTy).Contents (Elt F) → (⟨S100000x32, .f32⟩ : BufTy).Contents (Elt F)) ]

/-- Window 10 is that straight line: the callees' definitions unfold at their calls, the records at their fields. -/
theorem main_part10_eq (c : Dev nD) : main_part10 (F := F) c = seq ops10 := rfl

/-- Every buffer the window's operations touch is a TensorCore reference. -/
theorem ops10_sub : (ops10 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., binary_bufs_sub .., binary_bufs_sub ..⟩

/-- Every operation of the window determines its results. -/
theorem ops10_fresh : (ops10 : List (HloOp τ sig (Elt F))).Forall fun op => op.fresh = ∅ :=
  ⟨rfl, rfl, rfl, rfl, rfl, rfl, rfl, rfl, rfl, rfl⟩

end Cert.ReferenceIdeal.RefRun

end
-- ==== Proof.RefRun.lean ====
/- The reference program's @main as ONE list of its host operations (the eleven windows' lists, in order) and its run:
   every weakly fair execution terminates with each TensorCore buffer at the fold of the operations over the launch
   contents. -/
import proofs.«143456_j27066883899969_1_alg».proof.Proof.RefW0
import proofs.«143456_j27066883899969_1_alg».proof.Proof.RefW1
import proofs.«143456_j27066883899969_1_alg».proof.Proof.RefW2
import proofs.«143456_j27066883899969_1_alg».proof.Proof.RefW3
import proofs.«143456_j27066883899969_1_alg».proof.Proof.RefW4
import proofs.«143456_j27066883899969_1_alg».proof.Proof.RefW5
import proofs.«143456_j27066883899969_1_alg».proof.Proof.RefW6
import proofs.«143456_j27066883899969_1_alg».proof.Proof.RefW7
import proofs.«143456_j27066883899969_1_alg».proof.Proof.RefW8
import proofs.«143456_j27066883899969_1_alg».proof.Proof.RefW9
import proofs.«143456_j27066883899969_1_alg».proof.Proof.RefW10
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 695 operations, in order: the windows' lists one after the other. -/
abbrev ops : List (HloOp τ sig (Elt F)) :=
  ops0 ++ (ops1 ++ (ops2 ++ (ops3 ++ (ops4 ++ (ops5 ++ (ops6 ++ (ops7 ++ (ops8 ++ (ops9 ++ (ops10))))))))))

/-- @main runs its windows in order, each window is its list run as a line, and lines run one after the other are
    their concatenation run as one. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  rfl

set_option maxHeartbeats 400000 in
/-- No TensorCore buffer of the signature is scoped. -/
theorem scopedRefs_eq : (Finset.univ.filter fun b : Ref sig .tc => b.isScoped) = ∅ := by decide
/-- The signature has no semaphore. -/
theorem scopedSems_eq : (Finset.univ.filter fun sm : SemLoc sig => sm.isScoped .tc) = ∅ := by decide

/-- Every buffer the operations touch is a TensorCore reference: window by window. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h]

/-- Every operation determines its results: window by window. -/
theorem ops_fresh : ∀ op ∈ (ops : List (HloOp τ sig (Elt F))), op.fresh = ∅ := fun op h => by
  simp only [ops, List.mem_append] at h
  rcases h with h | h | h | h | h | h | h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefB0.lean ====
/- The text of the list below was produced by: python3 scratch/gen_refops.py .   (run in the unit's directory) followed by cutting
   the eleven produced lists, read as one, at the operations 1 … 55 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 55 operations of the perceptron: the first linear layer, the mean and the variance over the nodes, batch normalisation, the positive part, the second linear layer. -/
abbrev blk0 : List (HloOp τ sig (Elt F)) :=
  [ StableHlo.binary main_arg0 main_arg1 main_v0 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.unary main_arg2 main_v1 (broadcastInDim S1x32 ![1] bcast_S32_S1x32_1 : (⟨S32, .f32⟩ : BufTy).Contents (Elt F) → (⟨S1x32, .f32⟩ : BufTy).Contents (Elt F)),
    StableHlo.unary main_v1 main_v2 (broadcastInDim S100000x32 ![0, 1] bcast_S1x32_S100000x32_0_1 : (⟨S1x32, .f32⟩ : BufTy).Contents (Elt F) → (⟨S100000x32, .f32⟩ : BufTy).Contents (Elt F)),
    StableHlo.binary main_v0 main_v2 main_v3 (addf : (⟨S100000x32, .f32⟩ : BufTy).Contents (Elt F) → (⟨S100000x32, .f32⟩ : BufTy).Contents (Elt F) → (⟨S100000x32, .f32⟩ : BufTy).Contents (Elt F)),
    StableHlo.nullary main_cst (constant S_ .f32 0x00000000#32),
    StableHlo.binary main_v3 main_cst main_v4 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_0 (constant S_ .f32 0x47C35000#32),
    StableHlo.unary main_cst_0 main_v5 (broadcastInDim S32 ![] bcast_S_S32 : (⟨S_, .f32⟩ : BufTy).Contents (Elt F) → (⟨S32, .f32⟩ : BufTy).Contents (Elt F)),
    StableHlo.binary main_v4 main_v5 main_v6 (Host.divf : (⟨S32, .f32⟩ : BufTy).Contents (Elt F) → (⟨S32, .f32⟩ : BufTy).Contents (Elt F) → (⟨S32, .f32⟩ : BufTy).Contents (Elt F)),
    StableHlo.nullary main_c (constantI S_ 32 0#32),
    StableHlo.TRef.nullary main_call0.cst (constant S_ .f32 0x00000000#32),
    StableHlo.TRef.binary (StableHlo.TRef.of main_v3 : StableHlo.TRef sig ⟨S100000x32, .f32⟩) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (StableHlo.TRef.of main_v3 : StableHlo.TRef sig ⟨S100000x32, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v6 main_v8 (broadcastInDim S1x32 ![1] bcast_S32_S1x32_1 : (⟨S32, .f32⟩ : BufTy).Contents (Elt F) → (⟨S1x32, .f32⟩ : BufTy).Contents (Elt F)),
    StableHlo.unary main_v8 main_v9 (broadcastInDim S100000x32 ![0, 1] bcast_S1x32_S100000x32_0_1 : (⟨S1x32, .f32⟩ : BufTy).Contents (Elt F) → (⟨S100000x32, .f32⟩ : BufTy).Contents (Elt F)),
    StableHlo.binary main_v3 main_v9 main_v10 (subf : (⟨S100000x32, .f32⟩ : BufTy).Contents (Elt F) → (⟨S100000x32, .f32⟩ : BufTy).Contents (Elt F) → (⟨S100000x32, .f32⟩ : BufTy).Contents (Elt F)),
    StableHlo.nullary main_cst_1 (constant S_ .f32 0x3727C5AC#32),
    StableHlo.unary main_cst_1 main_v11 (broadcastInDim S32 ![] bcast_S_S32 : (⟨S_, .f32⟩ : BufTy).Contents (Elt F) → (⟨S32, .f32⟩ : BufTy).Contents (Elt F)),
    StableHlo.binary main_v7 main_v11 main_v12 (addf : (⟨S32, .f32⟩ : BufTy).Contents (Elt F) → (⟨S32, .f32⟩ : BufTy).Contents (Elt F) → (⟨S32, .f32⟩ : BufTy).Contents (Elt F)),
    StableHlo.unary main_v12 main_v13 (Host.rsqrt : (⟨S32, .f32⟩ : BufTy).Contents (Elt F) → (⟨S32, .f32⟩ : BufTy).Contents (Elt F)),
    StableHlo.unary main_v13 main_v14 (broadcastInDim S1x32 ![1] bcast_S32_S1x32_1 : (⟨S32, .f32⟩ : BufTy).Contents (Elt F) → (⟨S1x32, .f32⟩ : BufTy).Contents (Elt F)),
    StableHlo.unary main_v14 main_v15 (broadcastInDim S100000x32 ![0, 1] bcast_S1x32_S100000x32_0_1 : (⟨S1x32, .f32⟩ : BufTy).Contents (Elt F) → (⟨S100000x32, .f32⟩ : BufTy).Contents (Elt F)),
    StableHlo.binary main_v10 main_v15 main_v16 (mulf : (⟨S100000x32, .f32⟩ : BufTy).Contents (Elt F) → (⟨S100000x32, .f32⟩ : BufTy).Contents (Elt F) → (⟨S100000x32, .f32⟩ : BufTy).Contents (Elt F)),
    StableHlo.unary main_arg3 main_v17 (broadcastInDim S1x32 ![1] bcast_S32_S1x32_1 : (⟨S32, .f32⟩ : BufTy).Contents (Elt F) → (⟨S1x32, .f32⟩ : BufTy).Contents (Elt F)),
    StableHlo.unary main_v17 main_v18 (broadcastInDim S100000x32 ![0, 1] bcast_S1x32_S100000x32_0_1 : (⟨S1x32, .f32⟩ : BufTy).Contents (Elt F) → (⟨S100000x32, .f32⟩ : BufTy).Contents (Elt F)),
    StableHlo.binary main_v16 main_v18 main_v19 (mulf : (⟨S100000x32, .f32⟩ : BufTy).Contents (Elt F) → (⟨S100000x32, .f32⟩ : BufTy).Contents (Elt F) → (⟨S100000x32, .f32⟩ : BufTy).Contents (Elt F)),
    StableHlo.unary main_arg4 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S100000x32 ![0, 1] bcast_S1x32_S100000x32_0_1 : (⟨S1x32, .f32⟩ : BufTy).Contents (Elt F) → (⟨S100000x32, .f32⟩ : BufTy).Contents (Elt F)),
    StableHlo.binary main_v19 main_v21 main_v22 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (StableHlo.TRef.of main_v22 : StableHlo.TRef sig ⟨S100000x32, .f32⟩) main_call1.v0 main_call1.v1 maximumf,
    StableHlo.binary main_v23 main_arg5 main_v24 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg6 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S100000x32 ![0, 1] bcast_S1x32_S100000x32_0_1 : (⟨S1x32, .f32⟩ : BufTy).Contents (Elt F) → (⟨S100000x32, .f32⟩ : BufTy).Contents (Elt F)),
    StableHlo.binary main_v24 main_v26 main_v27 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- The perceptron's operations leave the specification's residual in the buffer every propagation step reads it
    from: the operations' composed term is the specification's, definition by definition. -/
theorem blk0_out (W : Valuation τ sig (Elt F)) :
    after blk0 W (main_v27 : DevRef τ sig) = Cert.Spec.ori (W (main_arg0 : DevRef τ sig)) (W (main_arg1 : DevRef τ sig)) (W (main_arg2 : DevRef τ sig)) (W (main_arg3 : DevRef τ sig)) (W (main_arg4 : DevRef τ sig)) (W (main_arg5 : DevRef τ sig)) (W (main_arg6 : DevRef τ sig)) := by
  simp only [blk0]
  after_results_simp
  simp only [Cert.Spec.ori, Cert.Spec.lin2, Cert.Spec.relu, Cert.Spec.bn, Cert.Spec.lin1, Cert.Spec.mean, Cert.Spec.var, Cert.Spec.row]
  rfl

set_option maxHeartbeats 4000000 in
/-- The perceptron's operations write no argument's buffer. -/
theorem blk0_keep (W : Valuation τ sig (Elt F)) :
    after blk0 W (main_arg0 : DevRef τ sig) = W (main_arg0 : DevRef τ sig)
    ∧ after blk0 W (main_arg1 : DevRef τ sig) = W (main_arg1 : DevRef τ sig)
    ∧ after blk0 W (main_arg2 : DevRef τ sig) = W (main_arg2 : DevRef τ sig)
    ∧ after blk0 W (main_arg3 : DevRef τ sig) = W (main_arg3 : DevRef τ sig)
    ∧ after blk0 W (main_arg4 : DevRef τ sig) = W (main_arg4 : DevRef τ sig)
    ∧ after blk0 W (main_arg5 : DevRef τ sig) = W (main_arg5 : DevRef τ sig)
    ∧ after blk0 W (main_arg6 : DevRef τ sig) = W (main_arg6 : DevRef τ sig)
    ∧ after blk0 W (main_arg7 : DevRef τ sig) = W (main_arg7 : DevRef τ sig)
    ∧ after blk0 W (main_arg8 : DevRef τ sig) = W (main_arg8 : DevRef τ sig)
    ∧ after blk0 W (main_arg9 : DevRef τ sig) = W (main_arg9 : DevRef τ sig)
    ∧ after blk0 W (main_arg10 : DevRef τ sig) = W (main_arg10 : DevRef τ sig) := by
  refine ⟨?_, ?_, ?_, ?_, ?_, ?_, ?_, ?_, ?_, ?_, ?_⟩ <;> (simp only [blk0]; after_results_simp)

end Cert.ReferenceIdeal.RefRun

end
-- ==== Proof.RefB1.lean ====
/- The text of the list below was produced by: python3 scratch/gen_refops.py .   (run in the unit's directory) followed by cutting
   the eleven produced lists, read as one, at the operations 56 … 135 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 1: the two degree normalisers of the positive edge list and one graph convolution over it, the same over the negative edge list, their difference, the residual added. -/
abbrev blk1 : List (HloOp τ sig (Elt F)) :=
  [ StableHlo.nullary main_cst_2 (constant S_ .f32 0x3F800000#32),
    StableHlo.unary main_cst_2 main_v28 (broadcastInDim S3200000 ![] bcast_S_S3200000 : (⟨S_, .f32⟩ : BufTy).Contents (Elt F) → (⟨S3200000, .f32⟩ : BufTy).Contents (Elt F)),
    StableHlo.nullary main_cst_3 (constant S_ .f32 0x00000000#32),
    StableHlo.unary main_cst_3 main_v29 (broadcastInDim S100000 ![] bcast_S_S100000 : (⟨S_, .f32⟩ : BufTy).Contents (Elt F) → (⟨S100000, .f32⟩ : BufTy).Contents (Elt F)),
    StableHlo.unary main_arg7 main_v30 (broadcastInDim S3200000x1 ![0] bcast_S3200000_S3200000x1_0 : (⟨S3200000, .i32⟩ : BufTy).Contents (Elt F) → (⟨S3200000x1, .i32⟩ : BufTy).Contents (Elt F)),
    StableHlo.ternary main_v29 main_v30 main_v28 main_v31 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_4 (constant S_ .f32 0x00000000#32),
    StableHlo.unary main_cst_4 main_v32 (broadcastInDim S100000 ![] bcast_S_S100000 : (⟨S_, .f32⟩ : BufTy).Contents (Elt F) → (⟨S100000, .f32⟩ : BufTy).Contents (Elt F)),
    StableHlo.unary main_arg8 main_v33 (broadcastInDim S3200000x1 ![0] bcast_S3200000_S3200000x1_0 : (⟨S3200000, .i32⟩ : BufTy).Contents (Elt F) → (⟨S3200000x1, .i32⟩ : BufTy).Contents (Elt F)),
    StableHlo.ternary main_v32 main_v33 main_v28 main_v34 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_5 (constant S_ .f32 0x3F800000#32),
    StableHlo.TRef.unary (StableHlo.TRef.of main_cst_5 : StableHlo.TRef sig ⟨S_, .f32⟩) main_call2.v0 id,
    StableHlo.TRef.unary main_call2.v0 main_call2.v1 (broadcastInDim S100000 ![] bcast_S_S100000),
    StableHlo.TRef.binary main_call2.v1 (StableHlo.TRef.of main_v31 : StableHlo.TRef sig ⟨S100000, .f32⟩) main_call2.v2 maximumf,
    StableHlo.unary main_v35 main_v36 (Host.rsqrt : (⟨S100000, .f32⟩ : BufTy).Contents (Elt F) → (⟨S100000, .f32⟩ : BufTy).Contents (Elt F)),
    StableHlo.unary main_v36 main_v37 (broadcastInDim S100000x1 ![0] bcast_S100000_S100000x1_0 : (⟨S100000, .f32⟩ : BufTy).Contents (Elt F) → (⟨S100000x1, .f32⟩ : BufTy).Contents (Elt F)),
    StableHlo.unary main_v37 main_v38 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v38 main_v39 (mulf : (⟨S100000x32, .f32⟩ : BufTy).Contents (Elt F) → (⟨S100000x32, .f32⟩ : BufTy).Contents (Elt F) → (⟨S100000x32, .f32⟩ : BufTy).Contents (Elt F)),
    StableHlo.nullary main_c_6 (constantI S_ 32 0#32),
    StableHlo.unary main_c_6 main_v40 (broadcastInDim S3200000 ![] bcast_S_S3200000 : (⟨S_, .i32⟩ : BufTy).Contents (Elt F) → (⟨S3200000, .i32⟩ : BufTy).Contents (Elt F)),
    StableHlo.binary main_arg7 main_v40 main_v41 (cmpi .slt : (⟨S3200000, .i32⟩ : BufTy).Contents (Elt F) → (⟨S3200000, .i32⟩ : BufTy).Contents (Elt F) → (⟨S3200000, .i1⟩ : BufTy).Contents (Elt F)),
    StableHlo.nullary main_c_7 (constantI S_ 32 100000#32),
    StableHlo.unary main_c_7 main_v42 (broadcastInDim S3200000 ![] bcast_S_S3200000 : (⟨S_, .i32⟩ : BufTy).Contents (Elt F) → (⟨S3200000, .i32⟩ : BufTy).Contents (Elt F)),
    StableHlo.binary main_arg7 main_v42 main_v43 (addi : (⟨S3200000, .i32⟩ : BufTy).Contents (Elt F) → (⟨S3200000, .i32⟩ : BufTy).Contents (Elt F) → (⟨S3200000, .i32⟩ : BufTy).Contents (Elt F)),
    StableHlo.ternary main_v41 main_v43 main_arg7 main_v44 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v44 main_v45 (broadcastInDim S3200000x1 ![0] bcast_S3200000_S3200000x1_0 : (⟨S3200000, .i32⟩ : BufTy).Contents (Elt F) → (⟨S3200000x1, .i32⟩ : BufTy).Contents (Elt F)),
    StableHlo.binary main_v39 main_v45 main_v46 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_8 (constant S_ .f32 0x00000000#32),
    StableHlo.unary main_cst_8 main_v47 (broadcastInDim S100000x32 ![] bcast_S_S100000x32 : (⟨S_, .f32⟩ : BufTy).Contents (Elt F) → (⟨S100000x32, .f32⟩ : BufTy).Contents (Elt F)),
    StableHlo.unary main_arg8 main_v48 (broadcastInDim S3200000x1 ![0] bcast_S3200000_S3200000x1_0 : (⟨S3200000, .i32⟩ : BufTy).Contents (Elt F) → (⟨S3200000x1, .i32⟩ : BufTy).Contents (Elt F)),
    StableHlo.ternary main_v47 main_v48 main_v46 main_v49 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_9 (constant S_ .f32 0x3F800000#32),
    StableHlo.TRef.unary (StableHlo.TRef.of main_cst_9 : StableHlo.TRef sig ⟨S_, .f32⟩) main_call3.v0 id,
    StableHlo.TRef.unary main_call3.v0 main_call3.v1 (broadcastInDim S100000 ![] bcast_S_S100000),
    StableHlo.TRef.binary main_call3.v1 (StableHlo.TRef.of main_v34 : StableHlo.TRef sig ⟨S100000, .f32⟩) main_call3.v2 maximumf,
    StableHlo.unary main_v50 main_v51 (Host.rsqrt : (⟨S100000, .f32⟩ : BufTy).Contents (Elt F) → (⟨S100000, .f32⟩ : BufTy).Contents (Elt F)),
    StableHlo.unary main_v51 main_v52 (broadcastInDim S100000x1 ![0] bcast_S100000_S100000x1_0 : (⟨S100000, .f32⟩ : BufTy).Contents (Elt F) → (⟨S100000x1, .f32⟩ : BufTy).Contents (Elt F)),
    StableHlo.unary main_v52 main_v53 (broadcastInDim S100000x32 ![0, 1] bcast_S100000x1_S100000x32_0_1 : (⟨S100000x1, .f32⟩ : BufTy).Contents (Elt F) → (⟨S100000x32, .f32⟩ : BufTy).Contents (Elt F)),
    StableHlo.binary main_v49 main_v53 main_v54 (mulf : (⟨S100000x32, .f32⟩ : BufTy).Contents (Elt F) → (⟨S100000x32, .f32⟩ : BufTy).Contents (Elt F) → (⟨S100000x32, .f32⟩ : BufTy).Contents (Elt F)),
    StableHlo.nullary main_cst_10 (constant S_ .f32 0x3F800000#32),
    StableHlo.unary main_cst_10 main_v55 (broadcastInDim S3200000 ![] bcast_S_S3200000 : (⟨S_, .f32⟩ : BufTy).Contents (Elt F) → (⟨S3200000, .f32⟩ : BufTy).Contents (Elt F)),
    StableHlo.nullary main_cst_11 (constant S_ .f32 0x00000000#32),
    StableHlo.unary main_cst_11 main_v56 (broadcastInDim S100000 ![] bcast_S_S100000 : (⟨S_, .f32⟩ : BufTy).Contents (Elt F) → (⟨S100000, .f32⟩ : BufTy).Contents (Elt F)),
    StableHlo.unary main_arg9 main_v57 (broadcastInDim S3200000x1 ![0] bcast_S3200000_S3200000x1_0 : (⟨S3200000, .i32⟩ : BufTy).Contents (Elt F) → (⟨S3200000x1, .i32⟩ : BufTy).Contents (Elt F)),
    StableHlo.ternary main_v56 main_v57 main_v55 main_v58 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_12 (constant S_ .f32 0x00000000#32),
    StableHlo.unary main_cst_12 main_v59 (broadcastInDim S100000 ![] bcast_S_S100000 : (⟨S_, .f32⟩ : BufTy).Contents (Elt F) → (⟨S100000, .f32⟩ : BufTy).Contents (Elt F)),
    StableHlo.unary main_arg10 main_v60 (broadcastInDim S3200000x1 ![0] bcast_S3200000_S3200000x1_0 : (⟨S3200000, .i32⟩ : BufTy).Contents (Elt F) → (⟨S3200000x1, .i32⟩ : BufTy).Contents (Elt F)),
    StableHlo.ternary main_v59 main_v60 main_v55 main_v61 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_13 (constant S_ .f32 0x3F800000#32),
    StableHlo.TRef.unary (StableHlo.TRef.of main_cst_13 : StableHlo.TRef sig ⟨S_, .f32⟩) main_call4.v0 id,
    StableHlo.TRef.unary main_call4.v0 main_call4.v1 (broadcastInDim S100000 ![] bcast_S_S100000),
    StableHlo.TRef.binary main_call4.v1 (StableHlo.TRef.of main_v58 : StableHlo.TRef sig ⟨S100000, .f32⟩) main_call4.v2 maximumf,
    StableHlo.unary main_v62 main_v63 (Host.rsqrt : (⟨S100000, .f32⟩ : BufTy).Contents (Elt F) → (⟨S100000, .f32⟩ : BufTy).Contents (Elt F)),
    StableHlo.unary main_v63 main_v64 (broadcastInDim S100000x1 ![0] bcast_S100000_S100000x1_0 : (⟨S100000, .f32⟩ : BufTy).Contents (Elt F) → (⟨S100000x1, .f32⟩ : BufTy).Contents (Elt F)),
    StableHlo.unary main_v64 main_v65 (broadcastInDim S100000x32 ![0, 1] bcast_S100000x1_S100000x32_0_1 : (⟨S100000x1, .f32⟩ : BufTy).Contents (Elt F) → (⟨S100000x32, .f32⟩ : BufTy).Contents (Elt F)),
    StableHlo.binary main_v27 main_v65 main_v66 (mulf : (⟨S100000x32, .f32⟩ : BufTy).Contents (Elt F) → (⟨S100000x32, .f32⟩ : BufTy).Contents (Elt F) → (⟨S100000x32, .f32⟩ : BufTy).Contents (Elt F)),
    StableHlo.nullary main_c_14 (constantI S_ 32 0#32),
    StableHlo.unary main_c_14 main_v67 (broadcastInDim S3200000 ![] bcast_S_S3200000 : (⟨S_, .i32⟩ : BufTy).Contents (Elt F) → (⟨S3200000, .i32⟩ : BufTy).Contents (Elt F)),
    StableHlo.binary main_arg9 main_v67 main_v68 (cmpi .slt : (⟨S3200000, .i32⟩ : BufTy).Contents (Elt F) → (⟨S3200000, .i32⟩ : BufTy).Contents (Elt F) → (⟨S3200000, .i1⟩ : BufTy).Contents (Elt F)),
    StableHlo.nullary main_c_15 (constantI S_ 32 100000#32),
    StableHlo.unary main_c_15 main_v69 (broadcastInDim S3200000 ![] bcast_S_S3200000 : (⟨S_, .i32⟩ : BufTy).Contents (Elt F) → (⟨S3200000, .i32⟩ : BufTy).Contents (Elt F)),
    StableHlo.binary main_arg9 main_v69 main_v70 (addi : (⟨S3200000, .i32⟩ : BufTy).Contents (Elt F) → (⟨S3200000, .i32⟩ : BufTy).Contents (Elt F) → (⟨S3200000, .i32⟩ : BufTy).Contents (Elt F)),
    StableHlo.ternary main_v68 main_v70 main_arg9 main_v71 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v71 main_v72 (broadcastInDim S3200000x1 ![0] bcast_S3200000_S3200000x1_0 : (⟨S3200000, .i32⟩ : BufTy).Contents (Elt F) → (⟨S3200000x1, .i32⟩ : BufTy).Contents (Elt F)),
    StableHlo.binary main_v66 main_v72 main_v73 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_16 (constant S_ .f32 0x00000000#32),
    StableHlo.unary main_cst_16 main_v74 (broadcastInDim S100000x32 ![] bcast_S_S100000x32 : (⟨S_, .f32⟩ : BufTy).Contents (Elt F) → (⟨S100000x32, .f32⟩ : BufTy).Contents (Elt F)),
    StableHlo.unary main_arg10 main_v75 (broadcastInDim S3200000x1 ![0] bcast_S3200000_S3200000x1_0 : (⟨S3200000, .i32⟩ : BufTy).Contents (Elt F) → (⟨S3200000x1, .i32⟩ : BufTy).Contents (Elt F)),
    StableHlo.ternary main_v74 main_v75 main_v73 main_v76 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_17 (constant S_ .f32 0x3F800000#32),
    StableHlo.TRef.unary (StableHlo.TRef.of main_cst_17 : StableHlo.TRef sig ⟨S_, .f32⟩) main_call5.v0 id,
    StableHlo.TRef.unary main_call5.v0 main_call5.v1 (broadcastInDim S100000 ![] bcast_S_S100000),
    StableHlo.TRef.binary main_call5.v1 (StableHlo.TRef.of main_v61 : StableHlo.TRef sig ⟨S100000, .f32⟩) main_call5.v2 maximumf,
    StableHlo.unary main_v77 main_v78 (Host.rsqrt : (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x32 ![0, 1] bcast_S100000x1_S100000x32_0_1 : (⟨S100000x1, .f32⟩ : BufTy).Contents (Elt F) → (⟨S100000x32, .f32⟩ : BufTy).Contents (Elt F)),
    StableHlo.binary main_v76 main_v80 main_v81 (mulf : (⟨S100000x32, .f32⟩ : BufTy).Contents (Elt F) → (⟨S100000x32, .f32⟩ : BufTy).Contents (Elt F) → (⟨S100000x32, .f32⟩ : BufTy).Contents (Elt F)),
    StableHlo.binary main_v54 main_v81 main_v82 (subf : (⟨S100000x32, .f32⟩ : BufTy).Contents (Elt F) → (⟨S100000x32, .f32⟩ : BufTy).Contents (Elt F) → (⟨S100000x32, .f32⟩ : BufTy).Contents (Elt F)),
    StableHlo.binary main_v82 main_v27 main_v83 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 1 leaves in its result buffer one propagation step of the specification applied to what the buffers of the
    residual, the four edge lists and the previous state held before it: the operations' composed term is the
    specification's, definition by definition. -/
theorem blk1_out (W : Valuation τ sig (Elt F)) :
    after blk1 W (main_v83 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v27 : DevRef τ sig)) := by
  simp only [blk1]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 1 writes neither the residual's buffer nor an argument's. -/
theorem blk1_keep (W : Valuation τ sig (Elt F)) :
    after blk1 W (main_v27 : DevRef τ sig) = W (main_v27 : DevRef τ sig)
    ∧ after blk1 W (main_arg0 : DevRef τ sig) = W (main_arg0 : DevRef τ sig)
    ∧ after blk1 W (main_arg1 : DevRef τ sig) = W (main_arg1 : DevRef τ sig)
    ∧ after blk1 W (main_arg2 : DevRef τ sig) = W (main_arg2 : DevRef τ sig)
    ∧ after blk1 W (main_arg3 : DevRef τ sig) = W (main_arg3 : DevRef τ sig)
    ∧ after blk1 W (main_arg4 : DevRef τ sig) = W (main_arg4 : DevRef τ sig)
    ∧ after blk1 W (main_arg5 : DevRef τ sig) = W (main_arg5 : DevRef τ sig)
    ∧ after blk1 W (main_arg6 : DevRef τ sig) = W (main_arg6 : DevRef τ sig)
    ∧ after blk1 W (main_arg7 : DevRef τ sig) = W (main_arg7 : DevRef τ sig)
    ∧ after blk1 W (main_arg8 : DevRef τ sig) = W (main_arg8 : DevRef τ sig)
    ∧ after blk1 W (main_arg9 : DevRef τ sig) = W (main_arg9 : DevRef τ sig)
    ∧ after blk1 W (main_arg10 : DevRef τ sig) = W (main_arg10 : DevRef τ sig) := by
  refine ⟨?_, ?_, ?_, ?_, ?_, ?_, ?_, ?_, ?_, ?_, ?_, ?_⟩ <;> (simp only [blk1]; after_results_simp)

end Cert.ReferenceIdeal.RefRun

end
-- ==== Proof.RefB2.lean ====
/- The text of the list below was produced by: python3 scratch/gen_refops.py .   (run in the unit's directory) followed by cutting
   the eleven produced lists, read as one, at the operations 136 … 215 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 2: the two degree normalisers of the positive edge list and one graph convolution over it, the same over the negative edge list, their difference, the residual added. -/
abbrev blk2 : List (HloOp τ sig (Elt F)) :=
  [ StableHlo.nullary main_cst_18 (constant S_ .f32 0x3F800000#32),
    StableHlo.unary main_cst_18 main_v84 (broadcastInDim S3200000 ![] bcast_S_S3200000 : (⟨S_, .f32⟩ : BufTy).Contents (Elt F) → (⟨S3200000, .f32⟩ : BufTy).Contents (Elt F)),
    StableHlo.nullary main_cst_19 (constant S_ .f32 0x00000000#32),
    StableHlo.unary main_cst_19 main_v85 (broadcastInDim S100000 ![] bcast_S_S100000 : (⟨S_, .f32⟩ : BufTy).Contents (Elt F) → (⟨S100000, .f32⟩ : BufTy).Contents (Elt F)),
    StableHlo.unary main_arg7 main_v86 (broadcastInDim S3200000x1 ![0] bcast_S3200000_S3200000x1_0 : (⟨S3200000, .i32⟩ : BufTy).Contents (Elt F) → (⟨S3200000x1, .i32⟩ : BufTy).Contents (Elt F)),
    StableHlo.ternary main_v85 main_v86 main_v84 main_v87 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_20 (constant S_ .f32 0x00000000#32),
    StableHlo.unary main_cst_20 main_v88 (broadcastInDim S100000 ![] bcast_S_S100000 : (⟨S_, .f32⟩ : BufTy).Contents (Elt F) → (⟨S100000, .f32⟩ : BufTy).Contents (Elt F)),
    StableHlo.unary main_arg8 main_v89 (broadcastInDim S3200000x1 ![0] bcast_S3200000_S3200000x1_0 : (⟨S3200000, .i32⟩ : BufTy).Contents (Elt F) → (⟨S3200000x1, .i32⟩ : BufTy).Contents (Elt F)),
    StableHlo.ternary main_v88 main_v89 main_v84 main_v90 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_21 (constant S_ .f32 0x3F800000#32),
    StableHlo.TRef.unary (StableHlo.TRef.of main_cst_21 : StableHlo.TRef sig ⟨S_, .f32⟩) main_call6.v0 id,
    StableHlo.TRef.unary main_call6.v0 main_call6.v1 (broadcastInDim S100000 ![] bcast_S_S100000),
    StableHlo.TRef.binary main_call6.v1 (StableHlo.TRef.of main_v87 : StableHlo.TRef sig ⟨S100000, .f32⟩) main_call6.v2 maximumf,
    StableHlo.unary main_v91 main_v92 (Host.rsqrt : (⟨S100000, .f32⟩ : BufTy).Contents (Elt F) → (⟨S100000, .f32⟩ : BufTy).Contents (Elt F)),
    StableHlo.unary main_v92 main_v93 (broadcastInDim S100000x1 ![0] bcast_S100000_S100000x1_0 : (⟨S100000, .f32⟩ : BufTy).Contents (Elt F) → (⟨S100000x1, .f32⟩ : BufTy).Contents (Elt F)),
    StableHlo.unary main_v93 main_v94 (broadcastInDim S100000x32 ![0, 1] bcast_S100000x1_S100000x32_0_1 : (⟨S100000x1, .f32⟩ : BufTy).Contents (Elt F) → (⟨S100000x32, .f32⟩ : BufTy).Contents (Elt F)),
    StableHlo.binary main_v83 main_v94 main_v95 (mulf : (⟨S100000x32, .f32⟩ : BufTy).Contents (Elt F) → (⟨S100000x32, .f32⟩ : BufTy).Contents (Elt F) → (⟨S100000x32, .f32⟩ : BufTy).Contents (Elt F)),
    StableHlo.nullary main_c_22 (constantI S_ 32 0#32),
    StableHlo.unary main_c_22 main_v96 (broadcastInDim S3200000 ![] bcast_S_S3200000 : (⟨S_, .i32⟩ : BufTy).Contents (Elt F) → (⟨S3200000, .i32⟩ : BufTy).Contents (Elt F)),
    StableHlo.binary main_arg7 main_v96 main_v97 (cmpi .slt : (⟨S3200000, .i32⟩ : BufTy).Contents (Elt F) → (⟨S3200000, .i32⟩ : BufTy).Contents (Elt F) → (⟨S3200000, .i1⟩ : BufTy).Contents (Elt F)),
    StableHlo.nullary main_c_23 (constantI S_ 32 100000#32),
    StableHlo.unary main_c_23 main_v98 (broadcastInDim S3200000 ![] bcast_S_S3200000 : (⟨S_, .i32⟩ : BufTy).Contents (Elt F) → (⟨S3200000, .i32⟩ : BufTy).Contents (Elt F)),
    StableHlo.binary main_arg7 main_v98 main_v99 (addi : (⟨S3200000, .i32⟩ : BufTy).Contents (Elt F) → (⟨S3200000, .i32⟩ : BufTy).Contents (Elt F) → (⟨S3200000, .i32⟩ : BufTy).Contents (Elt F)),
    StableHlo.ternary main_v97 main_v99 main_arg7 main_v100 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v100 main_v101 (broadcastInDim S3200000x1 ![0] bcast_S3200000_S3200000x1_0 : (⟨S3200000, .i32⟩ : BufTy).Contents (Elt F) → (⟨S3200000x1, .i32⟩ : BufTy).Contents (Elt F)),
    StableHlo.binary main_v95 main_v101 main_v102 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_24 (constant S_ .f32 0x00000000#32),
    StableHlo.unary main_cst_24 main_v103 (broadcastInDim S100000x32 ![] bcast_S_S100000x32 : (⟨S_, .f32⟩ : BufTy).Contents (Elt F) → (⟨S100000x32, .f32⟩ : BufTy).Contents (Elt F)),
    StableHlo.unary main_arg8 main_v104 (broadcastInDim S3200000x1 ![0] bcast_S3200000_S3200000x1_0 : (⟨S3200000, .i32⟩ : BufTy).Contents (Elt F) → (⟨S3200000x1, .i32⟩ : BufTy).Contents (Elt F)),
    StableHlo.ternary main_v103 main_v104 main_v102 main_v105 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_25 (constant S_ .f32 0x3F800000#32),
    StableHlo.TRef.unary (StableHlo.TRef.of main_cst_25 : StableHlo.TRef sig ⟨S_, .f32⟩) main_call7.v0 id,
    StableHlo.TRef.unary main_call7.v0 main_call7.v1 (broadcastInDim S100000 ![] bcast_S_S100000),
    StableHlo.TRef.binary main_call7.v1 (StableHlo.TRef.of main_v90 : StableHlo.TRef sig ⟨S100000, .f32⟩) main_call7.v2 maximumf,
    StableHlo.unary main_v106 main_v107 (Host.rsqrt : (⟨S100000, .f32⟩ : BufTy).Contents (Elt F) → (⟨S100000, .f32⟩ : BufTy).Contents (Elt F)),
    StableHlo.unary main_v107 main_v108 (broadcastInDim S100000x1 ![0] bcast_S100000_S100000x1_0 : (⟨S100000, .f32⟩ : BufTy).Contents (Elt F) → (⟨S100000x1, .f32⟩ : BufTy).Contents (Elt F)),
    StableHlo.unary main_v108 main_v109 (broadcastInDim S100000x32 ![0, 1] bcast_S100000x1_S100000x32_0_1 : (⟨S100000x1, .f32⟩ : BufTy).Contents (Elt F) → (⟨S100000x32, .f32⟩ : BufTy).Contents (Elt F)),
    StableHlo.binary main_v105 main_v109 main_v110 (mulf : (⟨S100000x32, .f32⟩ : BufTy).Contents (Elt F) → (⟨S100000x32, .f32⟩ : BufTy).Contents (Elt F) → (⟨S100000x32, .f32⟩ : BufTy).Contents (Elt F)),
    StableHlo.nullary main_cst_26 (constant S_ .f32 0x3F800000#32),
    StableHlo.unary main_cst_26 main_v111 (broadcastInDim S3200000 ![] bcast_S_S3200000 : (⟨S_, .f32⟩ : BufTy).Contents (Elt F) → (⟨S3200000, .f32⟩ : BufTy).Contents (Elt F)),
    StableHlo.nullary main_cst_27 (constant S_ .f32 0x00000000#32),
    StableHlo.unary main_cst_27 main_v112 (broadcastInDim S100000 ![] bcast_S_S100000 : (⟨S_, .f32⟩ : BufTy).Contents (Elt F) → (⟨S100000, .f32⟩ : BufTy).Contents (Elt F)),
    StableHlo.unary main_arg9 main_v113 (broadcastInDim S3200000x1 ![0] bcast_S3200000_S3200000x1_0 : (⟨S3200000, .i32⟩ : BufTy).Contents (Elt F) → (⟨S3200000x1, .i32⟩ : BufTy).Contents (Elt F)),
    StableHlo.ternary main_v112 main_v113 main_v111 main_v114 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_28 (constant S_ .f32 0x00000000#32),
    StableHlo.unary main_cst_28 main_v115 (broadcastInDim S100000 ![] bcast_S_S100000 : (⟨S_, .f32⟩ : BufTy).Contents (Elt F) → (⟨S100000, .f32⟩ : BufTy).Contents (Elt F)),
    StableHlo.unary main_arg10 main_v116 (broadcastInDim S3200000x1 ![0] bcast_S3200000_S3200000x1_0 : (⟨S3200000, .i32⟩ : BufTy).Contents (Elt F) → (⟨S3200000x1, .i32⟩ : BufTy).Contents (Elt F)),
    StableHlo.ternary main_v115 main_v116 main_v111 main_v117 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_29 (constant S_ .f32 0x3F800000#32),
    StableHlo.TRef.unary (StableHlo.TRef.of main_cst_29 : StableHlo.TRef sig ⟨S_, .f32⟩) main_call8.v0 id,
    StableHlo.TRef.unary main_call8.v0 main_call8.v1 (broadcastInDim S100000 ![] bcast_S_S100000),
    StableHlo.TRef.binary main_call8.v1 (StableHlo.TRef.of main_v114 : StableHlo.TRef sig ⟨S100000, .f32⟩) main_call8.v2 maximumf,
    StableHlo.unary main_v118 main_v119 (Host.rsqrt : (⟨S100000, .f32⟩ : BufTy).Contents (Elt F) → (⟨S100000, .f32⟩ : BufTy).Contents (Elt F)),
    StableHlo.unary main_v119 main_v120 (broadcastInDim S100000x1 ![0] bcast_S100000_S100000x1_0 : (⟨S100000, .f32⟩ : BufTy).Contents (Elt F) → (⟨S100000x1, .f32⟩ : BufTy).Contents (Elt F)),
    StableHlo.unary main_v120 main_v121 (broadcastInDim S100000x32 ![0, 1] bcast_S100000x1_S100000x32_0_1 : (⟨S100000x1, .f32⟩ : BufTy).Contents (Elt F) → (⟨S100000x32, .f32⟩ : BufTy).Contents (Elt F)),
    StableHlo.binary main_v83 main_v121 main_v122 (mulf : (⟨S100000x32, .f32⟩ : BufTy).Contents (Elt F) → (⟨S100000x32, .f32⟩ : BufTy).Contents (Elt F) → (⟨S100000x32, .f32⟩ : BufTy).Contents (Elt F)),
    StableHlo.nullary main_c_30 (constantI S_ 32 0#32),
    StableHlo.unary main_c_30 main_v123 (broadcastInDim S3200000 ![] bcast_S_S3200000 : (⟨S_, .i32⟩ : BufTy).Contents (Elt F) → (⟨S3200000, .i32⟩ : BufTy).Contents (Elt F)),
    StableHlo.binary main_arg9 main_v123 main_v124 (cmpi .slt : (⟨S3200000, .i32⟩ : BufTy).Contents (Elt F) → (⟨S3200000, .i32⟩ : BufTy).Contents (Elt F) → (⟨S3200000, .i1⟩ : BufTy).Contents (Elt F)),
    StableHlo.nullary main_c_31 (constantI S_ 32 100000#32),
    StableHlo.unary main_c_31 main_v125 (broadcastInDim S3200000 ![] bcast_S_S3200000 : (⟨S_, .i32⟩ : BufTy).Contents (Elt F) → (⟨S3200000, .i32⟩ : BufTy).Contents (Elt F)),
    StableHlo.binary main_arg9 main_v125 main_v126 (addi : (⟨S3200000, .i32⟩ : BufTy).Contents (Elt F) → (⟨S3200000, .i32⟩ : BufTy).Contents (Elt F) → (⟨S3200000, .i32⟩ : BufTy).Contents (Elt F)),
    StableHlo.ternary main_v124 main_v126 main_arg9 main_v127 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v127 main_v128 (broadcastInDim S3200000x1 ![0] bcast_S3200000_S3200000x1_0 : (⟨S3200000, .i32⟩ : BufTy).Contents (Elt F) → (⟨S3200000x1, .i32⟩ : BufTy).Contents (Elt F)),
    StableHlo.binary main_v122 main_v128 main_v129 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_32 (constant S_ .f32 0x00000000#32),
    StableHlo.unary main_cst_32 main_v130 (broadcastInDim S100000x32 ![] bcast_S_S100000x32 : (⟨S_, .f32⟩ : BufTy).Contents (Elt F) → (⟨S100000x32, .f32⟩ : BufTy).Contents (Elt F)),
    StableHlo.unary main_arg10 main_v131 (broadcastInDim S3200000x1 ![0] bcast_S3200000_S3200000x1_0 : (⟨S3200000, .i32⟩ : BufTy).Contents (Elt F) → (⟨S3200000x1, .i32⟩ : BufTy).Contents (Elt F)),
    StableHlo.ternary main_v130 main_v131 main_v129 main_v132 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_33 (constant S_ .f32 0x3F800000#32),
    StableHlo.TRef.unary (StableHlo.TRef.of main_cst_33 : StableHlo.TRef sig ⟨S_, .f32⟩) main_call9.v0 id,
    StableHlo.TRef.unary main_call9.v0 main_call9.v1 (broadcastInDim S100000 ![] bcast_S_S100000),
    StableHlo.TRef.binary main_call9.v1 (StableHlo.TRef.of main_v117 : StableHlo.TRef sig ⟨S100000, .f32⟩) main_call9.v2 maximumf,
    StableHlo.unary main_v133 main_v134 (Host.rsqrt : (⟨S100000, .f32⟩ : BufTy).Contents (Elt F) → (⟨S100000, .f32⟩ : BufTy).Contents (Elt F)),
    StableHlo.unary main_v134 main_v135 (broadcastInDim S100000x1 ![0] bcast_S100000_S100000x1_0 : (⟨S100000, .f32⟩ : BufTy).Contents (Elt F) → (⟨S100000x1, .f32⟩ : BufTy).Contents (Elt F)),
    StableHlo.unary main_v135 main_v136 (broadcastInDim S100000x32 ![0, 1] bcast_S100000x1_S100000x32_0_1 : (⟨S100000x1, .f32⟩ : BufTy).Contents (Elt F) → (⟨S100000x32, .f32⟩ : BufTy).Contents (Elt F)),
    StableHlo.binary main_v132 main_v136 main_v137 (mulf : (⟨S100000x32, .f32⟩ : BufTy).Contents (Elt F) → (⟨S100000x32, .f32⟩ : BufTy).Contents (Elt F) → (⟨S100000x32, .f32⟩ : BufTy).Contents (Elt F)),
    StableHlo.binary main_v110 main_v137 main_v138 (subf : (⟨S100000x32, .f32⟩ : BufTy).Contents (Elt F) → (⟨S100000x32, .f32⟩ : BufTy).Contents (Elt F) → (⟨S100000x32, .f32⟩ : BufTy).Contents (Elt F)),
    StableHlo.binary main_v138 main_v27 main_v139 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 2 leaves in its result buffer one propagation step of the specification applied to what the buffers of the
    residual, the four edge lists and the previous state held before it: the operations' composed term is the
    specification's, definition by definition. -/
theorem blk2_out (W : Valuation τ sig (Elt F)) :
    after blk2 W (main_v139 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v83 : DevRef τ sig)) := by
  simp only [blk2]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 2 writes neither the residual's buffer nor an argument's. -/
theorem blk2_keep (W : Valuation τ sig (Elt F)) :
    after blk2 W (main_v27 : DevRef τ sig) = W (main_v27 : DevRef τ sig)
    ∧ after blk2 W (main_arg0 : DevRef τ sig) = W (main_arg0 : DevRef τ sig)
    ∧ after blk2 W (main_arg1 : DevRef τ sig) = W (main_arg1 : DevRef τ sig)
    ∧ after blk2 W (main_arg2 : DevRef τ sig) = W (main_arg2 : DevRef τ sig)
    ∧ after blk2 W (main_arg3 : DevRef τ sig) = W (main_arg3 : DevRef τ sig)
    ∧ after blk2 W (main_arg4 : DevRef τ sig) = W (main_arg4 : DevRef τ sig)
    ∧ after blk2 W (main_arg5 : DevRef τ sig) = W (main_arg5 : DevRef τ sig)
    ∧ after blk2 W (main_arg6 : DevRef τ sig) = W (main_arg6 : DevRef τ sig)
    ∧ after blk2 W (main_arg7 : DevRef τ sig) = W (main_arg7 : DevRef τ sig)
    ∧ after blk2 W (main_arg8 : DevRef τ sig) = W (main_arg8 : DevRef τ sig)
    ∧ after blk2 W (main_arg9 : DevRef τ sig) = W (main_arg9 : DevRef τ sig)
    ∧ after blk2 W (main_arg10 : DevRef τ sig) = W (main_arg10 : DevRef τ sig) := by
  refine ⟨?_, ?_, ?_, ?_, ?_, ?_, ?_, ?_, ?_, ?_, ?_, ?_⟩ <;> (simp only [blk2]; after_results_simp)

end Cert.ReferenceIdeal.RefRun

end
-- ==== Proof.RefB3.lean ====
/- The text of the list below was produced by: python3 scratch/gen_refops.py .   (run in the unit's directory) followed by cutting
   the eleven produced lists, read as one, at the operations 216 … 295 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 3: the two degree normalisers of the positive edge list and one graph convolution over it, the same over the negative edge list, their difference, the residual added. -/
abbrev blk3 : List (HloOp τ sig (Elt F)) :=
  [ StableHlo.nullary main_cst_34 (constant S_ .f32 0x3F800000#32),
    StableHlo.unary main_cst_34 main_v140 (broadcastInDim S3200000 ![] bcast_S_S3200000 : (⟨S_, .f32⟩ : BufTy).Contents (Elt F) → (⟨S3200000, .f32⟩ : BufTy).Contents (Elt F)),
    StableHlo.nullary main_cst_35 (constant S_ .f32 0x00000000#32),
    StableHlo.unary main_cst_35 main_v141 (broadcastInDim S100000 ![] bcast_S_S100000 : (⟨S_, .f32⟩ : BufTy).Contents (Elt F) → (⟨S100000, .f32⟩ : BufTy).Contents (Elt F)),
    StableHlo.unary main_arg7 main_v142 (broadcastInDim S3200000x1 ![0] bcast_S3200000_S3200000x1_0 : (⟨S3200000, .i32⟩ : BufTy).Contents (Elt F) → (⟨S3200000x1, .i32⟩ : BufTy).Contents (Elt F)),
    StableHlo.ternary main_v141 main_v142 main_v140 main_v143 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_36 (constant S_ .f32 0x00000000#32),
    StableHlo.unary main_cst_36 main_v144 (broadcastInDim S100000 ![] bcast_S_S100000 : (⟨S_, .f32⟩ : BufTy).Contents (Elt F) → (⟨S100000, .f32⟩ : BufTy).Contents (Elt F)),
    StableHlo.unary main_arg8 main_v145 (broadcastInDim S3200000x1 ![0] bcast_S3200000_S3200000x1_0 : (⟨S3200000, .i32⟩ : BufTy).Contents (Elt F) → (⟨S3200000x1, .i32⟩ : BufTy).Contents (Elt F)),
    StableHlo.ternary main_v144 main_v145 main_v140 main_v146 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_37 (constant S_ .f32 0x3F800000#32),
    StableHlo.TRef.unary (StableHlo.TRef.of main_cst_37 : StableHlo.TRef sig ⟨S_, .f32⟩) main_call10.v0 id,
    StableHlo.TRef.unary main_call10.v0 main_call10.v1 (broadcastInDim S100000 ![] bcast_S_S100000),
    StableHlo.TRef.binary main_call10.v1 (StableHlo.TRef.of main_v143 : StableHlo.TRef sig ⟨S100000, .f32⟩) main_call10.v2 maximumf,
    StableHlo.unary main_v147 main_v148 (Host.rsqrt : (⟨S100000, .f32⟩ : BufTy).Contents (Elt F) → (⟨S100000, .f32⟩ : BufTy).Contents (Elt F)),
    StableHlo.unary main_v148 main_v149 (broadcastInDim S100000x1 ![0] bcast_S100000_S100000x1_0 : (⟨S100000, .f32⟩ : BufTy).Contents (Elt F) → (⟨S100000x1, .f32⟩ : BufTy).Contents (Elt F)),
    StableHlo.unary main_v149 main_v150 (broadcastInDim S100000x32 ![0, 1] bcast_S100000x1_S100000x32_0_1 : (⟨S100000x1, .f32⟩ : BufTy).Contents (Elt F) → (⟨S100000x32, .f32⟩ : BufTy).Contents (Elt F)),
    StableHlo.binary main_v139 main_v150 main_v151 (mulf : (⟨S100000x32, .f32⟩ : BufTy).Contents (Elt F) → (⟨S100000x32, .f32⟩ : BufTy).Contents (Elt F) → (⟨S100000x32, .f32⟩ : BufTy).Contents (Elt F)),
    StableHlo.nullary main_c_38 (constantI S_ 32 0#32),
    StableHlo.unary main_c_38 main_v152 (broadcastInDim S3200000 ![] bcast_S_S3200000 : (⟨S_, .i32⟩ : BufTy).Contents (Elt F) → (⟨S3200000, .i32⟩ : BufTy).Contents (Elt F)),
    StableHlo.binary main_arg7 main_v152 main_v153 (cmpi .slt : (⟨S3200000, .i32⟩ : BufTy).Contents (Elt F) → (⟨S3200000, .i32⟩ : BufTy).Contents (Elt F) → (⟨S3200000, .i1⟩ : BufTy).Contents (Elt F)),
    StableHlo.nullary main_c_39 (constantI S_ 32 100000#32),
    StableHlo.unary main_c_39 main_v154 (broadcastInDim S3200000 ![] bcast_S_S3200000 : (⟨S_, .i32⟩ : BufTy).Contents (Elt F) → (⟨S3200000, .i32⟩ : BufTy).Contents (Elt F)),
    StableHlo.binary main_arg7 main_v154 main_v155 (addi : (⟨S3200000, .i32⟩ : BufTy).Contents (Elt F) → (⟨S3200000, .i32⟩ : BufTy).Contents (Elt F) → (⟨S3200000, .i32⟩ : BufTy).Contents (Elt F)),
    StableHlo.ternary main_v153 main_v155 main_arg7 main_v156 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v156 main_v157 (broadcastInDim S3200000x1 ![0] bcast_S3200000_S3200000x1_0 : (⟨S3200000, .i32⟩ : BufTy).Contents (Elt F) → (⟨S3200000x1, .i32⟩ : BufTy).Contents (Elt F)),
    StableHlo.binary main_v151 main_v157 main_v158 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_40 (constant S_ .f32 0x00000000#32),
    StableHlo.unary main_cst_40 main_v159 (broadcastInDim S100000x32 ![] bcast_S_S100000x32 : (⟨S_, .f32⟩ : BufTy).Contents (Elt F) → (⟨S100000x32, .f32⟩ : BufTy).Contents (Elt F)),
    StableHlo.unary main_arg8 main_v160 (broadcastInDim S3200000x1 ![0] bcast_S3200000_S3200000x1_0 : (⟨S3200000, .i32⟩ : BufTy).Contents (Elt F) → (⟨S3200000x1, .i32⟩ : BufTy).Contents (Elt F)),
    StableHlo.ternary main_v159 main_v160 main_v158 main_v161 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_41 (constant S_ .f32 0x3F800000#32),
    StableHlo.TRef.unary (StableHlo.TRef.of main_cst_41 : StableHlo.TRef sig ⟨S_, .f32⟩) main_call11.v0 id,
    StableHlo.TRef.unary main_call11.v0 main_call11.v1 (broadcastInDim S100000 ![] bcast_S_S100000),
    StableHlo.TRef.binary main_call11.v1 (StableHlo.TRef.of main_v146 : StableHlo.TRef sig ⟨S100000, .f32⟩) main_call11.v2 maximumf,
    StableHlo.unary main_v162 main_v163 (Host.rsqrt : (⟨S100000, .f32⟩ : BufTy).Contents (Elt F) → (⟨S100000, .f32⟩ : BufTy).Contents (Elt F)),
    StableHlo.unary main_v163 main_v164 (broadcastInDim S100000x1 ![0] bcast_S100000_S100000x1_0 : (⟨S100000, .f32⟩ : BufTy).Contents (Elt F) → (⟨S100000x1, .f32⟩ : BufTy).Contents (Elt F)),
    StableHlo.unary main_v164 main_v165 (broadcastInDim S100000x32 ![0, 1] bcast_S100000x1_S100000x32_0_1 : (⟨S100000x1, .f32⟩ : BufTy).Contents (Elt F) → (⟨S100000x32, .f32⟩ : BufTy).Contents (Elt F)),
    StableHlo.binary main_v161 main_v165 main_v166 (mulf : (⟨S100000x32, .f32⟩ : BufTy).Contents (Elt F) → (⟨S100000x32, .f32⟩ : BufTy).Contents (Elt F) → (⟨S100000x32, .f32⟩ : BufTy).Contents (Elt F)),
    StableHlo.nullary main_cst_42 (constant S_ .f32 0x3F800000#32),
    StableHlo.unary main_cst_42 main_v167 (broadcastInDim S3200000 ![] bcast_S_S3200000 : (⟨S_, .f32⟩ : BufTy).Contents (Elt F) → (⟨S3200000, .f32⟩ : BufTy).Contents (Elt F)),
    StableHlo.nullary main_cst_43 (constant S_ .f32 0x00000000#32),
    StableHlo.unary main_cst_43 main_v168 (broadcastInDim S100000 ![] bcast_S_S100000 : (⟨S_, .f32⟩ : BufTy).Contents (Elt F) → (⟨S100000, .f32⟩ : BufTy).Contents (Elt F)),
    StableHlo.unary main_arg9 main_v169 (broadcastInDim S3200000x1 ![0] bcast_S3200000_S3200000x1_0 : (⟨S3200000, .i32⟩ : BufTy).Contents (Elt F) → (⟨S3200000x1, .i32⟩ : BufTy).Contents (Elt F)),
    StableHlo.ternary main_v168 main_v169 main_v167 main_v170 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_44 (constant S_ .f32 0x00000000#32),
    StableHlo.unary main_cst_44 main_v171 (broadcastInDim S100000 ![] bcast_S_S100000 : (⟨S_, .f32⟩ : BufTy).Contents (Elt F) → (⟨S100000, .f32⟩ : BufTy).Contents (Elt F)),
    StableHlo.unary main_arg10 main_v172 (broadcastInDim S3200000x1 ![0] bcast_S3200000_S3200000x1_0 : (⟨S3200000, .i32⟩ : BufTy).Contents (Elt F) → (⟨S3200000x1, .i32⟩ : BufTy).Contents (Elt F)),
    StableHlo.ternary main_v171 main_v172 main_v167 main_v173 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_45 (constant S_ .f32 0x3F800000#32),
    StableHlo.TRef.unary (StableHlo.TRef.of main_cst_45 : StableHlo.TRef sig ⟨S_, .f32⟩) main_call12.v0 id,
    StableHlo.TRef.unary main_call12.v0 main_call12.v1 (broadcastInDim S100000 ![] bcast_S_S100000),
    StableHlo.TRef.binary main_call12.v1 (StableHlo.TRef.of main_v170 : StableHlo.TRef sig ⟨S100000, .f32⟩) main_call12.v2 maximumf,
    StableHlo.unary main_v174 main_v175 (Host.rsqrt : (⟨S100000, .f32⟩ : BufTy).Contents (Elt F) → (⟨S100000, .f32⟩ : BufTy).Contents (Elt F)),
    StableHlo.unary main_v175 main_v176 (broadcastInDim S100000x1 ![0] bcast_S100000_S100000x1_0 : (⟨S100000, .f32⟩ : BufTy).Contents (Elt F) → (⟨S100000x1, .f32⟩ : BufTy).Contents (Elt F)),
    StableHlo.unary main_v176 main_v177 (broadcastInDim S100000x32 ![0, 1] bcast_S100000x1_S100000x32_0_1 : (⟨S100000x1, .f32⟩ : BufTy).Contents (Elt F) → (⟨S100000x32, .f32⟩ : BufTy).Contents (Elt F)),
    StableHlo.binary main_v139 main_v177 main_v178 (mulf : (⟨S100000x32, .f32⟩ : BufTy).Contents (Elt F) → (⟨S100000x32, .f32⟩ : BufTy).Contents (Elt F) → (⟨S100000x32, .f32⟩ : BufTy).Contents (Elt F)),
    StableHlo.nullary main_c_46 (constantI S_ 32 0#32),
    StableHlo.unary main_c_46 main_v179 (broadcastInDim S3200000 ![] bcast_S_S3200000 : (⟨S_, .i32⟩ : BufTy).Contents (Elt F) → (⟨S3200000, .i32⟩ : BufTy).Contents (Elt F)),
    StableHlo.binary main_arg9 main_v179 main_v180 (cmpi .slt : (⟨S3200000, .i32⟩ : BufTy).Contents (Elt F) → (⟨S3200000, .i32⟩ : BufTy).Contents (Elt F) → (⟨S3200000, .i1⟩ : BufTy).Contents (Elt F)),
    StableHlo.nullary main_c_47 (constantI S_ 32 100000#32),
    StableHlo.unary main_c_47 main_v181 (broadcastInDim S3200000 ![] bcast_S_S3200000 : (⟨S_, .i32⟩ : BufTy).Contents (Elt F) → (⟨S3200000, .i32⟩ : BufTy).Contents (Elt F)),
    StableHlo.binary main_arg9 main_v181 main_v182 (addi : (⟨S3200000, .i32⟩ : BufTy).Contents (Elt F) → (⟨S3200000, .i32⟩ : BufTy).Contents (Elt F) → (⟨S3200000, .i32⟩ : BufTy).Contents (Elt F)),
    StableHlo.ternary main_v180 main_v182 main_arg9 main_v183 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v183 main_v184 (broadcastInDim S3200000x1 ![0] bcast_S3200000_S3200000x1_0 : (⟨S3200000, .i32⟩ : BufTy).Contents (Elt F) → (⟨S3200000x1, .i32⟩ : BufTy).Contents (Elt F)),
    StableHlo.binary main_v178 main_v184 main_v185 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_48 (constant S_ .f32 0x00000000#32),
    StableHlo.unary main_cst_48 main_v186 (broadcastInDim S100000x32 ![] bcast_S_S100000x32 : (⟨S_, .f32⟩ : BufTy).Contents (Elt F) → (⟨S100000x32, .f32⟩ : BufTy).Contents (Elt F)),
    StableHlo.unary main_arg10 main_v187 (broadcastInDim S3200000x1 ![0] bcast_S3200000_S3200000x1_0 : (⟨S3200000, .i32⟩ : BufTy).Contents (Elt F) → (⟨S3200000x1, .i32⟩ : BufTy).Contents (Elt F)),
    StableHlo.ternary main_v186 main_v187 main_v185 main_v188 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_49 (constant S_ .f32 0x3F800000#32),
    StableHlo.TRef.unary (StableHlo.TRef.of main_cst_49 : StableHlo.TRef sig ⟨S_, .f32⟩) main_call13.v0 id,
    StableHlo.TRef.unary main_call13.v0 main_call13.v1 (broadcastInDim S100000 ![] bcast_S_S100000),
    StableHlo.TRef.binary main_call13.v1 (StableHlo.TRef.of main_v173 : StableHlo.TRef sig ⟨S100000, .f32⟩) main_call13.v2 maximumf,
    StableHlo.unary main_v189 main_v190 (Host.rsqrt : (⟨S100000, .f32⟩ : BufTy).Contents (Elt F) → (⟨S100000, .f32⟩ : BufTy).Contents (Elt F)),
    StableHlo.unary main_v190 main_v191 (broadcastInDim S100000x1 ![0] bcast_S100000_S100000x1_0 : (⟨S100000, .f32⟩ : BufTy).Contents (Elt F) → (⟨S100000x1, .f32⟩ : BufTy).Contents (Elt F)),
    StableHlo.unary main_v191 main_v192 (broadcastInDim S100000x32 ![0, 1] bcast_S100000x1_S100000x32_0_1 : (⟨S100000x1, .f32⟩ : BufTy).Contents (Elt F) → (⟨S100000x32, .f32⟩ : BufTy).Contents (Elt F)),
    StableHlo.binary main_v188 main_v192 main_v193 (mulf : (⟨S100000x32, .f32⟩ : BufTy).Contents (Elt F) → (⟨S100000x32, .f32⟩ : BufTy).Contents (Elt F) → (⟨S100000x32, .f32⟩ : BufTy).Contents (Elt F)),
    StableHlo.binary main_v166 main_v193 main_v194 (subf : (⟨S100000x32, .f32⟩ : BufTy).Contents (Elt F) → (⟨S100000x32, .f32⟩ : BufTy).Contents (Elt F) → (⟨S100000x32, .f32⟩ : BufTy).Contents (Elt F)),
    StableHlo.binary main_v194 main_v27 main_v195 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 3 leaves in its result buffer one propagation step of the specification applied to what the buffers of the
    residual, the four edge lists and the previous state held before it: the operations' composed term is the
    specification's, definition by definition. -/
theorem blk3_out (W : Valuation τ sig (Elt F)) :
    after blk3 W (main_v195 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v139 : DevRef τ sig)) := by
  simp only [blk3]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 3 writes neither the residual's buffer nor an argument's. -/
theorem blk3_keep (W : Valuation τ sig (Elt F)) :
    after blk3 W (main_v27 : DevRef τ sig) = W (main_v27 : DevRef τ sig)
    ∧ after blk3 W (main_arg0 : DevRef τ sig) = W (main_arg0 : DevRef τ sig)
    ∧ after blk3 W (main_arg1 : DevRef τ sig) = W (main_arg1 : DevRef τ sig)
    ∧ after blk3 W (main_arg2 : DevRef τ sig) = W (main_arg2 : DevRef τ sig)
    ∧ after blk3 W (main_arg3 : DevRef τ sig) = W (main_arg3 : DevRef τ sig)
    ∧ after blk3 W (main_arg4 : DevRef τ sig) = W (main_arg4 : DevRef τ sig)
    ∧ after blk3 W (main_arg5 : DevRef τ sig) = W (main_arg5 : DevRef τ sig)
    ∧ after blk3 W (main_arg6 : DevRef τ sig) = W (main_arg6 : DevRef τ sig)
    ∧ after blk3 W (main_arg7 : DevRef τ sig) = W (main_arg7 : DevRef τ sig)
    ∧ after blk3 W (main_arg8 : DevRef τ sig) = W (main_arg8 : DevRef τ sig)
    ∧ after blk3 W (main_arg9 : DevRef τ sig) = W (main_arg9 : DevRef τ sig)
    ∧ after blk3 W (main_arg10 : DevRef τ sig) = W (main_arg10 : DevRef τ sig) := by
  refine ⟨?_, ?_, ?_, ?_, ?_, ?_, ?_, ?_, ?_, ?_, ?_, ?_⟩ <;> (simp only [blk3]; after_results_simp)

end Cert.ReferenceIdeal.RefRun

end
-- ==== Proof.RefB4.lean ====
/- The text of the list below was produced by: python3 scratch/gen_refops.py .   (run in the unit's directory) followed by cutting
   the eleven produced lists, read as one, at the operations 296 … 375 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 4: the two degree normalisers of the positive edge list and one graph convolution over it, the same over the negative edge list, their difference, the residual added. -/
abbrev blk4 : List (HloOp τ sig (Elt F)) :=
  [ StableHlo.nullary main_cst_50 (constant S_ .f32 0x3F800000#32),
    StableHlo.unary main_cst_50 main_v196 (broadcastInDim S3200000 ![] bcast_S_S3200000 : (⟨S_, .f32⟩ : BufTy).Contents (Elt F) → (⟨S3200000, .f32⟩ : BufTy).Contents (Elt F)),
    StableHlo.nullary main_cst_51 (constant S_ .f32 0x00000000#32),
    StableHlo.unary main_cst_51 main_v197 (broadcastInDim S100000 ![] bcast_S_S100000 : (⟨S_, .f32⟩ : BufTy).Contents (Elt F) → (⟨S100000, .f32⟩ : BufTy).Contents (Elt F)),
    StableHlo.unary main_arg7 main_v198 (broadcastInDim S3200000x1 ![0] bcast_S3200000_S3200000x1_0 : (⟨S3200000, .i32⟩ : BufTy).Contents (Elt F) → (⟨S3200000x1, .i32⟩ : BufTy).Contents (Elt F)),
    StableHlo.ternary main_v197 main_v198 main_v196 main_v199 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_52 (constant S_ .f32 0x00000000#32),
    StableHlo.unary main_cst_52 main_v200 (broadcastInDim S100000 ![] bcast_S_S100000 : (⟨S_, .f32⟩ : BufTy).Contents (Elt F) → (⟨S100000, .f32⟩ : BufTy).Contents (Elt F)),
    StableHlo.unary main_arg8 main_v201 (broadcastInDim S3200000x1 ![0] bcast_S3200000_S3200000x1_0 : (⟨S3200000, .i32⟩ : BufTy).Contents (Elt F) → (⟨S3200000x1, .i32⟩ : BufTy).Contents (Elt F)),
    StableHlo.ternary main_v200 main_v201 main_v196 main_v202 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_53 (constant S_ .f32 0x3F800000#32),
    StableHlo.TRef.unary (StableHlo.TRef.of main_cst_53 : StableHlo.TRef sig ⟨S_, .f32⟩) main_call14.v0 id,
    StableHlo.TRef.unary main_call14.v0 main_call14.v1 (broadcastInDim S100000 ![] bcast_S_S100000),
    StableHlo.TRef.binary main_call14.v1 (StableHlo.TRef.of main_v199 : StableHlo.TRef sig ⟨S100000, .f32⟩) main_call14.v2 maximumf,
    StableHlo.unary main_v203 main_v204 (Host.rsqrt : (⟨S100000, .f32⟩ : BufTy).Contents (Elt F) → (⟨S100000, .f32⟩ : BufTy).Contents (Elt F)),
    StableHlo.unary main_v204 main_v205 (broadcastInDim S100000x1 ![0] bcast_S100000_S100000x1_0 : (⟨S100000, .f32⟩ : BufTy).Contents (Elt F) → (⟨S100000x1, .f32⟩ : BufTy).Contents (Elt F)),
    StableHlo.unary main_v205 main_v206 (broadcastInDim S100000x32 ![0, 1] bcast_S100000x1_S100000x32_0_1 : (⟨S100000x1, .f32⟩ : BufTy).Contents (Elt F) → (⟨S100000x32, .f32⟩ : BufTy).Contents (Elt F)),
    StableHlo.binary main_v195 main_v206 main_v207 (mulf : (⟨S100000x32, .f32⟩ : BufTy).Contents (Elt F) → (⟨S100000x32, .f32⟩ : BufTy).Contents (Elt F) → (⟨S100000x32, .f32⟩ : BufTy).Contents (Elt F)),
    StableHlo.nullary main_c_54 (constantI S_ 32 0#32),
    StableHlo.unary main_c_54 main_v208 (broadcastInDim S3200000 ![] bcast_S_S3200000 : (⟨S_, .i32⟩ : BufTy).Contents (Elt F) → (⟨S3200000, .i32⟩ : BufTy).Contents (Elt F)),
    StableHlo.binary main_arg7 main_v208 main_v209 (cmpi .slt : (⟨S3200000, .i32⟩ : BufTy).Contents (Elt F) → (⟨S3200000, .i32⟩ : BufTy).Contents (Elt F) → (⟨S3200000, .i1⟩ : BufTy).Contents (Elt F)),
    StableHlo.nullary main_c_55 (constantI S_ 32 100000#32),
    StableHlo.unary main_c_55 main_v210 (broadcastInDim S3200000 ![] bcast_S_S3200000 : (⟨S_, .i32⟩ : BufTy).Contents (Elt F) → (⟨S3200000, .i32⟩ : BufTy).Contents (Elt F)),
    StableHlo.binary main_arg7 main_v210 main_v211 (addi : (⟨S3200000, .i32⟩ : BufTy).Contents (Elt F) → (⟨S3200000, .i32⟩ : BufTy).Contents (Elt F) → (⟨S3200000, .i32⟩ : BufTy).Contents (Elt F)),
    StableHlo.ternary main_v209 main_v211 main_arg7 main_v212 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v212 main_v213 (broadcastInDim S3200000x1 ![0] bcast_S3200000_S3200000x1_0 : (⟨S3200000, .i32⟩ : BufTy).Contents (Elt F) → (⟨S3200000x1, .i32⟩ : BufTy).Contents (Elt F)),
    StableHlo.binary main_v207 main_v213 main_v214 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_56 (constant S_ .f32 0x00000000#32),
    StableHlo.unary main_cst_56 main_v215 (broadcastInDim S100000x32 ![] bcast_S_S100000x32 : (⟨S_, .f32⟩ : BufTy).Contents (Elt F) → (⟨S100000x32, .f32⟩ : BufTy).Contents (Elt F)),
    StableHlo.unary main_arg8 main_v216 (broadcastInDim S3200000x1 ![0] bcast_S3200000_S3200000x1_0 : (⟨S3200000, .i32⟩ : BufTy).Contents (Elt F) → (⟨S3200000x1, .i32⟩ : BufTy).Contents (Elt F)),
    StableHlo.ternary main_v215 main_v216 main_v214 main_v217 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_57 (constant S_ .f32 0x3F800000#32),
    StableHlo.TRef.unary (StableHlo.TRef.of main_cst_57 : StableHlo.TRef sig ⟨S_, .f32⟩) main_call15.v0 id,
    StableHlo.TRef.unary main_call15.v0 main_call15.v1 (broadcastInDim S100000 ![] bcast_S_S100000),
    StableHlo.TRef.binary main_call15.v1 (StableHlo.TRef.of main_v202 : StableHlo.TRef sig ⟨S100000, .f32⟩) main_call15.v2 maximumf,
    StableHlo.unary main_v218 main_v219 (Host.rsqrt : (⟨S100000, .f32⟩ : BufTy).Contents (Elt F) → (⟨S100000, .f32⟩ : BufTy).Contents (Elt F)),
    StableHlo.unary main_v219 main_v220 (broadcastInDim S100000x1 ![0] bcast_S100000_S100000x1_0 : (⟨S100000, .f32⟩ : BufTy).Contents (Elt F) → (⟨S100000x1, .f32⟩ : BufTy).Contents (Elt F)),
    StableHlo.unary main_v220 main_v221 (broadcastInDim S100000x32 ![0, 1] bcast_S100000x1_S100000x32_0_1 : (⟨S100000x1, .f32⟩ : BufTy).Contents (Elt F) → (⟨S100000x32, .f32⟩ : BufTy).Contents (Elt F)),
    StableHlo.binary main_v217 main_v221 main_v222 (mulf : (⟨S100000x32, .f32⟩ : BufTy).Contents (Elt F) → (⟨S100000x32, .f32⟩ : BufTy).Contents (Elt F) → (⟨S100000x32, .f32⟩ : BufTy).Contents (Elt F)),
    StableHlo.nullary main_cst_58 (constant S_ .f32 0x3F800000#32),
    StableHlo.unary main_cst_58 main_v223 (broadcastInDim S3200000 ![] bcast_S_S3200000 : (⟨S_, .f32⟩ : BufTy).Contents (Elt F) → (⟨S3200000, .f32⟩ : BufTy).Contents (Elt F)),
    StableHlo.nullary main_cst_59 (constant S_ .f32 0x00000000#32),
    StableHlo.unary main_cst_59 main_v224 (broadcastInDim S100000 ![] bcast_S_S100000 : (⟨S_, .f32⟩ : BufTy).Contents (Elt F) → (⟨S100000, .f32⟩ : BufTy).Contents (Elt F)),
    StableHlo.unary main_arg9 main_v225 (broadcastInDim S3200000x1 ![0] bcast_S3200000_S3200000x1_0 : (⟨S3200000, .i32⟩ : BufTy).Contents (Elt F) → (⟨S3200000x1, .i32⟩ : BufTy).Contents (Elt F)),
    StableHlo.ternary main_v224 main_v225 main_v223 main_v226 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_60 (constant S_ .f32 0x00000000#32),
    StableHlo.unary main_cst_60 main_v227 (broadcastInDim S100000 ![] bcast_S_S100000 : (⟨S_, .f32⟩ : BufTy).Contents (Elt F) → (⟨S100000, .f32⟩ : BufTy).Contents (Elt F)),
    StableHlo.unary main_arg10 main_v228 (broadcastInDim S3200000x1 ![0] bcast_S3200000_S3200000x1_0 : (⟨S3200000, .i32⟩ : BufTy).Contents (Elt F) → (⟨S3200000x1, .i32⟩ : BufTy).Contents (Elt F)),
    StableHlo.ternary main_v227 main_v228 main_v223 main_v229 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_61 (constant S_ .f32 0x3F800000#32),
    StableHlo.TRef.unary (StableHlo.TRef.of main_cst_61 : StableHlo.TRef sig ⟨S_, .f32⟩) main_call16.v0 id,
    StableHlo.TRef.unary main_call16.v0 main_call16.v1 (broadcastInDim S100000 ![] bcast_S_S100000),
    StableHlo.TRef.binary main_call16.v1 (StableHlo.TRef.of main_v226 : StableHlo.TRef sig ⟨S100000, .f32⟩) main_call16.v2 maximumf,
    StableHlo.unary main_v230 main_v231 (Host.rsqrt : (⟨S100000, .f32⟩ : BufTy).Contents (Elt F) → (⟨S100000, .f32⟩ : BufTy).Contents (Elt F)),
    StableHlo.unary main_v231 main_v232 (broadcastInDim S100000x1 ![0] bcast_S100000_S100000x1_0 : (⟨S100000, .f32⟩ : BufTy).Contents (Elt F) → (⟨S100000x1, .f32⟩ : BufTy).Contents (Elt F)),
    StableHlo.unary main_v232 main_v233 (broadcastInDim S100000x32 ![0, 1] bcast_S100000x1_S100000x32_0_1 : (⟨S100000x1, .f32⟩ : BufTy).Contents (Elt F) → (⟨S100000x32, .f32⟩ : BufTy).Contents (Elt F)),
    StableHlo.binary main_v195 main_v233 main_v234 (mulf : (⟨S100000x32, .f32⟩ : BufTy).Contents (Elt F) → (⟨S100000x32, .f32⟩ : BufTy).Contents (Elt F) → (⟨S100000x32, .f32⟩ : BufTy).Contents (Elt F)),
    StableHlo.nullary main_c_62 (constantI S_ 32 0#32),
    StableHlo.unary main_c_62 main_v235 (broadcastInDim S3200000 ![] bcast_S_S3200000 : (⟨S_, .i32⟩ : BufTy).Contents (Elt F) → (⟨S3200000, .i32⟩ : BufTy).Contents (Elt F)),
    StableHlo.binary main_arg9 main_v235 main_v236 (cmpi .slt : (⟨S3200000, .i32⟩ : BufTy).Contents (Elt F) → (⟨S3200000, .i32⟩ : BufTy).Contents (Elt F) → (⟨S3200000, .i1⟩ : BufTy).Contents (Elt F)),
    StableHlo.nullary main_c_63 (constantI S_ 32 100000#32),
    StableHlo.unary main_c_63 main_v237 (broadcastInDim S3200000 ![] bcast_S_S3200000 : (⟨S_, .i32⟩ : BufTy).Contents (Elt F) → (⟨S3200000, .i32⟩ : BufTy).Contents (Elt F)),
    StableHlo.binary main_arg9 main_v237 main_v238 (addi : (⟨S3200000, .i32⟩ : BufTy).Contents (Elt F) → (⟨S3200000, .i32⟩ : BufTy).Contents (Elt F) → (⟨S3200000, .i32⟩ : BufTy).Contents (Elt F)),
    StableHlo.ternary main_v236 main_v238 main_arg9 main_v239 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v239 main_v240 (broadcastInDim S3200000x1 ![0] bcast_S3200000_S3200000x1_0 : (⟨S3200000, .i32⟩ : BufTy).Contents (Elt F) → (⟨S3200000x1, .i32⟩ : BufTy).Contents (Elt F)),
    StableHlo.binary main_v234 main_v240 main_v241 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_64 (constant S_ .f32 0x00000000#32),
    StableHlo.unary main_cst_64 main_v242 (broadcastInDim S100000x32 ![] bcast_S_S100000x32 : (⟨S_, .f32⟩ : BufTy).Contents (Elt F) → (⟨S100000x32, .f32⟩ : BufTy).Contents (Elt F)),
    StableHlo.unary main_arg10 main_v243 (broadcastInDim S3200000x1 ![0] bcast_S3200000_S3200000x1_0 : (⟨S3200000, .i32⟩ : BufTy).Contents (Elt F) → (⟨S3200000x1, .i32⟩ : BufTy).Contents (Elt F)),
    StableHlo.ternary main_v242 main_v243 main_v241 main_v244 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_65 (constant S_ .f32 0x3F800000#32),
    StableHlo.TRef.unary (StableHlo.TRef.of main_cst_65 : StableHlo.TRef sig ⟨S_, .f32⟩) main_call17.v0 id,
    StableHlo.TRef.unary main_call17.v0 main_call17.v1 (broadcastInDim S100000 ![] bcast_S_S100000),
    StableHlo.TRef.binary main_call17.v1 (StableHlo.TRef.of main_v229 : StableHlo.TRef sig ⟨S100000, .f32⟩) main_call17.v2 maximumf,
    StableHlo.unary main_v245 main_v246 (Host.rsqrt : (⟨S100000, .f32⟩ : BufTy).Contents (Elt F) → (⟨S100000, .f32⟩ : BufTy).Contents (Elt F)),
    StableHlo.unary main_v246 main_v247 (broadcastInDim S100000x1 ![0] bcast_S100000_S100000x1_0 : (⟨S100000, .f32⟩ : BufTy).Contents (Elt F) → (⟨S100000x1, .f32⟩ : BufTy).Contents (Elt F)),
    StableHlo.unary main_v247 main_v248 (broadcastInDim S100000x32 ![0, 1] bcast_S100000x1_S100000x32_0_1 : (⟨S100000x1, .f32⟩ : BufTy).Contents (Elt F) → (⟨S100000x32, .f32⟩ : BufTy).Contents (Elt F)),
    StableHlo.binary main_v244 main_v248 main_v249 (mulf : (⟨S100000x32, .f32⟩ : BufTy).Contents (Elt F) → (⟨S100000x32, .f32⟩ : BufTy).Contents (Elt F) → (⟨S100000x32, .f32⟩ : BufTy).Contents (Elt F)),
    StableHlo.binary main_v222 main_v249 main_v250 (subf : (⟨S100000x32, .f32⟩ : BufTy).Contents (Elt F) → (⟨S100000x32, .f32⟩ : BufTy).Contents (Elt F) → (⟨S100000x32, .f32⟩ : BufTy).Contents (Elt F)),
    StableHlo.binary main_v250 main_v27 main_v251 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 4 leaves in its result buffer one propagation step of the specification applied to what the buffers of the
    residual, the four edge lists and the previous state held before it: the operations' composed term is the
    specification's, definition by definition. -/
theorem blk4_out (W : Valuation τ sig (Elt F)) :
    after blk4 W (main_v251 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v195 : DevRef τ sig)) := by
  simp only [blk4]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 4 writes neither the residual's buffer nor an argument's. -/
theorem blk4_keep (W : Valuation τ sig (Elt F)) :
    after blk4 W (main_v27 : DevRef τ sig) = W (main_v27 : DevRef τ sig)
    ∧ after blk4 W (main_arg0 : DevRef τ sig) = W (main_arg0 : DevRef τ sig)
    ∧ after blk4 W (main_arg1 : DevRef τ sig) = W (main_arg1 : DevRef τ sig)
    ∧ after blk4 W (main_arg2 : DevRef τ sig) = W (main_arg2 : DevRef τ sig)
    ∧ after blk4 W (main_arg3 : DevRef τ sig) = W (main_arg3 : DevRef τ sig)
    ∧ after blk4 W (main_arg4 : DevRef τ sig) = W (main_arg4 : DevRef τ sig)
    ∧ after blk4 W (main_arg5 : DevRef τ sig) = W (main_arg5 : DevRef τ sig)
    ∧ after blk4 W (main_arg6 : DevRef τ sig) = W (main_arg6 : DevRef τ sig)
    ∧ after blk4 W (main_arg7 : DevRef τ sig) = W (main_arg7 : DevRef τ sig)
    ∧ after blk4 W (main_arg8 : DevRef τ sig) = W (main_arg8 : DevRef τ sig)
    ∧ after blk4 W (main_arg9 : DevRef τ sig) = W (main_arg9 : DevRef τ sig)
    ∧ after blk4 W (main_arg10 : DevRef τ sig) = W (main_arg10 : DevRef τ sig) := by
  refine ⟨?_, ?_, ?_, ?_, ?_, ?_, ?_, ?_, ?_, ?_, ?_, ?_⟩ <;> (simp only [blk4]; after_results_simp)

end Cert.ReferenceIdeal.RefRun

end
-- ==== Proof.RefB5.lean ====
/- The text of the list below was produced by: python3 scratch/gen_refops.py .   (run in the unit's directory) followed by cutting
   the eleven produced lists, read as one, at the operations 376 … 455 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 5: the two degree normalisers of the positive edge list and one graph convolution over it, the same over the negative edge list, their difference, the residual added. -/
abbrev blk5 : List (HloOp τ sig (Elt F)) :=
  [ StableHlo.nullary main_cst_66 (constant S_ .f32 0x3F800000#32),
    StableHlo.unary main_cst_66 main_v252 (broadcastInDim S3200000 ![] bcast_S_S3200000 : (⟨S_, .f32⟩ : BufTy).Contents (Elt F) → (⟨S3200000, .f32⟩ : BufTy).Contents (Elt F)),
    StableHlo.nullary main_cst_67 (constant S_ .f32 0x00000000#32),
    StableHlo.unary main_cst_67 main_v253 (broadcastInDim S100000 ![] bcast_S_S100000 : (⟨S_, .f32⟩ : BufTy).Contents (Elt F) → (⟨S100000, .f32⟩ : BufTy).Contents (Elt F)),
    StableHlo.unary main_arg7 main_v254 (broadcastInDim S3200000x1 ![0] bcast_S3200000_S3200000x1_0 : (⟨S3200000, .i32⟩ : BufTy).Contents (Elt F) → (⟨S3200000x1, .i32⟩ : BufTy).Contents (Elt F)),
    StableHlo.ternary main_v253 main_v254 main_v252 main_v255 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_68 (constant S_ .f32 0x00000000#32),
    StableHlo.unary main_cst_68 main_v256 (broadcastInDim S100000 ![] bcast_S_S100000 : (⟨S_, .f32⟩ : BufTy).Contents (Elt F) → (⟨S100000, .f32⟩ : BufTy).Contents (Elt F)),
    StableHlo.unary main_arg8 main_v257 (broadcastInDim S3200000x1 ![0] bcast_S3200000_S3200000x1_0 : (⟨S3200000, .i32⟩ : BufTy).Contents (Elt F) → (⟨S3200000x1, .i32⟩ : BufTy).Contents (Elt F)),
    StableHlo.ternary main_v256 main_v257 main_v252 main_v258 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_69 (constant S_ .f32 0x3F800000#32),
    StableHlo.TRef.unary (StableHlo.TRef.of main_cst_69 : StableHlo.TRef sig ⟨S_, .f32⟩) main_call18.v0 id,
    StableHlo.TRef.unary main_call18.v0 main_call18.v1 (broadcastInDim S100000 ![] bcast_S_S100000),
    StableHlo.TRef.binary main_call18.v1 (StableHlo.TRef.of main_v255 : StableHlo.TRef sig ⟨S100000, .f32⟩) main_call18.v2 maximumf,
    StableHlo.unary main_v259 main_v260 (Host.rsqrt : (⟨S100000, .f32⟩ : BufTy).Contents (Elt F) → (⟨S100000, .f32⟩ : BufTy).Contents (Elt F)),
    StableHlo.unary main_v260 main_v261 (broadcastInDim S100000x1 ![0] bcast_S100000_S100000x1_0 : (⟨S100000, .f32⟩ : BufTy).Contents (Elt F) → (⟨S100000x1, .f32⟩ : BufTy).Contents (Elt F)),
    StableHlo.unary main_v261 main_v262 (broadcastInDim S100000x32 ![0, 1] bcast_S100000x1_S100000x32_0_1 : (⟨S100000x1, .f32⟩ : BufTy).Contents (Elt F) → (⟨S100000x32, .f32⟩ : BufTy).Contents (Elt F)),
    StableHlo.binary main_v251 main_v262 main_v263 (mulf : (⟨S100000x32, .f32⟩ : BufTy).Contents (Elt F) → (⟨S100000x32, .f32⟩ : BufTy).Contents (Elt F) → (⟨S100000x32, .f32⟩ : BufTy).Contents (Elt F)),
    StableHlo.nullary main_c_70 (constantI S_ 32 0#32),
    StableHlo.unary main_c_70 main_v264 (broadcastInDim S3200000 ![] bcast_S_S3200000 : (⟨S_, .i32⟩ : BufTy).Contents (Elt F) → (⟨S3200000, .i32⟩ : BufTy).Contents (Elt F)),
    StableHlo.binary main_arg7 main_v264 main_v265 (cmpi .slt : (⟨S3200000, .i32⟩ : BufTy).Contents (Elt F) → (⟨S3200000, .i32⟩ : BufTy).Contents (Elt F) → (⟨S3200000, .i1⟩ : BufTy).Contents (Elt F)),
    StableHlo.nullary main_c_71 (constantI S_ 32 100000#32),
    StableHlo.unary main_c_71 main_v266 (broadcastInDim S3200000 ![] bcast_S_S3200000 : (⟨S_, .i32⟩ : BufTy).Contents (Elt F) → (⟨S3200000, .i32⟩ : BufTy).Contents (Elt F)),
    StableHlo.binary main_arg7 main_v266 main_v267 (addi : (⟨S3200000, .i32⟩ : BufTy).Contents (Elt F) → (⟨S3200000, .i32⟩ : BufTy).Contents (Elt F) → (⟨S3200000, .i32⟩ : BufTy).Contents (Elt F)),
    StableHlo.ternary main_v265 main_v267 main_arg7 main_v268 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v268 main_v269 (broadcastInDim S3200000x1 ![0] bcast_S3200000_S3200000x1_0 : (⟨S3200000, .i32⟩ : BufTy).Contents (Elt F) → (⟨S3200000x1, .i32⟩ : BufTy).Contents (Elt F)),
    StableHlo.binary main_v263 main_v269 main_v270 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_72 (constant S_ .f32 0x00000000#32),
    StableHlo.unary main_cst_72 main_v271 (broadcastInDim S100000x32 ![] bcast_S_S100000x32 : (⟨S_, .f32⟩ : BufTy).Contents (Elt F) → (⟨S100000x32, .f32⟩ : BufTy).Contents (Elt F)),
    StableHlo.unary main_arg8 main_v272 (broadcastInDim S3200000x1 ![0] bcast_S3200000_S3200000x1_0 : (⟨S3200000, .i32⟩ : BufTy).Contents (Elt F) → (⟨S3200000x1, .i32⟩ : BufTy).Contents (Elt F)),
    StableHlo.ternary main_v271 main_v272 main_v270 main_v273 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_73 (constant S_ .f32 0x3F800000#32),
    StableHlo.TRef.unary (StableHlo.TRef.of main_cst_73 : StableHlo.TRef sig ⟨S_, .f32⟩) main_call19.v0 id,
    StableHlo.TRef.unary main_call19.v0 main_call19.v1 (broadcastInDim S100000 ![] bcast_S_S100000),
    StableHlo.TRef.binary main_call19.v1 (StableHlo.TRef.of main_v258 : StableHlo.TRef sig ⟨S100000, .f32⟩) main_call19.v2 maximumf,
    StableHlo.unary main_v274 main_v275 (Host.rsqrt : (⟨S100000, .f32⟩ : BufTy).Contents (Elt F) → (⟨S100000, .f32⟩ : BufTy).Contents (Elt F)),
    StableHlo.unary main_v275 main_v276 (broadcastInDim S100000x1 ![0] bcast_S100000_S100000x1_0 : (⟨S100000, .f32⟩ : BufTy).Contents (Elt F) → (⟨S100000x1, .f32⟩ : BufTy).Contents (Elt F)),
    StableHlo.unary main_v276 main_v277 (broadcastInDim S100000x32 ![0, 1] bcast_S100000x1_S100000x32_0_1 : (⟨S100000x1, .f32⟩ : BufTy).Contents (Elt F) → (⟨S100000x32, .f32⟩ : BufTy).Contents (Elt F)),
    StableHlo.binary main_v273 main_v277 main_v278 (mulf : (⟨S100000x32, .f32⟩ : BufTy).Contents (Elt F) → (⟨S100000x32, .f32⟩ : BufTy).Contents (Elt F) → (⟨S100000x32, .f32⟩ : BufTy).Contents (Elt F)),
    StableHlo.nullary main_cst_74 (constant S_ .f32 0x3F800000#32),
    StableHlo.unary main_cst_74 main_v279 (broadcastInDim S3200000 ![] bcast_S_S3200000 : (⟨S_, .f32⟩ : BufTy).Contents (Elt F) → (⟨S3200000, .f32⟩ : BufTy).Contents (Elt F)),
    StableHlo.nullary main_cst_75 (constant S_ .f32 0x00000000#32),
    StableHlo.unary main_cst_75 main_v280 (broadcastInDim S100000 ![] bcast_S_S100000 : (⟨S_, .f32⟩ : BufTy).Contents (Elt F) → (⟨S100000, .f32⟩ : BufTy).Contents (Elt F)),
    StableHlo.unary main_arg9 main_v281 (broadcastInDim S3200000x1 ![0] bcast_S3200000_S3200000x1_0 : (⟨S3200000, .i32⟩ : BufTy).Contents (Elt F) → (⟨S3200000x1, .i32⟩ : BufTy).Contents (Elt F)),
    StableHlo.ternary main_v280 main_v281 main_v279 main_v282 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_76 (constant S_ .f32 0x00000000#32),
    StableHlo.unary main_cst_76 main_v283 (broadcastInDim S100000 ![] bcast_S_S100000 : (⟨S_, .f32⟩ : BufTy).Contents (Elt F) → (⟨S100000, .f32⟩ : BufTy).Contents (Elt F)),
    StableHlo.unary main_arg10 main_v284 (broadcastInDim S3200000x1 ![0] bcast_S3200000_S3200000x1_0 : (⟨S3200000, .i32⟩ : BufTy).Contents (Elt F) → (⟨S3200000x1, .i32⟩ : BufTy).Contents (Elt F)),
    StableHlo.ternary main_v283 main_v284 main_v279 main_v285 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_77 (constant S_ .f32 0x3F800000#32),
    StableHlo.TRef.unary (StableHlo.TRef.of main_cst_77 : StableHlo.TRef sig ⟨S_, .f32⟩) main_call20.v0 id,
    StableHlo.TRef.unary main_call20.v0 main_call20.v1 (broadcastInDim S100000 ![] bcast_S_S100000),
    StableHlo.TRef.binary main_call20.v1 (StableHlo.TRef.of main_v282 : StableHlo.TRef sig ⟨S100000, .f32⟩) main_call20.v2 maximumf,
    StableHlo.unary main_v286 main_v287 (Host.rsqrt : (⟨S100000, .f32⟩ : BufTy).Contents (Elt F) → (⟨S100000, .f32⟩ : BufTy).Contents (Elt F)),
    StableHlo.unary main_v287 main_v288 (broadcastInDim S100000x1 ![0] bcast_S100000_S100000x1_0 : (⟨S100000, .f32⟩ : BufTy).Contents (Elt F) → (⟨S100000x1, .f32⟩ : BufTy).Contents (Elt F)),
    StableHlo.unary main_v288 main_v289 (broadcastInDim S100000x32 ![0, 1] bcast_S100000x1_S100000x32_0_1 : (⟨S100000x1, .f32⟩ : BufTy).Contents (Elt F) → (⟨S100000x32, .f32⟩ : BufTy).Contents (Elt F)),
    StableHlo.binary main_v251 main_v289 main_v290 (mulf : (⟨S100000x32, .f32⟩ : BufTy).Contents (Elt F) → (⟨S100000x32, .f32⟩ : BufTy).Contents (Elt F) → (⟨S100000x32, .f32⟩ : BufTy).Contents (Elt F)),
    StableHlo.nullary main_c_78 (constantI S_ 32 0#32),
    StableHlo.unary main_c_78 main_v291 (broadcastInDim S3200000 ![] bcast_S_S3200000 : (⟨S_, .i32⟩ : BufTy).Contents (Elt F) → (⟨S3200000, .i32⟩ : BufTy).Contents (Elt F)),
    StableHlo.binary main_arg9 main_v291 main_v292 (cmpi .slt : (⟨S3200000, .i32⟩ : BufTy).Contents (Elt F) → (⟨S3200000, .i32⟩ : BufTy).Contents (Elt F) → (⟨S3200000, .i1⟩ : BufTy).Contents (Elt F)),
    StableHlo.nullary main_c_79 (constantI S_ 32 100000#32),
    StableHlo.unary main_c_79 main_v293 (broadcastInDim S3200000 ![] bcast_S_S3200000 : (⟨S_, .i32⟩ : BufTy).Contents (Elt F) → (⟨S3200000, .i32⟩ : BufTy).Contents (Elt F)),
    StableHlo.binary main_arg9 main_v293 main_v294 (addi : (⟨S3200000, .i32⟩ : BufTy).Contents (Elt F) → (⟨S3200000, .i32⟩ : BufTy).Contents (Elt F) → (⟨S3200000, .i32⟩ : BufTy).Contents (Elt F)),
    StableHlo.ternary main_v292 main_v294 main_arg9 main_v295 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v295 main_v296 (broadcastInDim S3200000x1 ![0] bcast_S3200000_S3200000x1_0 : (⟨S3200000, .i32⟩ : BufTy).Contents (Elt F) → (⟨S3200000x1, .i32⟩ : BufTy).Contents (Elt F)),
    StableHlo.binary main_v290 main_v296 main_v297 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_80 (constant S_ .f32 0x00000000#32),
    StableHlo.unary main_cst_80 main_v298 (broadcastInDim S100000x32 ![] bcast_S_S100000x32 : (⟨S_, .f32⟩ : BufTy).Contents (Elt F) → (⟨S100000x32, .f32⟩ : BufTy).Contents (Elt F)),
    StableHlo.unary main_arg10 main_v299 (broadcastInDim S3200000x1 ![0] bcast_S3200000_S3200000x1_0 : (⟨S3200000, .i32⟩ : BufTy).Contents (Elt F) → (⟨S3200000x1, .i32⟩ : BufTy).Contents (Elt F)),
    StableHlo.ternary main_v298 main_v299 main_v297 main_v300 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_81 (constant S_ .f32 0x3F800000#32),
    StableHlo.TRef.unary (StableHlo.TRef.of main_cst_81 : StableHlo.TRef sig ⟨S_, .f32⟩) main_call21.v0 id,
    StableHlo.TRef.unary main_call21.v0 main_call21.v1 (broadcastInDim S100000 ![] bcast_S_S100000),
    StableHlo.TRef.binary main_call21.v1 (StableHlo.TRef.of main_v285 : StableHlo.TRef sig ⟨S100000, .f32⟩) main_call21.v2 maximumf,
    StableHlo.unary main_v301 main_v302 (Host.rsqrt : (⟨S100000, .f32⟩ : BufTy).Contents (Elt F) → (⟨S100000, .f32⟩ : BufTy).Contents (Elt F)),
    StableHlo.unary main_v302 main_v303 (broadcastInDim S100000x1 ![0] bcast_S100000_S100000x1_0 : (⟨S100000, .f32⟩ : BufTy).Contents (Elt F) → (⟨S100000x1, .f32⟩ : BufTy).Contents (Elt F)),
    StableHlo.unary main_v303 main_v304 (broadcastInDim S100000x32 ![0, 1] bcast_S100000x1_S100000x32_0_1 : (⟨S100000x1, .f32⟩ : BufTy).Contents (Elt F) → (⟨S100000x32, .f32⟩ : BufTy).Contents (Elt F)),
    StableHlo.binary main_v300 main_v304 main_v305 (mulf : (⟨S100000x32, .f32⟩ : BufTy).Contents (Elt F) → (⟨S100000x32, .f32⟩ : BufTy).Contents (Elt F) → (⟨S100000x32, .f32⟩ : BufTy).Contents (Elt F)),
    StableHlo.binary main_v278 main_v305 main_v306 (subf : (⟨S100000x32, .f32⟩ : BufTy).Contents (Elt F) → (⟨S100000x32, .f32⟩ : BufTy).Contents (Elt F) → (⟨S100000x32, .f32⟩ : BufTy).Contents (Elt F)),
    StableHlo.binary main_v306 main_v27 main_v307 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 5 leaves in its result buffer one propagation step of the specification applied to what the buffers of the
    residual, the four edge lists and the previous state held before it: the operations' composed term is the
    specification's, definition by definition. -/
theorem blk5_out (W : Valuation τ sig (Elt F)) :
    after blk5 W (main_v307 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v251 : DevRef τ sig)) := by
  simp only [blk5]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 5 writes neither the residual's buffer nor an argument's. -/
theorem blk5_keep (W : Valuation τ sig (Elt F)) :
    after blk5 W (main_v27 : DevRef τ sig) = W (main_v27 : DevRef τ sig)
    ∧ after blk5 W (main_arg0 : DevRef τ sig) = W (main_arg0 : DevRef τ sig)
    ∧ after blk5 W (main_arg1 : DevRef τ sig) = W (main_arg1 : DevRef τ sig)
    ∧ after blk5 W (main_arg2 : DevRef τ sig) = W (main_arg2 : DevRef τ sig)
    ∧ after blk5 W (main_arg3 : DevRef τ sig) = W (main_arg3 : DevRef τ sig)
    ∧ after blk5 W (main_arg4 : DevRef τ sig) = W (main_arg4 : DevRef τ sig)
    ∧ after blk5 W (main_arg5 : DevRef τ sig) = W (main_arg5 : DevRef τ sig)
    ∧ after blk5 W (main_arg6 : DevRef τ sig) = W (main_arg6 : DevRef τ sig)
    ∧ after blk5 W (main_arg7 : DevRef τ sig) = W (main_arg7 : DevRef τ sig)
    ∧ after blk5 W (main_arg8 : DevRef τ sig) = W (main_arg8 : DevRef τ sig)
    ∧ after blk5 W (main_arg9 : DevRef τ sig) = W (main_arg9 : DevRef τ sig)
    ∧ after blk5 W (main_arg10 : DevRef τ sig) = W (main_arg10 : DevRef τ sig) := by
  refine ⟨?_, ?_, ?_, ?_, ?_, ?_, ?_, ?_, ?_, ?_, ?_, ?_⟩ <;> (simp only [blk5]; after_results_simp)

end Cert.ReferenceIdeal.RefRun

end
-- ==== Proof.RefB6.lean ====
/- The text of the list below was produced by: python3 scratch/gen_refops.py .   (run in the unit's directory) followed by cutting
   the eleven produced lists, read as one, at the operations 456 … 535 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 6: the two degree normalisers of the positive edge list and one graph convolution over it, the same over the negative edge list, their difference, the residual added. -/
abbrev blk6 : List (HloOp τ sig (Elt F)) :=
  [ StableHlo.nullary main_cst_82 (constant S_ .f32 0x3F800000#32),
    StableHlo.unary main_cst_82 main_v308 (broadcastInDim S3200000 ![] bcast_S_S3200000 : (⟨S_, .f32⟩ : BufTy).Contents (Elt F) → (⟨S3200000, .f32⟩ : BufTy).Contents (Elt F)),
    StableHlo.nullary main_cst_83 (constant S_ .f32 0x00000000#32),
    StableHlo.unary main_cst_83 main_v309 (broadcastInDim S100000 ![] bcast_S_S100000 : (⟨S_, .f32⟩ : BufTy).Contents (Elt F) → (⟨S100000, .f32⟩ : BufTy).Contents (Elt F)),
    StableHlo.unary main_arg7 main_v310 (broadcastInDim S3200000x1 ![0] bcast_S3200000_S3200000x1_0 : (⟨S3200000, .i32⟩ : BufTy).Contents (Elt F) → (⟨S3200000x1, .i32⟩ : BufTy).Contents (Elt F)),
    StableHlo.ternary main_v309 main_v310 main_v308 main_v311 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_84 (constant S_ .f32 0x00000000#32),
    StableHlo.unary main_cst_84 main_v312 (broadcastInDim S100000 ![] bcast_S_S100000 : (⟨S_, .f32⟩ : BufTy).Contents (Elt F) → (⟨S100000, .f32⟩ : BufTy).Contents (Elt F)),
    StableHlo.unary main_arg8 main_v313 (broadcastInDim S3200000x1 ![0] bcast_S3200000_S3200000x1_0 : (⟨S3200000, .i32⟩ : BufTy).Contents (Elt F) → (⟨S3200000x1, .i32⟩ : BufTy).Contents (Elt F)),
    StableHlo.ternary main_v312 main_v313 main_v308 main_v314 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_85 (constant S_ .f32 0x3F800000#32),
    StableHlo.TRef.unary (StableHlo.TRef.of main_cst_85 : StableHlo.TRef sig ⟨S_, .f32⟩) main_call22.v0 id,
    StableHlo.TRef.unary main_call22.v0 main_call22.v1 (broadcastInDim S100000 ![] bcast_S_S100000),
    StableHlo.TRef.binary main_call22.v1 (StableHlo.TRef.of main_v311 : StableHlo.TRef sig ⟨S100000, .f32⟩) main_call22.v2 maximumf,
    StableHlo.unary main_v315 main_v316 (Host.rsqrt : (⟨S100000, .f32⟩ : BufTy).Contents (Elt F) → (⟨S100000, .f32⟩ : BufTy).Contents (Elt F)),
    StableHlo.unary main_v316 main_v317 (broadcastInDim S100000x1 ![0] bcast_S100000_S100000x1_0 : (⟨S100000, .f32⟩ : BufTy).Contents (Elt F) → (⟨S100000x1, .f32⟩ : BufTy).Contents (Elt F)),
    StableHlo.unary main_v317 main_v318 (broadcastInDim S100000x32 ![0, 1] bcast_S100000x1_S100000x32_0_1 : (⟨S100000x1, .f32⟩ : BufTy).Contents (Elt F) → (⟨S100000x32, .f32⟩ : BufTy).Contents (Elt F)),
    StableHlo.binary main_v307 main_v318 main_v319 (mulf : (⟨S100000x32, .f32⟩ : BufTy).Contents (Elt F) → (⟨S100000x32, .f32⟩ : BufTy).Contents (Elt F) → (⟨S100000x32, .f32⟩ : BufTy).Contents (Elt F)),
    StableHlo.nullary main_c_86 (constantI S_ 32 0#32),
    StableHlo.unary main_c_86 main_v320 (broadcastInDim S3200000 ![] bcast_S_S3200000 : (⟨S_, .i32⟩ : BufTy).Contents (Elt F) → (⟨S3200000, .i32⟩ : BufTy).Contents (Elt F)),
    StableHlo.binary main_arg7 main_v320 main_v321 (cmpi .slt : (⟨S3200000, .i32⟩ : BufTy).Contents (Elt F) → (⟨S3200000, .i32⟩ : BufTy).Contents (Elt F) → (⟨S3200000, .i1⟩ : BufTy).Contents (Elt F)),
    StableHlo.nullary main_c_87 (constantI S_ 32 100000#32),
    StableHlo.unary main_c_87 main_v322 (broadcastInDim S3200000 ![] bcast_S_S3200000 : (⟨S_, .i32⟩ : BufTy).Contents (Elt F) → (⟨S3200000, .i32⟩ : BufTy).Contents (Elt F)),
    StableHlo.binary main_arg7 main_v322 main_v323 (addi : (⟨S3200000, .i32⟩ : BufTy).Contents (Elt F) → (⟨S3200000, .i32⟩ : BufTy).Contents (Elt F) → (⟨S3200000, .i32⟩ : BufTy).Contents (Elt F)),
    StableHlo.ternary main_v321 main_v323 main_arg7 main_v324 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v324 main_v325 (broadcastInDim S3200000x1 ![0] bcast_S3200000_S3200000x1_0 : (⟨S3200000, .i32⟩ : BufTy).Contents (Elt F) → (⟨S3200000x1, .i32⟩ : BufTy).Contents (Elt F)),
    StableHlo.binary main_v319 main_v325 main_v326 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_88 (constant S_ .f32 0x00000000#32),
    StableHlo.unary main_cst_88 main_v327 (broadcastInDim S100000x32 ![] bcast_S_S100000x32 : (⟨S_, .f32⟩ : BufTy).Contents (Elt F) → (⟨S100000x32, .f32⟩ : BufTy).Contents (Elt F)),
    StableHlo.unary main_arg8 main_v328 (broadcastInDim S3200000x1 ![0] bcast_S3200000_S3200000x1_0 : (⟨S3200000, .i32⟩ : BufTy).Contents (Elt F) → (⟨S3200000x1, .i32⟩ : BufTy).Contents (Elt F)),
    StableHlo.ternary main_v327 main_v328 main_v326 main_v329 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_89 (constant S_ .f32 0x3F800000#32),
    StableHlo.TRef.unary (StableHlo.TRef.of main_cst_89 : StableHlo.TRef sig ⟨S_, .f32⟩) main_call23.v0 id,
    StableHlo.TRef.unary main_call23.v0 main_call23.v1 (broadcastInDim S100000 ![] bcast_S_S100000),
    StableHlo.TRef.binary main_call23.v1 (StableHlo.TRef.of main_v314 : StableHlo.TRef sig ⟨S100000, .f32⟩) main_call23.v2 maximumf,
    StableHlo.unary main_v330 main_v331 (Host.rsqrt : (⟨S100000, .f32⟩ : BufTy).Contents (Elt F) → (⟨S100000, .f32⟩ : BufTy).Contents (Elt F)),
    StableHlo.unary main_v331 main_v332 (broadcastInDim S100000x1 ![0] bcast_S100000_S100000x1_0 : (⟨S100000, .f32⟩ : BufTy).Contents (Elt F) → (⟨S100000x1, .f32⟩ : BufTy).Contents (Elt F)),
    StableHlo.unary main_v332 main_v333 (broadcastInDim S100000x32 ![0, 1] bcast_S100000x1_S100000x32_0_1 : (⟨S100000x1, .f32⟩ : BufTy).Contents (Elt F) → (⟨S100000x32, .f32⟩ : BufTy).Contents (Elt F)),
    StableHlo.binary main_v329 main_v333 main_v334 (mulf : (⟨S100000x32, .f32⟩ : BufTy).Contents (Elt F) → (⟨S100000x32, .f32⟩ : BufTy).Contents (Elt F) → (⟨S100000x32, .f32⟩ : BufTy).Contents (Elt F)),
    StableHlo.nullary main_cst_90 (constant S_ .f32 0x3F800000#32),
    StableHlo.unary main_cst_90 main_v335 (broadcastInDim S3200000 ![] bcast_S_S3200000 : (⟨S_, .f32⟩ : BufTy).Contents (Elt F) → (⟨S3200000, .f32⟩ : BufTy).Contents (Elt F)),
    StableHlo.nullary main_cst_91 (constant S_ .f32 0x00000000#32),
    StableHlo.unary main_cst_91 main_v336 (broadcastInDim S100000 ![] bcast_S_S100000 : (⟨S_, .f32⟩ : BufTy).Contents (Elt F) → (⟨S100000, .f32⟩ : BufTy).Contents (Elt F)),
    StableHlo.unary main_arg9 main_v337 (broadcastInDim S3200000x1 ![0] bcast_S3200000_S3200000x1_0 : (⟨S3200000, .i32⟩ : BufTy).Contents (Elt F) → (⟨S3200000x1, .i32⟩ : BufTy).Contents (Elt F)),
    StableHlo.ternary main_v336 main_v337 main_v335 main_v338 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_92 (constant S_ .f32 0x00000000#32),
    StableHlo.unary main_cst_92 main_v339 (broadcastInDim S100000 ![] bcast_S_S100000 : (⟨S_, .f32⟩ : BufTy).Contents (Elt F) → (⟨S100000, .f32⟩ : BufTy).Contents (Elt F)),
    StableHlo.unary main_arg10 main_v340 (broadcastInDim S3200000x1 ![0] bcast_S3200000_S3200000x1_0 : (⟨S3200000, .i32⟩ : BufTy).Contents (Elt F) → (⟨S3200000x1, .i32⟩ : BufTy).Contents (Elt F)),
    StableHlo.ternary main_v339 main_v340 main_v335 main_v341 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_93 (constant S_ .f32 0x3F800000#32),
    StableHlo.TRef.unary (StableHlo.TRef.of main_cst_93 : StableHlo.TRef sig ⟨S_, .f32⟩) main_call24.v0 id,
    StableHlo.TRef.unary main_call24.v0 main_call24.v1 (broadcastInDim S100000 ![] bcast_S_S100000),
    StableHlo.TRef.binary main_call24.v1 (StableHlo.TRef.of main_v338 : StableHlo.TRef sig ⟨S100000, .f32⟩) main_call24.v2 maximumf,
    StableHlo.unary main_v342 main_v343 (Host.rsqrt : (⟨S100000, .f32⟩ : BufTy).Contents (Elt F) → (⟨S100000, .f32⟩ : BufTy).Contents (Elt F)),
    StableHlo.unary main_v343 main_v344 (broadcastInDim S100000x1 ![0] bcast_S100000_S100000x1_0 : (⟨S100000, .f32⟩ : BufTy).Contents (Elt F) → (⟨S100000x1, .f32⟩ : BufTy).Contents (Elt F)),
    StableHlo.unary main_v344 main_v345 (broadcastInDim S100000x32 ![0, 1] bcast_S100000x1_S100000x32_0_1 : (⟨S100000x1, .f32⟩ : BufTy).Contents (Elt F) → (⟨S100000x32, .f32⟩ : BufTy).Contents (Elt F)),
    StableHlo.binary main_v307 main_v345 main_v346 (mulf : (⟨S100000x32, .f32⟩ : BufTy).Contents (Elt F) → (⟨S100000x32, .f32⟩ : BufTy).Contents (Elt F) → (⟨S100000x32, .f32⟩ : BufTy).Contents (Elt F)),
    StableHlo.nullary main_c_94 (constantI S_ 32 0#32),
    StableHlo.unary main_c_94 main_v347 (broadcastInDim S3200000 ![] bcast_S_S3200000 : (⟨S_, .i32⟩ : BufTy).Contents (Elt F) → (⟨S3200000, .i32⟩ : BufTy).Contents (Elt F)),
    StableHlo.binary main_arg9 main_v347 main_v348 (cmpi .slt : (⟨S3200000, .i32⟩ : BufTy).Contents (Elt F) → (⟨S3200000, .i32⟩ : BufTy).Contents (Elt F) → (⟨S3200000, .i1⟩ : BufTy).Contents (Elt F)),
    StableHlo.nullary main_c_95 (constantI S_ 32 100000#32),
    StableHlo.unary main_c_95 main_v349 (broadcastInDim S3200000 ![] bcast_S_S3200000 : (⟨S_, .i32⟩ : BufTy).Contents (Elt F) → (⟨S3200000, .i32⟩ : BufTy).Contents (Elt F)),
    StableHlo.binary main_arg9 main_v349 main_v350 (addi : (⟨S3200000, .i32⟩ : BufTy).Contents (Elt F) → (⟨S3200000, .i32⟩ : BufTy).Contents (Elt F) → (⟨S3200000, .i32⟩ : BufTy).Contents (Elt F)),
    StableHlo.ternary main_v348 main_v350 main_arg9 main_v351 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v351 main_v352 (broadcastInDim S3200000x1 ![0] bcast_S3200000_S3200000x1_0 : (⟨S3200000, .i32⟩ : BufTy).Contents (Elt F) → (⟨S3200000x1, .i32⟩ : BufTy).Contents (Elt F)),
    StableHlo.binary main_v346 main_v352 main_v353 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_96 (constant S_ .f32 0x00000000#32),
    StableHlo.unary main_cst_96 main_v354 (broadcastInDim S100000x32 ![] bcast_S_S100000x32 : (⟨S_, .f32⟩ : BufTy).Contents (Elt F) → (⟨S100000x32, .f32⟩ : BufTy).Contents (Elt F)),
    StableHlo.unary main_arg10 main_v355 (broadcastInDim S3200000x1 ![0] bcast_S3200000_S3200000x1_0 : (⟨S3200000, .i32⟩ : BufTy).Contents (Elt F) → (⟨S3200000x1, .i32⟩ : BufTy).Contents (Elt F)),
    StableHlo.ternary main_v354 main_v355 main_v353 main_v356 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_97 (constant S_ .f32 0x3F800000#32),
    StableHlo.TRef.unary (StableHlo.TRef.of main_cst_97 : StableHlo.TRef sig ⟨S_, .f32⟩) main_call25.v0 id,
    StableHlo.TRef.unary main_call25.v0 main_call25.v1 (broadcastInDim S100000 ![] bcast_S_S100000),
    StableHlo.TRef.binary main_call25.v1 (StableHlo.TRef.of main_v341 : StableHlo.TRef sig ⟨S100000, .f32⟩) main_call25.v2 maximumf,
    StableHlo.unary main_v357 main_v358 (Host.rsqrt : (⟨S100000, .f32⟩ : BufTy).Contents (Elt F) → (⟨S100000, .f32⟩ : BufTy).Contents (Elt F)),
    StableHlo.unary main_v358 main_v359 (broadcastInDim S100000x1 ![0] bcast_S100000_S100000x1_0 : (⟨S100000, .f32⟩ : BufTy).Contents (Elt F) → (⟨S100000x1, .f32⟩ : BufTy).Contents (Elt F)),
    StableHlo.unary main_v359 main_v360 (broadcastInDim S100000x32 ![0, 1] bcast_S100000x1_S100000x32_0_1 : (⟨S100000x1, .f32⟩ : BufTy).Contents (Elt F) → (⟨S100000x32, .f32⟩ : BufTy).Contents (Elt F)),
    StableHlo.binary main_v356 main_v360 main_v361 (mulf : (⟨S100000x32, .f32⟩ : BufTy).Contents (Elt F) → (⟨S100000x32, .f32⟩ : BufTy).Contents (Elt F) → (⟨S100000x32, .f32⟩ : BufTy).Contents (Elt F)),
    StableHlo.binary main_v334 main_v361 main_v362 (subf : (⟨S100000x32, .f32⟩ : BufTy).Contents (Elt F) → (⟨S100000x32, .f32⟩ : BufTy).Contents (Elt F) → (⟨S100000x32, .f32⟩ : BufTy).Contents (Elt F)),
    StableHlo.binary main_v362 main_v27 main_v363 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 6 leaves in its result buffer one propagation step of the specification applied to what the buffers of the
    residual, the four edge lists and the previous state held before it: the operations' composed term is the
    specification's, definition by definition. -/
theorem blk6_out (W : Valuation τ sig (Elt F)) :
    after blk6 W (main_v363 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v307 : DevRef τ sig)) := by
  simp only [blk6]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 6 writes neither the residual's buffer nor an argument's. -/
theorem blk6_keep (W : Valuation τ sig (Elt F)) :
    after blk6 W (main_v27 : DevRef τ sig) = W (main_v27 : DevRef τ sig)
    ∧ after blk6 W (main_arg0 : DevRef τ sig) = W (main_arg0 : DevRef τ sig)
    ∧ after blk6 W (main_arg1 : DevRef τ sig) = W (main_arg1 : DevRef τ sig)
    ∧ after blk6 W (main_arg2 : DevRef τ sig) = W (main_arg2 : DevRef τ sig)
    ∧ after blk6 W (main_arg3 : DevRef τ sig) = W (main_arg3 : DevRef τ sig)
    ∧ after blk6 W (main_arg4 : DevRef τ sig) = W (main_arg4 : DevRef τ sig)
    ∧ after blk6 W (main_arg5 : DevRef τ sig) = W (main_arg5 : DevRef τ sig)
    ∧ after blk6 W (main_arg6 : DevRef τ sig) = W (main_arg6 : DevRef τ sig)
    ∧ after blk6 W (main_arg7 : DevRef τ sig) = W (main_arg7 : DevRef τ sig)
    ∧ after blk6 W (main_arg8 : DevRef τ sig) = W (main_arg8 : DevRef τ sig)
    ∧ after blk6 W (main_arg9 : DevRef τ sig) = W (main_arg9 : DevRef τ sig)
    ∧ after blk6 W (main_arg10 : DevRef τ sig) = W (main_arg10 : DevRef τ sig) := by
  refine ⟨?_, ?_, ?_, ?_, ?_, ?_, ?_, ?_, ?_, ?_, ?_, ?_⟩ <;> (simp only [blk6]; after_results_simp)

end Cert.ReferenceIdeal.RefRun

end
-- ==== Proof.RefB7.lean ====
/- The text of the list below was produced by: python3 scratch/gen_refops.py .   (run in the unit's directory) followed by cutting
   the eleven produced lists, read as one, at the operations 536 … 615 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 7: the two degree normalisers of the positive edge list and one graph convolution over it, the same over the negative edge list, their difference, the residual added. -/
abbrev blk7 : List (HloOp τ sig (Elt F)) :=
  [ StableHlo.nullary main_cst_98 (constant S_ .f32 0x3F800000#32),
    StableHlo.unary main_cst_98 main_v364 (broadcastInDim S3200000 ![] bcast_S_S3200000 : (⟨S_, .f32⟩ : BufTy).Contents (Elt F) → (⟨S3200000, .f32⟩ : BufTy).Contents (Elt F)),
    StableHlo.nullary main_cst_99 (constant S_ .f32 0x00000000#32),
    StableHlo.unary main_cst_99 main_v365 (broadcastInDim S100000 ![] bcast_S_S100000 : (⟨S_, .f32⟩ : BufTy).Contents (Elt F) → (⟨S100000, .f32⟩ : BufTy).Contents (Elt F)),
    StableHlo.unary main_arg7 main_v366 (broadcastInDim S3200000x1 ![0] bcast_S3200000_S3200000x1_0 : (⟨S3200000, .i32⟩ : BufTy).Contents (Elt F) → (⟨S3200000x1, .i32⟩ : BufTy).Contents (Elt F)),
    StableHlo.ternary main_v365 main_v366 main_v364 main_v367 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_100 (constant S_ .f32 0x00000000#32),
    StableHlo.unary main_cst_100 main_v368 (broadcastInDim S100000 ![] bcast_S_S100000 : (⟨S_, .f32⟩ : BufTy).Contents (Elt F) → (⟨S100000, .f32⟩ : BufTy).Contents (Elt F)),
    StableHlo.unary main_arg8 main_v369 (broadcastInDim S3200000x1 ![0] bcast_S3200000_S3200000x1_0 : (⟨S3200000, .i32⟩ : BufTy).Contents (Elt F) → (⟨S3200000x1, .i32⟩ : BufTy).Contents (Elt F)),
    StableHlo.ternary main_v368 main_v369 main_v364 main_v370 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_101 (constant S_ .f32 0x3F800000#32),
    StableHlo.TRef.unary (StableHlo.TRef.of main_cst_101 : StableHlo.TRef sig ⟨S_, .f32⟩) main_call26.v0 id,
    StableHlo.TRef.unary main_call26.v0 main_call26.v1 (broadcastInDim S100000 ![] bcast_S_S100000),
    StableHlo.TRef.binary main_call26.v1 (StableHlo.TRef.of main_v367 : StableHlo.TRef sig ⟨S100000, .f32⟩) main_call26.v2 maximumf,
    StableHlo.unary main_v371 main_v372 (Host.rsqrt : (⟨S100000, .f32⟩ : BufTy).Contents (Elt F) → (⟨S100000, .f32⟩ : BufTy).Contents (Elt F)),
    StableHlo.unary main_v372 main_v373 (broadcastInDim S100000x1 ![0] bcast_S100000_S100000x1_0 : (⟨S100000, .f32⟩ : BufTy).Contents (Elt F) → (⟨S100000x1, .f32⟩ : BufTy).Contents (Elt F)),
    StableHlo.unary main_v373 main_v374 (broadcastInDim S100000x32 ![0, 1] bcast_S100000x1_S100000x32_0_1 : (⟨S100000x1, .f32⟩ : BufTy).Contents (Elt F) → (⟨S100000x32, .f32⟩ : BufTy).Contents (Elt F)),
    StableHlo.binary main_v363 main_v374 main_v375 (mulf : (⟨S100000x32, .f32⟩ : BufTy).Contents (Elt F) → (⟨S100000x32, .f32⟩ : BufTy).Contents (Elt F) → (⟨S100000x32, .f32⟩ : BufTy).Contents (Elt F)),
    StableHlo.nullary main_c_102 (constantI S_ 32 0#32),
    StableHlo.unary main_c_102 main_v376 (broadcastInDim S3200000 ![] bcast_S_S3200000 : (⟨S_, .i32⟩ : BufTy).Contents (Elt F) → (⟨S3200000, .i32⟩ : BufTy).Contents (Elt F)),
    StableHlo.binary main_arg7 main_v376 main_v377 (cmpi .slt : (⟨S3200000, .i32⟩ : BufTy).Contents (Elt F) → (⟨S3200000, .i32⟩ : BufTy).Contents (Elt F) → (⟨S3200000, .i1⟩ : BufTy).Contents (Elt F)),
    StableHlo.nullary main_c_103 (constantI S_ 32 100000#32),
    StableHlo.unary main_c_103 main_v378 (broadcastInDim S3200000 ![] bcast_S_S3200000 : (⟨S_, .i32⟩ : BufTy).Contents (Elt F) → (⟨S3200000, .i32⟩ : BufTy).Contents (Elt F)),
    StableHlo.binary main_arg7 main_v378 main_v379 (addi : (⟨S3200000, .i32⟩ : BufTy).Contents (Elt F) → (⟨S3200000, .i32⟩ : BufTy).Contents (Elt F) → (⟨S3200000, .i32⟩ : BufTy).Contents (Elt F)),
    StableHlo.ternary main_v377 main_v379 main_arg7 main_v380 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v380 main_v381 (broadcastInDim S3200000x1 ![0] bcast_S3200000_S3200000x1_0 : (⟨S3200000, .i32⟩ : BufTy).Contents (Elt F) → (⟨S3200000x1, .i32⟩ : BufTy).Contents (Elt F)),
    StableHlo.binary main_v375 main_v381 main_v382 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_104 (constant S_ .f32 0x00000000#32),
    StableHlo.unary main_cst_104 main_v383 (broadcastInDim S100000x32 ![] bcast_S_S100000x32 : (⟨S_, .f32⟩ : BufTy).Contents (Elt F) → (⟨S100000x32, .f32⟩ : BufTy).Contents (Elt F)),
    StableHlo.unary main_arg8 main_v384 (broadcastInDim S3200000x1 ![0] bcast_S3200000_S3200000x1_0 : (⟨S3200000, .i32⟩ : BufTy).Contents (Elt F) → (⟨S3200000x1, .i32⟩ : BufTy).Contents (Elt F)),
    StableHlo.ternary main_v383 main_v384 main_v382 main_v385 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_105 (constant S_ .f32 0x3F800000#32),
    StableHlo.TRef.unary (StableHlo.TRef.of main_cst_105 : StableHlo.TRef sig ⟨S_, .f32⟩) main_call27.v0 id,
    StableHlo.TRef.unary main_call27.v0 main_call27.v1 (broadcastInDim S100000 ![] bcast_S_S100000),
    StableHlo.TRef.binary main_call27.v1 (StableHlo.TRef.of main_v370 : StableHlo.TRef sig ⟨S100000, .f32⟩) main_call27.v2 maximumf,
    StableHlo.unary main_v386 main_v387 (Host.rsqrt : (⟨S100000, .f32⟩ : BufTy).Contents (Elt F) → (⟨S100000, .f32⟩ : BufTy).Contents (Elt F)),
    StableHlo.unary main_v387 main_v388 (broadcastInDim S100000x1 ![0] bcast_S100000_S100000x1_0 : (⟨S100000, .f32⟩ : BufTy).Contents (Elt F) → (⟨S100000x1, .f32⟩ : BufTy).Contents (Elt F)),
    StableHlo.unary main_v388 main_v389 (broadcastInDim S100000x32 ![0, 1] bcast_S100000x1_S100000x32_0_1 : (⟨S100000x1, .f32⟩ : BufTy).Contents (Elt F) → (⟨S100000x32, .f32⟩ : BufTy).Contents (Elt F)),
    StableHlo.binary main_v385 main_v389 main_v390 (mulf : (⟨S100000x32, .f32⟩ : BufTy).Contents (Elt F) → (⟨S100000x32, .f32⟩ : BufTy).Contents (Elt F) → (⟨S100000x32, .f32⟩ : BufTy).Contents (Elt F)),
    StableHlo.nullary main_cst_106 (constant S_ .f32 0x3F800000#32),
    StableHlo.unary main_cst_106 main_v391 (broadcastInDim S3200000 ![] bcast_S_S3200000 : (⟨S_, .f32⟩ : BufTy).Contents (Elt F) → (⟨S3200000, .f32⟩ : BufTy).Contents (Elt F)),
    StableHlo.nullary main_cst_107 (constant S_ .f32 0x00000000#32),
    StableHlo.unary main_cst_107 main_v392 (broadcastInDim S100000 ![] bcast_S_S100000 : (⟨S_, .f32⟩ : BufTy).Contents (Elt F) → (⟨S100000, .f32⟩ : BufTy).Contents (Elt F)),
    StableHlo.unary main_arg9 main_v393 (broadcastInDim S3200000x1 ![0] bcast_S3200000_S3200000x1_0 : (⟨S3200000, .i32⟩ : BufTy).Contents (Elt F) → (⟨S3200000x1, .i32⟩ : BufTy).Contents (Elt F)),
    StableHlo.ternary main_v392 main_v393 main_v391 main_v394 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_108 (constant S_ .f32 0x00000000#32),
    StableHlo.unary main_cst_108 main_v395 (broadcastInDim S100000 ![] bcast_S_S100000 : (⟨S_, .f32⟩ : BufTy).Contents (Elt F) → (⟨S100000, .f32⟩ : BufTy).Contents (Elt F)),
    StableHlo.unary main_arg10 main_v396 (broadcastInDim S3200000x1 ![0] bcast_S3200000_S3200000x1_0 : (⟨S3200000, .i32⟩ : BufTy).Contents (Elt F) → (⟨S3200000x1, .i32⟩ : BufTy).Contents (Elt F)),
    StableHlo.ternary main_v395 main_v396 main_v391 main_v397 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_109 (constant S_ .f32 0x3F800000#32),
    StableHlo.TRef.unary (StableHlo.TRef.of main_cst_109 : StableHlo.TRef sig ⟨S_, .f32⟩) main_call28.v0 id,
    StableHlo.TRef.unary main_call28.v0 main_call28.v1 (broadcastInDim S100000 ![] bcast_S_S100000),
    StableHlo.TRef.binary main_call28.v1 (StableHlo.TRef.of main_v394 : StableHlo.TRef sig ⟨S100000, .f32⟩) main_call28.v2 maximumf,
    StableHlo.unary main_v398 main_v399 (Host.rsqrt : (⟨S100000, .f32⟩ : BufTy).Contents (Elt F) → (⟨S100000, .f32⟩ : BufTy).Contents (Elt F)),
    StableHlo.unary main_v399 main_v400 (broadcastInDim S100000x1 ![0] bcast_S100000_S100000x1_0 : (⟨S100000, .f32⟩ : BufTy).Contents (Elt F) → (⟨S100000x1, .f32⟩ : BufTy).Contents (Elt F)),
    StableHlo.unary main_v400 main_v401 (broadcastInDim S100000x32 ![0, 1] bcast_S100000x1_S100000x32_0_1 : (⟨S100000x1, .f32⟩ : BufTy).Contents (Elt F) → (⟨S100000x32, .f32⟩ : BufTy).Contents (Elt F)),
    StableHlo.binary main_v363 main_v401 main_v402 (mulf : (⟨S100000x32, .f32⟩ : BufTy).Contents (Elt F) → (⟨S100000x32, .f32⟩ : BufTy).Contents (Elt F) → (⟨S100000x32, .f32⟩ : BufTy).Contents (Elt F)),
    StableHlo.nullary main_c_110 (constantI S_ 32 0#32),
    StableHlo.unary main_c_110 main_v403 (broadcastInDim S3200000 ![] bcast_S_S3200000 : (⟨S_, .i32⟩ : BufTy).Contents (Elt F) → (⟨S3200000, .i32⟩ : BufTy).Contents (Elt F)),
    StableHlo.binary main_arg9 main_v403 main_v404 (cmpi .slt : (⟨S3200000, .i32⟩ : BufTy).Contents (Elt F) → (⟨S3200000, .i32⟩ : BufTy).Contents (Elt F) → (⟨S3200000, .i1⟩ : BufTy).Contents (Elt F)),
    StableHlo.nullary main_c_111 (constantI S_ 32 100000#32),
    StableHlo.unary main_c_111 main_v405 (broadcastInDim S3200000 ![] bcast_S_S3200000 : (⟨S_, .i32⟩ : BufTy).Contents (Elt F) → (⟨S3200000, .i32⟩ : BufTy).Contents (Elt F)),
    StableHlo.binary main_arg9 main_v405 main_v406 (addi : (⟨S3200000, .i32⟩ : BufTy).Contents (Elt F) → (⟨S3200000, .i32⟩ : BufTy).Contents (Elt F) → (⟨S3200000, .i32⟩ : BufTy).Contents (Elt F)),
    StableHlo.ternary main_v404 main_v406 main_arg9 main_v407 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v407 main_v408 (broadcastInDim S3200000x1 ![0] bcast_S3200000_S3200000x1_0 : (⟨S3200000, .i32⟩ : BufTy).Contents (Elt F) → (⟨S3200000x1, .i32⟩ : BufTy).Contents (Elt F)),
    StableHlo.binary main_v402 main_v408 main_v409 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_112 (constant S_ .f32 0x00000000#32),
    StableHlo.unary main_cst_112 main_v410 (broadcastInDim S100000x32 ![] bcast_S_S100000x32 : (⟨S_, .f32⟩ : BufTy).Contents (Elt F) → (⟨S100000x32, .f32⟩ : BufTy).Contents (Elt F)),
    StableHlo.unary main_arg10 main_v411 (broadcastInDim S3200000x1 ![0] bcast_S3200000_S3200000x1_0 : (⟨S3200000, .i32⟩ : BufTy).Contents (Elt F) → (⟨S3200000x1, .i32⟩ : BufTy).Contents (Elt F)),
    StableHlo.ternary main_v410 main_v411 main_v409 main_v412 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_113 (constant S_ .f32 0x3F800000#32),
    StableHlo.TRef.unary (StableHlo.TRef.of main_cst_113 : StableHlo.TRef sig ⟨S_, .f32⟩) main_call29.v0 id,
    StableHlo.TRef.unary main_call29.v0 main_call29.v1 (broadcastInDim S100000 ![] bcast_S_S100000),
    StableHlo.TRef.binary main_call29.v1 (StableHlo.TRef.of main_v397 : StableHlo.TRef sig ⟨S100000, .f32⟩) main_call29.v2 maximumf,
    StableHlo.unary main_v413 main_v414 (Host.rsqrt : (⟨S100000, .f32⟩ : BufTy).Contents (Elt F) → (⟨S100000, .f32⟩ : BufTy).Contents (Elt F)),
    StableHlo.unary main_v414 main_v415 (broadcastInDim S100000x1 ![0] bcast_S100000_S100000x1_0 : (⟨S100000, .f32⟩ : BufTy).Contents (Elt F) → (⟨S100000x1, .f32⟩ : BufTy).Contents (Elt F)),
    StableHlo.unary main_v415 main_v416 (broadcastInDim S100000x32 ![0, 1] bcast_S100000x1_S100000x32_0_1 : (⟨S100000x1, .f32⟩ : BufTy).Contents (Elt F) → (⟨S100000x32, .f32⟩ : BufTy).Contents (Elt F)),
    StableHlo.binary main_v412 main_v416 main_v417 (mulf : (⟨S100000x32, .f32⟩ : BufTy).Contents (Elt F) → (⟨S100000x32, .f32⟩ : BufTy).Contents (Elt F) → (⟨S100000x32, .f32⟩ : BufTy).Contents (Elt F)),
    StableHlo.binary main_v390 main_v417 main_v418 (subf : (⟨S100000x32, .f32⟩ : BufTy).Contents (Elt F) → (⟨S100000x32, .f32⟩ : BufTy).Contents (Elt F) → (⟨S100000x32, .f32⟩ : BufTy).Contents (Elt F)),
    StableHlo.binary main_v418 main_v27 main_v419 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 7 leaves in its result buffer one propagation step of the specification applied to what the buffers of the
    residual, the four edge lists and the previous state held before it: the operations' composed term is the
    specification's, definition by definition. -/
theorem blk7_out (W : Valuation τ sig (Elt F)) :
    after blk7 W (main_v419 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v363 : DevRef τ sig)) := by
  simp only [blk7]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 7 writes neither the residual's buffer nor an argument's. -/
theorem blk7_keep (W : Valuation τ sig (Elt F)) :
    after blk7 W (main_v27 : DevRef τ sig) = W (main_v27 : DevRef τ sig)
    ∧ after blk7 W (main_arg0 : DevRef τ sig) = W (main_arg0 : DevRef τ sig)
    ∧ after blk7 W (main_arg1 : DevRef τ sig) = W (main_arg1 : DevRef τ sig)
    ∧ after blk7 W (main_arg2 : DevRef τ sig) = W (main_arg2 : DevRef τ sig)
    ∧ after blk7 W (main_arg3 : DevRef τ sig) = W (main_arg3 : DevRef τ sig)
    ∧ after blk7 W (main_arg4 : DevRef τ sig) = W (main_arg4 : DevRef τ sig)
    ∧ after blk7 W (main_arg5 : DevRef τ sig) = W (main_arg5 : DevRef τ sig)
    ∧ after blk7 W (main_arg6 : DevRef τ sig) = W (main_arg6 : DevRef τ sig)
    ∧ after blk7 W (main_arg7 : DevRef τ sig) = W (main_arg7 : DevRef τ sig)
    ∧ after blk7 W (main_arg8 : DevRef τ sig) = W (main_arg8 : DevRef τ sig)
    ∧ after blk7 W (main_arg9 : DevRef τ sig) = W (main_arg9 : DevRef τ sig)
    ∧ after blk7 W (main_arg10 : DevRef τ sig) = W (main_arg10 : DevRef τ sig) := by
  refine ⟨?_, ?_, ?_, ?_, ?_, ?_, ?_, ?_, ?_, ?_, ?_, ?_⟩ <;> (simp only [blk7]; after_results_simp)

end Cert.ReferenceIdeal.RefRun

end
-- ==== Proof.RefB8.lean ====
/- The text of the list below was produced by: python3 scratch/gen_refops.py .   (run in the unit's directory) followed by cutting
   the eleven produced lists, read as one, at the operations 616 … 695 of 695: a table read off the printed lines of
   proof/ReferenceIdeal.lean. The statements about it are checked here. -/
import proofs.«143456_j27066883899969_1_alg».proof.Proof.Gen.ReferenceIdeal
import proofs.«143456_j27066883899969_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 80 operations of propagation step 8: the two degree normalisers of the positive edge list and one graph convolution over it, the same over the negative edge list, their difference, the residual added. -/
abbrev blk8 : List (HloOp τ sig (Elt F)) :=
  [ StableHlo.nullary main_cst_114 (constant S_ .f32 0x3F800000#32),
    StableHlo.unary main_cst_114 main_v420 (broadcastInDim S3200000 ![] bcast_S_S3200000 : (⟨S_, .f32⟩ : BufTy).Contents (Elt F) → (⟨S3200000, .f32⟩ : BufTy).Contents (Elt F)),
    StableHlo.nullary main_cst_115 (constant S_ .f32 0x00000000#32),
    StableHlo.unary main_cst_115 main_v421 (broadcastInDim S100000 ![] bcast_S_S100000 : (⟨S_, .f32⟩ : BufTy).Contents (Elt F) → (⟨S100000, .f32⟩ : BufTy).Contents (Elt F)),
    StableHlo.unary main_arg7 main_v422 (broadcastInDim S3200000x1 ![0] bcast_S3200000_S3200000x1_0 : (⟨S3200000, .i32⟩ : BufTy).Contents (Elt F) → (⟨S3200000x1, .i32⟩ : BufTy).Contents (Elt F)),
    StableHlo.ternary main_v421 main_v422 main_v420 main_v423 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_116 (constant S_ .f32 0x00000000#32),
    StableHlo.unary main_cst_116 main_v424 (broadcastInDim S100000 ![] bcast_S_S100000 : (⟨S_, .f32⟩ : BufTy).Contents (Elt F) → (⟨S100000, .f32⟩ : BufTy).Contents (Elt F)),
    StableHlo.unary main_arg8 main_v425 (broadcastInDim S3200000x1 ![0] bcast_S3200000_S3200000x1_0 : (⟨S3200000, .i32⟩ : BufTy).Contents (Elt F) → (⟨S3200000x1, .i32⟩ : BufTy).Contents (Elt F)),
    StableHlo.ternary main_v424 main_v425 main_v420 main_v426 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_117 (constant S_ .f32 0x3F800000#32),
    StableHlo.TRef.unary (StableHlo.TRef.of main_cst_117 : StableHlo.TRef sig ⟨S_, .f32⟩) main_call30.v0 id,
    StableHlo.TRef.unary main_call30.v0 main_call30.v1 (broadcastInDim S100000 ![] bcast_S_S100000),
    StableHlo.TRef.binary main_call30.v1 (StableHlo.TRef.of main_v423 : StableHlo.TRef sig ⟨S100000, .f32⟩) main_call30.v2 maximumf,
    StableHlo.unary main_v427 main_v428 (Host.rsqrt : (⟨S100000, .f32⟩ : BufTy).Contents (Elt F) → (⟨S100000, .f32⟩ : BufTy).Contents (Elt F)),
    StableHlo.unary main_v428 main_v429 (broadcastInDim S100000x1 ![0] bcast_S100000_S100000x1_0 : (⟨S100000, .f32⟩ : BufTy).Contents (Elt F) → (⟨S100000x1, .f32⟩ : BufTy).Contents (Elt F)),
    StableHlo.unary main_v429 main_v430 (broadcastInDim S100000x32 ![0, 1] bcast_S100000x1_S100000x32_0_1 : (⟨S100000x1, .f32⟩ : BufTy).Contents (Elt F) → (⟨S100000x32, .f32⟩ : BufTy).Contents (Elt F)),
    StableHlo.binary main_v419 main_v430 main_v431 (mulf : (⟨S100000x32, .f32⟩ : BufTy).Contents (Elt F) → (⟨S100000x32, .f32⟩ : BufTy).Contents (Elt F) → (⟨S100000x32, .f32⟩ : BufTy).Contents (Elt F)),
    StableHlo.nullary main_c_118 (constantI S_ 32 0#32),
    StableHlo.unary main_c_118 main_v432 (broadcastInDim S3200000 ![] bcast_S_S3200000 : (⟨S_, .i32⟩ : BufTy).Contents (Elt F) → (⟨S3200000, .i32⟩ : BufTy).Contents (Elt F)),
    StableHlo.binary main_arg7 main_v432 main_v433 (cmpi .slt : (⟨S3200000, .i32⟩ : BufTy).Contents (Elt F) → (⟨S3200000, .i32⟩ : BufTy).Contents (Elt F) → (⟨S3200000, .i1⟩ : BufTy).Contents (Elt F)),
    StableHlo.nullary main_c_119 (constantI S_ 32 100000#32),
    StableHlo.unary main_c_119 main_v434 (broadcastInDim S3200000 ![] bcast_S_S3200000 : (⟨S_, .i32⟩ : BufTy).Contents (Elt F) → (⟨S3200000, .i32⟩ : BufTy).Contents (Elt F)),
    StableHlo.binary main_arg7 main_v434 main_v435 (addi : (⟨S3200000, .i32⟩ : BufTy).Contents (Elt F) → (⟨S3200000, .i32⟩ : BufTy).Contents (Elt F) → (⟨S3200000, .i32⟩ : BufTy).Contents (Elt F)),
    StableHlo.ternary main_v433 main_v435 main_arg7 main_v436 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v436 main_v437 (broadcastInDim S3200000x1 ![0] bcast_S3200000_S3200000x1_0 : (⟨S3200000, .i32⟩ : BufTy).Contents (Elt F) → (⟨S3200000x1, .i32⟩ : BufTy).Contents (Elt F)),
    StableHlo.binary main_v431 main_v437 main_v438 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_120 (constant S_ .f32 0x00000000#32),
    StableHlo.unary main_cst_120 main_v439 (broadcastInDim S100000x32 ![] bcast_S_S100000x32 : (⟨S_, .f32⟩ : BufTy).Contents (Elt F) → (⟨S100000x32, .f32⟩ : BufTy).Contents (Elt F)),
    StableHlo.unary main_arg8 main_v440 (broadcastInDim S3200000x1 ![0] bcast_S3200000_S3200000x1_0 : (⟨S3200000, .i32⟩ : BufTy).Contents (Elt F) → (⟨S3200000x1, .i32⟩ : BufTy).Contents (Elt F)),
    StableHlo.ternary main_v439 main_v440 main_v438 main_v441 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_121 (constant S_ .f32 0x3F800000#32),
    StableHlo.TRef.unary (StableHlo.TRef.of main_cst_121 : StableHlo.TRef sig ⟨S_, .f32⟩) main_call31.v0 id,
    StableHlo.TRef.unary main_call31.v0 main_call31.v1 (broadcastInDim S100000 ![] bcast_S_S100000),
    StableHlo.TRef.binary main_call31.v1 (StableHlo.TRef.of main_v426 : StableHlo.TRef sig ⟨S100000, .f32⟩) main_call31.v2 maximumf,
    StableHlo.unary main_v442 main_v443 (Host.rsqrt : (⟨S100000, .f32⟩ : BufTy).Contents (Elt F) → (⟨S100000, .f32⟩ : BufTy).Contents (Elt F)),
    StableHlo.unary main_v443 main_v444 (broadcastInDim S100000x1 ![0] bcast_S100000_S100000x1_0 : (⟨S100000, .f32⟩ : BufTy).Contents (Elt F) → (⟨S100000x1, .f32⟩ : BufTy).Contents (Elt F)),
    StableHlo.unary main_v444 main_v445 (broadcastInDim S100000x32 ![0, 1] bcast_S100000x1_S100000x32_0_1 : (⟨S100000x1, .f32⟩ : BufTy).Contents (Elt F) → (⟨S100000x32, .f32⟩ : BufTy).Contents (Elt F)),
    StableHlo.binary main_v441 main_v445 main_v446 (mulf : (⟨S100000x32, .f32⟩ : BufTy).Contents (Elt F) → (⟨S100000x32, .f32⟩ : BufTy).Contents (Elt F) → (⟨S100000x32, .f32⟩ : BufTy).Contents (Elt F)),
    StableHlo.nullary main_cst_122 (constant S_ .f32 0x3F800000#32),
    StableHlo.unary main_cst_122 main_v447 (broadcastInDim S3200000 ![] bcast_S_S3200000 : (⟨S_, .f32⟩ : BufTy).Contents (Elt F) → (⟨S3200000, .f32⟩ : BufTy).Contents (Elt F)),
    StableHlo.nullary main_cst_123 (constant S_ .f32 0x00000000#32),
    StableHlo.unary main_cst_123 main_v448 (broadcastInDim S100000 ![] bcast_S_S100000 : (⟨S_, .f32⟩ : BufTy).Contents (Elt F) → (⟨S100000, .f32⟩ : BufTy).Contents (Elt F)),
    StableHlo.unary main_arg9 main_v449 (broadcastInDim S3200000x1 ![0] bcast_S3200000_S3200000x1_0 : (⟨S3200000, .i32⟩ : BufTy).Contents (Elt F) → (⟨S3200000x1, .i32⟩ : BufTy).Contents (Elt F)),
    StableHlo.ternary main_v448 main_v449 main_v447 main_v450 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_124 (constant S_ .f32 0x00000000#32),
    StableHlo.unary main_cst_124 main_v451 (broadcastInDim S100000 ![] bcast_S_S100000 : (⟨S_, .f32⟩ : BufTy).Contents (Elt F) → (⟨S100000, .f32⟩ : BufTy).Contents (Elt F)),
    StableHlo.unary main_arg10 main_v452 (broadcastInDim S3200000x1 ![0] bcast_S3200000_S3200000x1_0 : (⟨S3200000, .i32⟩ : BufTy).Contents (Elt F) → (⟨S3200000x1, .i32⟩ : BufTy).Contents (Elt F)),
    StableHlo.ternary main_v451 main_v452 main_v447 main_v453 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_125 (constant S_ .f32 0x3F800000#32),
    StableHlo.TRef.unary (StableHlo.TRef.of main_cst_125 : StableHlo.TRef sig ⟨S_, .f32⟩) main_call32.v0 id,
    StableHlo.TRef.unary main_call32.v0 main_call32.v1 (broadcastInDim S100000 ![] bcast_S_S100000),
    StableHlo.TRef.binary main_call32.v1 (StableHlo.TRef.of main_v450 : StableHlo.TRef sig ⟨S100000, .f32⟩) main_call32.v2 maximumf,
    StableHlo.unary main_v454 main_v455 (Host.rsqrt : (⟨S100000, .f32⟩ : BufTy).Contents (Elt F) → (⟨S100000, .f32⟩ : BufTy).Contents (Elt F)),
    StableHlo.unary main_v455 main_v456 (broadcastInDim S100000x1 ![0] bcast_S100000_S100000x1_0 : (⟨S100000, .f32⟩ : BufTy).Contents (Elt F) → (⟨S100000x1, .f32⟩ : BufTy).Contents (Elt F)),
    StableHlo.unary main_v456 main_v457 (broadcastInDim S100000x32 ![0, 1] bcast_S100000x1_S100000x32_0_1 : (⟨S100000x1, .f32⟩ : BufTy).Contents (Elt F) → (⟨S100000x32, .f32⟩ : BufTy).Contents (Elt F)),
    StableHlo.binary main_v419 main_v457 main_v458 (mulf : (⟨S100000x32, .f32⟩ : BufTy).Contents (Elt F) → (⟨S100000x32, .f32⟩ : BufTy).Contents (Elt F) → (⟨S100000x32, .f32⟩ : BufTy).Contents (Elt F)),
    StableHlo.nullary main_c_126 (constantI S_ 32 0#32),
    StableHlo.unary main_c_126 main_v459 (broadcastInDim S3200000 ![] bcast_S_S3200000 : (⟨S_, .i32⟩ : BufTy).Contents (Elt F) → (⟨S3200000, .i32⟩ : BufTy).Contents (Elt F)),
    StableHlo.binary main_arg9 main_v459 main_v460 (cmpi .slt : (⟨S3200000, .i32⟩ : BufTy).Contents (Elt F) → (⟨S3200000, .i32⟩ : BufTy).Contents (Elt F) → (⟨S3200000, .i1⟩ : BufTy).Contents (Elt F)),
    StableHlo.nullary main_c_127 (constantI S_ 32 100000#32),
    StableHlo.unary main_c_127 main_v461 (broadcastInDim S3200000 ![] bcast_S_S3200000 : (⟨S_, .i32⟩ : BufTy).Contents (Elt F) → (⟨S3200000, .i32⟩ : BufTy).Contents (Elt F)),
    StableHlo.binary main_arg9 main_v461 main_v462 (addi : (⟨S3200000, .i32⟩ : BufTy).Contents (Elt F) → (⟨S3200000, .i32⟩ : BufTy).Contents (Elt F) → (⟨S3200000, .i32⟩ : BufTy).Contents (Elt F)),
    StableHlo.ternary main_v460 main_v462 main_arg9 main_v463 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v463 main_v464 (broadcastInDim S3200000x1 ![0] bcast_S3200000_S3200000x1_0 : (⟨S3200000, .i32⟩ : BufTy).Contents (Elt F) → (⟨S3200000x1, .i32⟩ : BufTy).Contents (Elt F)),
    StableHlo.binary main_v458 main_v464 main_v465 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    StableHlo.nullary main_cst_128 (constant S_ .f32 0x00000000#32),
    StableHlo.unary main_cst_128 main_v466 (broadcastInDim S100000x32 ![] bcast_S_S100000x32 : (⟨S_, .f32⟩ : BufTy).Contents (Elt F) → (⟨S100000x32, .f32⟩ : BufTy).Contents (Elt F)),
    StableHlo.unary main_arg10 main_v467 (broadcastInDim S3200000x1 ![0] bcast_S3200000_S3200000x1_0 : (⟨S3200000, .i32⟩ : BufTy).Contents (Elt F) → (⟨S3200000x1, .i32⟩ : BufTy).Contents (Elt F)),
    StableHlo.ternary main_v466 main_v467 main_v465 main_v468 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.nullary main_cst_129 (constant S_ .f32 0x3F800000#32),
    StableHlo.TRef.unary (StableHlo.TRef.of main_cst_129 : StableHlo.TRef sig ⟨S_, .f32⟩) main_call33.v0 id,
    StableHlo.TRef.unary main_call33.v0 main_call33.v1 (broadcastInDim S100000 ![] bcast_S_S100000),
    StableHlo.TRef.binary main_call33.v1 (StableHlo.TRef.of main_v453 : StableHlo.TRef sig ⟨S100000, .f32⟩) main_call33.v2 maximumf,
    StableHlo.unary main_v469 main_v470 (Host.rsqrt : (⟨S100000, .f32⟩ : BufTy).Contents (Elt F) → (⟨S100000, .f32⟩ : BufTy).Contents (Elt F)),
    StableHlo.unary main_v470 main_v471 (broadcastInDim S100000x1 ![0] bcast_S100000_S100000x1_0 : (⟨S100000, .f32⟩ : BufTy).Contents (Elt F) → (⟨S100000x1, .f32⟩ : BufTy).Contents (Elt F)),
    StableHlo.unary main_v471 main_v472 (broadcastInDim S100000x32 ![0, 1] bcast_S100000x1_S100000x32_0_1 : (⟨S100000x1, .f32⟩ : BufTy).Contents (Elt F) → (⟨S100000x32, .f32⟩ : BufTy).Contents (Elt F)),
    StableHlo.binary main_v468 main_v472 main_v473 (mulf : (⟨S100000x32, .f32⟩ : BufTy).Contents (Elt F) → (⟨S100000x32, .f32⟩ : BufTy).Contents (Elt F) → (⟨S100000x32, .f32⟩ : BufTy).Contents (Elt F)),
    StableHlo.binary main_v446 main_v473 main_v474 (subf : (⟨S100000x32, .f32⟩ : BufTy).Contents (Elt F) → (⟨S100000x32, .f32⟩ : BufTy).Contents (Elt F) → (⟨S100000x32, .f32⟩ : BufTy).Contents (Elt F)),
    StableHlo.binary main_v474 main_v27 main_v475 (addf : (⟨S100000x32, .f32⟩ : BufTy).Contents (Elt F) → (⟨S100000x32, .f32⟩ : BufTy).Contents (Elt F) → (⟨S100000x32, .f32⟩ : BufTy).Contents (Elt F)) ]

attribute [local irreducible] Host.scatterAdd Host.gather Host.reduceAdd in
set_option maxHeartbeats 4000000 in
/-- Step 8 leaves in its result buffer one propagation step of the specification applied to what the buffers of the
    residual, the four edge lists and the previous state held before it: the operations' composed term is the
    specification's, definition by definition. -/
theorem blk8_out (W : Valuation τ sig (Elt F)) :
    after blk8 W (main_v475 : DevRef τ sig)
      = Cert.Spec.step (W (main_v27 : DevRef τ sig)) (W (main_arg7 : DevRef τ sig)) (W (main_arg8 : DevRef τ sig)) (W (main_arg9 : DevRef τ sig)) (W (main_arg10 : DevRef τ sig)) (W (main_v419 : DevRef τ sig)) := by
  simp only [blk8]
  after_results_simp
  simp only [Cert.Spec.step, Cert.Spec.gconv, Cert.Spec.spmm, Cert.Spec.norm, Cert.Spec.idxCol, Cert.Spec.wrapIdx, Cert.Spec.col]
  rfl

set_option maxHeartbeats 4000000 in
/-- Step 8 writes neither the residual's buffer nor an argument's. -/
theorem blk8_keep (W : Valuation τ sig (Elt F)) :
    after blk8 W (main_v27 : DevRef τ sig) = W (main_v27 : DevRef τ sig)
    ∧ after blk8 W (main_arg0 : DevRef τ sig) = W (main_arg0 : DevRef τ sig)
    ∧ after blk8 W (main_arg1 : DevRef τ sig) = W (main_arg1 : DevRef τ sig)
    ∧ after blk8 W (main_arg2 : DevRef τ sig) = W (main_arg2 : DevRef τ sig)
    ∧ after blk8 W (main_arg3 : DevRef τ sig) = W (main_arg3 : DevRef τ sig)
    ∧ after blk8 W (main_arg4 : DevRef τ sig) = W (main_arg4 : DevRef τ sig)
    ∧ after blk8 W (main_arg5 : DevRef τ sig) = W (main_arg5 : DevRef τ sig)
    ∧ after blk8 W (main_arg6 : DevRef τ sig) = W (main_arg6 : DevRef τ sig)
    ∧ after blk8 W (main_arg7 : DevRef τ sig) = W (main_arg7 : DevRef τ sig)
    ∧ after blk8 W (main_arg8 : DevRef τ sig) = W (main_arg8 : DevRef τ sig)
    ∧ after blk8 W (main_arg9 : DevRef τ sig) = W (main_arg9 : DevRef τ sig)
    ∧ after blk8 W (main_arg10 : DevRef τ sig) = W (main_arg10 : DevRef τ sig) := by
  refine ⟨?_, ?_, ?_, ?_, ?_, ?_, ?_, ?_, ?_, ?_, ?_, ?_⟩ <;> (simp only [blk8]; after_results_simp)

end Cert.ReferenceIdeal.RefRun

end
-- ==== Proof.RefValue.lean ====
/- The value the reference program leaves: the fold of @main's operations, read block by block — the perceptron,
   then the eight propagation steps —, is the specification applied to the arguments' contents, and the arguments'
   buffers are unchanged; with the run, every execution ends so. -/
import proofs.«143456_j27066883899969_1_alg».proof.Proof.RefRun
import proofs.«143456_j27066883899969_1_alg».proof.Proof.RefB0
import proofs.«143456_j27066883899969_1_alg».proof.Proof.RefB1
import proofs.«143456_j27066883899969_1_alg».proof.Proof.RefB2
import proofs.«143456_j27066883899969_1_alg».proof.Proof.RefB3
import proofs.«143456_j27066883899969_1_alg».proof.Proof.RefB4
import proofs.«143456_j27066883899969_1_alg».proof.Proof.RefB5
import proofs.«143456_j27066883899969_1_alg».proof.Proof.RefB6
import proofs.«143456_j27066883899969_1_alg».proof.Proof.RefB7
import proofs.«143456_j27066883899969_1_alg».proof.Proof.RefB8
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations are the nine blocks' one after the other: the same elements, cut at other places. -/
theorem ops_eq_blocks : (ops : List (HloOp τ sig (Elt F))) = blk0 ++ (blk1 ++ (blk2 ++ (blk3 ++ (blk4 ++ (blk5 ++ (blk6 ++ (blk7 ++ (blk8)))))))) := rfl

/-- The residual, of the arguments' contents. -/
def oriOf (V : Valuation τ sig (Elt F)) : Cert.Spec.A (F := F) S100000x32 :=
  Cert.Spec.ori (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))
/-- One propagation step, of the arguments' contents. -/
def stepOf (V : Valuation τ sig (Elt F)) (h : Cert.Spec.A (F := F) S100000x32) : Cert.Spec.A (F := F) S100000x32 :=
  Cert.Spec.step (oriOf V) (V (main_arg7 : DevRef τ sig)) (V (main_arg8 : DevRef τ sig)) (V (main_arg9 : DevRef τ sig)) (V (main_arg10 : DevRef τ sig)) h

/-- The contents after the perceptron's block. -/
def val0 (V : Valuation τ sig (Elt F)) : Valuation τ sig (Elt F) := after blk0 V
/-- The contents after propagation step 1's block. -/
def val1 (V : Valuation τ sig (Elt F)) : Valuation τ sig (Elt F) := after blk1 (val0 V)
/-- The contents after propagation step 2's block. -/
def val2 (V : Valuation τ sig (Elt F)) : Valuation τ sig (Elt F) := after blk2 (val1 V)
/-- The contents after propagation step 3's block. -/
def val3 (V : Valuation τ sig (Elt F)) : Valuation τ sig (Elt F) := after blk3 (val2 V)
/-- The contents after propagation step 4's block. -/
def val4 (V : Valuation τ sig (Elt F)) : Valuation τ sig (Elt F) := after blk4 (val3 V)
/-- The contents after propagation step 5's block. -/
def val5 (V : Valuation τ sig (Elt F)) : Valuation τ sig (Elt F) := after blk5 (val4 V)
/-- The contents after propagation step 6's block. -/
def val6 (V : Valuation τ sig (Elt F)) : Valuation τ sig (Elt F) := after blk6 (val5 V)
/-- The contents after propagation step 7's block. -/
def val7 (V : Valuation τ sig (Elt F)) : Valuation τ sig (Elt F) := after blk7 (val6 V)
/-- The contents after propagation step 8's block. -/
def val8 (V : Valuation τ sig (Elt F)) : Valuation τ sig (Elt F) := after blk8 (val7 V)

theorem after_ops (V : Valuation τ sig (Elt F)) : after ops V = val8 V := by
  rw [ops_eq_blocks]
  simp only [after_append]
  rfl

/-! The arguments' buffers through the blocks: none writes them. -/
theorem val0_arg0 (V : Valuation τ sig (Elt F)) : val0 V (main_arg0 : DevRef τ sig) = V (main_arg0 : DevRef τ sig) := (blk0_keep V).1
theorem val0_arg1 (V : Valuation τ sig (Elt F)) : val0 V (main_arg1 : DevRef τ sig) = V (main_arg1 : DevRef τ sig) := (blk0_keep V).2.1
theorem val0_arg2 (V : Valuation τ sig (Elt F)) : val0 V (main_arg2 : DevRef τ sig) = V (main_arg2 : DevRef τ sig) := (blk0_keep V).2.2.1
theorem val0_arg3 (V : Valuation τ sig (Elt F)) : val0 V (main_arg3 : DevRef τ sig) = V (main_arg3 : DevRef τ sig) := (blk0_keep V).2.2.2.1
theorem val0_arg4 (V : Valuation τ sig (Elt F)) : val0 V (main_arg4 : DevRef τ sig) = V (main_arg4 : DevRef τ sig) := (blk0_keep V).2.2.2.2.1
theorem val0_arg5 (V : Valuation τ sig (Elt F)) : val0 V (main_arg5 : DevRef τ sig) = V (main_arg5 : DevRef τ sig) := (blk0_keep V).2.2.2.2.2.1
theorem val0_arg6 (V : Valuation τ sig (Elt F)) : val0 V (main_arg6 : DevRef τ sig) = V (main_arg6 : DevRef τ sig) := (blk0_keep V).2.2.2.2.2.2.1
theorem val0_arg7 (V : Valuation τ sig (Elt F)) : val0 V (main_arg7 : DevRef τ sig) = V (main_arg7 : DevRef τ sig) := (blk0_keep V).2.2.2.2.2.2.2.1
theorem val0_arg8 (V : Valuation τ sig (Elt F)) : val0 V (main_arg8 : DevRef τ sig) = V (main_arg8 : DevRef τ sig) := (blk0_keep V).2.2.2.2.2.2.2.2.1
theorem val0_arg9 (V : Valuation τ sig (Elt F)) : val0 V (main_arg9 : DevRef τ sig) = V (main_arg9 : DevRef τ sig) := (blk0_keep V).2.2.2.2.2.2.2.2.2.1
theorem val0_arg10 (V : Valuation τ sig (Elt F)) : val0 V (main_arg10 : DevRef τ sig) = V (main_arg10 : DevRef τ sig) := (blk0_keep V).2.2.2.2.2.2.2.2.2.2
theorem val1_arg0 (V : Valuation τ sig (Elt F)) : val1 V (main_arg0 : DevRef τ sig) = V (main_arg0 : DevRef τ sig) := ((blk1_keep (val0 V)).2.1).trans (val0_arg0 V)
theorem val1_arg1 (V : Valuation τ sig (Elt F)) : val1 V (main_arg1 : DevRef τ sig) = V (main_arg1 : DevRef τ sig) := ((blk1_keep (val0 V)).2.2.1).trans (val0_arg1 V)
theorem val1_arg2 (V : Valuation τ sig (Elt F)) : val1 V (main_arg2 : DevRef τ sig) = V (main_arg2 : DevRef τ sig) := ((blk1_keep (val0 V)).2.2.2.1).trans (val0_arg2 V)
theorem val1_arg3 (V : Valuation τ sig (Elt F)) : val1 V (main_arg3 : DevRef τ sig) = V (main_arg3 : DevRef τ sig) := ((blk1_keep (val0 V)).2.2.2.2.1).trans (val0_arg3 V)
theorem val1_arg4 (V : Valuation τ sig (Elt F)) : val1 V (main_arg4 : DevRef τ sig) = V (main_arg4 : DevRef τ sig) := ((blk1_keep (val0 V)).2.2.2.2.2.1).trans (val0_arg4 V)
theorem val1_arg5 (V : Valuation τ sig (Elt F)) : val1 V (main_arg5 : DevRef τ sig) = V (main_arg5 : DevRef τ sig) := ((blk1_keep (val0 V)).2.2.2.2.2.2.1).trans (val0_arg5 V)
theorem val1_arg6 (V : Valuation τ sig (Elt F)) : val1 V (main_arg6 : DevRef τ sig) = V (main_arg6 : DevRef τ sig) := ((blk1_keep (val0 V)).2.2.2.2.2.2.2.1).trans (val0_arg6 V)
theorem val1_arg7 (V : Valuation τ sig (Elt F)) : val1 V (main_arg7 : DevRef τ sig) = V (main_arg7 : DevRef τ sig) := ((blk1_keep (val0 V)).2.2.2.2.2.2.2.2.1).trans (val0_arg7 V)
theorem val1_arg8 (V : Valuation τ sig (Elt F)) : val1 V (main_arg8 : DevRef τ sig) = V (main_arg8 : DevRef τ sig) := ((blk1_keep (val0 V)).2.2.2.2.2.2.2.2.2.1).trans (val0_arg8 V)
theorem val1_arg9 (V : Valuation τ sig (Elt F)) : val1 V (main_arg9 : DevRef τ sig) = V (main_arg9 : DevRef τ sig) := ((blk1_keep (val0 V)).2.2.2.2.2.2.2.2.2.2.1).trans (val0_arg9 V)
theorem val1_arg10 (V : Valuation τ sig (Elt F)) : val1 V (main_arg10 : DevRef τ sig) = V (main_arg10 : DevRef τ sig) := ((blk1_keep (val0 V)).2.2.2.2.2.2.2.2.2.2.2).trans (val0_arg10 V)
theorem val2_arg0 (V : Valuation τ sig (Elt F)) : val2 V (main_arg0 : DevRef τ sig) = V (main_arg0 : DevRef τ sig) := ((blk2_keep (val1 V)).2.1).trans (val1_arg0 V)
theorem val2_arg1 (V : Valuation τ sig (Elt F)) : val2 V (main_arg1 : DevRef τ sig) = V (main_arg1 : DevRef τ sig) := ((blk2_keep (val1 V)).2.2.1).trans (val1_arg1 V)
theorem val2_arg2 (V : Valuation τ sig (Elt F)) : val2 V (main_arg2 : DevRef τ sig) = V (main_arg2 : DevRef τ sig) := ((blk2_keep (val1 V)).2.2.2.1).trans (val1_arg2 V)
theorem val2_arg3 (V : Valuation τ sig (Elt F)) : val2 V (main_arg3 : DevRef τ sig) = V (main_arg3 : DevRef τ sig) := ((blk2_keep (val1 V)).2.2.2.2.1).trans (val1_arg3 V)
theorem val2_arg4 (V : Valuation τ sig (Elt F)) : val2 V (main_arg4 : DevRef τ sig) = V (main_arg4 : DevRef τ sig) := ((blk2_keep (val1 V)).2.2.2.2.2.1).trans (val1_arg4 V)
theorem val2_arg5 (V : Valuation τ sig (Elt F)) : val2 V (main_arg5 : DevRef τ sig) = V (main_arg5 : DevRef τ sig) := ((blk2_keep (val1 V)).2.2.2.2.2.2.1).trans (val1_arg5 V)
theorem val2_arg6 (V : Valuation τ sig (Elt F)) : val2 V (main_arg6 : DevRef τ sig) = V (main_arg6 : DevRef τ sig) := ((blk2_keep (val1 V)).2.2.2.2.2.2.2.1).trans (val1_arg6 V)
theorem val2_arg7 (V : Valuation τ sig (Elt F)) : val2 V (main_arg7 : DevRef τ sig) = V (main_arg7 : DevRef τ sig) := ((blk2_keep (val1 V)).2.2.2.2.2.2.2.2.1).trans (val1_arg7 V)
theorem val2_arg8 (V : Valuation τ sig (Elt F)) : val2 V (main_arg8 : DevRef τ sig) = V (main_arg8 : DevRef τ sig) := ((blk2_keep (val1 V)).2.2.2.2.2.2.2.2.2.1).trans (val1_arg8 V)
theorem val2_arg9 (V : Valuation τ sig (Elt F)) : val2 V (main_arg9 : DevRef τ sig) = V (main_arg9 : DevRef τ sig) := ((blk2_keep (val1 V)).2.2.2.2.2.2.2.2.2.2.1).trans (val1_arg9 V)
theorem val2_arg10 (V : Valuation τ sig (Elt F)) : val2 V (main_arg10 : DevRef τ sig) = V (main_arg10 : DevRef τ sig) := ((blk2_keep (val1 V)).2.2.2.2.2.2.2.2.2.2.2).trans (val1_arg10 V)
theorem val3_arg0 (V : Valuation τ sig (Elt F)) : val3 V (main_arg0 : DevRef τ sig) = V (main_arg0 : DevRef τ sig) := ((blk3_keep (val2 V)).2.1).trans (val2_arg0 V)
theorem val3_arg1 (V : Valuation τ sig (Elt F)) : val3 V (main_arg1 : DevRef τ sig) = V (main_arg1 : DevRef τ sig) := ((blk3_keep (val2 V)).2.2.1).trans (val2_arg1 V)
theorem val3_arg2 (V : Valuation τ sig (Elt F)) : val3 V (main_arg2 : DevRef τ sig) = V (main_arg2 : DevRef τ sig) := ((blk3_keep (val2 V)).2.2.2.1).trans (val2_arg2 V)
theorem val3_arg3 (V : Valuation τ sig (Elt F)) : val3 V (main_arg3 : DevRef τ sig) = V (main_arg3 : DevRef τ sig) := ((blk3_keep (val2 V)).2.2.2.2.1).trans (val2_arg3 V)
theorem val3_arg4 (V : Valuation τ sig (Elt F)) : val3 V (main_arg4 : DevRef τ sig) = V (main_arg4 : DevRef τ sig) := ((blk3_keep (val2 V)).2.2.2.2.2.1).trans (val2_arg4 V)
theorem val3_arg5 (V : Valuation τ sig (Elt F)) : val3 V (main_arg5 : DevRef τ sig) = V (main_arg5 : DevRef τ sig) := ((blk3_keep (val2 V)).2.2.2.2.2.2.1).trans (val2_arg5 V)
theorem val3_arg6 (V : Valuation τ sig (Elt F)) : val3 V (main_arg6 : DevRef τ sig) = V (main_arg6 : DevRef τ sig) := ((blk3_keep (val2 V)).2.2.2.2.2.2.2.1).trans (val2_arg6 V)
theorem val3_arg7 (V : Valuation τ sig (Elt F)) : val3 V (main_arg7 : DevRef τ sig) = V (main_arg7 : DevRef τ sig) := ((blk3_keep (val2 V)).2.2.2.2.2.2.2.2.1).trans (val2_arg7 V)
theorem val3_arg8 (V : Valuation τ sig (Elt F)) : val3 V (main_arg8 : DevRef τ sig) = V (main_arg8 : DevRef τ sig) := ((blk3_keep (val2 V)).2.2.2.2.2.2.2.2.2.1).trans (val2_arg8 V)
theorem val3_arg9 (V : Valuation τ sig (Elt F)) : val3 V (main_arg9 : DevRef τ sig) = V (main_arg9 : DevRef τ sig) := ((blk3_keep (val2 V)).2.2.2.2.2.2.2.2.2.2.1).trans (val2_arg9 V)
theorem val3_arg10 (V : Valuation τ sig (Elt F)) : val3 V (main_arg10 : DevRef τ sig) = V (main_arg10 : DevRef τ sig) := ((blk3_keep (val2 V)).2.2.2.2.2.2.2.2.2.2.2).trans (val2_arg10 V)
theorem val4_arg0 (V : Valuation τ sig (Elt F)) : val4 V (main_arg0 : DevRef τ sig) = V (main_arg0 : DevRef τ sig) := ((blk4_keep (val3 V)).2.1).trans (val3_arg0 V)
theorem val4_arg1 (V : Valuation τ sig (Elt F)) : val4 V (main_arg1 : DevRef τ sig) = V (main_arg1 : DevRef τ sig) := ((blk4_keep (val3 V)).2.2.1).trans (val3_arg1 V)
theorem val4_arg2 (V : Valuation τ sig (Elt F)) : val4 V (main_arg2 : DevRef τ sig) = V (main_arg2 : DevRef τ sig) := ((blk4_keep (val3 V)).2.2.2.1).trans (val3_arg2 V)
theorem val4_arg3 (V : Valuation τ sig (Elt F)) : val4 V (main_arg3 : DevRef τ sig) = V (main_arg3 : DevRef τ sig) := ((blk4_keep (val3 V)).2.2.2.2.1).trans (val3_arg3 V)
theorem val4_arg4 (V : Valuation τ sig (Elt F)) : val4 V (main_arg4 : DevRef τ sig) = V (main_arg4 : DevRef τ sig) := ((blk4_keep (val3 V)).2.2.2.2.2.1).trans (val3_arg4 V)
theorem val4_arg5 (V : Valuation τ sig (Elt F)) : val4 V (main_arg5 : DevRef τ sig) = V (main_arg5 : DevRef τ sig) := ((blk4_keep (val3 V)).2.2.2.2.2.2.1).trans (val3_arg5 V)
theorem val4_arg6 (V : Valuation τ sig (Elt F)) : val4 V (main_arg6 : DevRef τ sig) = V (main_arg6 : DevRef τ sig) := ((blk4_keep (val3 V)).2.2.2.2.2.2.2.1).trans (val3_arg6 V)
theorem val4_arg7 (V : Valuation τ sig (Elt F)) : val4 V (main_arg7 : DevRef τ sig) = V (main_arg7 : DevRef τ sig) := ((blk4_keep (val3 V)).2.2.2.2.2.2.2.2.1).trans (val3_arg7 V)
theorem val4_arg8 (V : Valuation τ sig (Elt F)) : val4 V (main_arg8 : DevRef τ sig) = V (main_arg8 : DevRef τ sig) := ((blk4_keep (val3 V)).2.2.2.2.2.2.2.2.2.1).trans (val3_arg8 V)
theorem val4_arg9 (V : Valuation τ sig (Elt F)) : val4 V (main_arg9 : DevRef τ sig) = V (main_arg9 : DevRef τ sig) := ((blk4_keep (val3 V)).2.2.2.2.2.2.2.2.2.2.1).trans (val3_arg9 V)
theorem val4_arg10 (V : Valuation τ sig (Elt F)) : val4 V (main_arg10 : DevRef τ sig) = V (main_arg10 : DevRef τ sig) := ((blk4_keep (val3 V)).2.2.2.2.2.2.2.2.2.2.2).trans (val3_arg10 V)
theorem val5_arg0 (V : Valuation τ sig (Elt F)) : val5 V (main_arg0 : DevRef τ sig) = V (main_arg0 : DevRef τ sig) := ((blk5_keep (val4 V)).2.1).trans (val4_arg0 V)
theorem val5_arg1 (V : Valuation τ sig (Elt F)) : val5 V (main_arg1 : DevRef τ sig) = V (main_arg1 : DevRef τ sig) := ((blk5_keep (val4 V)).2.2.1).trans (val4_arg1 V)
theorem val5_arg2 (V : Valuation τ sig (Elt F)) : val5 V (main_arg2 : DevRef τ sig) = V (main_arg2 : DevRef τ sig) := ((blk5_keep (val4 V)).2.2.2.1).trans (val4_arg2 V)
theorem val5_arg3 (V : Valuation τ sig (Elt F)) : val5 V (main_arg3 : DevRef τ sig) = V (main_arg3 : DevRef τ sig) := ((blk5_keep (val4 V)).2.2.2.2.1).trans (val4_arg3 V)
theorem val5_arg4 (V : Valuation τ sig (Elt F)) : val5 V (main_arg4 : DevRef τ sig) = V (main_arg4 : DevRef τ sig) := ((blk5_keep (val4 V)).2.2.2.2.2.1).trans (val4_arg4 V)
theorem val5_arg5 (V : Valuation τ sig (Elt F)) : val5 V (main_arg5 : DevRef τ sig) = V (main_arg5 : DevRef τ sig) := ((blk5_keep (val4 V)).2.2.2.2.2.2.1).trans (val4_arg5 V)
theorem val5_arg6 (V : Valuation τ sig (Elt F)) : val5 V (main_arg6 : DevRef τ sig) = V (main_arg6 : DevRef τ sig) := ((blk5_keep (val4 V)).2.2.2.2.2.2.2.1).trans (val4_arg6 V)
theorem val5_arg7 (V : Valuation τ sig (Elt F)) : val5 V (main_arg7 : DevRef τ sig) = V (main_arg7 : DevRef τ sig) := ((blk5_keep (val4 V)).2.2.2.2.2.2.2.2.1).trans (val4_arg7 V)
theorem val5_arg8 (V : Valuation τ sig (Elt F)) : val5 V (main_arg8 : DevRef τ sig) = V (main_arg8 : DevRef τ sig) := ((blk5_keep (val4 V)).2.2.2.2.2.2.2.2.2.1).trans (val4_arg8 V)
theorem val5_arg9 (V : Valuation τ sig (Elt F)) : val5 V (main_arg9 : DevRef τ sig) = V (main_arg9 : DevRef τ sig) := ((blk5_keep (val4 V)).2.2.2.2.2.2.2.2.2.2.1).trans (val4_arg9 V)
theorem val5_arg10 (V : Valuation τ sig (Elt F)) : val5 V (main_arg10 : DevRef τ sig) = V (main_arg10 : DevRef τ sig) := ((blk5_keep (val4 V)).2.2.2.2.2.2.2.2.2.2.2).trans (val4_arg10 V)
theorem val6_arg0 (V : Valuation τ sig (Elt F)) : val6 V (main_arg0 : DevRef τ sig) = V (main_arg0 : DevRef τ sig) := ((blk6_keep (val5 V)).2.1).trans (val5_arg0 V)
theorem val6_arg1 (V : Valuation τ sig (Elt F)) : val6 V (main_arg1 : DevRef τ sig) = V (main_arg1 : DevRef τ sig) := ((blk6_keep (val5 V)).2.2.1).trans (val5_arg1 V)
theorem val6_arg2 (V : Valuation τ sig (Elt F)) : val6 V (main_arg2 : DevRef τ sig) = V (main_arg2 : DevRef τ sig) := ((blk6_keep (val5 V)).2.2.2.1).trans (val5_arg2 V)
theorem val6_arg3 (V : Valuation τ sig (Elt F)) : val6 V (main_arg3 : DevRef τ sig) = V (main_arg3 : DevRef τ sig) := ((blk6_keep (val5 V)).2.2.2.2.1).trans (val5_arg3 V)
theorem val6_arg4 (V : Valuation τ sig (Elt F)) : val6 V (main_arg4 : DevRef τ sig) = V (main_arg4 : DevRef τ sig) := ((blk6_keep (val5 V)).2.2.2.2.2.1).trans (val5_arg4 V)
theorem val6_arg5 (V : Valuation τ sig (Elt F)) : val6 V (main_arg5 : DevRef τ sig) = V (main_arg5 : DevRef τ sig) := ((blk6_keep (val5 V)).2.2.2.2.2.2.1).trans (val5_arg5 V)
theorem val6_arg6 (V : Valuation τ sig (Elt F)) : val6 V (main_arg6 : DevRef τ sig) = V (main_arg6 : DevRef τ sig) := ((blk6_keep (val5 V)).2.2.2.2.2.2.2.1).trans (val5_arg6 V)
theorem val6_arg7 (V : Valuation τ sig (Elt F)) : val6 V (main_arg7 : DevRef τ sig) = V (main_arg7 : DevRef τ sig) := ((blk6_keep (val5 V)).2.2.2.2.2.2.2.2.1).trans (val5_arg7 V)
theorem val6_arg8 (V : Valuation τ sig (Elt F)) : val6 V (main_arg8 : DevRef τ sig) = V (main_arg8 : DevRef τ sig) := ((blk6_keep (val5 V)).2.2.2.2.2.2.2.2.2.1).trans (val5_arg8 V)
theorem val6_arg9 (V : Valuation τ sig (Elt F)) : val6 V (main_arg9 : DevRef τ sig) = V (main_arg9 : DevRef τ sig) := ((blk6_keep (val5 V)).2.2.2.2.2.2.2.2.2.2.1).trans (val5_arg9 V)
theorem val6_arg10 (V : Valuation τ sig (Elt F)) : val6 V (main_arg10 : DevRef τ sig) = V (main_arg10 : DevRef τ sig) := ((blk6_keep (val5 V)).2.2.2.2.2.2.2.2.2.2.2).trans (val5_arg10 V)
theorem val7_arg0 (V : Valuation τ sig (Elt F)) : val7 V (main_arg0 : DevRef τ sig) = V (main_arg0 : DevRef τ sig) := ((blk7_keep (val6 V)).2.1).trans (val6_arg0 V)
theorem val7_arg1 (V : Valuation τ sig (Elt F)) : val7 V (main_arg1 : DevRef τ sig) = V (main_arg1 : DevRef τ sig) := ((blk7_keep (val6 V)).2.2.1).trans (val6_arg1 V)
theorem val7_arg2 (V : Valuation τ sig (Elt F)) : val7 V (main_arg2 : DevRef τ sig) = V (main_arg2 : DevRef τ sig) := ((blk7_keep (val6 V)).2.2.2.1).trans (val6_arg2 V)
theorem val7_arg3 (V : Valuation τ sig (Elt F)) : val7 V (main_arg3 : DevRef τ sig) = V (main_arg3 : DevRef τ sig) := ((blk7_keep (val6 V)).2.2.2.2.1).trans (val6_arg3 V)
theorem val7_arg4 (V : Valuation τ sig (Elt F)) : val7 V (main_arg4 : DevRef τ sig) = V (main_arg4 : DevRef τ sig) := ((blk7_keep (val6 V)).2.2.2.2.2.1).trans (val6_arg4 V)
theorem val7_arg5 (V : Valuation τ sig (Elt F)) : val7 V (main_arg5 : DevRef τ sig) = V (main_arg5 : DevRef τ sig) := ((blk7_keep (val6 V)).2.2.2.2.2.2.1).trans (val6_arg5 V)
theorem val7_arg6 (V : Valuation τ sig (Elt F)) : val7 V (main_arg6 : DevRef τ sig) = V (main_arg6 : DevRef τ sig) := ((blk7_keep (val6 V)).2.2.2.2.2.2.2.1).trans (val6_arg6 V)
theorem val7_arg7 (V : Valuation τ sig (Elt F)) : val7 V (main_arg7 : DevRef τ sig) = V (main_arg7 : DevRef τ sig) := ((blk7_keep (val6 V)).2.2.2.2.2.2.2.2.1).trans (val6_arg7 V)
theorem val7_arg8 (V : Valuation τ sig (Elt F)) : val7 V (main_arg8 : DevRef τ sig) = V (main_arg8 : DevRef τ sig) := ((blk7_keep (val6 V)).2.2.2.2.2.2.2.2.2.1).trans (val6_arg8 V)
theorem val7_arg9 (V : Valuation τ sig (Elt F)) : val7 V (main_arg9 : DevRef τ sig) = V (main_arg9 : DevRef τ sig) := ((blk7_keep (val6 V)).2.2.2.2.2.2.2.2.2.2.1).trans (val6_arg9 V)
theorem val7_arg10 (V : Valuation τ sig (Elt F)) : val7 V (main_arg10 : DevRef τ sig) = V (main_arg10 : DevRef τ sig) := ((blk7_keep (val6 V)).2.2.2.2.2.2.2.2.2.2.2).trans (val6_arg10 V)
theorem val8_arg0 (V : Valuation τ sig (Elt F)) : val8 V (main_arg0 : DevRef τ sig) = V (main_arg0 : DevRef τ sig) := ((blk8_keep (val7 V)).2.1).trans (val7_arg0 V)
theorem val8_arg1 (V : Valuation τ sig (Elt F)) : val8 V (main_arg1 : DevRef τ sig) = V (main_arg1 : DevRef τ sig) := ((blk8_keep (val7 V)).2.2.1).trans (val7_arg1 V)
theorem val8_arg2 (V : Valuation τ sig (Elt F)) : val8 V (main_arg2 : DevRef τ sig) = V (main_arg2 : DevRef τ sig) := ((blk8_keep (val7 V)).2.2.2.1).trans (val7_arg2 V)
theorem val8_arg3 (V : Valuation τ sig (Elt F)) : val8 V (main_arg3 : DevRef τ sig) = V (main_arg3 : DevRef τ sig) := ((blk8_keep (val7 V)).2.2.2.2.1).trans (val7_arg3 V)
theorem val8_arg4 (V : Valuation τ sig (Elt F)) : val8 V (main_arg4 : DevRef τ sig) = V (main_arg4 : DevRef τ sig) := ((blk8_keep (val7 V)).2.2.2.2.2.1).trans (val7_arg4 V)
theorem val8_arg5 (V : Valuation τ sig (Elt F)) : val8 V (main_arg5 : DevRef τ sig) = V (main_arg5 : DevRef τ sig) := ((blk8_keep (val7 V)).2.2.2.2.2.2.1).trans (val7_arg5 V)
theorem val8_arg6 (V : Valuation τ sig (Elt F)) : val8 V (main_arg6 : DevRef τ sig) = V (main_arg6 : DevRef τ sig) := ((blk8_keep (val7 V)).2.2.2.2.2.2.2.1).trans (val7_arg6 V)
theorem val8_arg7 (V : Valuation τ sig (Elt F)) : val8 V (main_arg7 : DevRef τ sig) = V (main_arg7 : DevRef τ sig) := ((blk8_keep (val7 V)).2.2.2.2.2.2.2.2.1).trans (val7_arg7 V)
theorem val8_arg8 (V : Valuation τ sig (Elt F)) : val8 V (main_arg8 : DevRef τ sig) = V (main_arg8 : DevRef τ sig) := ((blk8_keep (val7 V)).2.2.2.2.2.2.2.2.2.1).trans (val7_arg8 V)
theorem val8_arg9 (V : Valuation τ sig (Elt F)) : val8 V (main_arg9 : DevRef τ sig) = V (main_arg9 : DevRef τ sig) := ((blk8_keep (val7 V)).2.2.2.2.2.2.2.2.2.2.1).trans (val7_arg9 V)
theorem val8_arg10 (V : Valuation τ sig (Elt F)) : val8 V (main_arg10 : DevRef τ sig) = V (main_arg10 : DevRef τ sig) := ((blk8_keep (val7 V)).2.2.2.2.2.2.2.2.2.2.2).trans (val7_arg10 V)

/-! The residual's buffer: written by the perceptron's block, kept by every step's. -/
theorem val0_v27 (V : Valuation τ sig (Elt F)) : val0 V (main_v27 : DevRef τ sig) = oriOf V := blk0_out V
theorem val1_v27 (V : Valuation τ sig (Elt F)) : val1 V (main_v27 : DevRef τ sig) = oriOf V := ((blk1_keep (val0 V)).1).trans (val0_v27 V)
theorem val2_v27 (V : Valuation τ sig (Elt F)) : val2 V (main_v27 : DevRef τ sig) = oriOf V := ((blk2_keep (val1 V)).1).trans (val1_v27 V)
theorem val3_v27 (V : Valuation τ sig (Elt F)) : val3 V (main_v27 : DevRef τ sig) = oriOf V := ((blk3_keep (val2 V)).1).trans (val2_v27 V)
theorem val4_v27 (V : Valuation τ sig (Elt F)) : val4 V (main_v27 : DevRef τ sig) = oriOf V := ((blk4_keep (val3 V)).1).trans (val3_v27 V)
theorem val5_v27 (V : Valuation τ sig (Elt F)) : val5 V (main_v27 : DevRef τ sig) = oriOf V := ((blk5_keep (val4 V)).1).trans (val4_v27 V)
theorem val6_v27 (V : Valuation τ sig (Elt F)) : val6 V (main_v27 : DevRef τ sig) = oriOf V := ((blk6_keep (val5 V)).1).trans (val5_v27 V)
theorem val7_v27 (V : Valuation τ sig (Elt F)) : val7 V (main_v27 : DevRef τ sig) = oriOf V := ((blk7_keep (val6 V)).1).trans (val6_v27 V)
theorem val8_v27 (V : Valuation τ sig (Elt F)) : val8 V (main_v27 : DevRef τ sig) = oriOf V := ((blk8_keep (val7 V)).1).trans (val7_v27 V)

/-! The state's buffer after each step: one more step of the specification. -/
theorem val1_h (V : Valuation τ sig (Elt F)) : val1 V (main_v83 : DevRef τ sig) = stepOf V (oriOf V) := by
  unfold val1
  rw [blk1_out, val0_v27, val0_arg7, val0_arg8, val0_arg9, val0_arg10]
  rfl
theorem val2_h (V : Valuation τ sig (Elt F)) : val2 V (main_v139 : DevRef τ sig) = stepOf V (stepOf V (oriOf V)) := by
  unfold val2
  rw [blk2_out, val1_v27, val1_arg7, val1_arg8, val1_arg9, val1_arg10, val1_h]
  rfl
theorem val3_h (V : Valuation τ sig (Elt F)) : val3 V (main_v195 : DevRef τ sig) = stepOf V (stepOf V (stepOf V (oriOf V))) := by
  unfold val3
  rw [blk3_out, val2_v27, val2_arg7, val2_arg8, val2_arg9, val2_arg10, val2_h]
  rfl
theorem val4_h (V : Valuation τ sig (Elt F)) : val4 V (main_v251 : DevRef τ sig) = stepOf V (stepOf V (stepOf V (stepOf V (oriOf V)))) := by
  unfold val4
  rw [blk4_out, val3_v27, val3_arg7, val3_arg8, val3_arg9, val3_arg10, val3_h]
  rfl
theorem val5_h (V : Valuation τ sig (Elt F)) : val5 V (main_v307 : DevRef τ sig) = stepOf V (stepOf V (stepOf V (stepOf V (stepOf V (oriOf V))))) := by
  unfold val5
  rw [blk5_out, val4_v27, val4_arg7, val4_arg8, val4_arg9, val4_arg10, val4_h]
  rfl
theorem val6_h (V : Valuation τ sig (Elt F)) : val6 V (main_v363 : DevRef τ sig) = stepOf V (stepOf V (stepOf V (stepOf V (stepOf V (stepOf V (oriOf V)))))) := by
  unfold val6
  rw [blk6_out, val5_v27, val5_arg7, val5_arg8, val5_arg9, val5_arg10, val5_h]
  rfl
theorem val7_h (V : Valuation τ sig (Elt F)) : val7 V (main_v419 : DevRef τ sig) = stepOf V (stepOf V (stepOf V (stepOf V (stepOf V (stepOf V (stepOf V (oriOf V))))))) := by
  unfold val7
  rw [blk7_out, val6_v27, val6_arg7, val6_arg8, val6_arg9, val6_arg10, val6_h]
  rfl
theorem val8_h (V : Valuation τ sig (Elt F)) : val8 V (main_v475 : DevRef τ sig) = stepOf V (stepOf V (stepOf V (stepOf V (stepOf V (stepOf V (stepOf V (stepOf V (oriOf V)))))))) := by
  unfold val8
  rw [blk8_out, val7_v27, val7_arg7, val7_arg8, val7_arg9, val7_arg10, val7_h]
  rfl

/-- The fold of @main's operations at the result's buffer is the specification of the arguments' contents. -/
theorem out_eq (V : Valuation τ sig (Elt F)) :
    after ops V (main_v475 : DevRef τ sig) = Cert.Spec.ref (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops, val8_h]
  rfl

/-- The fold leaves argument 0's buffer as it was. -/
theorem arg0_eq (V : Valuation τ sig (Elt F)) : after ops V (main_arg0 : DevRef τ sig) = V (main_arg0 : DevRef τ sig) := by
  rw [after_ops]; exact val8_arg0 V
/-- The fold leaves argument 1's buffer as it was. -/
theorem arg1_eq (V : Valuation τ sig (Elt F)) : after ops V (main_arg1 : DevRef τ sig) = V (main_arg1 : DevRef τ sig) := by
  rw [after_ops]; exact val8_arg1 V
/-- The fold leaves argument 2's buffer as it was. -/
theorem arg2_eq (V : Valuation τ sig (Elt F)) : after ops V (main_arg2 : DevRef τ sig) = V (main_arg2 : DevRef τ sig) := by
  rw [after_ops]; exact val8_arg2 V
/-- The fold leaves argument 3's buffer as it was. -/
theorem arg3_eq (V : Valuation τ sig (Elt F)) : after ops V (main_arg3 : DevRef τ sig) = V (main_arg3 : DevRef τ sig) := by
  rw [after_ops]; exact val8_arg3 V
/-- The fold leaves argument 4's buffer as it was. -/
theorem arg4_eq (V : Valuation τ sig (Elt F)) : after ops V (main_arg4 : DevRef τ sig) = V (main_arg4 : DevRef τ sig) := by
  rw [after_ops]; exact val8_arg4 V
/-- The fold leaves argument 5's buffer as it was. -/
theorem arg5_eq (V : Valuation τ sig (Elt F)) : after ops V (main_arg5 : DevRef τ sig) = V (main_arg5 : DevRef τ sig) := by
  rw [after_ops]; exact val8_arg5 V
/-- The fold leaves argument 6's buffer as it was. -/
theorem arg6_eq (V : Valuation τ sig (Elt F)) : after ops V (main_arg6 : DevRef τ sig) = V (main_arg6 : DevRef τ sig) := by
  rw [after_ops]; exact val8_arg6 V
/-- The fold leaves argument 7's buffer as it was. -/
theorem arg7_eq (V : Valuation τ sig (Elt F)) : after ops V (main_arg7 : DevRef τ sig) = V (main_arg7 : DevRef τ sig) := by
  rw [after_ops]; exact val8_arg7 V
/-- The fold leaves argument 8's buffer as it was. -/
theorem arg8_eq (V : Valuation τ sig (Elt F)) : after ops V (main_arg8 : DevRef τ sig) = V (main_arg8 : DevRef τ sig) := by
  rw [after_ops]; exact val8_arg8 V
/-- The fold leaves argument 9's buffer as it was. -/
theorem arg9_eq (V : Valuation τ sig (Elt F)) : after ops V (main_arg9 : DevRef τ sig) = V (main_arg9 : DevRef τ sig) := by
  rw [after_ops]; exact val8_arg9 V
/-- The fold leaves argument 10's buffer as it was. -/
theorem arg10_eq (V : Valuation τ sig (Elt F)) : after ops V (main_arg10 : DevRef τ sig) = V (main_arg10 : DevRef τ sig) := by
  rw [after_ops]; exact val8_arg10 V

/-- From any memory with zero counters, every weakly fair execution of @main terminates with the result's buffer at
    the specification of the arguments' launch contents and every argument's buffer unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v475) = Cert.Spec.ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v475).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c))⟩)
    (run_main m ρ)

/-- The arguments end unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run_value m ρ)

end Cert.ReferenceIdeal.RefRun

end
-- ==== Proof.lean ====
/-
  Both programs compute, from the same argument arrays, the same array over the extended reals.

  The computation (Proof/Spec.lean): a two-layer perceptron with batch normalisation over the 100000 nodes, whose
  output `ori` is then taken through eight propagation steps `h ← gconv h src dst − gconv h nsrc ndst + ori`, a graph
  convolution scaling the rows by `rsqrt (max 1 outdeg)`, gathering them at the edges' sources, adding them up at the
  destinations and scaling by `rsqrt (max 1 indeg)`.

  The reference applies these operations to whole arrays, one after the other; its run is read back operation by
  operation (Proof/RefRun.lean, Proof/RefValue.lean). The kernel's program does the two dense layers and, in every
  step, the row scaling and the final combination in eighteen regions, each walking the nodes in fifty blocks of 2000
  rows; what a region leaves in its output array is one whole-array function of its input arrays, because block `t` of
  that function is what point `t` writes and the blocks cover the array (Proof/Lin1.lean, Layer2.lean, Scale*.lean,
  Combine*.lean). Between the regions its host operations are the reference's own (the mean and variance, the degree
  counts, the gather and the scatter-add). At the ideal values a change of float format is the identity and the matrix
  unit's product into a zero accumulator is the host's product, both the plain sum `∑ c, a (r, c) · b (c, q)`; the only
  law between the two sides is that a maximum does not depend on the order of its arguments (`max deg 1` against
  `max 1 deg`). No step divides, cancels or distributes, so the inputs' finiteness is never used.

  The three frame claims are the generated frames (the reference's is its run with the result dropped); the ideal pass
  rewrote nothing, so `preserves` is `True`.
-/
import proofs.«143456_j27066883899969_1_alg».proof.Defs
import proofs.«143456_j27066883899969_1_alg».proof.Proof.Gen.Kernel
import proofs.«143456_j27066883899969_1_alg».proof.Proof.Gen.Kernel.Frame
import proofs.«143456_j27066883899969_1_alg».proof.Proof.Gen.KernelIdeal
import proofs.«143456_j27066883899969_1_alg».proof.Proof.Gen.KernelIdeal.Frame
import proofs.«143456_j27066883899969_1_alg».proof.Proof.Gen.ReferenceIdeal
import proofs.«143456_j27066883899969_1_alg».proof.Proof.Gen.Pre_finite_inputs
import proofs.«143456_j27066883899969_1_alg».proof.Proof.KernelRun
import proofs.«143456_j27066883899969_1_alg».proof.Proof.Chain
import proofs.«143456_j27066883899969_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's arguments end unchanged: its run with the result dropped. -/
theorem frame_ri : Cert.frame_ReferenceIdeal := fun m ρ _ =>
  (θ_run Cert.ReferenceIdeal.defs _ _).mono (fun _ h c => (h c).2) (Cert.ReferenceIdeal.RefRun.run_value (F := Ideal) m ρ)

theorem preserves : Cert.preserves_Kernel_KernelIdeal := trivial

/-- Both runs end with the result at the specification's function of the arguments, which agree. -/
theorem algebraic : Cert.algebraic_KernelIdeal_ReferenceIdeal := by
  intro m ρ m' ρ' _ hagree
  refine ⟨fun c => Cert.Spec.ref (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Chain.result m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefRun.run_value (F := Ideal) m' ρ')
    obtain ⟨e0, e1, e2, e3, e4, e5, e6, e7, e8, e9, e10⟩ := hagree c
    rw [e0, e1, e2, e3, e4, e5, e6, e7, e8, e9, e10]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
